-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x32x32x64 : Shape := ⟨5, ![1, 32, 32, 32, 64]⟩
abbrev S1x32x32x32 : Shape := ⟨4, ![1, 32, 32, 32]⟩
abbrev S1728x64 : Shape := ⟨2, ![1728, 64]⟩
abbrev S64 : Shape := ⟨1, ![64]⟩
abbrev S_ : Shape := ⟨0, ![]⟩

class Facts : Prop where
  bcast_S_S1x32x32x32x64 : S_.BroadcastsInDim S1x32x32x32x64 (![] : Fin 0 → Fin S1x32x32x32x64.rank)
  reducesTo_S1x32x32x32x64_S_d0_1_2_3_4 : S1x32x32x32x64.ReducesTo [0, 1, 2, 3, 4] S_
  h_S_ : 0 < S_.numel
  bcast_S_S1728x64 : S_.BroadcastsInDim S1728x64 (![] : Fin 0 → Fin S1728x64.rank)
  reducesTo_S1728x64_S_d0_1 : S1728x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1x32x32x32x64 .f32) (main_arg1 : IVec S1x32x32x32 32) (main_arg2 : FVec F S1728x64 .f32) (main_arg3 : FVec F S64 .f32) : IVec S_ 1 :=
  let main_v0 : FVec F S1x32x32x32x64 .f32 := Host.absf main_arg0
  let main_cst : FVec F S_ .f32 := constant S_ .f32 0x7F800000#32
  let main_v1 : FVec F S1x32x32x32x64 .f32 := broadcastInDim S1x32x32x32x64 ![] bcast_S_S1x32x32x32x64 main_cst
  let main_v2 : IVec S1x32x32x32x64 1 := cmpf .olt main_v0 main_v1
  let main_c : IVec S_ 1 := constantI S_ 1 1#1
  let main_v3 : IVec S_ 1 := (fun x v => Host.reduce IntOp.andi x v reducesTo_S1x32x32x32x64_S_d0_1_2_3_4 h_S_) main_v2 main_c
  let main_v4 : FVec F S1728x64 .f32 := Host.absf main_arg2
  let main_cst_0 : FVec F S_ .f32 := constant S_ .f32 0x7F800000#32
  let main_v5 : FVec F S1728x64 .f32 := broadcastInDim S1728x64 ![] bcast_S_S1728x64 main_cst_0
  let main_v6 : IVec S1728x64 1 := cmpf .olt main_v4 main_v5
  let main_c_1 : IVec S_ 1 := constantI S_ 1 1#1
  let main_v7 : IVec S_ 1 := (fun x v => Host.reduce IntOp.andi x v reducesTo_S1728x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1x32x32x32x64 : Shape := ⟨5, ![1, 32, 32, 32, 64]⟩
abbrev S1x32x32x32 : Shape := ⟨4, ![1, 32, 32, 32]⟩
abbrev S1728x64 : Shape := ⟨2, ![1728, 64]⟩
abbrev S64 : Shape := ⟨1, ![64]⟩
abbrev S32x32x32x64 : Shape := ⟨4, ![32, 32, 32, 64]⟩
abbrev S_ : Shape := ⟨0, ![]⟩
abbrev S36x34x34x64 : Shape := ⟨4, ![36, 34, 34, 64]⟩
abbrev S41616x64 : Shape := ⟨2, ![41616, 64]⟩
abbrev S42240x64 : Shape := ⟨2, ![42240, 64]⟩
abbrev S32x32x32 : Shape := ⟨3, ![32, 32, 32]⟩
abbrev S36x34x34 : Shape := ⟨3, ![36, 34, 34]⟩
abbrev S41616 : Shape := ⟨1, ![41616]⟩
abbrev S38912 : Shape := ⟨1, ![38912]⟩
abbrev S38912x1 : Shape := ⟨2, ![38912, 1]⟩
abbrev S38912x64 : Shape := ⟨2, ![38912, 64]⟩
abbrev S27x64x64 : Shape := ⟨3, ![27, 64, 64]⟩
abbrev S1x64 : Shape := ⟨2, ![1, 64]⟩
abbrev S2048x64 : Shape := ⟨2, ![2048, 64]⟩
abbrev S1x64x64 : Shape := ⟨3, ![1, 64, 64]⟩
abbrev S64x64 : Shape := ⟨2, ![64, 64]⟩

abbrev nBuf : Space → Nat
  | .hbm => 33
  | .vmem => 7
  | .smem => 0
  | _ => 0

abbrev bufTy : (tb : Table) → Fin (tcTables nBuf tb) → BufTy
  | .hbm, ⟨0, _⟩ => ⟨S1x32x32x32x64, .f32⟩
  | .hbm, ⟨1, _⟩ => ⟨S1x32x32x32, .i32⟩
  | .hbm, ⟨2, _⟩ => ⟨S1728x64, .f32⟩
  | .hbm, ⟨3, _⟩ => ⟨S64, .f32⟩
  | .hbm, ⟨4, _⟩ => ⟨S32x32x32x64, .f32⟩
  | .hbm, ⟨5, _⟩ => ⟨S_, .i32⟩
  | .hbm, ⟨6, _⟩ => ⟨S_, .f32⟩
  | .hbm, ⟨7, _⟩ => ⟨S36x34x34x64, .f32⟩
  | .hbm, ⟨8, _⟩ => ⟨S41616x64, .f32⟩
  | .hbm, ⟨9, _⟩ => ⟨S_, .i32⟩
  | .hbm, ⟨10, _⟩ => ⟨S_, .f32⟩
  | .hbm, ⟨11, _⟩ => ⟨S42240x64, .f32⟩
  | .hbm, ⟨12, _⟩ => ⟨S32x32x32, .i32⟩
  | .hbm, ⟨13, _⟩ => ⟨S_, .i32⟩
  | .hbm, ⟨14, _⟩ => ⟨S32x32x32, .i32⟩
  | .hbm, ⟨15, _⟩ => ⟨S32x32x32, .i1⟩
  | .hbm, ⟨16, _⟩ => ⟨S32x32x32, .f32⟩
  | .hbm, ⟨17, _⟩ => ⟨S_, .i32⟩
  | .hbm, ⟨18, _⟩ => ⟨S_, .f32⟩
  | .hbm, ⟨19, _⟩ => ⟨S36x34x34, .f32⟩
  | .hbm, ⟨20, _⟩ => ⟨S41616, .f32⟩
  | .hbm, ⟨21, _⟩ => ⟨S38912, .f32⟩
  | .hbm, ⟨22, _⟩ => ⟨S38912x1, .f32⟩
  | .hbm, ⟨23, _⟩ => ⟨S38912x64, .f32⟩
  | .hbm, ⟨24, _⟩ => ⟨S27x64x64, .f32⟩
  | .hbm, ⟨25, _⟩ => ⟨S1x64, .f32⟩
  | .hbm, ⟨26, _⟩ => ⟨S38912x64, .f32⟩
  | .hbm, ⟨27, _⟩ => ⟨S_, .i32⟩
  | .hbm, ⟨28, _⟩ => ⟨S_, .f32⟩
  | .hbm, ⟨29, _⟩ => ⟨S41616x64, .f32⟩
  | .hbm, ⟨30, _⟩ => ⟨S36x34x34x64, .f32⟩
  | .hbm, ⟨31, _⟩ => ⟨S32x32x32x64, .f32⟩
  | .hbm, ⟨32, _⟩ => ⟨S1x32x32x32x64, .f32⟩
  | .local _ .vmem, ⟨0, _⟩ => ⟨S42240x64, .f32⟩
  | .local _ .vmem, ⟨1, _⟩ => ⟨S27x64x64, .f32⟩
  | .local _ .vmem, ⟨2, _⟩ => ⟨S1x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S1x32x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![19], ![false]⟩

def k0_off1 (i : grid0.Coords) (c_m1191_i32 : BitVec 32) : Fin 2 → Nat :=
  let c2048_i32_0 : BitVec 32 := 2048#32
  let arg0 : BitVec 32 := BitVec.ofNat 32 (i 0).val
  let c2048_i32 : BitVec 32 := 2048#32
  let v0 : BitVec 32 := Scalar.muli arg0 c2048_i32
  let v1 : BitVec 32 := Scalar.addi c2048_i32_0 v0
  let v2 : BitVec 32 := Scalar.addi v1 c_m1191_i32
  let v3 : Index := Scalar.indexCast v2
  let c0 : Index := 0#32
  ![v3.toNat, 0]
def k0_off1_at (r : Fin 27) : BitVec 32 :=
  if r.val < 13 then
    if r.val < 6 then
      if r.val < 3 then
        if r.val < 1 then
          4294966105#32
        else
          if r.val < 2 then
            4294966106#32
          else
            4294966107#32
      else
        if r.val < 4 then
          4294966139#32
        else
          if r.val < 5 then
            4294966140#32
          else
            4294966141#32
    else
      if r.val < 9 then
        if r.val < 7 then
          4294966173#32
        else
          if r.val < 8 then
            4294966174#32
          else
            4294966175#32
      else
        if r.val < 11 then
          if r.val < 10 then
            4294967261#32
          else
            4294967262#32
        else
          if r.val < 12 then
            4294967263#32
          else
            4294967295#32
  else
    if r.val < 20 then
      if r.val < 16 then
        if r.val < 14 then
          0#32
        else
          if r.val < 15 then
            1#32
          else
            33#32
      else
        if r.val < 18 then
          if r.val < 17 then
            34#32
          else
            35#32
        else
          if r.val < 19 then
            1121#32
          else
            1122#32
    else
      if r.val < 23 then
        if r.val < 21 then
          1123#32
        else
          if r.val < 22 then
            1155#32
          else
            1156#32
      else
        if r.val < 25 then
          if r.val < 24 then
            1157#32
          else
            1189#32
        else
          if r.val < 26 then
            1190#32
          else
            1191#32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S42240x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S27x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x32x32x32x64_S32x32x32x64 : S1x32x32x32x64.ShapeCasts S32x32x32x64
  pads_S32x32x32x64_S36x34x34x64_220_110_110_000 : S32x32x32x64.Pads (![2, 1, 1, 0] : Fin 4 → Nat) ![2, 1, 1, 0] ![0, 0, 0, 0] S36x34x34x64
  h_S_ : 0 < S_.numel
  shapeCasts_S36x34x34x64_S41616x64 : S36x34x34x64.ShapeCasts S41616x64
  pads_S41616x64_S42240x64_06240_000 : S41616x64.Pads (![0, 0] : Fin 2 → Nat) ![624, 0] ![0, 0] S42240x64
  shapeCasts_S1x32x32x32_S32x32x32 : S1x32x32x32.ShapeCasts S32x32x32
  bcast_S_S32x32x32 : S_.BroadcastsInDim S32x32x32 (![] : Fin 0 → Fin S32x32x32.rank)
  pads_S32x32x32_S36x34x34_220_110_110 : S32x32x32.Pads (![2, 1, 1] : Fin 3 → Nat) ![2, 1, 1] ![0, 0, 0] S36x34x34
  shapeCasts_S36x34x34_S41616 : S36x34x34.ShapeCasts S41616
  slices_S41616_S38912_2048 : S41616.Slices ![2048] S38912
  bcast_S38912_S38912x1_0 : S38912.BroadcastsInDim S38912x1 (![0] : Fin 1 → Fin S38912x1.rank)
  bcast_S38912x1_S38912x64_0_1 : S38912x1.BroadcastsInDim S38912x64 (![0, 1] : Fin 2 → Fin S38912x64.rank)
  shapeCasts_S1728x64_S27x64x64 : S1728x64.ShapeCasts S27x64x64
  shapeCasts_S64_S1x64 : S64.ShapeCasts S1x64
  h_S2048x64 : 0 < S2048x64.numel
  shapeCasts_S2048x64_S2048x64 : S2048x64.ShapeCasts S2048x64
  inb_S27x64x64_S1x64x64_0_0_0 : ∀ a, (![0, 0, 0] : Fin 3 → Nat) a + S1x64x64.size a ≤ S27x64x64.size a
  h_S1x64x64 : 0 < S1x64x64.numel
  shapeCasts_S1x64x64_S64x64 : S1x64x64.ShapeCasts S64x64
  inb_S27x64x64_S1x64x64_1_0_0 : ∀ a, (![1, 0, 0] : Fin 3 → Nat) a + S1x64x64.size a ≤ S27x64x64.size a
  inb_S27x64x64_S1x64x64_2_0_0 : ∀ a, (![2, 0, 0] : Fin 3 → Nat) a + S1x64x64.size a ≤ S27x64x64.size a
  inb_S27x64x64_S1x64x64_3_0_0 : ∀ a, (![3, 0, 0] : Fin 3 → Nat) a + S1x64x64.size a ≤ S27x64x64.size a
  inb_S27x64x64_S1x64x64_4_0_0 : ∀ a, (![4, 0, 0] : Fin 3 → Nat) a + S1x64x64.size a ≤ S27x64x64.size a
  inb_S27x64x64_S1x64x64_5_0_0 : ∀ a, (![5, 0, 0] : Fin 3 → Nat) a + S1x64x64.size a ≤ S27x64x64.size a
  inb_S27x64x64_S1x64x64_6_0_0 : ∀ a, (![6, 0, 0] : Fin 3 → Nat) a + S1x64x64.size a ≤ S27x64x64.size a
  inb_S27x64x64_S1x64x64_7_0_0 : ∀ a, (![7, 0, 0] : Fin 3 → Nat) a + S1x64x64.size a ≤ S27x64x64.size a
  inb_S27x64x64_S1x64x64_8_0_0 : ∀ a, (![8, 0, 0] : Fin 3 → Nat) a + S1x64x64.size a ≤ S27x64x64.size a
  inb_S27x64x64_S1x64x64_9_0_0 : ∀ a, (![9, 0, 0] : Fin 3 → Nat) a + S1x64x64.size a ≤ S27x64x64.size a
  inb_S27x64x64_S1x64x64_10_0_0 : ∀ a, (![10, 0, 0] : Fin 3 → Nat) a + S1x64x64.size a ≤ S27x64x64.size a
  inb_S27x64x64_S1x64x64_11_0_0 : ∀ a, (![11, 0, 0] : Fin 3 → Nat) a + S1x64x64.size a ≤ S27x64x64.size a
  inb_S27x64x64_S1x64x64_12_0_0 : ∀ a, (![12, 0, 0] : Fin 3 → Nat) a + S1x64x64.size a ≤ S27x64x64.size a
  inb_S27x64x64_S1x64x64_13_0_0 : ∀ a, (![13, 0, 0] : Fin 3 → Nat) a + S1x64x64.size a ≤ S27x64x64.size a
  inb_S27x64x64_S1x64x64_14_0_0 : ∀ a, (![14, 0, 0] : Fin 3 → Nat) a + S1x64x64.size a ≤ S27x64x64.size a
  inb_S27x64x64_S1x64x64_15_0_0 : ∀ a, (![15, 0, 0] : Fin 3 → Nat) a + S1x64x64.size a ≤ S27x64x64.size a
  inb_S27x64x64_S1x64x64_16_0_0 : ∀ a, (![16, 0, 0] : Fin 3 → Nat) a + S1x64x64.size a ≤ S27x64x64.size a
  inb_S27x64x64_S1x64x64_17_0_0 : ∀ a, (![17, 0, 0] : Fin 3 → Nat) a + S1x64x64.size a ≤ S27x64x64.size a
  inb_S27x64x64_S1x64x64_18_0_0 : ∀ a, (![18, 0, 0] : Fin 3 → Nat) a + S1x64x64.size a ≤ S27x64x64.size a
  inb_S27x64x64_S1x64x64_19_0_0 : ∀ a, (![19, 0, 0] : Fin 3 → Nat) a + S1x64x64.size a ≤ S27x64x64.size a
  inb_S27x64x64_S1x64x64_20_0_0 : ∀ a, (![20, 0, 0] : Fin 3 → Nat) a + S1x64x64.size a ≤ S27x64x64.size a
  inb_S27x64x64_S1x64x64_21_0_0 : ∀ a, (![21, 0, 0] : Fin 3 → Nat) a + S1x64x64.size a ≤ S27x64x64.size a
  inb_S27x64x64_S1x64x64_22_0_0 : ∀ a, (![22, 0, 0] : Fin 3 → Nat) a + S1x64x64.size a ≤ S27x64x64.size a
  inb_S27x64x64_S1x64x64_23_0_0 : ∀ a, (![23, 0, 0] : Fin 3 → Nat) a + S1x64x64.size a ≤ S27x64x64.size a
  inb_S27x64x64_S1x64x64_24_0_0 : ∀ a, (![24, 0, 0] : Fin 3 → Nat) a + S1x64x64.size a ≤ S27x64x64.size a
  inb_S27x64x64_S1x64x64_25_0_0 : ∀ a, (![25, 0, 0] : Fin 3 → Nat) a + S1x64x64.size a ≤ S27x64x64.size a
  inb_S27x64x64_S1x64x64_26_0_0 : ∀ a, (![26, 0, 0] : Fin 3 → Nat) a + S1x64x64.size a ≤ S27x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  pads_S38912x64_S41616x64_20486560_000 : S38912x64.Pads (![2048, 0] : Fin 2 → Nat) ![656, 0] ![0, 0] S41616x64
  shapeCasts_S41616x64_S36x34x34x64 : S41616x64.ShapeCasts S36x34x34x64
  slices_S36x34x34x64_S32x32x32x64_2_1_1_0 : S36x34x34x64.Slices ![2, 1, 1, 0] S32x32x32x64
  shapeCasts_S32x32x32x64_S1x32x32x32x64 : S32x32x32x64.ShapeCasts S1x32x32x32x64
  dot_S2048x64_S64x64_S2048x64_1_0_0_1_n_n_wf : DotDims.WF S2048x64 S64x64 S2048x64 [1] [0] [0] [1] [] []
  hrank0 : 0 < grid0.rank
  k0_off1_inb : ∀ i : grid0.Coords, ∀ (r : Fin 27), ∀ a, (k0_off1 i (k0_off1_at r)) a + S2048x64.size a ≤ S42240x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S42240x64.size a ≤ S42240x64.size a
  hwx0_0 : ∀ i : grid0.Coords, EltTy.bits .f32 = 32 ∨ (Rect.block (s := S42240x64) S42240x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64x64.size a ≤ S27x64x64.size a
  hwx0_1 : ∀ i : grid0.Coords, EltTy.bits .f32 = 32 ∨ (Rect.block (s := S27x64x64) S27x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S38912x64.size a
  hwx0_3 : ∀ i : grid0.Coords, EltTy.bits .f32 = 32 ∨ (Rect.block (s := S38912x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S38912x64.size a
  hwx0_4 : ∀ i : grid0.Coords, EltTy.bits .f32 = 32 ∨ (Rect.block (s := S38912x64) S2048x64.size (cc0_transform_4 i) (hinb0_4 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v3) S42240x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S27x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x32x32x32x64 : Shape := ⟨5, ![1, 32, 32, 32, 64]⟩
abbrev S1x32x32x32 : Shape := ⟨4, ![1, 32, 32, 32]⟩
abbrev S1728x64 : Shape := ⟨2, ![1728, 64]⟩
abbrev S64 : Shape := ⟨1, ![64]⟩
abbrev S3x27 : Shape := ⟨2, ![3, 27]⟩
abbrev S3 : Shape := ⟨1, ![3]⟩
abbrev S_ : Shape := ⟨0, ![]⟩
abbrev S32768 : Shape := ⟨1, ![32768]⟩
abbrev S32768x1 : Shape := ⟨2, ![32768, 1]⟩
abbrev S32768x4 : Shape := ⟨2, ![32768, 4]⟩
abbrev S32768x3 : Shape := ⟨2, ![32768, 3]⟩
abbrev S32768x3x1 : Shape := ⟨3, ![32768, 3, 1]⟩
abbrev S1x3x27 : Shape := ⟨3, ![1, 3, 27]⟩
abbrev S32768x3x27 : Shape := ⟨3, ![32768, 3, 27]⟩
abbrev S1x3x1 : Shape := ⟨3, ![1, 3, 1]⟩
abbrev S32768x27 : Shape := ⟨2, ![32768, 27]⟩
abbrev S32768x1x27 : Shape := ⟨3, ![32768, 1, 27]⟩
abbrev S32768x27x1 : Shape := ⟨3, ![32768, 27, 1]⟩
abbrev S32768x27x4 : Shape := ⟨3, ![32768, 27, 4]⟩
abbrev S32768x27x64 : Shape := ⟨3, ![32768, 27, 64]⟩
abbrev S32768x1728 : Shape := ⟨2, ![32768, 1728]⟩
abbrev S32768x64 : Shape := ⟨2, ![32768, 64]⟩
abbrev S1x64 : Shape := ⟨2, ![1, 64]⟩

abbrev nBuf : Space → Nat
  | .hbm => 352
  | .vmem => 0
  | .smem => 0
  | _ => 0

abbrev hbmTy0_0 (i : Nat) : BufTy := match i % 128 with
  | 0 => ⟨S1x32x32x32x64, .f32⟩
  | 1 => ⟨S1x32x32x32, .i32⟩
  | 2 => ⟨S1728x64, .f32⟩
  | 3 => ⟨S64, .f32⟩
  | 4 => ⟨S3x27, .i32⟩
  | 5 => ⟨S3, .i32⟩
  | 6 => ⟨S_, .i32⟩
  | 7 => ⟨S1x32x32x32, .i32⟩
  | 8 => ⟨S1x32x32x32, .i1⟩
  | 9 => ⟨S32768, .i1⟩
  | 10 => ⟨S32768, .i32⟩
  | 11 => ⟨S_, .i32⟩
  | 12 => ⟨S_, .i32⟩
  | 13 => ⟨S32768, .i32⟩
  | 14 => ⟨S_, .i32⟩
  | 15 => ⟨S32768, .i32⟩
  | 16 => ⟨S_, .i32⟩
  | 17 => ⟨S_, .i32⟩
  | 18 => ⟨S32768, .i32⟩
  | 19 => ⟨S32768, .i32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S_, .i32⟩
  | 29 => ⟨S32768, .i32⟩
  | 30 => ⟨S32768, .i32⟩
  | 31 => ⟨S_, .i32⟩
  | 32 => ⟨S_, .i32⟩
  | 33 => ⟨S32768, .i32⟩
  | 34 => ⟨S_, .i32⟩
  | 35 => ⟨S32768, .i32⟩
  | 36 => ⟨S32768, .i32⟩
  | 37 => ⟨S32768, .i32⟩
  | 38 => ⟨S_, .i32⟩
  | 39 => ⟨S32768, .i32⟩
  | 40 => ⟨S32768, .i1⟩
  | 41 => ⟨S32768, .i32⟩
  | 42 => ⟨S32768, .i32⟩
  | 43 => ⟨S_, .i32⟩
  | 44 => ⟨S32768, .i32⟩
  | 45 => ⟨S32768, .i1⟩
  | 46 => ⟨S32768, .i1⟩
  | 47 => ⟨S_, .i32⟩
  | 48 => ⟨S32768, .i32⟩
  | 49 => ⟨S32768, .i32⟩
  | 50 => ⟨S32768, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S32768, .i32⟩
  | 58 => ⟨S32768, .i32⟩
  | 59 => ⟨S_, .i32⟩
  | 60 => ⟨S32768, .i32⟩
  | 61 => ⟨S32768, .i1⟩
  | 62 => ⟨S_, .i32⟩
  | 63 => ⟨S32768, .i32⟩
  | 64 => ⟨S32768, .i1⟩
  | 65 => ⟨S_, .i32⟩
  | 66 => ⟨S_, .i1⟩
  | 67 => ⟨S32768, .i1⟩
  | 68 => ⟨S32768, .i1⟩
  | 69 => ⟨S32768, .i1⟩
  | 70 => ⟨S32768, .i32⟩
  | 71 => ⟨S32768, .i32⟩
  | 72 => ⟨S32768, .i32⟩
  | 73 => ⟨S_, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i1⟩
  | 80 => ⟨S32768, .i32⟩
  | 81 => ⟨S32768, .i32⟩
  | 82 => ⟨S_, .i32⟩
  | 83 => ⟨S32768, .i32⟩
  | 84 => ⟨S32768, .i1⟩
  | 85 => ⟨S32768, .i1⟩
  | 86 => ⟨S_, .i32⟩
  | 87 => ⟨S32768, .i32⟩
  | 88 => ⟨S32768, .i32⟩
  | 89 => ⟨S32768, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S32768, .i32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i1⟩
  | 104 => ⟨S_, .i32⟩
  | 105 => ⟨S_, .i1⟩
  | 106 => ⟨S32768, .i1⟩
  | 107 => ⟨S32768, .i1⟩
  | 108 => ⟨S32768, .i1⟩
  | 109 => ⟨S32768, .i32⟩
  | 110 => ⟨S32768, .i32⟩
  | 111 => ⟨S32768, .i32⟩
  | 112 => ⟨S_, .i32⟩
  | 113 => ⟨S32768, .i32⟩
  | 114 => ⟨S32768, .i32⟩
  | 115 => ⟨S32768, .i32⟩
  | 116 => ⟨S_, .i32⟩
  | 117 => ⟨S32768, .i32⟩
  | 118 => ⟨S32768, .i1⟩
  | 119 => ⟨S32768, .i32⟩
  | 120 => ⟨S32768, .i32⟩
  | 121 => ⟨S_, .i32⟩
  | 122 => ⟨S32768, .i32⟩
  | 123 => ⟨S32768, .i1⟩
  | 124 => ⟨S32768, .i1⟩
  | 125 => ⟨S_, .i32⟩
  | 126 => ⟨S32768, .i32⟩
  | 127 => ⟨S32768, .i32⟩
  | _ => ⟨S1x32x32x32x64, .f32⟩

abbrev hbmTy0_1 (i : Nat) : BufTy := match i % 128 with
  | 0 => ⟨S32768, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S32768, .i32⟩
  | 8 => ⟨S32768, .i32⟩
  | 9 => ⟨S_, .i32⟩
  | 10 => ⟨S32768, .i32⟩
  | 11 => ⟨S32768, .i1⟩
  | 12 => ⟨S_, .i32⟩
  | 13 => ⟨S32768, .i32⟩
  | 14 => ⟨S32768, .i1⟩
  | 15 => ⟨S_, .i32⟩
  | 16 => ⟨S_, .i1⟩
  | 17 => ⟨S32768, .i1⟩
  | 18 => ⟨S32768, .i1⟩
  | 19 => ⟨S32768, .i1⟩
  | 20 => ⟨S32768, .i32⟩
  | 21 => ⟨S32768, .i32⟩
  | 22 => ⟨S32768, .i32⟩
  | 23 => ⟨S_, .i32⟩
  | 24 => ⟨S32768, .i32⟩
  | 25 => ⟨S32768, .i32⟩
  | 26 => ⟨S32768, .i32⟩
  | 27 => ⟨S_, .i32⟩
  | 28 => ⟨S32768, .i32⟩
  | 29 => ⟨S32768, .i1⟩
  | 30 => ⟨S32768, .i32⟩
  | 31 => ⟨S32768, .i32⟩
  | 32 => ⟨S_, .i32⟩
  | 33 => ⟨S32768, .i32⟩
  | 34 => ⟨S32768, .i1⟩
  | 35 => ⟨S32768, .i1⟩
  | 36 => ⟨S_, .i32⟩
  | 37 => ⟨S32768, .i32⟩
  | 38 => ⟨S32768, .i32⟩
  | 39 => ⟨S32768, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S32768, .i32⟩
  | 47 => ⟨S32768, .i32⟩
  | 48 => ⟨S_, .i32⟩
  | 49 => ⟨S32768, .i32⟩
  | 50 => ⟨S32768, .i1⟩
  | 51 => ⟨S_, .i32⟩
  | 52 => ⟨S32768, .i32⟩
  | 53 => ⟨S32768, .i1⟩
  | 54 => ⟨S_, .i32⟩
  | 55 => ⟨S_, .i1⟩
  | 56 => ⟨S32768, .i1⟩
  | 57 => ⟨S32768, .i1⟩
  | 58 => ⟨S32768, .i1⟩
  | 59 => ⟨S32768, .i32⟩
  | 60 => ⟨S32768, .i32⟩
  | 61 => ⟨S32768, .i32⟩
  | 62 => ⟨S32768, .i32⟩
  | 63 => ⟨S1x32x32x32, .i32⟩
  | 64 => ⟨S_, .i32⟩
  | 65 => ⟨S_, .i32⟩
  | 66 => ⟨S32768, .i32⟩
  | 67 => ⟨S32768, .i1⟩
  | 68 => ⟨S_, .i32⟩
  | 69 => ⟨S_, .i32⟩
  | 70 => ⟨S32768, .i32⟩
  | 71 => ⟨S32768, .i32⟩
  | 72 => ⟨S_, .i32⟩
  | 73 => ⟨S_, .i32⟩
  | 74 => ⟨S32768, .i32⟩
  | 75 => ⟨S32768, .i32⟩
  | 76 => ⟨S_, .i32⟩
  | 77 => ⟨S_, .i32⟩
  | 78 => ⟨S32768, .i32⟩
  | 79 => ⟨S32768, .i32⟩
  | 80 => ⟨S_, .i32⟩
  | 81 => ⟨S_, .i32⟩
  | 82 => ⟨S32768, .i32⟩
  | 83 => ⟨S32768, .i32⟩
  | 84 => ⟨S32768x1, .i32⟩
  | 85 => ⟨S32768x1, .i32⟩
  | 86 => ⟨S32768x1, .i32⟩
  | 87 => ⟨S32768x1, .i32⟩
  | 88 => ⟨S32768x4, .i32⟩
  | 89 => ⟨S_, .i32⟩
  | 90 => ⟨S1x32x32x32, .i32⟩
  | 91 => ⟨S1x32x32x32, .i1⟩
  | 92 => ⟨S1x32x32x32, .i32⟩
  | 93 => ⟨S_, .i32⟩
  | 94 => ⟨S_, .i32⟩
  | 95 => ⟨S32768, .i32⟩
  | 96 => ⟨S32768, .i32⟩
  | 97 => ⟨S32768, .i1⟩
  | 98 => ⟨S32768, .f32⟩
  | 99 => ⟨S32768x1, .i32⟩
  | 100 => ⟨S32768, .i32⟩
  | 101 => ⟨S32768x3, .i32⟩
  | 102 => ⟨S32768x3x1, .i32⟩
  | 103 => ⟨S1x3x27, .i32⟩
  | 104 => ⟨S32768x3x27, .i32⟩
  | 105 => ⟨S32768x3x27, .i32⟩
  | 106 => ⟨S32768x3x27, .i32⟩
  | 107 => ⟨S_, .i32⟩
  | 108 => ⟨S32768x3x27, .i32⟩
  | 109 => ⟨S32768x3x27, .i1⟩
  | 110 => ⟨S1x3x1, .i32⟩
  | 111 => ⟨S32768x3x27, .i32⟩
  | 112 => ⟨S32768x3x27, .i1⟩
  | 113 => ⟨S32768x3x27, .i1⟩
  | 114 => ⟨S_, .i1⟩
  | 115 => ⟨S32768x27, .i1⟩
  | 116 => ⟨S_, .i32⟩
  | 117 => ⟨S3, .i32⟩
  | 118 => ⟨S3, .i32⟩
  | 119 => ⟨S1x3x1, .i32⟩
  | 120 => ⟨S_, .i32⟩
  | 121 => ⟨S_, .i32⟩
  | 122 => ⟨S32768x3x27, .i32⟩
  | 123 => ⟨S32768x3x27, .i32⟩
  | 124 => ⟨S32768x3x27, .i32⟩
  | 125 => ⟨S32768x3x27, .i32⟩
  | 126 => ⟨S32768x1, .i32⟩
  | 127 => ⟨S32768x27, .i32⟩
  | _ => ⟨S1x32x32x32x64, .f32⟩

abbrev hbmTy0_2 (i : Nat) : BufTy := match i % 128 with
  | 0 => ⟨S32768x1x27, .i32⟩
  | 1 => ⟨S32768x27, .i32⟩
  | 2 => ⟨S32768x1x27, .i32⟩
  | 3 => ⟨S32768x27, .i32⟩
  | 4 => ⟨S32768x1x27, .i32⟩
  | 5 => ⟨S32768x27, .i32⟩
  | 6 => ⟨S_, .i32⟩
  | 7 => ⟨S32768x27, .i32⟩
  | 8 => ⟨S32768x27, .i1⟩
  | 9 => ⟨S_, .i32⟩
  | 10 => ⟨S32768x27, .i32⟩
  | 11 => ⟨S32768x27, .i32⟩
  | 12 => ⟨S32768x27, .i32⟩
  | 13 => ⟨S_, .i32⟩
  | 14 => ⟨S32768x27, .i32⟩
  | 15 => ⟨S32768x27, .i1⟩
  | 16 => ⟨S_, .i32⟩
  | 17 => ⟨S32768x27, .i32⟩
  | 18 => ⟨S32768x27, .i32⟩
  | 19 => ⟨S32768x27, .i32⟩
  | 20 => ⟨S_, .i32⟩
  | 21 => ⟨S32768x27, .i32⟩
  | 22 => ⟨S32768x27, .i1⟩
  | 23 => ⟨S_, .i32⟩
  | 24 => ⟨S32768x27, .i32⟩
  | 25 => ⟨S32768x27, .i32⟩
  | 26 => ⟨S32768x27, .i32⟩
  | 27 => ⟨S_, .i32⟩
  | 28 => ⟨S32768x27, .i32⟩
  | 29 => ⟨S32768x27, .i1⟩
  | 30 => ⟨S_, .i32⟩
  | 31 => ⟨S32768x27, .i32⟩
  | 32 => ⟨S32768x27, .i32⟩
  | 33 => ⟨S32768x27, .i32⟩
  | 34 => ⟨S32768x27x1, .i32⟩
  | 35 => ⟨S32768x27x1, .i32⟩
  | 36 => ⟨S32768x27x1, .i32⟩
  | 37 => ⟨S32768x27x1, .i32⟩
  | 38 => ⟨S32768x27x4, .i32⟩
  | 39 => ⟨S32768x27x64, .f32⟩
  | 40 => ⟨S32768x27x1, .i1⟩
  | 41 => ⟨S32768x27x1, .f32⟩
  | 42 => ⟨S32768x27x64, .f32⟩
  | 43 => ⟨S32768x27x64, .f32⟩
  | 44 => ⟨S32768x1728, .f32⟩
  | 45 => ⟨S32768x64, .f32⟩
  | 46 => ⟨S1x64, .f32⟩
  | 47 => ⟨S32768x64, .f32⟩
  | 48 => ⟨S32768x64, .f32⟩
  | 49 => ⟨S32768x1, .f32⟩
  | 50 => ⟨S32768x64, .f32⟩
  | 51 => ⟨S32768x64, .f32⟩
  | 52 => ⟨S_, .f32⟩
  | 53 => ⟨S1x32x32x32x64, .f32⟩
  | 54 => ⟨S32768x1, .i32⟩
  | 55 => ⟨S32768, .i32⟩
  | 56 => ⟨S32768x1, .i32⟩
  | 57 => ⟨S32768, .i32⟩
  | 58 => ⟨S32768x1, .i32⟩
  | 59 => ⟨S32768, .i32⟩
  | 60 => ⟨S32768x1, .i32⟩
  | 61 => ⟨S32768, .i32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S32768x1, .i32⟩
  | 92 => ⟨S32768x1, .i32⟩
  | 93 => ⟨S32768x1, .i32⟩
  | 94 => ⟨S32768x4, .i32⟩
  | 95 => ⟨S1x32x32x32x64, .f32⟩
  | _ => ⟨S1x32x32x32x64, .f32⟩

abbrev hbmTy (i : Nat) : BufTy := match i / 128 with
  | 0 => hbmTy0_0 i
  | 1 => hbmTy0_1 i
  | 2 => hbmTy0_2 i
  | _ => ⟨S1x32x32x32x64, .f32⟩

abbrev bufTy : (tb : Table) → Fin (tcTables nBuf tb) → BufTy
  | .hbm, ⟨i, _⟩ => hbmTy i
  | _, _ => ⟨S1x32x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_4 : Ref sig .tc := ⟨.hbm, 20, rfl⟩
abbrev main_v5 : Ref sig .tc := ⟨.hbm, 21, rfl⟩
abbrev main_v6 : Ref sig .tc := ⟨.hbm, 22, rfl⟩
abbrev main_c_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_6 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_7 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_8 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_9 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_10 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_c_11 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_c : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_c_0 : Ref sig .tc := ⟨.hbm, 125, rfl⟩
abbrev main_call7_v11 : Ref sig .tc := ⟨.hbm, 126, rfl⟩
abbrev main_call7_v12 : Ref sig .tc := ⟨.hbm, 127, rfl⟩
abbrev main_v18 : Ref sig .tc := ⟨.hbm, 128, rfl⟩
abbrev main_c_12 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v19 : Ref sig .tc := ⟨.hbm, 150, rfl⟩
abbrev main_c_13 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_v5 : Ref sig .tc := ⟨.hbm, 157, rfl⟩
abbrev main_call9_v6 : Ref sig .tc := ⟨.hbm, 158, rfl⟩
abbrev main_call9_v7 : Ref sig .tc := ⟨.hbm, 159, rfl⟩
abbrev main_call9_c : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_c_0 : Ref sig .tc := ⟨.hbm, 164, rfl⟩
abbrev main_call9_v11 : Ref sig .tc := ⟨.hbm, 165, rfl⟩
abbrev main_call9_v12 : Ref sig .tc := ⟨.hbm, 166, rfl⟩
abbrev main_v20 : Ref sig .tc := ⟨.hbm, 167, rfl⟩
abbrev main_c_14 : Ref sig .tc := ⟨.hbm, 168, rfl⟩
abbrev main_call10_v0 : Ref sig .tc := ⟨.hbm, 169, rfl⟩
abbrev main_call10_c : Ref sig .tc := ⟨.hbm, 170, rfl⟩
abbrev main_call10_v1 : Ref sig .tc := ⟨.hbm, 171, rfl⟩
abbrev main_call10_c_0 : Ref sig .tc := ⟨.hbm, 172, rfl⟩
abbrev main_call10_v2 : Ref sig .tc := ⟨.hbm, 173, rfl⟩
abbrev main_call10_v3 : Ref sig .tc := ⟨.hbm, 174, rfl⟩
abbrev main_call10_v4 : Ref sig .tc := ⟨.hbm, 175, rfl⟩
abbrev main_call10_c_1 : Ref sig .tc := ⟨.hbm, 176, rfl⟩
abbrev main_call10_v5 : Ref sig .tc := ⟨.hbm, 177, rfl⟩
abbrev main_call10_v6 : Ref sig .tc := ⟨.hbm, 178, rfl⟩
abbrev main_call10_c_2 : Ref sig .tc := ⟨.hbm, 179, rfl⟩
abbrev main_call10_v7 : Ref sig .tc := ⟨.hbm, 180, rfl⟩
abbrev main_call10_v8 : Ref sig .tc := ⟨.hbm, 181, rfl⟩
abbrev main_call10_c_3 : Ref sig .tc := ⟨.hbm, 182, rfl⟩
abbrev main_call10_v9 : Ref sig .tc := ⟨.hbm, 183, rfl⟩
abbrev main_call10_v10 : Ref sig .tc := ⟨.hbm, 184, rfl⟩
abbrev main_call10_v11 : Ref sig .tc := ⟨.hbm, 185, rfl⟩
abbrev main_call10_v12 : Ref sig .tc := ⟨.hbm, 186, rfl⟩
abbrev main_call10_v13 : Ref sig .tc := ⟨.hbm, 187, rfl⟩
abbrev main_call10_v14 : Ref sig .tc := ⟨.hbm, 188, rfl⟩
abbrev main_v21 : Ref sig .tc := ⟨.hbm, 189, rfl⟩
abbrev main_v22 : Ref sig .tc := ⟨.hbm, 190, rfl⟩
abbrev main_v23 : Ref sig .tc := ⟨.hbm, 191, rfl⟩
abbrev main_c_15 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_c_16 : Ref sig .tc := ⟨.hbm, 196, rfl⟩
abbrev main_call11_v0 : Ref sig .tc := ⟨.hbm, 197, rfl⟩
abbrev main_call11_v1 : Ref sig .tc := ⟨.hbm, 198, rfl⟩
abbrev main_v27 : Ref sig .tc := ⟨.hbm, 199, rfl⟩
abbrev main_c_17 : Ref sig .tc := ⟨.hbm, 200, rfl⟩
abbrev main_call12_v0 : Ref sig .tc := ⟨.hbm, 201, rfl⟩
abbrev main_call12_v1 : Ref sig .tc := ⟨.hbm, 202, rfl⟩
abbrev main_v28 : Ref sig .tc := ⟨.hbm, 203, rfl⟩
abbrev main_c_18 : Ref sig .tc := ⟨.hbm, 204, rfl⟩
abbrev main_call13_v0 : Ref sig .tc := ⟨.hbm, 205, rfl⟩
abbrev main_call13_v1 : Ref sig .tc := ⟨.hbm, 206, rfl⟩
abbrev main_v29 : Ref sig .tc := ⟨.hbm, 207, rfl⟩
abbrev main_c_19 : Ref sig .tc := ⟨.hbm, 208, rfl⟩
abbrev main_call14_v0 : Ref sig .tc := ⟨.hbm, 209, rfl⟩
abbrev main_call14_v1 : Ref sig .tc := ⟨.hbm, 210, rfl⟩
abbrev main_v30 : Ref sig .tc := ⟨.hbm, 211, rfl⟩
abbrev main_v31 : Ref sig .tc := ⟨.hbm, 212, rfl⟩
abbrev main_v32 : Ref sig .tc := ⟨.hbm, 213, rfl⟩
abbrev main_v33 : Ref sig .tc := ⟨.hbm, 214, rfl⟩
abbrev main_v34 : Ref sig .tc := ⟨.hbm, 215, rfl⟩
abbrev main_v35 : Ref sig .tc := ⟨.hbm, 216, rfl⟩
abbrev main_c_20 : Ref sig .tc := ⟨.hbm, 217, rfl⟩
abbrev main_v36 : Ref sig .tc := ⟨.hbm, 218, rfl⟩
abbrev main_v37 : Ref sig .tc := ⟨.hbm, 219, rfl⟩
abbrev main_v38 : Ref sig .tc := ⟨.hbm, 220, rfl⟩
abbrev main_c_21 : Ref sig .tc := ⟨.hbm, 221, rfl⟩
abbrev main_v39 : Ref sig .tc := ⟨.hbm, 222, rfl⟩
abbrev main_v40 : Ref sig .tc := ⟨.hbm, 223, rfl⟩
abbrev main_v41 : Ref sig .tc := ⟨.hbm, 224, rfl⟩
abbrev main_v42 : Ref sig .tc := ⟨.hbm, 225, rfl⟩
abbrev main_v43 : Ref sig .tc := ⟨.hbm, 226, rfl⟩
abbrev main_v44 : Ref sig .tc := ⟨.hbm, 227, rfl⟩
abbrev main_v45 : Ref sig .tc := ⟨.hbm, 228, rfl⟩
abbrev main_v46 : Ref sig .tc := ⟨.hbm, 229, rfl⟩
abbrev main_v47 : Ref sig .tc := ⟨.hbm, 230, rfl⟩
abbrev main_v48 : Ref sig .tc := ⟨.hbm, 231, rfl⟩
abbrev main_v49 : Ref sig .tc := ⟨.hbm, 232, rfl⟩
abbrev main_v50 : Ref sig .tc := ⟨.hbm, 233, rfl⟩
abbrev main_v51 : Ref sig .tc := ⟨.hbm, 234, rfl⟩
abbrev main_c_22 : Ref sig .tc := ⟨.hbm, 235, rfl⟩
abbrev main_v52 : Ref sig .tc := ⟨.hbm, 236, rfl⟩
abbrev main_v53 : Ref sig .tc := ⟨.hbm, 237, rfl⟩
abbrev main_v54 : Ref sig .tc := ⟨.hbm, 238, rfl⟩
abbrev main_v55 : Ref sig .tc := ⟨.hbm, 239, rfl⟩
abbrev main_v56 : Ref sig .tc := ⟨.hbm, 240, rfl⟩
abbrev main_v57 : Ref sig .tc := ⟨.hbm, 241, rfl⟩
abbrev main_c_23 : Ref sig .tc := ⟨.hbm, 242, rfl⟩
abbrev main_v58 : Ref sig .tc := ⟨.hbm, 243, rfl⟩
abbrev main_c_24 : Ref sig .tc := ⟨.hbm, 244, rfl⟩
abbrev main_v59 : Ref sig .tc := ⟨.hbm, 245, rfl⟩
abbrev main_v60 : Ref sig .tc := ⟨.hbm, 246, rfl⟩
abbrev main_v61 : Ref sig .tc := ⟨.hbm, 247, rfl⟩
abbrev main_c_25 : Ref sig .tc := ⟨.hbm, 248, rfl⟩
abbrev main_call15_v0 : Ref sig .tc := ⟨.hbm, 249, rfl⟩
abbrev main_call15_v1 : Ref sig .tc := ⟨.hbm, 250, rfl⟩
abbrev main_call15_v2 : Ref sig .tc := ⟨.hbm, 251, rfl⟩
abbrev main_call15_v3 : Ref sig .tc := ⟨.hbm, 252, rfl⟩
abbrev main_v62 : Ref sig .tc := ⟨.hbm, 253, rfl⟩
abbrev main_v63 : Ref sig .tc := ⟨.hbm, 254, rfl⟩
abbrev main_v64 : Ref sig .tc := ⟨.hbm, 255, rfl⟩
abbrev main_v65 : Ref sig .tc := ⟨.hbm, 256, rfl⟩
abbrev main_v66 : Ref sig .tc := ⟨.hbm, 257, rfl⟩
abbrev main_v67 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_c_26 : Ref sig .tc := ⟨.hbm, 262, rfl⟩
abbrev main_v71 : Ref sig .tc := ⟨.hbm, 263, rfl⟩
abbrev main_v72 : Ref sig .tc := ⟨.hbm, 264, rfl⟩
abbrev main_c_27 : Ref sig .tc := ⟨.hbm, 265, rfl⟩
abbrev main_v73 : Ref sig .tc := ⟨.hbm, 266, rfl⟩
abbrev main_v74 : Ref sig .tc := ⟨.hbm, 267, rfl⟩
abbrev main_v75 : Ref sig .tc := ⟨.hbm, 268, rfl⟩
abbrev main_c_28 : Ref sig .tc := ⟨.hbm, 269, rfl⟩
abbrev main_v76 : Ref sig .tc := ⟨.hbm, 270, rfl⟩
abbrev main_v77 : Ref sig .tc := ⟨.hbm, 271, rfl⟩
abbrev main_c_29 : Ref sig .tc := ⟨.hbm, 272, rfl⟩
abbrev main_v78 : Ref sig .tc := ⟨.hbm, 273, rfl⟩
abbrev main_v79 : Ref sig .tc := ⟨.hbm, 274, rfl⟩
abbrev main_v80 : Ref sig .tc := ⟨.hbm, 275, rfl⟩
abbrev main_c_30 : Ref sig .tc := ⟨.hbm, 276, rfl⟩
abbrev main_v81 : Ref sig .tc := ⟨.hbm, 277, rfl⟩
abbrev main_v82 : Ref sig .tc := ⟨.hbm, 278, rfl⟩
abbrev main_c_31 : Ref sig .tc := ⟨.hbm, 279, rfl⟩
abbrev main_v83 : Ref sig .tc := ⟨.hbm, 280, rfl⟩
abbrev main_v84 : Ref sig .tc := ⟨.hbm, 281, rfl⟩
abbrev main_v85 : Ref sig .tc := ⟨.hbm, 282, rfl⟩
abbrev main_c_32 : Ref sig .tc := ⟨.hbm, 283, rfl⟩
abbrev main_v86 : Ref sig .tc := ⟨.hbm, 284, rfl⟩
abbrev main_v87 : Ref sig .tc := ⟨.hbm, 285, rfl⟩
abbrev main_c_33 : Ref sig .tc := ⟨.hbm, 286, rfl⟩
abbrev main_v88 : Ref sig .tc := ⟨.hbm, 287, rfl⟩
abbrev main_v89 : Ref sig .tc := ⟨.hbm, 288, rfl⟩
abbrev main_v90 : Ref sig .tc := ⟨.hbm, 289, rfl⟩
abbrev main_v91 : Ref sig .tc := ⟨.hbm, 290, rfl⟩
abbrev main_v92 : Ref sig .tc := ⟨.hbm, 291, rfl⟩
abbrev main_v93 : Ref sig .tc := ⟨.hbm, 292, rfl⟩
abbrev main_v94 : Ref sig .tc := ⟨.hbm, 293, rfl⟩
abbrev main_v95 : Ref sig .tc := ⟨.hbm, 294, rfl⟩
abbrev main_v96 : Ref sig .tc := ⟨.hbm, 295, rfl⟩
abbrev main_v97 : Ref sig .tc := ⟨.hbm, 296, rfl⟩
abbrev main_v98 : Ref sig .tc := ⟨.hbm, 297, rfl⟩
abbrev main_v99 : Ref sig .tc := ⟨.hbm, 298, rfl⟩
abbrev main_v100 : Ref sig .tc := ⟨.hbm, 299, rfl⟩
abbrev main_v101 : Ref sig .tc := ⟨.hbm, 300, rfl⟩
abbrev main_v102 : Ref sig .tc := ⟨.hbm, 301, rfl⟩
abbrev main_v103 : Ref sig .tc := ⟨.hbm, 302, rfl⟩
abbrev main_v104 : Ref sig .tc := ⟨.hbm, 303, rfl⟩
abbrev main_v105 : Ref sig .tc := ⟨.hbm, 304, rfl⟩
abbrev main_v106 : Ref sig .tc := ⟨.hbm, 305, rfl⟩
abbrev main_v107 : Ref sig .tc := ⟨.hbm, 306, rfl⟩
abbrev main_v108 : Ref sig .tc := ⟨.hbm, 307, rfl⟩
abbrev main_cst : Ref sig .tc := ⟨.hbm, 308, rfl⟩
abbrev main_v109 : Ref sig .tc := ⟨.hbm, 309, rfl⟩
abbrev main_v110 : Ref sig .tc := ⟨.hbm, 310, rfl⟩
abbrev main_v111 : Ref sig .tc := ⟨.hbm, 311, rfl⟩
abbrev main_v112 : Ref sig .tc := ⟨.hbm, 312, rfl⟩
abbrev main_v113 : Ref sig .tc := ⟨.hbm, 313, rfl⟩
abbrev main_v114 : Ref sig .tc := ⟨.hbm, 314, rfl⟩
abbrev main_v115 : Ref sig .tc := ⟨.hbm, 315, rfl⟩
abbrev main_v116 : Ref sig .tc := ⟨.hbm, 316, rfl⟩
abbrev main_v117 : Ref sig .tc := ⟨.hbm, 317, rfl⟩
abbrev main_c_34 : Ref sig .tc := ⟨.hbm, 318, rfl⟩
abbrev main_v118 : Ref sig .tc := ⟨.hbm, 319, rfl⟩
abbrev main_v119 : Ref sig .tc := ⟨.hbm, 320, rfl⟩
abbrev main_c_35 : Ref sig .tc := ⟨.hbm, 321, rfl⟩
abbrev main_v120 : Ref sig .tc := ⟨.hbm, 322, rfl⟩
abbrev main_v121 : Ref sig .tc := ⟨.hbm, 323, rfl⟩
abbrev main_v122 : Ref sig .tc := ⟨.hbm, 324, rfl⟩
abbrev main_c_36 : Ref sig .tc := ⟨.hbm, 325, rfl⟩
abbrev main_v123 : Ref sig .tc := ⟨.hbm, 326, rfl⟩
abbrev main_v124 : Ref sig .tc := ⟨.hbm, 327, rfl⟩
abbrev main_c_37 : Ref sig .tc := ⟨.hbm, 328, rfl⟩
abbrev main_v125 : Ref sig .tc := ⟨.hbm, 329, rfl⟩
abbrev main_v126 : Ref sig .tc := ⟨.hbm, 330, rfl⟩
abbrev main_v127 : Ref sig .tc := ⟨.hbm, 331, rfl⟩
abbrev main_c_38 : Ref sig .tc := ⟨.hbm, 332, rfl⟩
abbrev main_v128 : Ref sig .tc := ⟨.hbm, 333, rfl⟩
abbrev main_v129 : Ref sig .tc := ⟨.hbm, 334, rfl⟩
abbrev main_c_39 : Ref sig .tc := ⟨.hbm, 335, rfl⟩
abbrev main_v130 : Ref sig .tc := ⟨.hbm, 336, rfl⟩
abbrev main_v131 : Ref sig .tc := ⟨.hbm, 337, rfl⟩
abbrev main_v132 : Ref sig .tc := ⟨.hbm, 338, rfl⟩
abbrev main_c_40 : Ref sig .tc := ⟨.hbm, 339, rfl⟩
abbrev main_v133 : Ref sig .tc := ⟨.hbm, 340, rfl⟩
abbrev main_v134 : Ref sig .tc := ⟨.hbm, 341, rfl⟩
abbrev main_c_41 : Ref sig .tc := ⟨.hbm, 342, rfl⟩
abbrev main_v135 : Ref sig .tc := ⟨.hbm, 343, rfl⟩
abbrev main_v136 : Ref sig .tc := ⟨.hbm, 344, rfl⟩
abbrev main_v137 : Ref sig .tc := ⟨.hbm, 345, rfl⟩
abbrev main_v138 : Ref sig .tc := ⟨.hbm, 346, rfl⟩
abbrev main_v139 : Ref sig .tc := ⟨.hbm, 347, rfl⟩
abbrev main_v140 : Ref sig .tc := ⟨.hbm, 348, rfl⟩
abbrev main_v141 : Ref sig .tc := ⟨.hbm, 349, rfl⟩
abbrev main_v142 : Ref sig .tc := ⟨.hbm, 350, rfl⟩
abbrev main_v143 : Ref sig .tc := ⟨.hbm, 351, rfl⟩

abbrev nD : Nat := 1
abbrev τ : Topo := Topo.v7x

variable {F : FTy → Type} [FloatOps F]

class Facts₀ : Prop where
  bcast_S_S1x32x32x32 : S_.BroadcastsInDim S1x32x32x32 (![] : Fin 0 → Fin S1x32x32x32.rank)
  shapeCasts_S1x32x32x32_S32768 : S1x32x32x32.ShapeCasts S32768
  natLt_1_32 : 1 < 32
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  reducesTo_S1x32x32x32_S_d0_1_2_3 : S1x32x32x32.ReducesTo [0, 1, 2, 3] S_
  concatenates_S32768x1_S32768x1_S32768x1_S32768x1_S32768x4_d1 : Shape.Concatenates [S32768x1, S32768x1, S32768x1, S32768x1] S32768x4 1
  slices_S32768x4_S32768x1_0_0 : S32768x4.Slices ![0, 0] S32768x1
  shapeCasts_S32768x1_S32768 : S32768x1.ShapeCasts S32768
  slices_S32768x4_S32768x3_0_1 : S32768x4.Slices ![0, 1] S32768x3
  bcast_S32768x3_S32768x3x1_0_1 : S32768x3.BroadcastsInDim S32768x3x1 (![0, 1] : Fin 2 → Fin S32768x3x1.rank)
  bcast_S3x27_S1x3x27_1_2 : S3x27.BroadcastsInDim S1x3x27 (![1, 2] : Fin 2 → Fin S1x3x27.rank)
  bcast_S32768x3x1_S32768x3x27_0_1_2 : S32768x3x1.BroadcastsInDim S32768x3x27 (![0, 1, 2] : Fin 3 → Fin S32768x3x27.rank)
  bcast_S1x3x27_S32768x3x27_0_1_2 : S1x3x27.BroadcastsInDim S32768x3x27 (![0, 1, 2] : Fin 3 → Fin S32768x3x27.rank)
  bcast_S_S32768x3x27 : S_.BroadcastsInDim S32768x3x27 (![] : Fin 0 → Fin S32768x3x27.rank)
  bcast_S3_S1x3x1_1 : S3.BroadcastsInDim S1x3x1 (![1] : Fin 1 → Fin S1x3x1.rank)
  bcast_S1x3x1_S32768x3x27_0_1_2 : S1x3x1.BroadcastsInDim S32768x3x27 (![0, 1, 2] : Fin 3 → Fin S32768x3x27.rank)
  reducesTo_S32768x3x27_S32768x27_d1 : S32768x3x27.ReducesTo [1] S32768x27
  bcast_S_S3 : S_.BroadcastsInDim S3 (![] : Fin 0 → Fin S3.rank)
  bcast_S32768x1_S32768x27_0_1 : S32768x1.BroadcastsInDim S32768x27 (![0, 1] : Fin 2 → Fin S32768x27.rank)
  slices_S32768x3x27_S32768x1x27_0_0_0 : S32768x3x27.Slices ![0, 0, 0] S32768x1x27
  shapeCasts_S32768x1x27_S32768x27 : S32768x1x27.ShapeCasts S32768x27
  slices_S32768x3x27_S32768x1x27_0_1_0 : S32768x3x27.Slices ![0, 1, 0] S32768x1x27
  slices_S32768x3x27_S32768x1x27_0_2_0 : S32768x3x27.Slices ![0, 2, 0] S32768x1x27
  bcast_S_S32768x27 : S_.BroadcastsInDim S32768x27 (![] : Fin 0 → Fin S32768x27.rank)
  bcast_S32768x27_S32768x27x1_0_1 : S32768x27.BroadcastsInDim S32768x27x1 (![0, 1] : Fin 2 → Fin S32768x27x1.rank)
  concatenates_S32768x27x1_S32768x27x1_S32768x27x1_S32768x27x1_S32768x27x4_d2 : Shape.Concatenates [S32768x27x1, S32768x27x1, S32768x27x1, S32768x27x1] S32768x27x4 2
  bcast_S32768x27x1_S32768x27x64_0_1_2 : S32768x27x1.BroadcastsInDim S32768x27x64 (![0, 1, 2] : Fin 3 → Fin S32768x27x64.rank)
  shapeCasts_S32768x27x64_S32768x1728 : S32768x27x64.ShapeCasts S32768x1728
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S32768x1_S32768x64_0_1 : S32768x1.BroadcastsInDim S32768x64 (![0, 1] : Fin 2 → Fin S32768x64.rank)
  bcast_S_S1x32x32x32x64 : S_.BroadcastsInDim S1x32x32x32x64 (![] : Fin 0 → Fin S1x32x32x32x64.rank)
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  scatter_S32768_S32768x1_S32768_n_0_0_1_wf : ScatterDims.WF S32768 S32768x1 S32768 [] [0] [0] 1
  gather_S1x32x32x32x64_S32768x27x4_S32768x27x64_2_0123_n_n_0123_2_111164_wf : GatherDims.WF S1x32x32x32x64 S32768x27x4 S32768x27x64 [2] [0, 1, 2, 3] [] [0, 1, 2, 3] [] 2 ![1, 1, 1, 1, 64]
  dot_S32768x1728_S1728x64_S32768x64_1_0_0_1_n_n_wf : DotDims.WF S32768x1728 S1728x64 S32768x64 [1] [0] [0] [1] [] []
  scatter_S1x32x32x32x64_S32768x4_S32768x64_1_0123_0123_1_wf : ScatterDims.WF S1x32x32x32x64 S32768x4 S32768x64 [1] [0, 1, 2, 3] [0, 1, 2, 3] 1

variable [Facts₀]

def scatter_S32768_S32768x1_S32768_n_0_0_1 : ScatterDims S32768 S32768x1 S32768 where
  updateWindowDims := []
  insertedWindowDims := [0]
  scatterDimsToOperandDims := [0]
  indexVectorDim := 1
  wf := scatter_S32768_S32768x1_S32768_n_0_0_1_wf
def gather_S1x32x32x32x64_S32768x27x4_S32768x27x64_2_0123_n_n_0123_2_111164 : GatherDims S1x32x32x32x64 S32768x27x4 S32768x27x64 where
  offsetDims := [2]
  collapsedSliceDims := [0, 1, 2, 3]
  operandBatchingDims := []
  startIndicesBatchingDims := []
  startIndexMap := [0, 1, 2, 3]
  indexVectorDim := 2
  sliceSizes := ![1, 1, 1, 1, 64]
  wf := gather_S1x32x32x32x64_S32768x27x4_S32768x27x64_2_0123_n_n_0123_2_111164_wf
def dot_S32768x1728_S1728x64_S32768x64_1_0_0_1_n_n : DotDims S32768x1728 S1728x64 S32768x64 where
  lhsContracting := [1]
  rhsContracting := [0]
  lhsNonContracting := [0]
  rhsNonContracting := [1]
  lhsBatch := []
  rhsBatch := []
  wf := dot_S32768x1728_S1728x64_S32768x64_1_0_0_1_n_n_wf
def scatter_S1x32x32x32x64_S32768x4_S32768x64_1_0123_0123_1 : ScatterDims S1x32x32x32x64 S32768x4 S32768x64 where
  updateWindowDims := [1]
  insertedWindowDims := [0, 1, 2, 3]
  scatterDimsToOperandDims := [0, 1, 2, 3]
  indexVectorDim := 1
  wf := scatter_S1x32x32x32x64_S32768x4_S32768x64_1_0123_0123_1_wf

class Facts : Prop extends Facts₀ where

variable [Facts]
-- ==== Proof.KerHost.lean ====
/-
  The arrays the region reads, as the host operations before it leave them, each as one function of an argument array:
  the zero-padded, linearised feature volume with its extra zero rows; the padded, linearised activity mask cut to the
  computed rows and spread over the output channels; the weights regrouped by tap; the bias as a row.
-/
import proofs.«150033_g82085414961357_cont_sun_m_845_2_alg».proof.Proof.Gen.KernelIdeal.Frame
import Idealize.ShloMosaic.PureOps.Ideal
import Idealize.ShloMosaic.Lib.ValueIdx
import Idealize.ShloMosaic.Lib.Pipeline.Value
import Idealize.ShloMosaic.Lib.Tactic

noncomputable section

namespace Cert.KernelIdeal.KerHost

open Idealize.ShloMosaic Idealize.ShloMosaic.TcCoe Idealize.SL.Sem
open Cert.KernelIdeal Cert.KernelIdeal.Gen

/-- The padding value the host computes: the integer zero converted to a float. -/
abbrev padZero : S_.Idx → EReal := sitofp (F := Ideal) .f32 (constantI S_ 32 0#32)

/-- The feature volume padded by (2, 1, 1) voxels of zeros, its voxels numbered row-major as rows, 624 zero rows added. -/
def fextOf (feat : S1x32x32x32x64.Idx → EReal) : S42240x64.Idx → EReal :=
  pad S42240x64 ![0, 0] ![624, 0] ![0, 0]
    (shapeCast S41616x64
      (pad S36x34x34x64 ![2, 1, 1, 0] ![2, 1, 1, 0] ![0, 0, 0, 0]
        (shapeCast S32x32x32x64 feat shapeCasts_S1x32x32x32x64_S32x32x32x64) padZero
        pads_S32x32x32x64_S36x34x34x64_220_110_110_000 h_S_)
      shapeCasts_S36x34x34x64_S41616x64)
    padZero pads_S41616x64_S42240x64_06240_000 h_S_

/-- The activity mask (1 where the index array is non-zero) padded like the volume, numbered as rows, rows 2048 … 40959
    kept, each spread over the 64 output channels. -/
def maskOf (index : S1x32x32x32.Idx → BitVec 32) : S38912x64.Idx → EReal :=
  broadcastInDim S38912x64 ![0, 1] bcast_S38912x1_S38912x64_0_1
    (broadcastInDim S38912x1 ![0] bcast_S38912_S38912x1_0
      (extractStridedSlice S38912 ![2048]
        (shapeCast S41616
          (pad S36x34x34 ![2, 1, 1] ![2, 1, 1] ![0, 0, 0]
            (uitofp (F := Ideal) .f32
              (cmpi .ne (shapeCast S32x32x32 index shapeCasts_S1x32x32x32_S32x32x32)
                (broadcastInDim S32x32x32 ![] bcast_S_S32x32x32 (constantI S_ 32 0#32))))
            padZero pads_S32x32x32_S36x34x34_220_110_110 h_S_)
          shapeCasts_S36x34x34_S41616)
        slices_S41616_S38912_2048))

variable (m : (ℓ : Loc nD τ sig) → Buf (Elt Ideal) ℓ)

theorem V_fext (c : Dev nD) :
    (V m c main_v3 : S42240x64.Idx → EReal) = fextOf (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_mask (c : Dev nD) :
    (V m c main_v12 : S38912x64.Idx → EReal) = maskOf (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_w27 (c : Dev nD) :
    (V m c main_v13 : S27x64x64.Idx → EReal)
      = shapeCast S27x64x64 (m ((c.tc : Thread nD τ).loc main_arg2)) shapeCasts_S1728x64_S27x64x64 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_bias (c : Dev nD) :
    (V m c main_v14 : S1x64.Idx → EReal)
      = shapeCast S1x64 (m ((c.tc : Thread nD τ).loc main_arg3)) shapeCasts_S64_S1x64 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

end Cert.KernelIdeal.KerHost

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KerPay.lean ====
/-
  The body's arithmetic at an entry of its block.  The body forms, tap by tap, the product of a loaded [2048, 64] piece
  of the padded volume with that tap's [64, 64] weight slab, adds the 27 products from the first tap to the last, adds
  the bias row and multiplies by the mask block.  At the extended reals the value at row p, output channel f is
  (the sum over the 27 taps and the 64 input channels of piece (p, c) times slab (c, f), plus bias f) times mask (p, f):
  the left-nested order of the 27 additions is immaterial by associativity.
-/
import proofs.«150033_g82085414961357_cont_sun_m_845_2_alg».proof.Proof.Gen.KernelIdeal.Skeleton
import proofs.«150033_g82085414961357_cont_sun_m_845_2_alg».proof.Proof.LibDotIx2
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.KernelIdeal.KerPay

open Idealize.ShloMosaic Idealize.ShloMosaic.ValueIdx
open Cert.KernelIdeal Cert.KernelIdeal.Gen

/-- The 27 terms of a left-nested sum are the sum over the 27 positions. -/
theorem sum27 {M : Type*} [AddCommMonoid M] (T : Fin 27 → M) :
    T 0 + T 1 + T 2 + T 3 + T 4 + T 5 + T 6 + T 7 + T 8 + T 9 + T 10 + T 11 + T 12 + T 13 + T 14 + T 15 + T 16 + T 17
      + T 18 + T 19 + T 20 + T 21 + T 22 + T 23 + T 24 + T 25 + T 26 = ∑ kk : Fin 27, T kk := by
  simp only [Fin.sum_univ_castSucc, Fin.sum_univ_zero, zero_add]
  rfl

/-- The body's dimension numbers are those of a plain [2048, 64] by [64, 64] product. -/
theorem plain : PlainDot dot_S2048x64_S64x64_S2048x64_1_0_0_1_n_n where
  rank := rfl
  size := rfl
  l0 := fun j q => rfl
  l1 := fun j q => dot_S2048x64_S64x64_S2048x64_1_0_0_1_n_n.lhsIdx_val_of_single (cl := 1) rfl j q
  r0 := fun j q => dot_S2048x64_S64x64_S2048x64_1_0_0_1_n_n.rhsIdx_val_of_single (cr := 0) rfl j q
  r1 := fun j q => rfl

/-- One tap's product: a loaded piece times a loaded weight slab, into zeros. -/
def tapDot (L : Vec Ideal S2048x64 .f32) (W : Vec Ideal S1x64x64 .f32) : FVec Ideal S2048x64 .f32 :=
  matmul (F := Ideal) dot_S2048x64_S64x64_S2048x64_1_0_0_1_n_n none
    (shapeCast S2048x64 L shapeCasts_S2048x64_S2048x64 : FVec Ideal S2048x64 .f32)
    (shapeCast S64x64 W shapeCasts_S1x64x64_S64x64 : FVec Ideal S64x64 .f32) (constant (F := Ideal) S2048x64 .f32 0x00000000#32)

/-- At row p, output channel f it is the sum over the input channels. -/
theorem tapDot_apply (L : Vec Ideal S2048x64 .f32) (W : Vec Ideal S1x64x64 .f32) (p : Fin 2048) (f : Fin 64) :
    tapDot L W (ix2 p f) = ∑ c : Fin 64, (L (ix2 p c) : EReal) * (W (ix3 (0 : Fin 1) c f) : EReal) := by
  unfold tapDot
  refine (matmul_zero_ix2_any plain none _ _ p f).trans ?_
  refine Finset.sum_congr rfl fun c _ => ?_
  rw [shapeCast_self, shapeCast_1ab_ab_apply]

/-- The body's value as one term of its 27 loaded pieces, 27 loaded weight slabs, the bias row and the mask block:
    the printed payloads composed in the order the body passes them on. -/
def chain (L : Fin 27 → Vec Ideal S2048x64 .f32) (W : Fin 27 → Vec Ideal S1x64x64 .f32) (B : Vec Ideal S1x64 .f32)
    (M : Vec Ideal S2048x64 .f32) : FVec Ideal S2048x64 .f32 :=
  k0_pay1 (F := Ideal)
    (k0_pay10 (F := Ideal)
      (k0_pay9 (F := Ideal)
        (k0_pay6 (F := Ideal)
          (k0_pay4 (F := Ideal)
            (k0_pay3 (F := Ideal) (k0_pay2 (F := Ideal) (L 0) (W 0) (L 1) (W 1) (L 2) (W 2) (L 3) (W 3))
              (L 4) (W 4) (L 5) (W 5) (L 6) (W 6) (L 7) (W 7))
            (L 8) (W 8) (L 9) (W 9) (L 10) (W 10) (L 11) (W 11))
          (k0_pay5 (F := Ideal) (L 12)) (W 12) (L 13) (W 13) (L 14) (W 14) (L 15) (W 15))
        (k0_pay7 (F := Ideal) (L 16)) (k0_pay8 (F := Ideal) (W 16)) (constant (F := Ideal) S2048x64 .f32 0x00000000#32)
        (L 17) (W 17) (L 18) (W 18) (L 19) (W 19) (L 20) (W 20))
      (L 21) (W 21) (L 22) (W 22) (L 23) (W 23) (L 24) (W 24))
    (k0_pay11 (F := Ideal) (L 25)) (W 25) (L 26) (W 26) B M

/-- The term unfolded at an entry: the 27 tap products added left to right, the bias row spread over the rows added, the
    mask multiplied in. -/
theorem chain_unfold (L : Fin 27 → Vec Ideal S2048x64 .f32) (W : Fin 27 → Vec Ideal S1x64x64 .f32) (B : Vec Ideal S1x64 .f32)
    (M : Vec Ideal S2048x64 .f32) (j : S2048x64.Idx) :
    chain L W B M j =
      (tapDot (L 0) (W 0) j + tapDot (L 1) (W 1) j + tapDot (L 2) (W 2) j + tapDot (L 3) (W 3) j + tapDot (L 4) (W 4) j
        + tapDot (L 5) (W 5) j + tapDot (L 6) (W 6) j + tapDot (L 7) (W 7) j + tapDot (L 8) (W 8) j + tapDot (L 9) (W 9) j
        + tapDot (L 10) (W 10) j + tapDot (L 11) (W 11) j + tapDot (L 12) (W 12) j + tapDot (L 13) (W 13) j
        + tapDot (L 14) (W 14) j + tapDot (L 15) (W 15) j + tapDot (L 16) (W 16) j + tapDot (L 17) (W 17) j
        + tapDot (L 18) (W 18) j + tapDot (L 19) (W 19) j + tapDot (L 20) (W 20) j + tapDot (L 21) (W 21) j
        + tapDot (L 22) (W 22) j + tapDot (L 23) (W 23) j + tapDot (L 24) (W 24) j + tapDot (L 25) (W 25) j
        + tapDot (L 26) (W 26) j
        + broadcastTo S2048x64 (shapeCast S1x64 B shapeCasts_S1x64_S1x64) broadcasts_S1x64_S2048x64 j)
      * shapeCast S2048x64 M shapeCasts_S2048x64_S2048x64 j := rfl

/-- The body's value at row p, output channel f. -/
theorem chain_apply (L : Fin 27 → Vec Ideal S2048x64 .f32) (W : Fin 27 → Vec Ideal S1x64x64 .f32) (B : Vec Ideal S1x64 .f32)
    (M : Vec Ideal S2048x64 .f32) (p : Fin 2048) (f : Fin 64) :
    chain L W B M (ix2 p f) =
      ((∑ kk : Fin 27, ∑ c : Fin 64, (L kk (ix2 p c) : EReal) * (W kk (ix3 (0 : Fin 1) c f) : EReal))
        + (B (ix2 (0 : Fin 1) f) : EReal)) * (M (ix2 p f) : EReal) := by
  rw [chain_unfold]
  simp only [tapDot_apply, shapeCast_self, broadcastTo_1b_ab_apply]
  exact congrArg (fun s : EReal => (s + (B (ix2 (0 : Fin 1) f) : EReal)) * (M (ix2 p f) : EReal))
    (sum27 fun kk : Fin 27 => ∑ c : Fin 64, (L kk (ix2 p c) : EReal) * (W kk (ix3 (0 : Fin 1) c f) : EReal))

end Cert.KernelIdeal.KerPay

end
-- ==== Proof.LibSliceLayout.lean ====
/-
  Two readings at an index given by coordinates, for the pieces a body cuts out of a staged block.

  A load through a unit-stride slice reads the contents at offset + local coordinate on every axis; and a [1, 1, n]
  piece recast as a [n] vector reads the piece's entry (0, 0, i) at i.
-/
import Idealize.ShloMosaic.Lib.Pipeline.Value
import Idealize.ShloMosaic.Lib.ValueIdx

namespace Idealize.ShloMosaic.ValueIdx

open Idealize.ShloMosaic

/-- A load through a unit-stride slice reads the contents at offset + local coordinate, axis by axis. -/
theorem ld_unit_apply {Val : EltTy → Type} {el : EltTy} {s : Shape} (X : s.Idx → Val el) (off size : Fin s.rank → ℕ) (inb : ∀ a, off a + size a ≤ s.size a)
    (y : (Rect.unit off size inb).shape.Idx) (i : s.Idx) (h : ∀ a, (i a).val = off a + (y a).val) :
    View.ld X (Rect.unit off size inb) y = X i :=
  congrArg X (funext fun a => Fin.ext (by rw [h a]; show off a + 1 * (y a).val = _; rw [Nat.one_mul]))

/-- A [1, 1, n] piece recast as a [n] vector reads, at i, the piece's entry (0, 0, i). -/
theorem shapeCast_11n_n_apply {α : Type} {n : ℕ} (x : (⟨3, ![1, 1, n]⟩ : Shape).Idx → α) (h : (⟨3, ![1, 1, n]⟩ : Shape).ShapeCasts ⟨1, ![n]⟩)
    (u u' : Fin 1) (i : Fin n) : shapeCast ⟨1, ![n]⟩ x h (ix1 i) = x (ix3 u u' i) :=
  shapeCast_apply x h _ _ (by
    have hu : u.val = 0 := by omega
    have hu' : u'.val = 0 := by omega
    rw [Shape.rowMajor_val_three, Shape.rowMajor_val_one]
    show (u.val * 1 + u'.val) * n + i.val = i.val
    simp [hu, hu'])

end Idealize.ShloMosaic.ValueIdx
-- ==== Proof.KerBlock.lean ====
/-
  What the region leaves in its result array.  At grid point g the body reads, for each of the 27 taps, the 2048 rows of
  the padded volume that start at 2048 + 2048 g + the tap's offset, the tap's weight slab, the bias row and rows
  2048 g … 2048 g + 2047 of the mask, and stores its value over its whole block, which is written back to rows
  2048 g … 2048 g + 2047 of the result.  The 19 blocks tile the 38912 rows, so the result array is one function of the
  arrays the region reads: at row R, output channel f, (the sum over the taps and the input channels of the padded volume
  at (857 + R + 1156 (kk / 9) + 34 (kk / 3 % 3) + kk % 3, c) times slab (kk, c, f), plus bias f) times mask (R, f).
-/
import proofs.«150033_g82085414961357_cont_sun_m_845_2_alg».proof.Proof.Gen.KernelIdeal.Frame
import proofs.«150033_g82085414961357_cont_sun_m_845_2_alg».proof.Proof.KerPay
import proofs.«150033_g82085414961357_cont_sun_m_845_2_alg».proof.Proof.LibSliceLayout
import Idealize.ShloMosaic.PureOps.Ideal
import Idealize.ShloMosaic.Lib.ValueIdx
import Idealize.ShloMosaic.Lib.Pipeline.Value
import Idealize.ShloMosaic.Lib.Tactic

set_option maxRecDepth 16384

noncomputable section

open scoped BigOperators

namespace Cert.KernelIdeal.KerBlock

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Slab kk of the weights lies inside them. -/
theorem slab_inb (kk : Fin 27) : ∀ a, (![kk.val, 0, 0] : Fin 3 → Nat) a + S1x64x64.size a ≤ S27x64x64.size a := by
  intro a
  have hk := kk.isLt
  match a with
  | ⟨0, _⟩ => show kk.val + 1 ≤ 27; omega
  | ⟨1, _⟩ => show 0 + 64 ≤ 64; omega
  | ⟨2, _⟩ => show 0 + 64 ≤ 64; omega

/-- The 27 pieces of the padded volume the body loads at grid coordinates i. -/
def pieces (i : grid0.Coords) (x0 : Vec Ideal S42240x64 .f32) : Fin 27 → Vec Ideal S2048x64 .f32 :=
  fun kk => View.ld x0 (Rect.unit (s := S42240x64) (k0_off1 i (k0_off1_at kk)) S2048x64.size (k0_off1_inb i kk))

/-- The 27 weight slabs it loads. -/
def slabs (x1 : Vec Ideal S27x64x64 .f32) : Fin 27 → Vec Ideal S1x64x64 .f32 :=
  fun kk => View.ld x1 (Rect.unit (s := S27x64x64) ![kk.val, 0, 0] S1x64x64.size (slab_inb kk))

/-- What the body leaves in the result's staging buffer: its one covering store's value, the composed payloads of its
    loads. -/
theorem out_eq (c : Dev nD) (i : grid0.Coords) (arg1 : Memref sig .tc .vmem S42240x64 .f32) (harg1 : arg1.IsWhole)
    (arg2 : Memref sig .tc .vmem S27x64x64 .f32) (harg2 : arg2.IsWhole) (arg3 : Memref sig .tc .vmem S1x64 .f32) (harg3 : arg3.IsWhole)
    (arg4 : Memref sig .tc .vmem S2048x64 .f32) (harg4 : arg4.IsWhole) (arg5 : Memref sig .tc .vmem S2048x64 .f32) (harg5 : arg5.IsWhole)
    (x0 : Vec Ideal S42240x64 .f32) (x1 : Vec Ideal S27x64x64 .f32) (x2 : Vec Ideal S1x64 .f32) (x3 : Vec Ideal S2048x64 .f32) :
    out0_A_4 (F := Ideal) c i arg1 harg1 arg2 harg2 arg3 harg3 arg4 harg4 arg5 harg5 x0 x1 x2 x3
      = KerPay.chain (pieces i x0) (slabs x1) x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S2048x64) hz, View.ld_unit_zero (S := S1x64) hz]
  rfl

/-! ## The loaded pieces at an entry -/

/-- The row of the padded volume tap kk reads for result row R. -/
def tapRow (R : Fin 38912) (kk : Fin 27) : Fin 42240 :=
  ⟨857 + R.val + kk.val / 9 * 1156 + kk.val / 3 % 3 * 34 + kk.val % 3, by have := R.isLt; have := kk.isLt; omega⟩

/-- The tap offsets as the body adds them: 32-bit words, the negative ones wrapped. -/
theorem off_word : ∀ kk : Fin 27,
    (k0_off1_at kk).toNat = (4294967296 + (kk.val / 9 * 1156 + kk.val / 3 % 3 * 34 + kk.val % 3) - 1191) % 4294967296 := by
  decide +kernel

/-- The first row of piece kk at grid coordinate g: 2048 + 2048 g + the tap's offset, no wrap-around. -/
theorem off_eq (i : grid0.Coords) (g : ℕ) (hg : (i 0).val = g) (hg19 : g < 19) (kk : Fin 27) :
    k0_off1 i (k0_off1_at kk) 0 = 857 + g * 2048 + kk.val / 9 * 1156 + kk.val / 3 % 3 * 34 + kk.val % 3 := by
  have hk := kk.isLt
  show (Scalar.indexCast (Scalar.addi (Scalar.addi (2048#32) (Scalar.muli (BitVec.ofNat 32 (i 0).val) (2048#32)))
    (k0_off1_at kk))).toNat = _
  simp only [Scalar.indexCast, Scalar.addi, Scalar.muli, IntOp.addi, IntOp.muli, BitVec.toNat_add, BitVec.toNat_mul,
    BitVec.toNat_ofNat, hg, off_word kk]
  omega

/-- Piece kk at row p, input channel c is the padded volume at the tap's row. -/
theorem piece_apply (i : grid0.Coords) (g : ℕ) (hg : (i 0).val = g) (hg19 : g < 19) (x0 : Vec Ideal S42240x64 .f32)
    (kk : Fin 27) (p : Fin 2048) (c : Fin 64) (R : Fin 38912) (hR : R.val = g * 2048 + p.val) :
    pieces i x0 kk (ix2 p c) = x0 (ix2 (tapRow R kk) c) := by
  unfold pieces
  refine ld_unit_apply x0 _ _ _ (ix2 p c) (ix2 (tapRow R kk) c) (fun a => ?_)
  match a with
  | ⟨0, _⟩ =>
    show (tapRow R kk).val = k0_off1 i (k0_off1_at kk) 0 + p.val
    rw [off_eq i g hg hg19 kk]
    show 857 + R.val + kk.val / 9 * 1156 + kk.val / 3 % 3 * 34 + kk.val % 3 = _
    omega
  | ⟨1, _⟩ =>
    show c.val = 0 + c.val
    omega

/-- Slab kk at input channel c, output channel f is the weights at (kk, c, f). -/
theorem slab_apply (x1 : Vec Ideal S27x64x64 .f32) (kk : Fin 27) (c f : Fin 64) :
    slabs x1 kk (ix3 (0 : Fin 1) c f) = x1 (ix3 kk c f) := by
  unfold slabs
  refine ld_unit_apply x1 _ _ _ (ix3 (0 : Fin 1) c f) (ix3 kk c f) (fun a => ?_)
  match a with
  | ⟨0, _⟩ => show kk.val = kk.val + 0; omega
  | ⟨1, _⟩ => show c.val = 0 + c.val; omega
  | ⟨2, _⟩ => show f.val = 0 + f.val; omega

/-! ## The result array as one function -/

/-- The region's result at row R, output channel f, from the arrays it reads. -/
def GoutAt (fext : S42240x64.Idx → EReal) (w27 : S27x64x64.Idx → EReal) (bias : S1x64.Idx → EReal)
    (mask : S38912x64.Idx → EReal) (R : Fin 38912) (f : Fin 64) : EReal :=
  ((∑ kk : Fin 27, ∑ c : Fin 64, fext (ix2 (tapRow R kk) c) * w27 (ix3 kk c f)) + bias (ix2 (0 : Fin 1) f)) * mask (ix2 R f)

/-- The region's result array. -/
def Gout (fext : S42240x64.Idx → EReal) (w27 : S27x64x64.Idx → EReal) (bias : S1x64.Idx → EReal)
    (mask : S38912x64.Idx → EReal) : S38912x64.Idx → EReal :=
  fun j => GoutAt fext w27 bias mask (j 0) (j 1)

/-- The body's value at an entry of its block is the result function at the entry's place in the array. -/
theorem point_eq (i : grid0.Coords) (g : ℕ) (hg : (i 0).val = g) (hg19 : g < 19)
    (x0 : Vec Ideal S42240x64 .f32) (x1 : Vec Ideal S27x64x64 .f32) (x2 : Vec Ideal S1x64 .f32) (x3 : Vec Ideal S2048x64 .f32)
    (mask : S38912x64.Idx → EReal) (y : S2048x64.Idx) (j : S38912x64.Idx)
    (hj0 : (j 0).val = g * 2048 + (y 0).val) (hj1 : (j 1).val = (y 1).val) (hmask : x3 y = mask j) :
    KerPay.chain (pieces i x0) (slabs x1) x2 x3 y = Gout x0 x1 x2 mask j := by
  obtain ⟨p, f, rfl⟩ : ∃ (p : Fin 2048) (f : Fin 64), y = ix2 p f := ⟨y 0, y 1, eq_ix2 y⟩
  obtain ⟨R, f', rfl⟩ : ∃ (R : Fin 38912) (f' : Fin 64), j = ix2 R f' := ⟨j 0, j 1, eq_ix2 j⟩
  obtain rfl : f' = f := Fin.ext hj1
  have hR : R.val = g * 2048 + p.val := hj0
  rw [KerPay.chain_apply, hmask]
  show _ = GoutAt x0 x1 x2 mask R f'
  unfold GoutAt
  refine congrArg (fun s : EReal => (s + x2 (ix2 (0 : Fin 1) f')) * mask (ix2 R f')) ?_
  refine Finset.sum_congr rfl fun kk _ => Finset.sum_congr rfl fun c _ => ?_
  rw [piece_apply i g hg hg19 x0 kk p c R hR, slab_apply x1 kk c f']

/-! ## From blocks to the array -/

variable (m : (ℓ : Loc nD τ sig) → Buf (Elt Ideal) ℓ)

/-- The printed index maps, decided over the 19 grid points: the first three windows' blocks never move, the mask's and
    the result's block is the grid coordinate's, and the grid coordinate is the point's number. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- The padded volume's block at every point is the whole array. -/
theorem iblk0 (c : Dev nD) (t : Fin cfg0.N) : (iblk m c 0 t : S42240x64.Idx → EReal) = V m c main_v3 := by
  obtain ⟨e0, e1, -⟩ := idx_facts t
  funext y
  show V m c main_v3 (((cfg0.win 0).blk t).view.emb y) = V m c main_v3 y
  refine congrArg (V m c main_v3) (funext fun a => Fin.ext ?_)
  match a with
  | ⟨0, _⟩ => show win0_0.index t (0 : Fin 2) * 42240 + 1 * (y 0).val = (y 0).val; omega
  | ⟨1, _⟩ => show win0_0.index t (1 : Fin 2) * 64 + 1 * (y 1).val = (y 1).val; omega

/-- The weights' block at every point is the whole array. -/
theorem iblk1 (c : Dev nD) (t : Fin cfg0.N) : (iblk m c 1 t : S27x64x64.Idx → EReal) = V m c main_v13 := by
  obtain ⟨-, -, e0, e1, e2, -⟩ := idx_facts t
  funext y
  show V m c main_v13 (((cfg0.win 1).blk t).view.emb y) = V m c main_v13 y
  refine congrArg (V m c main_v13) (funext fun a => Fin.ext ?_)
  match a with
  | ⟨0, _⟩ => show win0_1.index t (0 : Fin 3) * 27 + 1 * (y 0).val = (y 0).val; omega
  | ⟨1, _⟩ => show win0_1.index t (1 : Fin 3) * 64 + 1 * (y 1).val = (y 1).val; omega
  | ⟨2, _⟩ => show win0_1.index t (2 : Fin 3) * 64 + 1 * (y 2).val = (y 2).val; omega

/-- The bias row's block at every point is the whole row. -/
theorem iblk2 (c : Dev nD) (t : Fin cfg0.N) : (iblk m c 2 t : S1x64.Idx → EReal) = V m c main_v14 := by
  obtain ⟨-, -, -, -, -, e0, e1, -⟩ := idx_facts t
  funext y
  show V m c main_v14 (((cfg0.win 2).blk t).view.emb y) = V m c main_v14 y
  refine congrArg (V m c main_v14) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point t writes back is block t of the result function of the arrays as the region finds them. -/
theorem flushed_eq (c : Dev nD) (t : Fin cfg0.N) :
    (dats m 0 c).flushed 4 t = ((cfg0.win 4).blk t).view.read (Elt Ideal)
      (Gout (V m c main_v3) (V m c main_v13) (V m c main_v14) (V m c main_v12)) := by
  show (cfg0.win 4).cut (grid0.coords t) ((dats m 0 c).after 4 t) = _
  rw [after0_4]
  unfold outsAt0
  rw [out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)]
  rw [iblk0 m c t, iblk1 m c t, iblk2 m c t]
  obtain ⟨-, -, -, -, -, -, -, e30, e31, e40, e41, eg⟩ := idx_facts t
  have hN : cfg0.N = 19 := N_0
  have ht : t.val < 19 := by have := t.isLt; omega
  funext y
  show KerPay.chain (pieces (grid0.coords t) (V m c main_v3)) (slabs (V m c main_v13)) (V m c main_v14) (iblk m c 3 t) y
    = Gout (V m c main_v3) (V m c main_v13) (V m c main_v14) (V m c main_v12) (((cfg0.win 4).blk t).view.emb y)
  refine point_eq (grid0.coords t) t.val eg ht (V m c main_v3) (V m c main_v13) (V m c main_v14) (iblk m c 3 t)
    (V m c main_v12) y (((cfg0.win 4).blk t).view.emb y) ?_ ?_ ?_
  · show win0_4.index t (0 : Fin 2) * 2048 + 1 * (y 0).val = t.val * 2048 + (y 0).val
    omega
  · show win0_4.index t (1 : Fin 2) * 64 + 1 * (y 1).val = (y 1).val
    omega
  · show V m c main_v12 (((cfg0.win 3).blk t).view.emb y) = V m c main_v12 (((cfg0.win 4).blk t).view.emb y)
    refine congrArg (V m c main_v12) (funext fun a => Fin.ext ?_)
    match a with
    | ⟨0, _⟩ => show win0_3.index t (0 : Fin 2) * 2048 + 1 * (y 0).val = win0_4.index t (0 : Fin 2) * 2048 + 1 * (y 0).val; omega
    | ⟨1, _⟩ => show win0_3.index t (1 : Fin 2) * 64 + 1 * (y 1).val = win0_4.index t (1 : Fin 2) * 64 + 1 * (y 1).val; omega

/-- An index of the result array is in point t's block iff each coordinate is in the block's range on its axis. -/
theorem mem_blk (t : Fin cfg0.N) (i : S38912x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v15).slice (win0_4.rect t)).set ↔ _
  rw [View.set_slice_whole, Rect.mem_set_unit]
  exact Iff.rfl

/-- The result array after the run: row R is in the block of point R / 2048, so the 19 blocks cover it and it holds the
    result function everywhere. -/
theorem final (c : Dev nD) : (dats m 0 c).arrAt 4 cfg0.N
    = Gout (V m c main_v3) (V m c main_v13) (V m c main_v14) (V m c main_v12) :=
  (dats m 0 c).arrAt_eq_of_cover 4 _ (fun t _ => flushed_eq m c t) fun i => by
    have hi0 : (i 0).val < 38912 := (i 0).isLt
    have hi1 : (i 1).val < 64 := (i 1).isLt
    have hN : cfg0.N = 19 := N_0
    have hlt : (i 0).val / 2048 < cfg0.N := by rw [hN]; omega
    obtain ⟨-, -, -, -, -, -, -, -, -, e40, e41, -⟩ := idx_facts ⟨(i 0).val / 2048, hlt⟩
    refine ⟨⟨(i 0).val / 2048, hlt⟩, flush0_4 _, ?_⟩
    rw [mem_blk]
    intro a
    match a with
    | ⟨0, _⟩ =>
      show win0_4.index ⟨(i 0).val / 2048, hlt⟩ (0 : Fin 2) * 2048 ≤ (i 0).val
        ∧ (i 0).val < win0_4.index ⟨(i 0).val / 2048, hlt⟩ (0 : Fin 2) * 2048 + 2048
      rw [e40]
      show (i 0).val / 2048 * 2048 ≤ (i 0).val ∧ (i 0).val < (i 0).val / 2048 * 2048 + 2048
      omega
    | ⟨1, _⟩ =>
      show win0_4.index ⟨(i 0).val / 2048, hlt⟩ (1 : Fin 2) * 64 ≤ (i 1).val
        ∧ (i 1).val < win0_4.index ⟨(i 0).val / 2048, hlt⟩ (1 : Fin 2) * 64 + 64
      rw [e41]
      omega

end Cert.KernelIdeal.KerBlock

end
-- ==== Proof.Spec.lean ====
/-
  The dense masked 3 × 3 × 3 convolution over a 32³ volume with 64 input and 64 output channels, as one function of the
  four argument arrays, index by index at the extended reals.

  For a voxel `(d, h, x)` and a tap `kk < 27`, the tap's offsets are `(kk / 9 - 1, kk / 3 % 3 - 1, kk % 3 - 1)`; its
  value on input channel `c` is the feature at the neighbouring voxel when that lies inside the volume and `0` when it
  does not (zero padding).  The convolution at output channel `f` sums, over the 27 taps and the 64 input channels,
  the tap's value times the weight at row `64 · kk + c`, column `f`.  The result is that sum plus the bias, times
  `1` where the index array is non-zero at the voxel and `0` where it is zero.
-/
import Idealize.ShloMosaic.PureOps.Ideal
import Idealize.ShloMosaic.Lib.ValueIdx

noncomputable section

open scoped BigOperators

namespace ConvSpec

open Idealize.ShloMosaic Idealize.ShloMosaic.ValueIdx

abbrev SFeat : Shape := ⟨5, ![1, 32, 32, 32, 64]⟩
abbrev SIndex : Shape := ⟨4, ![1, 32, 32, 32]⟩
abbrev SWeight : Shape := ⟨2, ![1728, 64]⟩
abbrev SBias : Shape := ⟨1, ![64]⟩

/-- Tap `kk` of voxel `(d, h, x)` stays inside the volume: on each axis the shifted coordinate `coord + offset + 1`
    lies in `1 … 32`. -/
def InVol (d h x : Fin 32) (kk : Fin 27) : Prop :=
  (1 ≤ d.val + kk.val / 9 ∧ d.val + kk.val / 9 ≤ 32) ∧ (1 ≤ h.val + kk.val / 3 % 3 ∧ h.val + kk.val / 3 % 3 ≤ 32) ∧
    (1 ≤ x.val + kk.val % 3 ∧ x.val + kk.val % 3 ≤ 32)

instance (d h x : Fin 32) (kk : Fin 27) : Decidable (InVol d h x kk) := by unfold InVol; infer_instance

/-- The value of tap `kk` of voxel `(d, h, x)` on input channel `c`: the neighbouring voxel's feature, `0` outside the
    volume. -/
def tap (feat : SFeat.Idx → EReal) (d h x : Fin 32) (kk : Fin 27) (c : Fin 64) : EReal :=
  if hb : InVol d h x kk then
    feat (ix5 (0 : Fin 1) (⟨d.val + kk.val / 9 - 1, by unfold InVol at hb; omega⟩ : Fin 32)
      (⟨h.val + kk.val / 3 % 3 - 1, by unfold InVol at hb; omega⟩ : Fin 32)
      (⟨x.val + kk.val % 3 - 1, by unfold InVol at hb; omega⟩ : Fin 32) c)
  else 0

/-- The convolution at voxel `(d, h, x)`, output channel `f`. -/
def conv (feat : SFeat.Idx → EReal) (wt : SWeight.Idx → EReal) (d h x : Fin 32) (f : Fin 64) : EReal :=
  ∑ kk : Fin 27, ∑ c : Fin 64, tap feat d h x kk c * wt (ix2 (⟨kk.val * 64 + c.val, by omega⟩ : Fin 1728) f)

/-- The result at voxel `(d, h, x)`, output channel `f`: convolution plus bias, masked by the index array. -/
def Gat (feat : SFeat.Idx → EReal) (index : SIndex.Idx → BitVec 32) (wt : SWeight.Idx → EReal) (bias : SBias.Idx → EReal)
    (d h x : Fin 32) (f : Fin 64) : EReal :=
  (conv feat wt d h x f + bias (ix1 f)) * (if index (ix4 (0 : Fin 1) d h x) ≠ 0 then 1 else 0)

/-- The whole result array. -/
def G (feat : SFeat.Idx → EReal) (index : SIndex.Idx → BitVec 32) (wt : SWeight.Idx → EReal) (bias : SBias.Idx → EReal) :
    SFeat.Idx → EReal :=
  fun i => Gat feat index wt bias (i 1) (i 2) (i 3) (i 4)

theorem G_ix5 (feat : SFeat.Idx → EReal) (index : SIndex.Idx → BitVec 32) (wt : SWeight.Idx → EReal) (bias : SBias.Idx → EReal)
    (a : Fin 1) (d h x : Fin 32) (f : Fin 64) : G feat index wt bias (ix5 a d h x f) = Gat feat index wt bias d h x f := rfl

end ConvSpec

end
-- ==== Proof.KerPad.lean ====
/-
  The arrays the region reads, at an entry.  A row of the padded, linearised volume is a padded position
  (plane, line, column) with row = plane * 1156 + line * 34 + column; the position is a voxel of the volume when
  2 ≤ plane ≤ 33, 1 ≤ line ≤ 32 and 1 ≤ column ≤ 32, and a cell the padding filled with zero otherwise.  So the row a tap of
  a voxel reads holds that tap's value as the specification defines it; the mask row of a voxel holds 1 or 0 as the
  index array is non-zero or zero there; the weight slab of tap kk holds row 64 kk + c of the weight matrix; the bias
  row holds the bias.
-/
import proofs.«150033_g82085414961357_cont_sun_m_845_2_alg».proof.Proof.KerHost
import proofs.«150033_g82085414961357_cont_sun_m_845_2_alg».proof.Proof.Spec
import Idealize.ShloMosaic.Lib.KernelVsHost
import Idealize.ShloMosaic.Lib.ValueLayout

noncomputable section

namespace Cert.KernelIdeal.KerPad

open Idealize.ShloMosaic Idealize.ShloMosaic.ValueIdx
open Cert.KernelIdeal Cert.KernelIdeal.Gen Cert.KernelIdeal.KerHost

/-- The padding value is zero. -/
theorem padZero_apply (j : S_.Idx) : padZero j = 0 := by
  show (((0#32 : BitVec 32).toInt : ℝ) : EReal) = 0
  simp

/-- The row of a voxel holds the voxel's features. -/
theorem fext_inside (feat : S1x32x32x32x64.Idx → EReal) (d h x : Fin 32) (c : Fin 64) (row : Fin 42240)
    (hrow : row.val = (d.val + 2) * 1156 + (h.val + 1) * 34 + (x.val + 1)) :
    fextOf feat (ix2 row c) = feat (ix5 (0 : Fin 1) d h x c) := by
  have hd := d.isLt
  have hh := h.isLt
  have hx := x.isLt
  have hr : row.val < 41616 := by omega
  unfold fextOf
  refine (pad_apply_of_inside _ _ _ _ padZero pads_S41616x64_S42240x64_06240_000 h_S_ (ix2 row c)
    (ix2 (⟨row.val, hr⟩ : Fin 41616) c) (fun a => ?_)).trans ?_
  · match a with
    | ⟨0, _⟩ => show row.val = 0 + row.val * (0 + 1); omega
    | ⟨1, _⟩ => show c.val = 0 + c.val * (0 + 1); omega
  refine (shapeCast_apply _ shapeCasts_S36x34x34x64_S41616x64 (ix2 (⟨row.val, hr⟩ : Fin 41616) c)
    (ix4 (⟨d.val + 2, by omega⟩ : Fin 36) (⟨h.val + 1, by omega⟩ : Fin 34) (⟨x.val + 1, by omega⟩ : Fin 34) c) ?_).trans ?_
  · rw [Shape.rowMajor_val_four, Shape.rowMajor_val_two]
    show (((d.val + 2) * 34 + (h.val + 1)) * 34 + (x.val + 1)) * 64 + c.val = row.val * 64 + c.val
    omega
  refine (pad_apply_of_inside _ _ _ _ padZero pads_S32x32x32x64_S36x34x34x64_220_110_110_000 h_S_ _
    (ix4 d h x c) (fun a => ?_)).trans ?_
  · match a with
    | ⟨0, _⟩ => show d.val + 2 = 2 + d.val * (0 + 1); omega
    | ⟨1, _⟩ => show h.val + 1 = 1 + h.val * (0 + 1); omega
    | ⟨2, _⟩ => show x.val + 1 = 1 + x.val * (0 + 1); omega
    | ⟨3, _⟩ => show c.val = 0 + c.val * (0 + 1); omega
  exact shapeCast_apply feat shapeCasts_S1x32x32x32x64_S32x32x32x64 (ix4 d h x c) (ix5 (0 : Fin 1) d h x c) (by
    rw [Shape.rowMajor_val_five, Shape.rowMajor_val_four]
    show ((((0 : ℕ) * 32 + d.val) * 32 + h.val) * 32 + x.val) * 64 + c.val = ((d.val * 32 + h.val) * 32 + x.val) * 64 + c.val
    omega)

/-- The row of a padded position that is no voxel holds zero. -/
theorem fext_outside (feat : S1x32x32x32x64.Idx → EReal) (pz : Fin 36) (py px : Fin 34) (c : Fin 64) (row : Fin 42240)
    (hrow : row.val = pz.val * 1156 + py.val * 34 + px.val)
    (hout : ¬((2 ≤ pz.val ∧ pz.val < 34) ∧ (1 ≤ py.val ∧ py.val < 33) ∧ (1 ≤ px.val ∧ px.val < 33))) :
    fextOf feat (ix2 row c) = 0 := by
  have hz := pz.isLt
  have hy := py.isLt
  have hx := px.isLt
  have hr : row.val < 41616 := by omega
  unfold fextOf
  refine (pad_apply_of_inside _ _ _ _ padZero pads_S41616x64_S42240x64_06240_000 h_S_ (ix2 row c)
    (ix2 (⟨row.val, hr⟩ : Fin 41616) c) (fun a => ?_)).trans ?_
  · match a with
    | ⟨0, _⟩ => show row.val = 0 + row.val * (0 + 1); omega
    | ⟨1, _⟩ => show c.val = 0 + c.val * (0 + 1); omega
  refine (shapeCast_apply _ shapeCasts_S36x34x34x64_S41616x64 (ix2 (⟨row.val, hr⟩ : Fin 41616) c)
    (ix4 pz py px c) ?_).trans ?_
  · rw [Shape.rowMajor_val_four, Shape.rowMajor_val_two]
    show ((pz.val * 34 + py.val) * 34 + px.val) * 64 + c.val = row.val * 64 + c.val
    omega
  by_cases hzin : 2 ≤ pz.val ∧ pz.val < 34
  · by_cases hyin : 1 ≤ py.val ∧ py.val < 33
    · have hxout : ¬(1 ≤ px.val ∧ px.val < 33) := fun hxin => hout ⟨hzin, hyin, hxin⟩
      refine (pad_apply_of_not_inside _ _ _ _ padZero pads_S32x32x32x64_S36x34x34x64_220_110_110_000 h_S_ (ix4 pz py px c)
        (2 : Fin 4) ?_).trans (padZero_apply _)
      show ¬(1 ≤ px.val ∧ (px.val - 1) % (0 + 1) = 0 ∧ (px.val - 1) / (0 + 1) < 32)
      rw [Nat.zero_add, Nat.div_one]
      omega
    · refine (pad_apply_of_not_inside _ _ _ _ padZero pads_S32x32x32x64_S36x34x34x64_220_110_110_000 h_S_ (ix4 pz py px c)
        (1 : Fin 4) ?_).trans (padZero_apply _)
      show ¬(1 ≤ py.val ∧ (py.val - 1) % (0 + 1) = 0 ∧ (py.val - 1) / (0 + 1) < 32)
      rw [Nat.zero_add, Nat.div_one]
      omega
  · refine (pad_apply_of_not_inside _ _ _ _ padZero pads_S32x32x32x64_S36x34x34x64_220_110_110_000 h_S_ (ix4 pz py px c)
      (0 : Fin 4) ?_).trans (padZero_apply _)
    show ¬(2 ≤ pz.val ∧ (pz.val - 2) % (0 + 1) = 0 ∧ (pz.val - 2) / (0 + 1) < 32)
    rw [Nat.zero_add, Nat.div_one]
    omega

/-- The row tap kk of voxel (d, h, x) reads holds the tap's value. -/
theorem fext_tap (feat : S1x32x32x32x64.Idx → EReal) (d h x : Fin 32) (kk : Fin 27) (c : Fin 64) (row : Fin 42240)
    (hrow : row.val = (d.val + 1 + kk.val / 9) * 1156 + (h.val + kk.val / 3 % 3) * 34 + (x.val + kk.val % 3)) :
    fextOf feat (ix2 row c) = ConvSpec.tap feat d h x kk c := by
  have hd := d.isLt
  have hh := h.isLt
  have hx := x.isLt
  have hk := kk.isLt
  unfold ConvSpec.tap
  by_cases hb : ConvSpec.InVol d h x kk
  · rw [dif_pos hb]
    have hb' := hb
    unfold ConvSpec.InVol at hb'
    exact fext_inside feat _ _ _ c row (by
      show row.val = (d.val + kk.val / 9 - 1 + 2) * 1156 + (h.val + kk.val / 3 % 3 - 1 + 1) * 34 + (x.val + kk.val % 3 - 1 + 1)
      omega)
  · rw [dif_neg hb]
    refine fext_outside feat (⟨d.val + 1 + kk.val / 9, by omega⟩ : Fin 36) (⟨h.val + kk.val / 3 % 3, by omega⟩ : Fin 34)
      (⟨x.val + kk.val % 3, by omega⟩ : Fin 34) c row hrow (fun hin => hb ?_)
    unfold ConvSpec.InVol
    have h1 : 2 ≤ d.val + 1 + kk.val / 9 ∧ d.val + 1 + kk.val / 9 < 34 := hin.1
    have h2 : 1 ≤ h.val + kk.val / 3 % 3 ∧ h.val + kk.val / 3 % 3 < 33 := hin.2.1
    have h3 : 1 ≤ x.val + kk.val % 3 ∧ x.val + kk.val % 3 < 33 := hin.2.2
    omega

/-- The mask row of a voxel holds 1 where the index array is non-zero and 0 where it is zero. -/
theorem mask_voxel (index : S1x32x32x32.Idx → BitVec 32) (d h x : Fin 32) (f : Fin 64) (R : Fin 38912)
    (hR : R.val + 2048 = (d.val + 2) * 1156 + (h.val + 1) * 34 + (x.val + 1)) :
    maskOf index (ix2 R f) = if index (ix4 (0 : Fin 1) d h x) ≠ 0 then 1 else 0 := by
  have hd := d.isLt
  have hh := h.isLt
  have hx := x.isLt
  have hRlt := R.isLt
  unfold maskOf
  refine (broadcastInDim_apply _ bcast_S38912x1_S38912x64_0_1 _ (ix2 R f) (ix2 R (0 : Fin 1)) (fun a => ?_)).trans ?_
  · match a with
    | ⟨0, _⟩ => rfl
    | ⟨1, _⟩ => rfl
  refine (broadcastInDim_apply _ bcast_S38912_S38912x1_0 _ (ix2 R (0 : Fin 1)) (ix1 R) (fun a => ?_)).trans ?_
  · match a with
    | ⟨0, _⟩ => rfl
  refine (extractStridedSlice_apply _ _ slices_S41616_S38912_2048 (ix1 R) (ix1 (⟨R.val + 2048, by omega⟩ : Fin 41616))
    (fun a => ?_)).trans ?_
  · match a with
    | ⟨0, _⟩ => show R.val + 2048 = 2048 + R.val; omega
  refine (shapeCast_apply _ shapeCasts_S36x34x34_S41616 (ix1 (⟨R.val + 2048, by omega⟩ : Fin 41616))
    (ix3 (⟨d.val + 2, by omega⟩ : Fin 36) (⟨h.val + 1, by omega⟩ : Fin 34) (⟨x.val + 1, by omega⟩ : Fin 34)) ?_).trans ?_
  · rw [Shape.rowMajor_val_three, Shape.rowMajor_val_one]
    show ((d.val + 2) * 34 + (h.val + 1)) * 34 + (x.val + 1) = R.val + 2048
    omega
  refine (pad_apply_of_inside _ _ _ _ padZero pads_S32x32x32_S36x34x34_220_110_110 h_S_ _ (ix3 d h x) (fun a => ?_)).trans ?_
  · match a with
    | ⟨0, _⟩ => show d.val + 2 = 2 + d.val * (0 + 1); omega
    | ⟨1, _⟩ => show h.val + 1 = 1 + h.val * (0 + 1); omega
    | ⟨2, _⟩ => show x.val + 1 = 1 + x.val * (0 + 1); omega
  have hidx : shapeCast S32x32x32 index shapeCasts_S1x32x32x32_S32x32x32 (ix3 d h x) = index (ix4 (0 : Fin 1) d h x) :=
    shapeCast_apply index shapeCasts_S1x32x32x32_S32x32x32 (ix3 d h x) (ix4 (0 : Fin 1) d h x) (by
      rw [Shape.rowMajor_val_four, Shape.rowMajor_val_three]
      show (((0 : ℕ) * 32 + d.val) * 32 + h.val) * 32 + x.val = (d.val * 32 + h.val) * 32 + x.val
      omega)
  show (((IntOp.cmpi .ne (shapeCast S32x32x32 index shapeCasts_S1x32x32x32_S32x32x32 (ix3 d h x)) (0#32 : BitVec 32)).toNat : ℝ) : EReal) = _
  rw [hidx]
  by_cases hne : index (ix4 (0 : Fin 1) d h x) ≠ 0
  · have e1 : IntOp.cmpi .ne (index (ix4 (0 : Fin 1) d h x)) (0#32 : BitVec 32) = 1#1 := IntOp.cmpi_ne.mpr hne
    rw [if_pos hne, e1]
    simp
  · have e0 : IntOp.cmpi .ne (index (ix4 (0 : Fin 1) d h x)) (0#32 : BitVec 32) = 0#1 :=
      eq_zero_of_ne_one (fun h1 => hne (IntOp.cmpi_ne.mp h1))
    rw [if_neg hne, e0]
    simp

/-- The weight slab of tap kk, input channel c, output channel f is row 64 kk + c of the weight matrix. -/
theorem w27_apply (wt : S1728x64.Idx → EReal) (kk : Fin 27) (c f : Fin 64) :
    shapeCast S27x64x64 wt shapeCasts_S1728x64_S27x64x64 (ix3 kk c f)
      = wt (ix2 (⟨kk.val * 64 + c.val, by omega⟩ : Fin 1728) f) :=
  shapeCast_apply wt shapeCasts_S1728x64_S27x64x64 (ix3 kk c f) _ (by
    rw [Shape.rowMajor_val_two, Shape.rowMajor_val_three]
    show (kk.val * 64 + c.val) * 64 + f.val = (kk.val * 64 + c.val) * 64 + f.val
    rfl)

/-- The bias row at output channel f is the bias. -/
theorem bias_apply (b : S64.Idx → EReal) (f : Fin 64) :
    shapeCast S1x64 b shapeCasts_S64_S1x64 (ix2 (0 : Fin 1) f) = b (ix1 f) :=
  shapeCast_apply b shapeCasts_S64_S1x64 (ix2 (0 : Fin 1) f) (ix1 f) (by
    rw [Shape.rowMajor_val_one, Shape.rowMajor_val_two]
    show f.val = (0 : ℕ) * 64 + f.val
    omega)

end Cert.KernelIdeal.KerPad

end
-- ==== Proof.KerTail.lean ====
/-
  The host operations after the region, and the whole value.  The result array's 38912 rows are set back into the 41616
  rows of the padded volume (2048 zero rows before, 656 after), read as a [36, 34, 34, 64] volume, and the inner
  [2:34, 1:33, 1:33] box is taken: voxel (d, h, x) reads row (d + 2) * 1156 + (h + 1) * 34 + (x + 1) - 2048 of the result
  array.  At that row the 27 rows the taps read are the voxel's 27 neighbours in the padded volume, the mask row is the
  voxel's, so the value there is the specification's: the convolution plus the bias, masked.
-/
import proofs.«150033_g82085414961357_cont_sun_m_845_2_alg».proof.Proof.KerPad
import proofs.«150033_g82085414961357_cont_sun_m_845_2_alg».proof.Proof.KerBlock
import proofs.«150033_g82085414961357_cont_sun_m_845_2_alg».proof.Proof.Spec

noncomputable section

open scoped BigOperators

namespace Cert.KernelIdeal.KerTail

open Idealize.ShloMosaic Idealize.ShloMosaic.ValueIdx
open Cert.KernelIdeal Cert.KernelIdeal.Gen Cert.KernelIdeal.KerHost Cert.KernelIdeal.KerPad Cert.KernelIdeal.KerBlock

/-- The host operations after the region, as one function of the region's result array. -/
def tailOf (out : S38912x64.Idx → EReal) : S1x32x32x32x64.Idx → EReal :=
  shapeCast S1x32x32x32x64
    (extractStridedSlice S32x32x32x64 ![2, 1, 1, 0]
      (shapeCast S36x34x34x64
        (pad S41616x64 ![2048, 0] ![656, 0] ![0, 0] out padZero pads_S38912x64_S41616x64_20486560_000 h_S_)
        shapeCasts_S41616x64_S36x34x34x64)
      slices_S36x34x34x64_S32x32x32x64_2_1_1_0)
    shapeCasts_S32x32x32x64_S1x32x32x32x64

/-- Voxel (d, h, x), output channel f of the result reads the region's array at the voxel's row less 2048. -/
theorem tail_apply (out : S38912x64.Idx → EReal) (a : Fin 1) (d h x : Fin 32) (f : Fin 64) (R : Fin 38912)
    (hR : R.val + 2048 = (d.val + 2) * 1156 + (h.val + 1) * 34 + (x.val + 1)) :
    tailOf out (ix5 a d h x f) = out (ix2 R f) := by
  have hd := d.isLt
  have hh := h.isLt
  have hx := x.isLt
  have ha : a.val = 0 := by omega
  unfold tailOf
  refine (shapeCast_apply _ shapeCasts_S32x32x32x64_S1x32x32x32x64 (ix5 a d h x f) (ix4 d h x f) ?_).trans ?_
  · rw [Shape.rowMajor_val_four, Shape.rowMajor_val_five]
    show ((d.val * 32 + h.val) * 32 + x.val) * 64 + f.val = (((a.val * 32 + d.val) * 32 + h.val) * 32 + x.val) * 64 + f.val
    rw [ha]
    omega
  refine (extractStridedSlice_apply _ _ slices_S36x34x34x64_S32x32x32x64_2_1_1_0 (ix4 d h x f)
    (ix4 (⟨d.val + 2, by omega⟩ : Fin 36) (⟨h.val + 1, by omega⟩ : Fin 34) (⟨x.val + 1, by omega⟩ : Fin 34) f) (fun b => ?_)).trans ?_
  · match b with
    | ⟨0, _⟩ => show d.val + 2 = 2 + d.val; omega
    | ⟨1, _⟩ => show h.val + 1 = 1 + h.val; omega
    | ⟨2, _⟩ => show x.val + 1 = 1 + x.val; omega
    | ⟨3, _⟩ => show f.val = 0 + f.val; omega
  refine (shapeCast_apply _ shapeCasts_S41616x64_S36x34x34x64 _
    (ix2 (⟨R.val + 2048, by omega⟩ : Fin 41616) f) ?_).trans ?_
  · rw [Shape.rowMajor_val_two, Shape.rowMajor_val_four]
    show (R.val + 2048) * 64 + f.val = (((d.val + 2) * 34 + (h.val + 1)) * 34 + (x.val + 1)) * 64 + f.val
    omega
  refine pad_apply_of_inside _ _ _ out padZero pads_S38912x64_S41616x64_20486560_000 h_S_ _ (ix2 R f) (fun b => ?_)
  match b with
  | ⟨0, _⟩ => show R.val + 2048 = 2048 + R.val * (0 + 1); omega
  | ⟨1, _⟩ => show f.val = 0 + f.val * (0 + 1); omega

/-- The whole value: the tail of the region's result function of the arrays the host prepares is the specification. -/
theorem tail_Gout (feat : S1x32x32x32x64.Idx → EReal) (index : S1x32x32x32.Idx → BitVec 32) (wt : S1728x64.Idx → EReal)
    (b : S64.Idx → EReal) :
    tailOf (Gout (fextOf feat) (shapeCast S27x64x64 wt shapeCasts_S1728x64_S27x64x64)
      (shapeCast S1x64 b shapeCasts_S64_S1x64) (maskOf index)) = ConvSpec.G feat index wt b := by
  funext i
  obtain ⟨a, d, h, x, f, rfl⟩ : ∃ (a : Fin 1) (d h x : Fin 32) (f : Fin 64), i = ix5 a d h x f :=
    ⟨i 0, i 1, i 2, i 3, i 4, eq_ix5 i⟩
  have hd := d.isLt
  have hh := h.isLt
  have hx := x.isLt
  have hRlt : (d.val + 2) * 1156 + (h.val + 1) * 34 + (x.val + 1) - 2048 < 38912 := by omega
  have hR : (⟨(d.val + 2) * 1156 + (h.val + 1) * 34 + (x.val + 1) - 2048, hRlt⟩ : Fin 38912).val + 2048
      = (d.val + 2) * 1156 + (h.val + 1) * 34 + (x.val + 1) := by
    show (d.val + 2) * 1156 + (h.val + 1) * 34 + (x.val + 1) - 2048 + 2048 = _
    omega
  rw [tail_apply _ a d h x f _ hR, ConvSpec.G_ix5]
  show GoutAt _ _ _ _ _ f = _
  unfold GoutAt ConvSpec.Gat ConvSpec.conv
  rw [mask_voxel index d h x f _ hR, bias_apply b f]
  refine congrArg (fun s : EReal => (s + b (ix1 f)) * (if index (ix4 (0 : Fin 1) d h x) ≠ 0 then 1 else 0)) ?_
  refine Finset.sum_congr rfl fun kk _ => Finset.sum_congr rfl fun c _ => ?_
  have hk := kk.isLt
  rw [w27_apply wt kk c f]
  refine congrArg (· * wt (ix2 (⟨kk.val * 64 + c.val, by omega⟩ : Fin 1728) f)) ?_
  refine fext_tap feat d h x kk c _ ?_
  show 857 + ((d.val + 2) * 1156 + (h.val + 1) * 34 + (x.val + 1) - 2048) + kk.val / 9 * 1156 + kk.val / 3 % 3 * 34 + kk.val % 3
    = (d.val + 1 + kk.val / 9) * 1156 + (h.val + kk.val / 3 % 3) * 34 + (x.val + kk.val % 3)
  omega

end Cert.KernelIdeal.KerTail

end
-- ==== Proof.KerValue.lean ====
/-
  The kernel's run, read: every weakly fair execution terminates with the result buffer holding the masked convolution of
  the four argument arrays, and the argument arrays unchanged.  The run's post names the result as the host operations
  after the region applied to the region's result array; that array is the blockwise function of the arrays the host
  operations before the region prepare; and the composition, entry by entry, is the specification.
-/
import proofs.«150033_g82085414961357_cont_sun_m_845_2_alg».proof.Proof.Gen.KernelIdeal.Frame
import proofs.«150033_g82085414961357_cont_sun_m_845_2_alg».proof.Proof.KerHost
import proofs.«150033_g82085414961357_cont_sun_m_845_2_alg».proof.Proof.KerBlock
import proofs.«150033_g82085414961357_cont_sun_m_845_2_alg».proof.Proof.KerTail
import proofs.«150033_g82085414961357_cont_sun_m_845_2_alg».proof.Proof.Spec
import Idealize.ShloMosaic.Lib.Pipeline.Value
import Idealize.ShloMosaic.Lib.Tactic

noncomputable section

namespace Cert.KernelIdeal.KerValue

open Idealize.ShloMosaic Idealize.ShloMosaic.TcCoe Idealize.SL.Sem Idealize.ShloMosaic.Tactic
open Cert.KernelIdeal Cert.KernelIdeal.Gen Cert.KernelIdeal.KerHost Cert.KernelIdeal.KerBlock Cert.KernelIdeal.KerTail

variable (m : (ℓ : Loc nD τ sig) → Buf (Elt Ideal) ℓ) (ρ : Dev nD → PrngReg)

/-- The result buffer after the host operations that follow the region: those operations of the region's result array. -/
theorem tail_eq (c : Dev nD) :
    (Pipeline.afterTail₀ cfgs (dats m) 0 (V0 m) [hostOps1, hostOps1_1, hostOps1_2] c main_v19 : S1x32x32x32x64.Idx → EReal)
      = tailOf ((dats m 0 c).arrAt 4 cfg0.N) := by
  unfold Pipeline.afterTail₀
  simp only [Gen.hostOps1, Gen.hostOps1_1, Gen.hostOps1_2, List.flatten_cons, List.flatten_nil, List.append_nil,
    List.cons_append, List.nil_append]
  after_results
  have hw := Pipeline.withArrays_arr (τ := τ) spec0 launch0.win.arr_inj c (V0 m c) (fun w => (dats m 0 c).arrAt w (cfgs 0).N) 4
  refine Eq.trans ?_ (congrArg tailOf hw)
  rfl

/-- It is the specification of the argument arrays. -/
theorem result_eq (c : Dev nD) :
    (Pipeline.afterTail₀ cfgs (dats m) 0 (V0 m) [hostOps1, hostOps1_1, hostOps1_2] c main_v19 : S1x32x32x32x64.Idx → EReal)
      = ConvSpec.G (m ((c.tc : Thread nD τ).loc main_arg0)) (m ((c.tc : Thread nD τ).loc main_arg1))
          (m ((c.tc : Thread nD τ).loc main_arg2)) (m ((c.tc : Thread nD τ).loc main_arg3)) := by
  refine (tail_eq m c).trans ((congrArg tailOf (KerBlock.final m c)).trans ?_)
  have e := tail_Gout (m ((c.tc : Thread nD τ).loc main_arg0)) (m ((c.tc : Thread nD τ).loc main_arg1))
    (m ((c.tc : Thread nD τ).loc main_arg2)) (m ((c.tc : Thread nD τ).loc main_arg3))
  rw [← V_fext m c, ← V_mask m c, ← V_w27 m c, ← V_bias m c] at e
  exact e

/-- The kernel's run: the result holds the specification of the arguments, the arguments are unchanged. -/
theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev nD,
      r.2.mem ((c.tc : Thread nD τ).loc main_v19) = ConvSpec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.RefOps.lean ====
/-
  The reference program's @main as one list of host operations: its 188 statements with the ten module-local functions'
  bodies written out at their sixteen call sites over each call's buffer record — 348 operations in program order.
-/
import proofs.«150033_g82085414961357_cont_sun_m_845_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- @main's operations, the calls written out, in order. -/
abbrev ops : List (HloOp τ sig (Elt Ideal)) :=
  [ nullary main_c (fun i => lit0 (S3x27.rowMajor i)),
    nullary main_c_0 (constantI S3 32 32#32),
    nullary main_c_1 (constantI S_ 32 0#32),
    unary main_c_1 main_v0 (broadcastInDim S1x32x32x32 ![] bcast_S_S1x32x32x32 : (⟨S_, .i32⟩ : BufTy).Contents (Elt Ideal) → (⟨S1x32x32x32, .i32⟩ : BufTy).Contents (Elt Ideal)),
    binary main_arg1 main_v0 main_v1 (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)),
    TRef.reshape (TRef.of (T := ⟨S1x32x32x32, .i1⟩) main_v1) main_call0.v0 rfl shapeCasts_S1x32x32x32_S32768,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![32768] ![1] ![32767] ![0] x v reduceWindows_S32768_S32768_w32768s1p32767_0 h_S_),
    nullary main_c_2 (constantI S_ 32 0#32),
    unary main_c_2 main_v3 (broadcastInDim S32768 ![] bcast_S_S32768 : (⟨S_, .i32⟩ : BufTy).Contents (Elt Ideal) → (⟨S32768, .i32⟩ : BufTy).Contents (Elt Ideal)),
    nullary main_c_3 (constantI S_ 32 0#32),
    TRef.unary (TRef.of (T := ⟨S_, .i32⟩) main_c_3) main_call1.v0 id,
    TRef.unary main_call1.v0 main_call1.v1 (broadcastInDim S32768 ![] bcast_S_S32768),
    TRef.binary main_call1.v1 (TRef.of (T := ⟨S32768, .i32⟩) main_v2) main_call1.v2 maxsi,
    nullary main_c_4 (constantI S_ 32 0#32),
    unary main_c_4 main_v5 (broadcastInDim S32768 ![] bcast_S_S32768 : (⟨S_, .i32⟩ : BufTy).Contents (Elt Ideal) → (⟨S32768, .i32⟩ : BufTy).Contents (Elt Ideal)),
    binary main_v4 main_v5 main_v6 (cmpi .slt : (⟨S32768, .i32⟩ : BufTy).Contents (Elt Ideal) → (⟨S32768, .i32⟩ : BufTy).Contents (Elt Ideal) → (⟨S32768, .i1⟩ : BufTy).Contents (Elt Ideal)),
    nullary main_c_5 (constantI S_ 32 32768#32),
    unary main_c_5 main_v7 (broadcastInDim S32768 ![] bcast_S_S32768 : (⟨S_, .i32⟩ : BufTy).Contents (Elt Ideal) → (⟨S32768, .i32⟩ : BufTy).Contents (Elt Ideal)),
    binary main_v4 main_v7 main_v8 (addi : (⟨S32768, .i32⟩ : BufTy).Contents (Elt Ideal) → (⟨S32768, .i32⟩ : BufTy).Contents (Elt Ideal) → (⟨S32768, .i32⟩ : BufTy).Contents (Elt Ideal)),
    ternary main_v6 main_v8 main_v4 main_v9 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    unary main_v9 main_v10 (broadcastInDim S32768x1 ![0] bcast_S32768_S32768x1_0 : (⟨S32768, .i32⟩ : BufTy).Contents (Elt Ideal) → (⟨S32768x1, .i32⟩ : BufTy).Contents (Elt Ideal)),
    nullary main_c_6 (constantI S_ 32 1#32),
    unary main_c_6 main_v11 (broadcastInDim S32768 ![] bcast_S_S32768 : (⟨S_, .i32⟩ : BufTy).Contents (Elt Ideal) → (⟨S32768, .i32⟩ : BufTy).Contents (Elt Ideal)),
    ternary main_v3 main_v10 main_v11 main_v12 ((fun x i u => Host.scatter scatter_S32768_S32768x1_S32768_n_0_0_1 IntOp.addi x i u) : (⟨S32768, .i32⟩ : BufTy).Contents (Elt Ideal) → (⟨S32768x1, .i32⟩ : BufTy).Contents (Elt Ideal) → (⟨S32768, .i32⟩ : BufTy).Contents (Elt Ideal) → (⟨S32768, .i32⟩ : BufTy).Contents (Elt Ideal)),
    TRef.nullary main_call2.call0.c (constantI S_ 32 0#32),
    TRef.unary main_call2.call0.c main_call2.call0.v0 (broadcastInDim S_ ![] bcast_S_S_),
    TRef.binary (TRef.of (T := ⟨S32768, .i32⟩) main_v12) main_call2.call0.v0 main_call2.call0.v1 (fun x v => Host.reduceWindow IntOp.addi ![32768] ![1] ![32767] ![0] x v reduceWindows_S32768_S32768_w32768s1p32767_0 h_S_),
    nullary main_c_7 (constantI S_ 32 32768#32),
    TRef.unary (TRef.of (T := ⟨S_, .i32⟩) main_c_7) main_call3.v0 (broadcastInDim S32768 ![] bcast_S_S32768),
    TRef.binary (TRef.of (T := ⟨S32768, .i32⟩) main_v13) main_call3.v0 main_call3.v1 Host.divsi,
    TRef.unary (TRef.of (T := ⟨S32768, .i32⟩) main_v13) main_call3.v2 signi,
    TRef.unary (TRef.of (T := ⟨S_, .i32⟩) main_c_7) main_call3.v3 signi,
    TRef.unary main_call3.v3 main_call3.v4 (broadcastInDim S32768 ![] bcast_S_S32768),
    TRef.binary main_call3.v2 main_call3.v4 main_call3.v5 (cmpi .ne),
    TRef.unary (TRef.of (T := ⟨S_, .i32⟩) main_c_7) main_call3.v6 (broadcastInDim S32768 ![] bcast_S_S32768),
    TRef.binary (TRef.of (T := ⟨S32768, .i32⟩) main_v13) main_call3.v6 main_call3.v7 Host.remsi,
    TRef.nullary main_call3.c (constantI S_ 32 0#32),
    TRef.unary main_call3.c main_call3.v8 (broadcastInDim S32768 ![] bcast_S_S32768),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S32768 ![] bcast_S_S32768),
    TRef.binary main_call3.v1 main_call3.v11 main_call3.v12 subi,
    TRef.ternary main_call3.v10 main_call3.v12 main_call3.v1 main_call3.call0.v0 select,
    nullary main_c_8 (constantI S_ 32 1#32),
    TRef.unary (TRef.of (T := ⟨S_, .i32⟩) main_c_8) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S32768 ![] bcast_S_S32768),
    TRef.binary (TRef.of (T := ⟨S32768, .i32⟩) main_v14) main_call4.v3 main_call4.v4 Host.remsi,
    TRef.nullary main_call4.c_1 (constantI S_ 32 0#32),
    TRef.unary main_call4.c_1 main_call4.v5 (broadcastInDim S32768 ![] bcast_S_S32768),
    TRef.binary main_call4.v4 main_call4.v5 main_call4.v6 (cmpi .ne),
    TRef.nullary main_call4.c_2 (constantI S_ 32 0#32),
    TRef.unary main_call4.c_2 main_call4.v7 (broadcastInDim S32768 ![] bcast_S_S32768),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S32768 ![] bcast_S_S32768),
    TRef.binary main_call4.v8 main_call4.v10 main_call4.v11 (cmpi .ne),
    TRef.binary main_call4.v11 main_call4.v6 main_call4.v12 andi,
    TRef.unary main_call4.call0.v0 main_call4.v13 (broadcastInDim S32768 ![] bcast_S_S32768),
    TRef.binary main_call4.v4 main_call4.v13 main_call4.v14 addi,
    TRef.ternary main_call4.v12 main_call4.v14 main_call4.v4 main_call4.v15 select,
    nullary main_c_9 (constantI S_ 32 1024#32),
    TRef.unary (TRef.of (T := ⟨S_, .i32⟩) main_c_9) main_call5.v0 (broadcastInDim S32768 ![] bcast_S_S32768),
    TRef.binary (TRef.of (T := ⟨S32768, .i32⟩) main_v13) main_call5.v0 main_call5.v1 Host.divsi,
    TRef.unary (TRef.of (T := ⟨S32768, .i32⟩) main_v13) main_call5.v2 signi,
    TRef.unary (TRef.of (T := ⟨S_, .i32⟩) main_c_9) main_call5.v3 signi,
    TRef.unary main_call5.v3 main_call5.v4 (broadcastInDim S32768 ![] bcast_S_S32768),
    TRef.binary main_call5.v2 main_call5.v4 main_call5.v5 (cmpi .ne),
    TRef.unary (TRef.of (T := ⟨S_, .i32⟩) main_c_9) main_call5.v6 (broadcastInDim S32768 ![] bcast_S_S32768),
    TRef.binary (TRef.of (T := ⟨S32768, .i32⟩) main_v13) main_call5.v6 main_call5.v7 Host.remsi,
    TRef.nullary main_call5.c (constantI S_ 32 0#32),
    TRef.unary main_call5.c main_call5.v8 (broadcastInDim S32768 ![] bcast_S_S32768),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S32768 ![] bcast_S_S32768),
    TRef.binary main_call5.v1 main_call5.v11 main_call5.v12 subi,
    TRef.ternary main_call5.v10 main_call5.v12 main_call5.v1 main_call5.call0.v0 select,
    nullary main_c_10 (constantI S_ 32 32#32),
    TRef.unary (TRef.of (T := ⟨S_, .i32⟩) main_c_10) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S32768 ![] bcast_S_S32768),
    TRef.binary (TRef.of (T := ⟨S32768, .i32⟩) main_v16) main_call6.v3 main_call6.v4 Host.remsi,
    TRef.nullary main_call6.c_1 (constantI S_ 32 0#32),
    TRef.unary main_call6.c_1 main_call6.v5 (broadcastInDim S32768 ![] bcast_S_S32768),
    TRef.binary main_call6.v4 main_call6.v5 main_call6.v6 (cmpi .ne),
    TRef.nullary main_call6.c_2 (constantI S_ 32 0#32),
    TRef.unary main_call6.c_2 main_call6.v7 (broadcastInDim S32768 ![] bcast_S_S32768),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S32768 ![] bcast_S_S32768),
    TRef.binary main_call6.v8 main_call6.v10 main_call6.v11 (cmpi .ne),
    TRef.binary main_call6.v11 main_call6.v6 main_call6.v12 andi,
    TRef.unary main_call6.call0.v0 main_call6.v13 (broadcastInDim S32768 ![] bcast_S_S32768),
    TRef.binary main_call6.v4 main_call6.v13 main_call6.v14 addi,
    TRef.ternary main_call6.v12 main_call6.v14 main_call6.v4 main_call6.v15 select,
    nullary main_c_11 (constantI S_ 32 32#32),
    TRef.unary (TRef.of (T := ⟨S_, .i32⟩) main_c_11) main_call7.v0 (broadcastInDim S32768 ![] bcast_S_S32768),
    TRef.binary (TRef.of (T := ⟨S32768, .i32⟩) main_v13) main_call7.v0 main_call7.v1 Host.divsi,
    TRef.unary (TRef.of (T := ⟨S32768, .i32⟩) main_v13) main_call7.v2 signi,
    TRef.unary (TRef.of (T := ⟨S_, .i32⟩) main_c_11) main_call7.v3 signi,
    TRef.unary main_call7.v3 main_call7.v4 (broadcastInDim S32768 ![] bcast_S_S32768),
    TRef.binary main_call7.v2 main_call7.v4 main_call7.v5 (cmpi .ne),
    TRef.unary (TRef.of (T := ⟨S_, .i32⟩) main_c_11) main_call7.v6 (broadcastInDim S32768 ![] bcast_S_S32768),
    TRef.binary (TRef.of (T := ⟨S32768, .i32⟩) main_v13) main_call7.v6 main_call7.v7 Host.remsi,
    TRef.nullary main_call7.c (constantI S_ 32 0#32),
    TRef.unary main_call7.c main_call7.v8 (broadcastInDim S32768 ![] bcast_S_S32768),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S32768 ![] bcast_S_S32768),
    TRef.binary main_call7.v1 main_call7.v11 main_call7.v12 subi,
    TRef.ternary main_call7.v10 main_call7.v12 main_call7.v1 main_call7.call0.v0 select,
    nullary main_c_12 (constantI S_ 32 32#32),
    TRef.unary (TRef.of (T := ⟨S_, .i32⟩) main_c_12) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S32768 ![] bcast_S_S32768),
    TRef.binary (TRef.of (T := ⟨S32768, .i32⟩) main_v18) main_call8.v3 main_call8.v4 Host.remsi,
    TRef.nullary main_call8.c_1 (constantI S_ 32 0#32),
    TRef.unary main_call8.c_1 main_call8.v5 (broadcastInDim S32768 ![] bcast_S_S32768),
    TRef.binary main_call8.v4 main_call8.v5 main_call8.v6 (cmpi .ne),
    TRef.nullary main_call8.c_2 (constantI S_ 32 0#32),
    TRef.unary main_call8.c_2 main_call8.v7 (broadcastInDim S32768 ![] bcast_S_S32768),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S32768 ![] bcast_S_S32768),
    TRef.binary main_call8.v8 main_call8.v10 main_call8.v11 (cmpi .ne),
    TRef.binary main_call8.v11 main_call8.v6 main_call8.v12 andi,
    TRef.unary main_call8.call0.v0 main_call8.v13 (broadcastInDim S32768 ![] bcast_S_S32768),
    TRef.binary main_call8.v4 main_call8.v13 main_call8.v14 addi,
    TRef.ternary main_call8.v12 main_call8.v14 main_call8.v4 main_call8.v15 select,
    nullary main_c_13 (constantI S_ 32 1#32),
    TRef.unary (TRef.of (T := ⟨S_, .i32⟩) main_c_13) main_call9.v0 (broadcastInDim S32768 ![] bcast_S_S32768),
    TRef.binary (TRef.of (T := ⟨S32768, .i32⟩) main_v13) main_call9.v0 main_call9.v1 Host.divsi,
    TRef.unary (TRef.of (T := ⟨S32768, .i32⟩) main_v13) main_call9.v2 signi,
    TRef.unary (TRef.of (T := ⟨S_, .i32⟩) main_c_13) main_call9.v3 signi,
    TRef.unary main_call9.v3 main_call9.v4 (broadcastInDim S32768 ![] bcast_S_S32768),
    TRef.binary main_call9.v2 main_call9.v4 main_call9.v5 (cmpi .ne),
    TRef.unary (TRef.of (T := ⟨S_, .i32⟩) main_c_13) main_call9.v6 (broadcastInDim S32768 ![] bcast_S_S32768),
    TRef.binary (TRef.of (T := ⟨S32768, .i32⟩) main_v13) main_call9.v6 main_call9.v7 Host.remsi,
    TRef.nullary main_call9.c (constantI S_ 32 0#32),
    TRef.unary main_call9.c main_call9.v8 (broadcastInDim S32768 ![] bcast_S_S32768),
    TRef.binary main_call9.v7 main_call9.v8 main_call9.v9 (cmpi .ne),
    TRef.binary main_call9.v5 main_call9.v9 main_call9.v10 andi,
    TRef.nullary main_call9.c_0 (constantI S_ 32 1#32),
    TRef.unary main_call9.c_0 main_call9.v11 (broadcastInDim S32768 ![] bcast_S_S32768),
    TRef.binary main_call9.v1 main_call9.v11 main_call9.v12 subi,
    TRef.ternary main_call9.v10 main_call9.v12 main_call9.v1 main_call9.call0.v0 select,
    nullary main_c_14 (constantI S_ 32 32#32),
    TRef.unary (TRef.of (T := ⟨S_, .i32⟩) main_c_14) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S32768 ![] bcast_S_S32768),
    TRef.binary (TRef.of (T := ⟨S32768, .i32⟩) main_v20) main_call10.v3 main_call10.v4 Host.remsi,
    TRef.nullary main_call10.c_1 (constantI S_ 32 0#32),
    TRef.unary main_call10.c_1 main_call10.v5 (broadcastInDim S32768 ![] bcast_S_S32768),
    TRef.binary main_call10.v4 main_call10.v5 main_call10.v6 (cmpi .ne),
    TRef.nullary main_call10.c_2 (constantI S_ 32 0#32),
    TRef.unary main_call10.c_2 main_call10.v7 (broadcastInDim S32768 ![] bcast_S_S32768),
    TRef.binary main_call10.v4 main_call10.v7 main_call10.v8 (cmpi .slt),
    TRef.nullary main_call10.c_3 (constantI S_ 32 0#32),
    TRef.binary main_call10.call0.v0 main_call10.c_3 main_call10.v9 (cmpi .slt),
    TRef.unary main_call10.v9 main_call10.v10 (broadcastInDim S32768 ![] bcast_S_S32768),
    TRef.binary main_call10.v8 main_call10.v10 main_call10.v11 (cmpi .ne),
    TRef.binary main_call10.v11 main_call10.v6 main_call10.v12 andi,
    TRef.unary main_call10.call0.v0 main_call10.v13 (broadcastInDim S32768 ![] bcast_S_S32768),
    TRef.binary main_call10.v4 main_call10.v13 main_call10.v14 addi,
    TRef.ternary main_call10.v12 main_call10.v14 main_call10.v4 main_call10.v15 select,
    nullary main_v22 (iotaInDim S32768 32 0),
    unary main_v1 main_v23 ((extui 32 · natLt_1_32) : (⟨S1x32x32x32, .i1⟩ : BufTy).Contents (Elt Ideal) → (⟨S1x32x32x32, .i32⟩ : BufTy).Contents (Elt Ideal)),
    nullary main_c_15 (constantI S_ 32 0#32),
    binary main_v23 main_c_15 main_v24 ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)),
    unary main_v24 main_v25 (broadcastInDim S32768 ![] bcast_S_S32768 : (⟨S_, .i32⟩ : BufTy).Contents (Elt Ideal) → (⟨S32768, .i32⟩ : BufTy).Contents (Elt Ideal)),
    binary main_v22 main_v25 main_v26 (cmpi .sge : (⟨S32768, .i32⟩ : BufTy).Contents (Elt Ideal) → (⟨S32768, .i32⟩ : BufTy).Contents (Elt Ideal) → (⟨S32768, .i1⟩ : BufTy).Contents (Elt Ideal)),
    nullary main_c_16 (constantI S_ 32 0#32),
    TRef.unary (TRef.of (T := ⟨S_, .i32⟩) main_c_16) main_call11.v0 id,
    TRef.unary main_call11.v0 main_call11.v1 (broadcastInDim S32768 ![] bcast_S_S32768),
    TRef.ternary (TRef.of (T := ⟨S32768, .i1⟩) main_v26) main_call11.v1 (TRef.of (T := ⟨S32768, .i32⟩) main_v15) main_call11.v2 select,
    nullary main_c_17 (constantI S_ 32 0#32),
    TRef.unary (TRef.of (T := ⟨S_, .i32⟩) main_c_17) main_call12.v0 id,
    TRef.unary main_call12.v0 main_call12.v1 (broadcastInDim S32768 ![] bcast_S_S32768),
    TRef.ternary (TRef.of (T := ⟨S32768, .i1⟩) main_v26) main_call12.v1 (TRef.of (T := ⟨S32768, .i32⟩) main_v17) main_call12.v2 select,
    nullary main_c_18 (constantI S_ 32 0#32),
    TRef.unary (TRef.of (T := ⟨S_, .i32⟩) main_c_18) main_call13.v0 id,
    TRef.unary main_call13.v0 main_call13.v1 (broadcastInDim S32768 ![] bcast_S_S32768),
    TRef.ternary (TRef.of (T := ⟨S32768, .i1⟩) main_v26) main_call13.v1 (TRef.of (T := ⟨S32768, .i32⟩) main_v19) main_call13.v2 select,
    nullary main_c_19 (constantI S_ 32 0#32),
    TRef.unary (TRef.of (T := ⟨S_, .i32⟩) main_c_19) main_call14.v0 id,
    TRef.unary main_call14.v0 main_call14.v1 (broadcastInDim S32768 ![] bcast_S_S32768),
    TRef.ternary (TRef.of (T := ⟨S32768, .i1⟩) main_v26) main_call14.v1 (TRef.of (T := ⟨S32768, .i32⟩) main_v21) main_call14.v2 select,
    unary main_v27 main_v31 (broadcastInDim S32768x1 ![0] bcast_S32768_S32768x1_0 : (⟨S32768, .i32⟩ : BufTy).Contents (Elt Ideal) → (⟨S32768x1, .i32⟩ : BufTy).Contents (Elt Ideal)),
    unary main_v28 main_v32 (broadcastInDim S32768x1 ![0] bcast_S32768_S32768x1_0 : (⟨S32768, .i32⟩ : BufTy).Contents (Elt Ideal) → (⟨S32768x1, .i32⟩ : BufTy).Contents (Elt Ideal)),
    unary main_v29 main_v33 (broadcastInDim S32768x1 ![0] bcast_S32768_S32768x1_0 : (⟨S32768, .i32⟩ : BufTy).Contents (Elt Ideal) → (⟨S32768x1, .i32⟩ : BufTy).Contents (Elt Ideal)),
    unary main_v30 main_v34 (broadcastInDim S32768x1 ![0] bcast_S32768_S32768x1_0 : (⟨S32768, .i32⟩ : BufTy).Contents (Elt Ideal) → (⟨S32768x1, .i32⟩ : BufTy).Contents (Elt Ideal)),
    nary ![main_v31, main_v32, main_v33, main_v34] main_v35 (fun u => concatenate S32768x4 1 [⟨S32768x1, u 0⟩, ⟨S32768x1, u 1⟩, ⟨S32768x1, u 2⟩, ⟨S32768x1, u 3⟩] concatenates_S32768x1_S32768x1_S32768x1_S32768x1_S32768x4_d1),
    nullary main_c_20 (constantI S_ 32 0#32),
    unary main_c_20 main_v36 (broadcastInDim S1x32x32x32 ![] bcast_S_S1x32x32x32 : (⟨S_, .i32⟩ : BufTy).Contents (Elt Ideal) → (⟨S1x32x32x32, .i32⟩ : BufTy).Contents (Elt Ideal)),
    binary main_arg1 main_v36 main_v37 (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)),
    unary main_v37 main_v38 ((extui 32 · natLt_1_32) : (⟨S1x32x32x32, .i1⟩ : BufTy).Contents (Elt Ideal) → (⟨S1x32x32x32, .i32⟩ : BufTy).Contents (Elt Ideal)),
    nullary main_c_21 (constantI S_ 32 0#32),
    binary main_v38 main_c_21 main_v39 ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)),
    nullary main_v40 (iotaInDim S32768 32 0),
    unary main_v39 main_v41 (broadcastInDim S32768 ![] bcast_S_S32768 : (⟨S_, .i32⟩ : BufTy).Contents (Elt Ideal) → (⟨S32768, .i32⟩ : BufTy).Contents (Elt Ideal)),
    binary main_v40 main_v41 main_v42 (cmpi .slt : (⟨S32768, .i32⟩ : BufTy).Contents (Elt Ideal) → (⟨S32768, .i32⟩ : BufTy).Contents (Elt Ideal) → (⟨S32768, .i1⟩ : BufTy).Contents (Elt Ideal)),
    unary main_v42 main_v43 (uitofp (F := Ideal) .f32 : (⟨S32768, .i1⟩ : BufTy).Contents (Elt Ideal) → (⟨S32768, .f32⟩ : BufTy).Contents (Elt Ideal)),
    unary main_v35 main_v44 ((extractStridedSlice S32768x1 ![0, 0] · slices_S32768x4_S32768x1_0_0) : (⟨S32768x4, .i32⟩ : BufTy).Contents (Elt Ideal) → (⟨S32768x1, .i32⟩ : BufTy).Contents (Elt Ideal)),
    reshape main_v44 main_v45 rfl shapeCasts_S32768x1_S32768,
    unary main_v35 main_v46 ((extractStridedSlice S32768x3 ![0, 1] · slices_S32768x4_S32768x3_0_1) : (⟨S32768x4, .i32⟩ : BufTy).Contents (Elt Ideal) → (⟨S32768x3, .i32⟩ : BufTy).Contents (Elt Ideal)),
    unary main_v46 main_v47 (broadcastInDim S32768x3x1 ![0, 1] bcast_S32768x3_S32768x3x1_0_1 : (⟨S32768x3, .i32⟩ : BufTy).Contents (Elt Ideal) → (⟨S32768x3x1, .i32⟩ : BufTy).Contents (Elt Ideal)),
    unary main_c main_v48 (broadcastInDim S1x3x27 ![1, 2] bcast_S3x27_S1x3x27_1_2 : (⟨S3x27, .i32⟩ : BufTy).Contents (Elt Ideal) → (⟨S1x3x27, .i32⟩ : BufTy).Contents (Elt Ideal)),
    unary main_v47 main_v49 (broadcastInDim S32768x3x27 ![0, 1, 2] bcast_S32768x3x1_S32768x3x27_0_1_2 : (⟨S32768x3x1, .i32⟩ : BufTy).Contents (Elt Ideal) → (⟨S32768x3x27, .i32⟩ : BufTy).Contents (Elt Ideal)),
    unary main_v48 main_v50 (broadcastInDim S32768x3x27 ![0, 1, 2] bcast_S1x3x27_S32768x3x27_0_1_2 : (⟨S1x3x27, .i32⟩ : BufTy).Contents (Elt Ideal) → (⟨S32768x3x27, .i32⟩ : BufTy).Contents (Elt Ideal)),
    binary main_v49 main_v50 main_v51 (addi : (⟨S32768x3x27, .i32⟩ : BufTy).Contents (Elt Ideal) → (⟨S32768x3x27, .i32⟩ : BufTy).Contents (Elt Ideal) → (⟨S32768x3x27, .i32⟩ : BufTy).Contents (Elt Ideal)),
    nullary main_c_22 (constantI S_ 32 0#32),
    unary main_c_22 main_v52 (broadcastInDim S32768x3x27 ![] bcast_S_S32768x3x27 : (⟨S_, .i32⟩ : BufTy).Contents (Elt Ideal) → (⟨S32768x3x27, .i32⟩ : BufTy).Contents (Elt Ideal)),
    binary main_v51 main_v52 main_v53 (cmpi .sge : (⟨S32768x3x27, .i32⟩ : BufTy).Contents (Elt Ideal) → (⟨S32768x3x27, .i32⟩ : BufTy).Contents (Elt Ideal) → (⟨S32768x3x27, .i1⟩ : BufTy).Contents (Elt Ideal)),
    unary main_c_0 main_v54 (broadcastInDim S1x3x1 ![1] bcast_S3_S1x3x1_1 : (⟨S3, .i32⟩ : BufTy).Contents (Elt Ideal) → (⟨S1x3x1, .i32⟩ : BufTy).Contents (Elt Ideal)),
    unary main_v54 main_v55 (broadcastInDim S32768x3x27 ![0, 1, 2] bcast_S1x3x1_S32768x3x27_0_1_2 : (⟨S1x3x1, .i32⟩ : BufTy).Contents (Elt Ideal) → (⟨S32768x3x27, .i32⟩ : BufTy).Contents (Elt Ideal)),
    binary main_v51 main_v55 main_v56 (cmpi .slt : (⟨S32768x3x27, .i32⟩ : BufTy).Contents (Elt Ideal) → (⟨S32768x3x27, .i32⟩ : BufTy).Contents (Elt Ideal) → (⟨S32768x3x27, .i1⟩ : BufTy).Contents (Elt Ideal)),
    binary main_v53 main_v56 main_v57 (andi : (⟨S32768x3x27, .i1⟩ : BufTy).Contents (Elt Ideal) → (⟨S32768x3x27, .i1⟩ : BufTy).Contents (Elt Ideal) → (⟨S32768x3x27, .i1⟩ : BufTy).Contents (Elt Ideal)),
    nullary main_c_23 (constantI S_ 1 1#1),
    binary main_v57 main_c_23 main_v58 ((fun x v => Host.reduce IntOp.andi x v reducesTo_S32768x3x27_S32768x27_d1 h_S_) : (⟨S32768x3x27, .i1⟩ : BufTy).Contents (Elt Ideal) → (⟨S_, .i1⟩ : BufTy).Contents (Elt Ideal) → (⟨S32768x27, .i1⟩ : BufTy).Contents (Elt Ideal)),
    nullary main_c_24 (constantI S_ 32 1#32),
    unary main_c_24 main_v59 (broadcastInDim S3 ![] bcast_S_S3 : (⟨S_, .i32⟩ : BufTy).Contents (Elt Ideal) → (⟨S3, .i32⟩ : BufTy).Contents (Elt Ideal)),
    binary main_c_0 main_v59 main_v60 (subi : (⟨S3, .i32⟩ : BufTy).Contents (Elt Ideal) → (⟨S3, .i32⟩ : BufTy).Contents (Elt Ideal) → (⟨S3, .i32⟩ : BufTy).Contents (Elt Ideal)),
    unary main_v60 main_v61 (broadcastInDim S1x3x1 ![1] bcast_S3_S1x3x1_1 : (⟨S3, .i32⟩ : BufTy).Contents (Elt Ideal) → (⟨S1x3x1, .i32⟩ : BufTy).Contents (Elt Ideal)),
    nullary main_c_25 (constantI S_ 32 0#32),
    TRef.unary (TRef.of (T := ⟨S_, .i32⟩) main_c_25) main_call15.v0 id,
    TRef.unary main_call15.v0 main_call15.v1 (broadcastInDim S32768x3x27 ![] bcast_S_S32768x3x27),
    TRef.binary main_call15.v1 (TRef.of (T := ⟨S32768x3x27, .i32⟩) main_v51) main_call15.v2 maxsi,
    TRef.unary (TRef.of (T := ⟨S1x3x1, .i32⟩) main_v61) main_call15.v3 (broadcastInDim S32768x3x27 ![0, 1, 2] bcast_S1x3x1_S32768x3x27_0_1_2),
    TRef.binary main_call15.v3 main_call15.v2 main_call15.v4 minsi,
    unary main_v45 main_v63 (broadcastInDim S32768x1 ![0] bcast_S32768_S32768x1_0 : (⟨S32768, .i32⟩ : BufTy).Contents (Elt Ideal) → (⟨S32768x1, .i32⟩ : BufTy).Contents (Elt Ideal)),
    unary main_v63 main_v64 (broadcastInDim S32768x27 ![0, 1] bcast_S32768x1_S32768x27_0_1 : (⟨S32768x1, .i32⟩ : BufTy).Contents (Elt Ideal) → (⟨S32768x27, .i32⟩ : BufTy).Contents (Elt Ideal)),
    unary main_v62 main_v65 ((extractStridedSlice S32768x1x27 ![0, 0, 0] · slices_S32768x3x27_S32768x1x27_0_0_0) : (⟨S32768x3x27, .i32⟩ : BufTy).Contents (Elt Ideal) → (⟨S32768x1x27, .i32⟩ : BufTy).Contents (Elt Ideal)),
    reshape main_v65 main_v66 rfl shapeCasts_S32768x1x27_S32768x27,
    unary main_v62 main_v67 ((extractStridedSlice S32768x1x27 ![0, 1, 0] · slices_S32768x3x27_S32768x1x27_0_1_0) : (⟨S32768x3x27, .i32⟩ : BufTy).Contents (Elt Ideal) → (⟨S32768x1x27, .i32⟩ : BufTy).Contents (Elt Ideal)),
    reshape main_v67 main_v68 rfl shapeCasts_S32768x1x27_S32768x27,
    unary main_v62 main_v69 ((extractStridedSlice S32768x1x27 ![0, 2, 0] · slices_S32768x3x27_S32768x1x27_0_2_0) : (⟨S32768x3x27, .i32⟩ : BufTy).Contents (Elt Ideal) → (⟨S32768x1x27, .i32⟩ : BufTy).Contents (Elt Ideal)),
    reshape main_v69 main_v70 rfl shapeCasts_S32768x1x27_S32768x27,
    nullary main_c_26 (constantI S_ 32 0#32),
    unary main_c_26 main_v71 (broadcastInDim S32768x27 ![] bcast_S_S32768x27 : (⟨S_, .i32⟩ : BufTy).Contents (Elt Ideal) → (⟨S32768x27, .i32⟩ : BufTy).Contents (Elt Ideal)),
    binary main_v64 main_v71 main_v72 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_27 (constantI S_ 32 1#32),
    unary main_c_27 main_v73 (broadcastInDim S32768x27 ![] bcast_S_S32768x27 : (⟨S_, .i32⟩ : BufTy).Contents (Elt Ideal) → (⟨S32768x27, .i32⟩ : BufTy).Contents (Elt Ideal)),
    binary main_v64 main_v73 main_v74 (addi : (⟨S32768x27, .i32⟩ : BufTy).Contents (Elt Ideal) → (⟨S32768x27, .i32⟩ : BufTy).Contents (Elt Ideal) → (⟨S32768x27, .i32⟩ : BufTy).Contents (Elt Ideal)),
    ternary main_v72 main_v74 main_v64 main_v75 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_28 (constantI S_ 32 0#32),
    unary main_c_28 main_v76 (broadcastInDim S32768x27 ![] bcast_S_S32768x27 : (⟨S_, .i32⟩ : BufTy).Contents (Elt Ideal) → (⟨S32768x27, .i32⟩ : BufTy).Contents (Elt Ideal)),
    binary main_v66 main_v76 main_v77 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_29 (constantI S_ 32 32#32),
    unary main_c_29 main_v78 (broadcastInDim S32768x27 ![] bcast_S_S32768x27 : (⟨S_, .i32⟩ : BufTy).Contents (Elt Ideal) → (⟨S32768x27, .i32⟩ : BufTy).Contents (Elt Ideal)),
    binary main_v66 main_v78 main_v79 (addi : (⟨S32768x27, .i32⟩ : BufTy).Contents (Elt Ideal) → (⟨S32768x27, .i32⟩ : BufTy).Contents (Elt Ideal) → (⟨S32768x27, .i32⟩ : BufTy).Contents (Elt Ideal)),
    ternary main_v77 main_v79 main_v66 main_v80 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_30 (constantI S_ 32 0#32),
    unary main_c_30 main_v81 (broadcastInDim S32768x27 ![] bcast_S_S32768x27 : (⟨S_, .i32⟩ : BufTy).Contents (Elt Ideal) → (⟨S32768x27, .i32⟩ : BufTy).Contents (Elt Ideal)),
    binary main_v68 main_v81 main_v82 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_31 (constantI S_ 32 32#32),
    unary main_c_31 main_v83 (broadcastInDim S32768x27 ![] bcast_S_S32768x27 : (⟨S_, .i32⟩ : BufTy).Contents (Elt Ideal) → (⟨S32768x27, .i32⟩ : BufTy).Contents (Elt Ideal)),
    binary main_v68 main_v83 main_v84 (addi : (⟨S32768x27, .i32⟩ : BufTy).Contents (Elt Ideal) → (⟨S32768x27, .i32⟩ : BufTy).Contents (Elt Ideal) → (⟨S32768x27, .i32⟩ : BufTy).Contents (Elt Ideal)),
    ternary main_v82 main_v84 main_v68 main_v85 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_32 (constantI S_ 32 0#32),
    unary main_c_32 main_v86 (broadcastInDim S32768x27 ![] bcast_S_S32768x27 : (⟨S_, .i32⟩ : BufTy).Contents (Elt Ideal) → (⟨S32768x27, .i32⟩ : BufTy).Contents (Elt Ideal)),
    binary main_v70 main_v86 main_v87 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_33 (constantI S_ 32 32#32),
    unary main_c_33 main_v88 (broadcastInDim S32768x27 ![] bcast_S_S32768x27 : (⟨S_, .i32⟩ : BufTy).Contents (Elt Ideal) → (⟨S32768x27, .i32⟩ : BufTy).Contents (Elt Ideal)),
    binary main_v70 main_v88 main_v89 (addi : (⟨S32768x27, .i32⟩ : BufTy).Contents (Elt Ideal) → (⟨S32768x27, .i32⟩ : BufTy).Contents (Elt Ideal) → (⟨S32768x27, .i32⟩ : BufTy).Contents (Elt Ideal)),
    ternary main_v87 main_v89 main_v70 main_v90 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    unary main_v75 main_v91 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v80 main_v92 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v85 main_v93 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v90 main_v94 (broadcastInDim S32768x27x1 ![0, 1] bcast_S32768x27_S32768x27x1_0_1 : (⟨S32768x27, .i32⟩ : BufTy).Contents (Elt Ideal) → (⟨S32768x27x1, .i32⟩ : BufTy).Contents (Elt Ideal)),
    nary ![main_v91, main_v92, main_v93, main_v94] main_v95 (fun u => concatenate S32768x27x4 2 [⟨S32768x27x1, u 0⟩, ⟨S32768x27x1, u 1⟩, ⟨S32768x27x1, u 2⟩, ⟨S32768x27x1, u 3⟩] concatenates_S32768x27x1_S32768x27x1_S32768x27x1_S32768x27x1_S32768x27x4_d2),
    binary main_arg0 main_v95 main_v96 ((fun x i => Host.gather gather_S1x32x32x32x64_S32768x27x4_S32768x27x64_2_0123_n_n_0123_2_111164 x i) : (⟨S1x32x32x32x64, .f32⟩ : BufTy).Contents (Elt Ideal) → (⟨S32768x27x4, .i32⟩ : BufTy).Contents (Elt Ideal) → (⟨S32768x27x64, .f32⟩ : BufTy).Contents (Elt Ideal)),
    unary main_v58 main_v97 (broadcastInDim S32768x27x1 ![0, 1] bcast_S32768x27_S32768x27x1_0_1 : (⟨S32768x27, .i1⟩ : BufTy).Contents (Elt Ideal) → (⟨S32768x27x1, .i1⟩ : BufTy).Contents (Elt Ideal)),
    unary main_v97 main_v98 (uitofp (F := Ideal) .f32 : (⟨S32768x27x1, .i1⟩ : BufTy).Contents (Elt Ideal) → (⟨S32768x27x1, .f32⟩ : BufTy).Contents (Elt Ideal)),
    unary main_v98 main_v99 (broadcastInDim S32768x27x64 ![0, 1, 2] bcast_S32768x27x1_S32768x27x64_0_1_2 : (⟨S32768x27x1, .f32⟩ : BufTy).Contents (Elt Ideal) → (⟨S32768x27x64, .f32⟩ : BufTy).Contents (Elt Ideal)),
    binary main_v96 main_v99 main_v100 (mulf (F := Ideal) (φ := .f32) : (⟨S32768x27x64, .f32⟩ : BufTy).Contents (Elt Ideal) → (⟨S32768x27x64, .f32⟩ : BufTy).Contents (Elt Ideal) → (⟨S32768x27x64, .f32⟩ : BufTy).Contents (Elt Ideal)),
    reshape main_v100 main_v101 rfl shapeCasts_S32768x27x64_S32768x1728,
    binary main_v101 main_arg2 main_v102 ((fun l r => Host.dotGeneral (F := Ideal) (φ₁ := .f32) (φ₂ := .f32) dot_S32768x1728_S1728x64_S32768x64_1_0_0_1_n_n none l r) : (⟨S32768x1728, .f32⟩ : BufTy).Contents (Elt Ideal) → (⟨S1728x64, .f32⟩ : BufTy).Contents (Elt Ideal) → (⟨S32768x64, .f32⟩ : BufTy).Contents (Elt Ideal)),
    unary main_arg3 main_v103 (broadcastInDim S1x64 ![1] bcast_S64_S1x64_1 : (⟨S64, .f32⟩ : BufTy).Contents (Elt Ideal) → (⟨S1x64, .f32⟩ : BufTy).Contents (Elt Ideal)),
    unary main_v103 main_v104 (broadcastInDim S32768x64 ![0, 1] bcast_S1x64_S32768x64_0_1 : (⟨S1x64, .f32⟩ : BufTy).Contents (Elt Ideal) → (⟨S32768x64, .f32⟩ : BufTy).Contents (Elt Ideal)),
    binary main_v102 main_v104 main_v105 (addf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)),
    unary main_v43 main_v106 (broadcastInDim S32768x1 ![0] bcast_S32768_S32768x1_0 : (⟨S32768, .f32⟩ : BufTy).Contents (Elt Ideal) → (⟨S32768x1, .f32⟩ : BufTy).Contents (Elt Ideal)),
    unary main_v106 main_v107 (broadcastInDim S32768x64 ![0, 1] bcast_S32768x1_S32768x64_0_1 : (⟨S32768x1, .f32⟩ : BufTy).Contents (Elt Ideal) → (⟨S32768x64, .f32⟩ : BufTy).Contents (Elt Ideal)),
    binary main_v105 main_v107 main_v108 (mulf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)),
    nullary main_cst (constant (F := Ideal) S_ .f32 0x00000000#32),
    unary main_cst main_v109 (broadcastInDim S1x32x32x32x64 ![] bcast_S_S1x32x32x32x64 : (⟨S_, .f32⟩ : BufTy).Contents (Elt Ideal) → (⟨S1x32x32x32x64, .f32⟩ : BufTy).Contents (Elt Ideal)),
    unary main_v35 main_v110 ((extractStridedSlice S32768x1 ![0, 0] · slices_S32768x4_S32768x1_0_0) : (⟨S32768x4, .i32⟩ : BufTy).Contents (Elt Ideal) → (⟨S32768x1, .i32⟩ : BufTy).Contents (Elt Ideal)),
    reshape main_v110 main_v111 rfl shapeCasts_S32768x1_S32768,
    unary main_v35 main_v112 ((extractStridedSlice S32768x1 ![0, 1] · slices_S32768x4_S32768x1_0_1) : (⟨S32768x4, .i32⟩ : BufTy).Contents (Elt Ideal) → (⟨S32768x1, .i32⟩ : BufTy).Contents (Elt Ideal)),
    reshape main_v112 main_v113 rfl shapeCasts_S32768x1_S32768,
    unary main_v35 main_v114 ((extractStridedSlice S32768x1 ![0, 2] · slices_S32768x4_S32768x1_0_2) : (⟨S32768x4, .i32⟩ : BufTy).Contents (Elt Ideal) → (⟨S32768x1, .i32⟩ : BufTy).Contents (Elt Ideal)),
    reshape main_v114 main_v115 rfl shapeCasts_S32768x1_S32768,
    unary main_v35 main_v116 ((extractStridedSlice S32768x1 ![0, 3] · slices_S32768x4_S32768x1_0_3) : (⟨S32768x4, .i32⟩ : BufTy).Contents (Elt Ideal) → (⟨S32768x1, .i32⟩ : BufTy).Contents (Elt Ideal)),
    reshape main_v116 main_v117 rfl shapeCasts_S32768x1_S32768,
    nullary main_c_34 (constantI S_ 32 0#32),
    unary main_c_34 main_v118 (broadcastInDim S32768 ![] bcast_S_S32768 : (⟨S_, .i32⟩ : BufTy).Contents (Elt Ideal) → (⟨S32768, .i32⟩ : BufTy).Contents (Elt Ideal)),
    binary main_v111 main_v118 main_v119 (cmpi .slt : (⟨S32768, .i32⟩ : BufTy).Contents (Elt Ideal) → (⟨S32768, .i32⟩ : BufTy).Contents (Elt Ideal) → (⟨S32768, .i1⟩ : BufTy).Contents (Elt Ideal)),
    nullary main_c_35 (constantI S_ 32 1#32),
    unary main_c_35 main_v120 (broadcastInDim S32768 ![] bcast_S_S32768 : (⟨S_, .i32⟩ : BufTy).Contents (Elt Ideal) → (⟨S32768, .i32⟩ : BufTy).Contents (Elt Ideal)),
    binary main_v111 main_v120 main_v121 (addi : (⟨S32768, .i32⟩ : BufTy).Contents (Elt Ideal) → (⟨S32768, .i32⟩ : BufTy).Contents (Elt Ideal) → (⟨S32768, .i32⟩ : BufTy).Contents (Elt Ideal)),
    ternary main_v119 main_v121 main_v111 main_v122 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_36 (constantI S_ 32 0#32),
    unary main_c_36 main_v123 (broadcastInDim S32768 ![] bcast_S_S32768 : (⟨S_, .i32⟩ : BufTy).Contents (Elt Ideal) → (⟨S32768, .i32⟩ : BufTy).Contents (Elt Ideal)),
    binary main_v113 main_v123 main_v124 (cmpi .slt : (⟨S32768, .i32⟩ : BufTy).Contents (Elt Ideal) → (⟨S32768, .i32⟩ : BufTy).Contents (Elt Ideal) → (⟨S32768, .i1⟩ : BufTy).Contents (Elt Ideal)),
    nullary main_c_37 (constantI S_ 32 32#32),
    unary main_c_37 main_v125 (broadcastInDim S32768 ![] bcast_S_S32768 : (⟨S_, .i32⟩ : BufTy).Contents (Elt Ideal) → (⟨S32768, .i32⟩ : BufTy).Contents (Elt Ideal)),
    binary main_v113 main_v125 main_v126 (addi : (⟨S32768, .i32⟩ : BufTy).Contents (Elt Ideal) → (⟨S32768, .i32⟩ : BufTy).Contents (Elt Ideal) → (⟨S32768, .i32⟩ : BufTy).Contents (Elt Ideal)),
    ternary main_v124 main_v126 main_v113 main_v127 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_38 (constantI S_ 32 0#32),
    unary main_c_38 main_v128 (broadcastInDim S32768 ![] bcast_S_S32768 : (⟨S_, .i32⟩ : BufTy).Contents (Elt Ideal) → (⟨S32768, .i32⟩ : BufTy).Contents (Elt Ideal)),
    binary main_v115 main_v128 main_v129 (cmpi .slt : (⟨S32768, .i32⟩ : BufTy).Contents (Elt Ideal) → (⟨S32768, .i32⟩ : BufTy).Contents (Elt Ideal) → (⟨S32768, .i1⟩ : BufTy).Contents (Elt Ideal)),
    nullary main_c_39 (constantI S_ 32 32#32),
    unary main_c_39 main_v130 (broadcastInDim S32768 ![] bcast_S_S32768 : (⟨S_, .i32⟩ : BufTy).Contents (Elt Ideal) → (⟨S32768, .i32⟩ : BufTy).Contents (Elt Ideal)),
    binary main_v115 main_v130 main_v131 (addi : (⟨S32768, .i32⟩ : BufTy).Contents (Elt Ideal) → (⟨S32768, .i32⟩ : BufTy).Contents (Elt Ideal) → (⟨S32768, .i32⟩ : BufTy).Contents (Elt Ideal)),
    ternary main_v129 main_v131 main_v115 main_v132 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_40 (constantI S_ 32 0#32),
    unary main_c_40 main_v133 (broadcastInDim S32768 ![] bcast_S_S32768 : (⟨S_, .i32⟩ : BufTy).Contents (Elt Ideal) → (⟨S32768, .i32⟩ : BufTy).Contents (Elt Ideal)),
    binary main_v117 main_v133 main_v134 (cmpi .slt : (⟨S32768, .i32⟩ : BufTy).Contents (Elt Ideal) → (⟨S32768, .i32⟩ : BufTy).Contents (Elt Ideal) → (⟨S32768, .i1⟩ : BufTy).Contents (Elt Ideal)),
    nullary main_c_41 (constantI S_ 32 32#32),
    unary main_c_41 main_v135 (broadcastInDim S32768 ![] bcast_S_S32768 : (⟨S_, .i32⟩ : BufTy).Contents (Elt Ideal) → (⟨S32768, .i32⟩ : BufTy).Contents (Elt Ideal)),
    binary main_v117 main_v135 main_v136 (addi : (⟨S32768, .i32⟩ : BufTy).Contents (Elt Ideal) → (⟨S32768, .i32⟩ : BufTy).Contents (Elt Ideal) → (⟨S32768, .i32⟩ : BufTy).Contents (Elt Ideal)),
    ternary main_v134 main_v136 main_v117 main_v137 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    unary main_v122 main_v138 (broadcastInDim S32768x1 ![0] bcast_S32768_S32768x1_0 : (⟨S32768, .i32⟩ : BufTy).Contents (Elt Ideal) → (⟨S32768x1, .i32⟩ : BufTy).Contents (Elt Ideal)),
    unary main_v127 main_v139 (broadcastInDim S32768x1 ![0] bcast_S32768_S32768x1_0 : (⟨S32768, .i32⟩ : BufTy).Contents (Elt Ideal) → (⟨S32768x1, .i32⟩ : BufTy).Contents (Elt Ideal)),
    unary main_v132 main_v140 (broadcastInDim S32768x1 ![0] bcast_S32768_S32768x1_0 : (⟨S32768, .i32⟩ : BufTy).Contents (Elt Ideal) → (⟨S32768x1, .i32⟩ : BufTy).Contents (Elt Ideal)),
    unary main_v137 main_v141 (broadcastInDim S32768x1 ![0] bcast_S32768_S32768x1_0 : (⟨S32768, .i32⟩ : BufTy).Contents (Elt Ideal) → (⟨S32768x1, .i32⟩ : BufTy).Contents (Elt Ideal)),
    nary ![main_v138, main_v139, main_v140, main_v141] main_v142 (fun u => concatenate S32768x4 1 [⟨S32768x1, u 0⟩, ⟨S32768x1, u 1⟩, ⟨S32768x1, u 2⟩, ⟨S32768x1, u 3⟩] concatenates_S32768x1_S32768x1_S32768x1_S32768x1_S32768x4_d1),
    ternary main_v109 main_v142 main_v108 main_v143 ((fun x i u => Host.scatterAdd (F := Ideal) (φ := .f32) scatter_S1x32x32x32x64_S32768x4_S32768x64_1_0123_0123_1 x i u) : (⟨S1x32x32x32x64, .f32⟩ : BufTy).Contents (Elt Ideal) → (⟨S32768x4, .i32⟩ : BufTy).Contents (Elt Ideal) → (⟨S32768x64, .f32⟩ : BufTy).Contents (Elt Ideal) → (⟨S1x32x32x32x64, .f32⟩ : BufTy).Contents (Elt Ideal)) ]

end Cert.ReferenceIdeal.RefRun

end
-- ==== Proof.RefRunA.lean ====
/-
  The reference program's @main is the straight line of its host operations: the four printed windows and the ten
  module-local functions' bodies unfolded at their calls, sequencing reassociated. With it the two scope facts of the
  signature and the inclusion of every operation's buffers among the TensorCore's references.
-/
import proofs.«150033_g82085414961357_cont_sun_m_845_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

-- 348 binds reassociated: the rewriting under the chain recurses once per statement
set_option maxRecDepth 100000 in
set_option maxHeartbeats 8000000 in
/-- @main is that straight line: its four windows, the functions' definitions unfolded at their calls and the call
    records at their fields; both sides are one chain of `hlo` steps once sequencing is reassociated
    (`bind_assoc`, `pure_bind`). -/
theorem main_eq (c : Dev nD) : main (F := Ideal) c = seq ops := by
  simp only [main, main_part0, main_part1, main_part2, main_part3, fn_cumsum_0.body, fn_cumsum.body, fn_clip.body,
    fn_cumsum_1.body, fn_where.body, fn_floor_divide.body, fn_where_2.body, fn_remainder.body, fn_where_3.body,
    fn_clip_4.body, seq, bind_assoc, pure_bind] <;> rfl

set_option maxRecDepth 100000 in
theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
set_option maxHeartbeats 4000000 in
/-- Every operation touches TensorCore references only. -/
theorem ops_sub : (ops : List (HloOp τ sig (Elt Ideal))).Forall fun op => op.bufs ⊆ tcRefs τ sig :=
  ⟨nullary_bufs_sub .., nullary_bufs_sub .., nullary_bufs_sub .., unary_bufs_sub .., binary_bufs_sub .., reshape_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., nullary_bufs_sub .., binary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., ternary_bufs_sub .., unary_bufs_sub .., unary_bufs_sub ..,
    unary_bufs_sub .., unary_bufs_sub .., nary_bufs_sub .., nullary_bufs_sub .., unary_bufs_sub .., binary_bufs_sub ..,
    unary_bufs_sub .., nullary_bufs_sub .., binary_bufs_sub .., nullary_bufs_sub .., unary_bufs_sub .., binary_bufs_sub ..,
    unary_bufs_sub .., unary_bufs_sub .., reshape_bufs_sub .., unary_bufs_sub .., unary_bufs_sub .., unary_bufs_sub ..,
    unary_bufs_sub .., unary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., nullary_bufs_sub .., unary_bufs_sub ..,
    unary_bufs_sub .., binary_bufs_sub .., unary_bufs_sub .., binary_bufs_sub .., unary_bufs_sub .., unary_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., unary_bufs_sub .., nary_bufs_sub .., binary_bufs_sub .., unary_bufs_sub .., unary_bufs_sub ..,
    unary_bufs_sub .., binary_bufs_sub .., reshape_bufs_sub .., binary_bufs_sub .., unary_bufs_sub .., unary_bufs_sub ..,
    binary_bufs_sub .., unary_bufs_sub .., unary_bufs_sub .., binary_bufs_sub .., nullary_bufs_sub .., unary_bufs_sub ..,
    unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., nary_bufs_sub .., ternary_bufs_sub ..⟩

end Cert.ReferenceIdeal.RefRun

end
-- ==== Proof.RefTerm.lean ====
/-
  What the reference program computes, as pure functions of its four argument arrays at the extended reals: one
  definition per tensor value of @main (the module-local functions' bodies written out at their call sites), each the
  value's operation applied to the definitions of its operands, in program order; `refOut` is the returned value.
-/
import proofs.«150033_g82085414961357_cont_sun_m_845_2_alg».proof.Proof.Gen.ReferenceIdeal
import Idealize.ShloMosaic.PureOps.Ideal

noncomputable section

namespace Cert.ReferenceIdeal.RefTerm

open Cert.ReferenceIdeal Cert.ReferenceIdeal.Gen Idealize.ShloMosaic

def t_main_c :=
  (fun i => lit0 (S3x27.rowMajor i))

def t_main_c_0 :=
  (constantI S3 32 32#32)

def t_main_c_1 :=
  (constantI S_ 32 0#32)

def t_main_v0 :=
  (broadcastInDim S1x32x32x32 ![] bcast_S_S1x32x32x32 : (⟨S_, .i32⟩ : BufTy).Contents (Elt Ideal) → (⟨S1x32x32x32, .i32⟩ : BufTy).Contents (Elt Ideal)) t_main_c_1

def t_main_v1 (a1 : IVec S1x32x32x32 32) :=
  (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)) a1 t_main_v0

def t_main_call0_v0 (a1 : IVec S1x32x32x32 32) :=
  shapeCast S32768 (t_main_v1 a1) shapeCasts_S1x32x32x32_S32768

def t_main_call0_v1 (a1 : IVec S1x32x32x32 32) :=
  (extui 32 · natLt_1_32) (t_main_call0_v0 a1)

def t_main_call0_call0_c :=
  (constantI S_ 32 0#32)

def t_main_call0_call0_v0 :=
  (broadcastInDim S_ ![] bcast_S_S_) t_main_call0_call0_c

def t_main_v2 (a1 : IVec S1x32x32x32 32) :=
  (fun x v => Host.reduceWindow IntOp.addi ![32768] ![1] ![32767] ![0] x v reduceWindows_S32768_S32768_w32768s1p32767_0 h_S_) (t_main_call0_v1 a1) t_main_call0_call0_v0

def t_main_c_2 :=
  (constantI S_ 32 0#32)

def t_main_v3 :=
  (broadcastInDim S32768 ![] bcast_S_S32768 : (⟨S_, .i32⟩ : BufTy).Contents (Elt Ideal) → (⟨S32768, .i32⟩ : BufTy).Contents (Elt Ideal)) t_main_c_2

def t_main_c_3 :=
  (constantI S_ 32 0#32)

def t_main_call1_v0 :=
  id t_main_c_3

def t_main_call1_v1 :=
  (broadcastInDim S32768 ![] bcast_S_S32768) t_main_call1_v0

def t_main_v4 (a1 : IVec S1x32x32x32 32) :=
  maxsi t_main_call1_v1 (t_main_v2 a1)

def t_main_c_4 :=
  (constantI S_ 32 0#32)

def t_main_v5 :=
  (broadcastInDim S32768 ![] bcast_S_S32768 : (⟨S_, .i32⟩ : BufTy).Contents (Elt Ideal) → (⟨S32768, .i32⟩ : BufTy).Contents (Elt Ideal)) t_main_c_4

def t_main_v6 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) (t_main_v4 a1) t_main_v5

def t_main_c_5 :=
  (constantI S_ 32 32768#32)

def t_main_v7 :=
  (broadcastInDim S32768 ![] bcast_S_S32768 : (⟨S_, .i32⟩ : BufTy).Contents (Elt Ideal) → (⟨S32768, .i32⟩ : BufTy).Contents (Elt Ideal)) t_main_c_5

def t_main_v8 (a1 : IVec S1x32x32x32 32) :=
  (addi : (⟨S32768, .i32⟩ : BufTy).Contents (Elt Ideal) → (⟨S32768, .i32⟩ : BufTy).Contents (Elt Ideal) → (⟨S32768, .i32⟩ : BufTy).Contents (Elt Ideal)) (t_main_v4 a1) t_main_v7

def t_main_v9 (a1 : IVec S1x32x32x32 32) :=
  (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)) (t_main_v6 a1) (t_main_v8 a1) (t_main_v4 a1)

def t_main_v10 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v9 a1)

def t_main_c_6 :=
  (constantI S_ 32 1#32)

def t_main_v11 :=
  (broadcastInDim S32768 ![] bcast_S_S32768 : (⟨S_, .i32⟩ : BufTy).Contents (Elt Ideal) → (⟨S32768, .i32⟩ : BufTy).Contents (Elt Ideal)) t_main_c_6

def t_main_v12 (a1 : IVec S1x32x32x32 32) :=
  ((fun x i u => Host.scatter scatter_S32768_S32768x1_S32768_n_0_0_1 IntOp.addi x i u) : (⟨S32768, .i32⟩ : BufTy).Contents (Elt Ideal) → (⟨S32768x1, .i32⟩ : BufTy).Contents (Elt Ideal) → (⟨S32768, .i32⟩ : BufTy).Contents (Elt Ideal) → (⟨S32768, .i32⟩ : BufTy).Contents (Elt Ideal)) t_main_v3 (t_main_v10 a1) t_main_v11

def t_main_call2_call0_c :=
  (constantI S_ 32 0#32)

def t_main_call2_call0_v0 :=
  (broadcastInDim S_ ![] bcast_S_S_) t_main_call2_call0_c

def t_main_v13 (a1 : IVec S1x32x32x32 32) :=
  (fun x v => Host.reduceWindow IntOp.addi ![32768] ![1] ![32767] ![0] x v reduceWindows_S32768_S32768_w32768s1p32767_0 h_S_) (t_main_v12 a1) t_main_call2_call0_v0

def t_main_c_7 :=
  (constantI S_ 32 32768#32)

def t_main_call3_v0 :=
  (broadcastInDim S32768 ![] bcast_S_S32768) t_main_c_7

def t_main_call3_v1 (a1 : IVec S1x32x32x32 32) :=
  Host.divsi (t_main_v13 a1) t_main_call3_v0

def t_main_call3_v2 (a1 : IVec S1x32x32x32 32) :=
  signi (t_main_v13 a1)

def t_main_call3_v3 :=
  signi t_main_c_7

def t_main_call3_v4 :=
  (broadcastInDim S32768 ![] bcast_S_S32768) t_main_call3_v3

def t_main_call3_v5 (a1 : IVec S1x32x32x32 32) :=
  (cmpi .ne) (t_main_call3_v2 a1) t_main_call3_v4

def t_main_call3_v6 :=
  (broadcastInDim S32768 ![] bcast_S_S32768) t_main_c_7

def t_main_call3_v7 (a1 : IVec S1x32x32x32 32) :=
  Host.remsi (t_main_v13 a1) t_main_call3_v6

def t_main_call3_c :=
  (constantI S_ 32 0#32)

def t_main_call3_v8 :=
  (broadcastInDim S32768 ![] bcast_S_S32768) t_main_call3_c

def t_main_call3_v9 (a1 : IVec S1x32x32x32 32) :=
  (cmpi .ne) (t_main_call3_v7 a1) t_main_call3_v8

def t_main_call3_v10 (a1 : IVec S1x32x32x32 32) :=
  andi (t_main_call3_v5 a1) (t_main_call3_v9 a1)

def t_main_call3_c_0 :=
  (constantI S_ 32 1#32)

def t_main_call3_v11 :=
  (broadcastInDim S32768 ![] bcast_S_S32768) t_main_call3_c_0

def t_main_call3_v12 (a1 : IVec S1x32x32x32 32) :=
  subi (t_main_call3_v1 a1) t_main_call3_v11

def t_main_v14 (a1 : IVec S1x32x32x32 32) :=
  select (t_main_call3_v10 a1) (t_main_call3_v12 a1) (t_main_call3_v1 a1)

def t_main_c_8 :=
  (constantI S_ 32 1#32)

def t_main_call4_v0 :=
  id t_main_c_8

def t_main_call4_c :=
  (constantI S_ 32 0#32)

def t_main_call4_v1 :=
  (cmpi .eq) t_main_call4_v0 t_main_call4_c

def t_main_call4_c_0 :=
  (constantI S_ 32 1#32)

def t_main_call4_v2 :=
  select t_main_call4_v1 t_main_call4_c_0 t_main_call4_v0

def t_main_call4_v3 :=
  (broadcastInDim S32768 ![] bcast_S_S32768) t_main_call4_v2

def t_main_call4_v4 (a1 : IVec S1x32x32x32 32) :=
  Host.remsi (t_main_v14 a1) t_main_call4_v3

def t_main_call4_c_1 :=
  (constantI S_ 32 0#32)

def t_main_call4_v5 :=
  (broadcastInDim S32768 ![] bcast_S_S32768) t_main_call4_c_1

def t_main_call4_v6 (a1 : IVec S1x32x32x32 32) :=
  (cmpi .ne) (t_main_call4_v4 a1) t_main_call4_v5

def t_main_call4_c_2 :=
  (constantI S_ 32 0#32)

def t_main_call4_v7 :=
  (broadcastInDim S32768 ![] bcast_S_S32768) t_main_call4_c_2

def t_main_call4_v8 (a1 : IVec S1x32x32x32 32) :=
  (cmpi .slt) (t_main_call4_v4 a1) t_main_call4_v7

def t_main_call4_c_3 :=
  (constantI S_ 32 0#32)

def t_main_call4_v9 :=
  (cmpi .slt) t_main_call4_v2 t_main_call4_c_3

def t_main_call4_v10 :=
  (broadcastInDim S32768 ![] bcast_S_S32768) t_main_call4_v9

def t_main_call4_v11 (a1 : IVec S1x32x32x32 32) :=
  (cmpi .ne) (t_main_call4_v8 a1) t_main_call4_v10

def t_main_call4_v12 (a1 : IVec S1x32x32x32 32) :=
  andi (t_main_call4_v11 a1) (t_main_call4_v6 a1)

def t_main_call4_v13 :=
  (broadcastInDim S32768 ![] bcast_S_S32768) t_main_call4_v2

def t_main_call4_v14 (a1 : IVec S1x32x32x32 32) :=
  addi (t_main_call4_v4 a1) t_main_call4_v13

def t_main_v15 (a1 : IVec S1x32x32x32 32) :=
  select (t_main_call4_v12 a1) (t_main_call4_v14 a1) (t_main_call4_v4 a1)

def t_main_c_9 :=
  (constantI S_ 32 1024#32)

def t_main_call5_v0 :=
  (broadcastInDim S32768 ![] bcast_S_S32768) t_main_c_9

def t_main_call5_v1 (a1 : IVec S1x32x32x32 32) :=
  Host.divsi (t_main_v13 a1) t_main_call5_v0

def t_main_call5_v2 (a1 : IVec S1x32x32x32 32) :=
  signi (t_main_v13 a1)

def t_main_call5_v3 :=
  signi t_main_c_9

def t_main_call5_v4 :=
  (broadcastInDim S32768 ![] bcast_S_S32768) t_main_call5_v3

def t_main_call5_v5 (a1 : IVec S1x32x32x32 32) :=
  (cmpi .ne) (t_main_call5_v2 a1) t_main_call5_v4

def t_main_call5_v6 :=
  (broadcastInDim S32768 ![] bcast_S_S32768) t_main_c_9

def t_main_call5_v7 (a1 : IVec S1x32x32x32 32) :=
  Host.remsi (t_main_v13 a1) t_main_call5_v6

def t_main_call5_c :=
  (constantI S_ 32 0#32)

def t_main_call5_v8 :=
  (broadcastInDim S32768 ![] bcast_S_S32768) t_main_call5_c

def t_main_call5_v9 (a1 : IVec S1x32x32x32 32) :=
  (cmpi .ne) (t_main_call5_v7 a1) t_main_call5_v8

def t_main_call5_v10 (a1 : IVec S1x32x32x32 32) :=
  andi (t_main_call5_v5 a1) (t_main_call5_v9 a1)

def t_main_call5_c_0 :=
  (constantI S_ 32 1#32)

def t_main_call5_v11 :=
  (broadcastInDim S32768 ![] bcast_S_S32768) t_main_call5_c_0

def t_main_call5_v12 (a1 : IVec S1x32x32x32 32) :=
  subi (t_main_call5_v1 a1) t_main_call5_v11

def t_main_v16 (a1 : IVec S1x32x32x32 32) :=
  select (t_main_call5_v10 a1) (t_main_call5_v12 a1) (t_main_call5_v1 a1)

def t_main_c_10 :=
  (constantI S_ 32 32#32)

def t_main_call6_v0 :=
  id t_main_c_10

def t_main_call6_c :=
  (constantI S_ 32 0#32)

def t_main_call6_v1 :=
  (cmpi .eq) t_main_call6_v0 t_main_call6_c

def t_main_call6_c_0 :=
  (constantI S_ 32 1#32)

def t_main_call6_v2 :=
  select t_main_call6_v1 t_main_call6_c_0 t_main_call6_v0

def t_main_call6_v3 :=
  (broadcastInDim S32768 ![] bcast_S_S32768) t_main_call6_v2

def t_main_call6_v4 (a1 : IVec S1x32x32x32 32) :=
  Host.remsi (t_main_v16 a1) t_main_call6_v3

def t_main_call6_c_1 :=
  (constantI S_ 32 0#32)

def t_main_call6_v5 :=
  (broadcastInDim S32768 ![] bcast_S_S32768) t_main_call6_c_1

def t_main_call6_v6 (a1 : IVec S1x32x32x32 32) :=
  (cmpi .ne) (t_main_call6_v4 a1) t_main_call6_v5

def t_main_call6_c_2 :=
  (constantI S_ 32 0#32)

def t_main_call6_v7 :=
  (broadcastInDim S32768 ![] bcast_S_S32768) t_main_call6_c_2

def t_main_call6_v8 (a1 : IVec S1x32x32x32 32) :=
  (cmpi .slt) (t_main_call6_v4 a1) t_main_call6_v7

def t_main_call6_c_3 :=
  (constantI S_ 32 0#32)

def t_main_call6_v9 :=
  (cmpi .slt) t_main_call6_v2 t_main_call6_c_3

def t_main_call6_v10 :=
  (broadcastInDim S32768 ![] bcast_S_S32768) t_main_call6_v9

def t_main_call6_v11 (a1 : IVec S1x32x32x32 32) :=
  (cmpi .ne) (t_main_call6_v8 a1) t_main_call6_v10

def t_main_call6_v12 (a1 : IVec S1x32x32x32 32) :=
  andi (t_main_call6_v11 a1) (t_main_call6_v6 a1)

def t_main_call6_v13 :=
  (broadcastInDim S32768 ![] bcast_S_S32768) t_main_call6_v2

def t_main_call6_v14 (a1 : IVec S1x32x32x32 32) :=
  addi (t_main_call6_v4 a1) t_main_call6_v13

def t_main_v17 (a1 : IVec S1x32x32x32 32) :=
  select (t_main_call6_v12 a1) (t_main_call6_v14 a1) (t_main_call6_v4 a1)

def t_main_c_11 :=
  (constantI S_ 32 32#32)

def t_main_call7_v0 :=
  (broadcastInDim S32768 ![] bcast_S_S32768) t_main_c_11

def t_main_call7_v1 (a1 : IVec S1x32x32x32 32) :=
  Host.divsi (t_main_v13 a1) t_main_call7_v0

def t_main_call7_v2 (a1 : IVec S1x32x32x32 32) :=
  signi (t_main_v13 a1)

def t_main_call7_v3 :=
  signi t_main_c_11

def t_main_call7_v4 :=
  (broadcastInDim S32768 ![] bcast_S_S32768) t_main_call7_v3

def t_main_call7_v5 (a1 : IVec S1x32x32x32 32) :=
  (cmpi .ne) (t_main_call7_v2 a1) t_main_call7_v4

def t_main_call7_v6 :=
  (broadcastInDim S32768 ![] bcast_S_S32768) t_main_c_11

def t_main_call7_v7 (a1 : IVec S1x32x32x32 32) :=
  Host.remsi (t_main_v13 a1) t_main_call7_v6

def t_main_call7_c :=
  (constantI S_ 32 0#32)

def t_main_call7_v8 :=
  (broadcastInDim S32768 ![] bcast_S_S32768) t_main_call7_c

def t_main_call7_v9 (a1 : IVec S1x32x32x32 32) :=
  (cmpi .ne) (t_main_call7_v7 a1) t_main_call7_v8

def t_main_call7_v10 (a1 : IVec S1x32x32x32 32) :=
  andi (t_main_call7_v5 a1) (t_main_call7_v9 a1)

def t_main_call7_c_0 :=
  (constantI S_ 32 1#32)

def t_main_call7_v11 :=
  (broadcastInDim S32768 ![] bcast_S_S32768) t_main_call7_c_0

def t_main_call7_v12 (a1 : IVec S1x32x32x32 32) :=
  subi (t_main_call7_v1 a1) t_main_call7_v11

def t_main_v18 (a1 : IVec S1x32x32x32 32) :=
  select (t_main_call7_v10 a1) (t_main_call7_v12 a1) (t_main_call7_v1 a1)

def t_main_c_12 :=
  (constantI S_ 32 32#32)

def t_main_call8_v0 :=
  id t_main_c_12

def t_main_call8_c :=
  (constantI S_ 32 0#32)

def t_main_call8_v1 :=
  (cmpi .eq) t_main_call8_v0 t_main_call8_c

def t_main_call8_c_0 :=
  (constantI S_ 32 1#32)

def t_main_call8_v2 :=
  select t_main_call8_v1 t_main_call8_c_0 t_main_call8_v0

def t_main_call8_v3 :=
  (broadcastInDim S32768 ![] bcast_S_S32768) t_main_call8_v2

def t_main_call8_v4 (a1 : IVec S1x32x32x32 32) :=
  Host.remsi (t_main_v18 a1) t_main_call8_v3

def t_main_call8_c_1 :=
  (constantI S_ 32 0#32)

def t_main_call8_v5 :=
  (broadcastInDim S32768 ![] bcast_S_S32768) t_main_call8_c_1

def t_main_call8_v6 (a1 : IVec S1x32x32x32 32) :=
  (cmpi .ne) (t_main_call8_v4 a1) t_main_call8_v5

def t_main_call8_c_2 :=
  (constantI S_ 32 0#32)

def t_main_call8_v7 :=
  (broadcastInDim S32768 ![] bcast_S_S32768) t_main_call8_c_2

def t_main_call8_v8 (a1 : IVec S1x32x32x32 32) :=
  (cmpi .slt) (t_main_call8_v4 a1) t_main_call8_v7

def t_main_call8_c_3 :=
  (constantI S_ 32 0#32)

def t_main_call8_v9 :=
  (cmpi .slt) t_main_call8_v2 t_main_call8_c_3

def t_main_call8_v10 :=
  (broadcastInDim S32768 ![] bcast_S_S32768) t_main_call8_v9

def t_main_call8_v11 (a1 : IVec S1x32x32x32 32) :=
  (cmpi .ne) (t_main_call8_v8 a1) t_main_call8_v10

def t_main_call8_v12 (a1 : IVec S1x32x32x32 32) :=
  andi (t_main_call8_v11 a1) (t_main_call8_v6 a1)

def t_main_call8_v13 :=
  (broadcastInDim S32768 ![] bcast_S_S32768) t_main_call8_v2

def t_main_call8_v14 (a1 : IVec S1x32x32x32 32) :=
  addi (t_main_call8_v4 a1) t_main_call8_v13

def t_main_v19 (a1 : IVec S1x32x32x32 32) :=
  select (t_main_call8_v12 a1) (t_main_call8_v14 a1) (t_main_call8_v4 a1)

def t_main_c_13 :=
  (constantI S_ 32 1#32)

def t_main_call9_v0 :=
  (broadcastInDim S32768 ![] bcast_S_S32768) t_main_c_13

def t_main_call9_v1 (a1 : IVec S1x32x32x32 32) :=
  Host.divsi (t_main_v13 a1) t_main_call9_v0

def t_main_call9_v2 (a1 : IVec S1x32x32x32 32) :=
  signi (t_main_v13 a1)

def t_main_call9_v3 :=
  signi t_main_c_13

def t_main_call9_v4 :=
  (broadcastInDim S32768 ![] bcast_S_S32768) t_main_call9_v3

def t_main_call9_v5 (a1 : IVec S1x32x32x32 32) :=
  (cmpi .ne) (t_main_call9_v2 a1) t_main_call9_v4

def t_main_call9_v6 :=
  (broadcastInDim S32768 ![] bcast_S_S32768) t_main_c_13

def t_main_call9_v7 (a1 : IVec S1x32x32x32 32) :=
  Host.remsi (t_main_v13 a1) t_main_call9_v6

def t_main_call9_c :=
  (constantI S_ 32 0#32)

def t_main_call9_v8 :=
  (broadcastInDim S32768 ![] bcast_S_S32768) t_main_call9_c

def t_main_call9_v9 (a1 : IVec S1x32x32x32 32) :=
  (cmpi .ne) (t_main_call9_v7 a1) t_main_call9_v8

def t_main_call9_v10 (a1 : IVec S1x32x32x32 32) :=
  andi (t_main_call9_v5 a1) (t_main_call9_v9 a1)

def t_main_call9_c_0 :=
  (constantI S_ 32 1#32)

def t_main_call9_v11 :=
  (broadcastInDim S32768 ![] bcast_S_S32768) t_main_call9_c_0

def t_main_call9_v12 (a1 : IVec S1x32x32x32 32) :=
  subi (t_main_call9_v1 a1) t_main_call9_v11

def t_main_v20 (a1 : IVec S1x32x32x32 32) :=
  select (t_main_call9_v10 a1) (t_main_call9_v12 a1) (t_main_call9_v1 a1)

def t_main_c_14 :=
  (constantI S_ 32 32#32)

def t_main_call10_v0 :=
  id t_main_c_14

def t_main_call10_c :=
  (constantI S_ 32 0#32)

def t_main_call10_v1 :=
  (cmpi .eq) t_main_call10_v0 t_main_call10_c

def t_main_call10_c_0 :=
  (constantI S_ 32 1#32)

def t_main_call10_v2 :=
  select t_main_call10_v1 t_main_call10_c_0 t_main_call10_v0

def t_main_call10_v3 :=
  (broadcastInDim S32768 ![] bcast_S_S32768) t_main_call10_v2

def t_main_call10_v4 (a1 : IVec S1x32x32x32 32) :=
  Host.remsi (t_main_v20 a1) t_main_call10_v3

def t_main_call10_c_1 :=
  (constantI S_ 32 0#32)

def t_main_call10_v5 :=
  (broadcastInDim S32768 ![] bcast_S_S32768) t_main_call10_c_1

def t_main_call10_v6 (a1 : IVec S1x32x32x32 32) :=
  (cmpi .ne) (t_main_call10_v4 a1) t_main_call10_v5

def t_main_call10_c_2 :=
  (constantI S_ 32 0#32)

def t_main_call10_v7 :=
  (broadcastInDim S32768 ![] bcast_S_S32768) t_main_call10_c_2

def t_main_call10_v8 (a1 : IVec S1x32x32x32 32) :=
  (cmpi .slt) (t_main_call10_v4 a1) t_main_call10_v7

def t_main_call10_c_3 :=
  (constantI S_ 32 0#32)

def t_main_call10_v9 :=
  (cmpi .slt) t_main_call10_v2 t_main_call10_c_3

def t_main_call10_v10 :=
  (broadcastInDim S32768 ![] bcast_S_S32768) t_main_call10_v9

def t_main_call10_v11 (a1 : IVec S1x32x32x32 32) :=
  (cmpi .ne) (t_main_call10_v8 a1) t_main_call10_v10

def t_main_call10_v12 (a1 : IVec S1x32x32x32 32) :=
  andi (t_main_call10_v11 a1) (t_main_call10_v6 a1)

def t_main_call10_v13 :=
  (broadcastInDim S32768 ![] bcast_S_S32768) t_main_call10_v2

def t_main_call10_v14 (a1 : IVec S1x32x32x32 32) :=
  addi (t_main_call10_v4 a1) t_main_call10_v13

def t_main_v21 (a1 : IVec S1x32x32x32 32) :=
  select (t_main_call10_v12 a1) (t_main_call10_v14 a1) (t_main_call10_v4 a1)

def t_main_v22 :=
  (iotaInDim S32768 32 0)

def t_main_v23 (a1 : IVec S1x32x32x32 32) :=
  ((extui 32 · natLt_1_32) : (⟨S1x32x32x32, .i1⟩ : BufTy).Contents (Elt Ideal) → (⟨S1x32x32x32, .i32⟩ : BufTy).Contents (Elt Ideal)) (t_main_v1 a1)

def t_main_c_15 :=
  (constantI S_ 32 0#32)

def t_main_v24 (a1 : IVec S1x32x32x32 32) :=
  ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)) (t_main_v23 a1) t_main_c_15

def t_main_v25 (a1 : IVec S1x32x32x32 32) :=
  (broadcastInDim S32768 ![] bcast_S_S32768 : (⟨S_, .i32⟩ : BufTy).Contents (Elt Ideal) → (⟨S32768, .i32⟩ : BufTy).Contents (Elt Ideal)) (t_main_v24 a1)

def t_main_v26 (a1 : IVec S1x32x32x32 32) :=
  (cmpi .sge : (⟨S32768, .i32⟩ : BufTy).Contents (Elt Ideal) → (⟨S32768, .i32⟩ : BufTy).Contents (Elt Ideal) → (⟨S32768, .i1⟩ : BufTy).Contents (Elt Ideal)) t_main_v22 (t_main_v25 a1)

def t_main_c_16 :=
  (constantI S_ 32 0#32)

def t_main_call11_v0 :=
  id t_main_c_16

def t_main_call11_v1 :=
  (broadcastInDim S32768 ![] bcast_S_S32768) t_main_call11_v0

def t_main_v27 (a1 : IVec S1x32x32x32 32) :=
  select (t_main_v26 a1) t_main_call11_v1 (t_main_v15 a1)

def t_main_c_17 :=
  (constantI S_ 32 0#32)

def t_main_call12_v0 :=
  id t_main_c_17

def t_main_call12_v1 :=
  (broadcastInDim S32768 ![] bcast_S_S32768) t_main_call12_v0

def t_main_v28 (a1 : IVec S1x32x32x32 32) :=
  select (t_main_v26 a1) t_main_call12_v1 (t_main_v17 a1)

def t_main_c_18 :=
  (constantI S_ 32 0#32)

def t_main_call13_v0 :=
  id t_main_c_18

def t_main_call13_v1 :=
  (broadcastInDim S32768 ![] bcast_S_S32768) t_main_call13_v0

def t_main_v29 (a1 : IVec S1x32x32x32 32) :=
  select (t_main_v26 a1) t_main_call13_v1 (t_main_v19 a1)

def t_main_c_19 :=
  (constantI S_ 32 0#32)

def t_main_call14_v0 :=
  id t_main_c_19

def t_main_call14_v1 :=
  (broadcastInDim S32768 ![] bcast_S_S32768) t_main_call14_v0

def t_main_v30 (a1 : IVec S1x32x32x32 32) :=
  select (t_main_v26 a1) t_main_call14_v1 (t_main_v21 a1)

def t_main_v31 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v27 a1)

def t_main_v32 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v28 a1)

def t_main_v33 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v29 a1)

def t_main_v34 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v30 a1)

def t_main_v35 (a1 : IVec S1x32x32x32 32) :=
  concatenate S32768x4 1 [⟨S32768x1, (t_main_v31 a1)⟩, ⟨S32768x1, (t_main_v32 a1)⟩, ⟨S32768x1, (t_main_v33 a1)⟩, ⟨S32768x1, (t_main_v34 a1)⟩] concatenates_S32768x1_S32768x1_S32768x1_S32768x1_S32768x4_d1

def t_main_c_20 :=
  (constantI S_ 32 0#32)

def t_main_v36 :=
  (broadcastInDim S1x32x32x32 ![] bcast_S_S1x32x32x32 : (⟨S_, .i32⟩ : BufTy).Contents (Elt Ideal) → (⟨S1x32x32x32, .i32⟩ : BufTy).Contents (Elt Ideal)) t_main_c_20

def t_main_v37 (a1 : IVec S1x32x32x32 32) :=
  (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)) a1 t_main_v36

def t_main_v38 (a1 : IVec S1x32x32x32 32) :=
  ((extui 32 · natLt_1_32) : (⟨S1x32x32x32, .i1⟩ : BufTy).Contents (Elt Ideal) → (⟨S1x32x32x32, .i32⟩ : BufTy).Contents (Elt Ideal)) (t_main_v37 a1)

def t_main_c_21 :=
  (constantI S_ 32 0#32)

def t_main_v39 (a1 : IVec S1x32x32x32 32) :=
  ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)) (t_main_v38 a1) t_main_c_21

def t_main_v40 :=
  (iotaInDim S32768 32 0)

def t_main_v41 (a1 : IVec S1x32x32x32 32) :=
  (broadcastInDim S32768 ![] bcast_S_S32768 : (⟨S_, .i32⟩ : BufTy).Contents (Elt Ideal) → (⟨S32768, .i32⟩ : BufTy).Contents (Elt Ideal)) (t_main_v39 a1)

def t_main_v42 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) t_main_v40 (t_main_v41 a1)

def t_main_v43 (a1 : IVec S1x32x32x32 32) :=
  (uitofp (F := Ideal) .f32 : (⟨S32768, .i1⟩ : BufTy).Contents (Elt Ideal) → (⟨S32768, .f32⟩ : BufTy).Contents (Elt Ideal)) (t_main_v42 a1)

def t_main_v44 (a1 : IVec S1x32x32x32 32) :=
  ((extractStridedSlice S32768x1 ![0, 0] · slices_S32768x4_S32768x1_0_0) : (⟨S32768x4, .i32⟩ : BufTy).Contents (Elt Ideal) → (⟨S32768x1, .i32⟩ : BufTy).Contents (Elt Ideal)) (t_main_v35 a1)

def t_main_v45 (a1 : IVec S1x32x32x32 32) :=
  shapeCast S32768 (t_main_v44 a1) shapeCasts_S32768x1_S32768

def t_main_v46 (a1 : IVec S1x32x32x32 32) :=
  ((extractStridedSlice S32768x3 ![0, 1] · slices_S32768x4_S32768x3_0_1) : (⟨S32768x4, .i32⟩ : BufTy).Contents (Elt Ideal) → (⟨S32768x3, .i32⟩ : BufTy).Contents (Elt Ideal)) (t_main_v35 a1)

def t_main_v47 (a1 : IVec S1x32x32x32 32) :=
  (broadcastInDim S32768x3x1 ![0, 1] bcast_S32768x3_S32768x3x1_0_1 : (⟨S32768x3, .i32⟩ : BufTy).Contents (Elt Ideal) → (⟨S32768x3x1, .i32⟩ : BufTy).Contents (Elt Ideal)) (t_main_v46 a1)

def t_main_v48 :=
  (broadcastInDim S1x3x27 ![1, 2] bcast_S3x27_S1x3x27_1_2 : (⟨S3x27, .i32⟩ : BufTy).Contents (Elt Ideal) → (⟨S1x3x27, .i32⟩ : BufTy).Contents (Elt Ideal)) t_main_c

def t_main_v49 (a1 : IVec S1x32x32x32 32) :=
  (broadcastInDim S32768x3x27 ![0, 1, 2] bcast_S32768x3x1_S32768x3x27_0_1_2 : (⟨S32768x3x1, .i32⟩ : BufTy).Contents (Elt Ideal) → (⟨S32768x3x27, .i32⟩ : BufTy).Contents (Elt Ideal)) (t_main_v47 a1)

def t_main_v50 :=
  (broadcastInDim S32768x3x27 ![0, 1, 2] bcast_S1x3x27_S32768x3x27_0_1_2 : (⟨S1x3x27, .i32⟩ : BufTy).Contents (Elt Ideal) → (⟨S32768x3x27, .i32⟩ : BufTy).Contents (Elt Ideal)) t_main_v48

def t_main_v51 (a1 : IVec S1x32x32x32 32) :=
  (addi : (⟨S32768x3x27, .i32⟩ : BufTy).Contents (Elt Ideal) → (⟨S32768x3x27, .i32⟩ : BufTy).Contents (Elt Ideal) → (⟨S32768x3x27, .i32⟩ : BufTy).Contents (Elt Ideal)) (t_main_v49 a1) t_main_v50

def t_main_c_22 :=
  (constantI S_ 32 0#32)

def t_main_v52 :=
  (broadcastInDim S32768x3x27 ![] bcast_S_S32768x3x27 : (⟨S_, .i32⟩ : BufTy).Contents (Elt Ideal) → (⟨S32768x3x27, .i32⟩ : BufTy).Contents (Elt Ideal)) t_main_c_22

def t_main_v53 (a1 : IVec S1x32x32x32 32) :=
  (cmpi .sge : (⟨S32768x3x27, .i32⟩ : BufTy).Contents (Elt Ideal) → (⟨S32768x3x27, .i32⟩ : BufTy).Contents (Elt Ideal) → (⟨S32768x3x27, .i1⟩ : BufTy).Contents (Elt Ideal)) (t_main_v51 a1) t_main_v52

def t_main_v54 :=
  (broadcastInDim S1x3x1 ![1] bcast_S3_S1x3x1_1 : (⟨S3, .i32⟩ : BufTy).Contents (Elt Ideal) → (⟨S1x3x1, .i32⟩ : BufTy).Contents (Elt Ideal)) t_main_c_0

def t_main_v55 :=
  (broadcastInDim S32768x3x27 ![0, 1, 2] bcast_S1x3x1_S32768x3x27_0_1_2 : (⟨S1x3x1, .i32⟩ : BufTy).Contents (Elt Ideal) → (⟨S32768x3x27, .i32⟩ : BufTy).Contents (Elt Ideal)) t_main_v54

def t_main_v56 (a1 : IVec S1x32x32x32 32) :=
  (cmpi .slt : (⟨S32768x3x27, .i32⟩ : BufTy).Contents (Elt Ideal) → (⟨S32768x3x27, .i32⟩ : BufTy).Contents (Elt Ideal) → (⟨S32768x3x27, .i1⟩ : BufTy).Contents (Elt Ideal)) (t_main_v51 a1) t_main_v55

def t_main_v57 (a1 : IVec S1x32x32x32 32) :=
  (andi : (⟨S32768x3x27, .i1⟩ : BufTy).Contents (Elt Ideal) → (⟨S32768x3x27, .i1⟩ : BufTy).Contents (Elt Ideal) → (⟨S32768x3x27, .i1⟩ : BufTy).Contents (Elt Ideal)) (t_main_v53 a1) (t_main_v56 a1)

def t_main_c_23 :=
  (constantI S_ 1 1#1)

def t_main_v58 (a1 : IVec S1x32x32x32 32) :=
  ((fun x v => Host.reduce IntOp.andi x v reducesTo_S32768x3x27_S32768x27_d1 h_S_) : (⟨S32768x3x27, .i1⟩ : BufTy).Contents (Elt Ideal) → (⟨S_, .i1⟩ : BufTy).Contents (Elt Ideal) → (⟨S32768x27, .i1⟩ : BufTy).Contents (Elt Ideal)) (t_main_v57 a1) t_main_c_23

def t_main_c_24 :=
  (constantI S_ 32 1#32)

def t_main_v59 :=
  (broadcastInDim S3 ![] bcast_S_S3 : (⟨S_, .i32⟩ : BufTy).Contents (Elt Ideal) → (⟨S3, .i32⟩ : BufTy).Contents (Elt Ideal)) t_main_c_24

def t_main_v60 :=
  (subi : (⟨S3, .i32⟩ : BufTy).Contents (Elt Ideal) → (⟨S3, .i32⟩ : BufTy).Contents (Elt Ideal) → (⟨S3, .i32⟩ : BufTy).Contents (Elt Ideal)) t_main_c_0 t_main_v59

def t_main_v61 :=
  (broadcastInDim S1x3x1 ![1] bcast_S3_S1x3x1_1 : (⟨S3, .i32⟩ : BufTy).Contents (Elt Ideal) → (⟨S1x3x1, .i32⟩ : BufTy).Contents (Elt Ideal)) t_main_v60

def t_main_c_25 :=
  (constantI S_ 32 0#32)

def t_main_call15_v0 :=
  id t_main_c_25

def t_main_call15_v1 :=
  (broadcastInDim S32768x3x27 ![] bcast_S_S32768x3x27) t_main_call15_v0

def t_main_call15_v2 (a1 : IVec S1x32x32x32 32) :=
  maxsi t_main_call15_v1 (t_main_v51 a1)

def t_main_call15_v3 :=
  (broadcastInDim S32768x3x27 ![0, 1, 2] bcast_S1x3x1_S32768x3x27_0_1_2) t_main_v61

def t_main_v62 (a1 : IVec S1x32x32x32 32) :=
  minsi t_main_call15_v3 (t_main_call15_v2 a1)

def t_main_v63 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v45 a1)

def t_main_v64 (a1 : IVec S1x32x32x32 32) :=
  (broadcastInDim S32768x27 ![0, 1] bcast_S32768x1_S32768x27_0_1 : (⟨S32768x1, .i32⟩ : BufTy).Contents (Elt Ideal) → (⟨S32768x27, .i32⟩ : BufTy).Contents (Elt Ideal)) (t_main_v63 a1)

def t_main_v65 (a1 : IVec S1x32x32x32 32) :=
  ((extractStridedSlice S32768x1x27 ![0, 0, 0] · slices_S32768x3x27_S32768x1x27_0_0_0) : (⟨S32768x3x27, .i32⟩ : BufTy).Contents (Elt Ideal) → (⟨S32768x1x27, .i32⟩ : BufTy).Contents (Elt Ideal)) (t_main_v62 a1)

def t_main_v66 (a1 : IVec S1x32x32x32 32) :=
  shapeCast S32768x27 (t_main_v65 a1) shapeCasts_S32768x1x27_S32768x27

def t_main_v67 (a1 : IVec S1x32x32x32 32) :=
  ((extractStridedSlice S32768x1x27 ![0, 1, 0] · slices_S32768x3x27_S32768x1x27_0_1_0) : (⟨S32768x3x27, .i32⟩ : BufTy).Contents (Elt Ideal) → (⟨S32768x1x27, .i32⟩ : BufTy).Contents (Elt Ideal)) (t_main_v62 a1)

def t_main_v68 (a1 : IVec S1x32x32x32 32) :=
  shapeCast S32768x27 (t_main_v67 a1) shapeCasts_S32768x1x27_S32768x27

def t_main_v69 (a1 : IVec S1x32x32x32 32) :=
  ((extractStridedSlice S32768x1x27 ![0, 2, 0] · slices_S32768x3x27_S32768x1x27_0_2_0) : (⟨S32768x3x27, .i32⟩ : BufTy).Contents (Elt Ideal) → (⟨S32768x1x27, .i32⟩ : BufTy).Contents (Elt Ideal)) (t_main_v62 a1)

def t_main_v70 (a1 : IVec S1x32x32x32 32) :=
  shapeCast S32768x27 (t_main_v69 a1) shapeCasts_S32768x1x27_S32768x27

def t_main_c_26 :=
  (constantI S_ 32 0#32)

def t_main_v71 :=
  (broadcastInDim S32768x27 ![] bcast_S_S32768x27 : (⟨S_, .i32⟩ : BufTy).Contents (Elt Ideal) → (⟨S32768x27, .i32⟩ : BufTy).Contents (Elt Ideal)) t_main_c_26

def t_main_v72 (a1 : IVec S1x32x32x32 32) :=
  (cmpi .slt : (⟨S32768x27, .i32⟩ : BufTy).Contents (Elt Ideal) → (⟨S32768x27, .i32⟩ : BufTy).Contents (Elt Ideal) → (⟨S32768x27, .i1⟩ : BufTy).Contents (Elt Ideal)) (t_main_v64 a1) t_main_v71

def t_main_c_27 :=
  (constantI S_ 32 1#32)

def t_main_v73 :=
  (broadcastInDim S32768x27 ![] bcast_S_S32768x27 : (⟨S_, .i32⟩ : BufTy).Contents (Elt Ideal) → (⟨S32768x27, .i32⟩ : BufTy).Contents (Elt Ideal)) t_main_c_27

def t_main_v74 (a1 : IVec S1x32x32x32 32) :=
  (addi : (⟨S32768x27, .i32⟩ : BufTy).Contents (Elt Ideal) → (⟨S32768x27, .i32⟩ : BufTy).Contents (Elt Ideal) → (⟨S32768x27, .i32⟩ : BufTy).Contents (Elt Ideal)) (t_main_v64 a1) t_main_v73

def t_main_v75 (a1 : IVec S1x32x32x32 32) :=
  (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)) (t_main_v72 a1) (t_main_v74 a1) (t_main_v64 a1)

def t_main_c_28 :=
  (constantI S_ 32 0#32)

def t_main_v76 :=
  (broadcastInDim S32768x27 ![] bcast_S_S32768x27 : (⟨S_, .i32⟩ : BufTy).Contents (Elt Ideal) → (⟨S32768x27, .i32⟩ : BufTy).Contents (Elt Ideal)) t_main_c_28

def t_main_v77 (a1 : IVec S1x32x32x32 32) :=
  (cmpi .slt : (⟨S32768x27, .i32⟩ : BufTy).Contents (Elt Ideal) → (⟨S32768x27, .i32⟩ : BufTy).Contents (Elt Ideal) → (⟨S32768x27, .i1⟩ : BufTy).Contents (Elt Ideal)) (t_main_v66 a1) t_main_v76

def t_main_c_29 :=
  (constantI S_ 32 32#32)

def t_main_v78 :=
  (broadcastInDim S32768x27 ![] bcast_S_S32768x27 : (⟨S_, .i32⟩ : BufTy).Contents (Elt Ideal) → (⟨S32768x27, .i32⟩ : BufTy).Contents (Elt Ideal)) t_main_c_29

def t_main_v79 (a1 : IVec S1x32x32x32 32) :=
  (addi : (⟨S32768x27, .i32⟩ : BufTy).Contents (Elt Ideal) → (⟨S32768x27, .i32⟩ : BufTy).Contents (Elt Ideal) → (⟨S32768x27, .i32⟩ : BufTy).Contents (Elt Ideal)) (t_main_v66 a1) t_main_v78

def t_main_v80 (a1 : IVec S1x32x32x32 32) :=
  (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)) (t_main_v77 a1) (t_main_v79 a1) (t_main_v66 a1)

def t_main_c_30 :=
  (constantI S_ 32 0#32)

def t_main_v81 :=
  (broadcastInDim S32768x27 ![] bcast_S_S32768x27 : (⟨S_, .i32⟩ : BufTy).Contents (Elt Ideal) → (⟨S32768x27, .i32⟩ : BufTy).Contents (Elt Ideal)) t_main_c_30

def t_main_v82 (a1 : IVec S1x32x32x32 32) :=
  (cmpi .slt : (⟨S32768x27, .i32⟩ : BufTy).Contents (Elt Ideal) → (⟨S32768x27, .i32⟩ : BufTy).Contents (Elt Ideal) → (⟨S32768x27, .i1⟩ : BufTy).Contents (Elt Ideal)) (t_main_v68 a1) t_main_v81

def t_main_c_31 :=
  (constantI S_ 32 32#32)

def t_main_v83 :=
  (broadcastInDim S32768x27 ![] bcast_S_S32768x27 : (⟨S_, .i32⟩ : BufTy).Contents (Elt Ideal) → (⟨S32768x27, .i32⟩ : BufTy).Contents (Elt Ideal)) t_main_c_31

def t_main_v84 (a1 : IVec S1x32x32x32 32) :=
  (addi : (⟨S32768x27, .i32⟩ : BufTy).Contents (Elt Ideal) → (⟨S32768x27, .i32⟩ : BufTy).Contents (Elt Ideal) → (⟨S32768x27, .i32⟩ : BufTy).Contents (Elt Ideal)) (t_main_v68 a1) t_main_v83

def t_main_v85 (a1 : IVec S1x32x32x32 32) :=
  (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)) (t_main_v82 a1) (t_main_v84 a1) (t_main_v68 a1)

def t_main_c_32 :=
  (constantI S_ 32 0#32)

def t_main_v86 :=
  (broadcastInDim S32768x27 ![] bcast_S_S32768x27 : (⟨S_, .i32⟩ : BufTy).Contents (Elt Ideal) → (⟨S32768x27, .i32⟩ : BufTy).Contents (Elt Ideal)) t_main_c_32

def t_main_v87 (a1 : IVec S1x32x32x32 32) :=
  (cmpi .slt : (⟨S32768x27, .i32⟩ : BufTy).Contents (Elt Ideal) → (⟨S32768x27, .i32⟩ : BufTy).Contents (Elt Ideal) → (⟨S32768x27, .i1⟩ : BufTy).Contents (Elt Ideal)) (t_main_v70 a1) t_main_v86

def t_main_c_33 :=
  (constantI S_ 32 32#32)

def t_main_v88 :=
  (broadcastInDim S32768x27 ![] bcast_S_S32768x27 : (⟨S_, .i32⟩ : BufTy).Contents (Elt Ideal) → (⟨S32768x27, .i32⟩ : BufTy).Contents (Elt Ideal)) t_main_c_33

def t_main_v89 (a1 : IVec S1x32x32x32 32) :=
  (addi : (⟨S32768x27, .i32⟩ : BufTy).Contents (Elt Ideal) → (⟨S32768x27, .i32⟩ : BufTy).Contents (Elt Ideal) → (⟨S32768x27, .i32⟩ : BufTy).Contents (Elt Ideal)) (t_main_v70 a1) t_main_v88

def t_main_v90 (a1 : IVec S1x32x32x32 32) :=
  (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)) (t_main_v87 a1) (t_main_v89 a1) (t_main_v70 a1)

def t_main_v91 (a1 : IVec S1x32x32x32 32) :=
  (broadcastInDim S32768x27x1 ![0, 1] bcast_S32768x27_S32768x27x1_0_1 : (⟨S32768x27, .i32⟩ : BufTy).Contents (Elt Ideal) → (⟨S32768x27x1, .i32⟩ : BufTy).Contents (Elt Ideal)) (t_main_v75 a1)

def t_main_v92 (a1 : IVec S1x32x32x32 32) :=
  (broadcastInDim S32768x27x1 ![0, 1] bcast_S32768x27_S32768x27x1_0_1 : (⟨S32768x27, .i32⟩ : BufTy).Contents (Elt Ideal) → (⟨S32768x27x1, .i32⟩ : BufTy).Contents (Elt Ideal)) (t_main_v80 a1)

def t_main_v93 (a1 : IVec S1x32x32x32 32) :=
  (broadcastInDim S32768x27x1 ![0, 1] bcast_S32768x27_S32768x27x1_0_1 : (⟨S32768x27, .i32⟩ : BufTy).Contents (Elt Ideal) → (⟨S32768x27x1, .i32⟩ : BufTy).Contents (Elt Ideal)) (t_main_v85 a1)

def t_main_v94 (a1 : IVec S1x32x32x32 32) :=
  (broadcastInDim S32768x27x1 ![0, 1] bcast_S32768x27_S32768x27x1_0_1 : (⟨S32768x27, .i32⟩ : BufTy).Contents (Elt Ideal) → (⟨S32768x27x1, .i32⟩ : BufTy).Contents (Elt Ideal)) (t_main_v90 a1)

def t_main_v95 (a1 : IVec S1x32x32x32 32) :=
  concatenate S32768x27x4 2 [⟨S32768x27x1, (t_main_v91 a1)⟩, ⟨S32768x27x1, (t_main_v92 a1)⟩, ⟨S32768x27x1, (t_main_v93 a1)⟩, ⟨S32768x27x1, (t_main_v94 a1)⟩] concatenates_S32768x27x1_S32768x27x1_S32768x27x1_S32768x27x1_S32768x27x4_d2

def t_main_v96 (a0 : FVec Ideal S1x32x32x32x64 .f32) (a1 : IVec S1x32x32x32 32) :=
  ((fun x i => Host.gather gather_S1x32x32x32x64_S32768x27x4_S32768x27x64_2_0123_n_n_0123_2_111164 x i) : (⟨S1x32x32x32x64, .f32⟩ : BufTy).Contents (Elt Ideal) → (⟨S32768x27x4, .i32⟩ : BufTy).Contents (Elt Ideal) → (⟨S32768x27x64, .f32⟩ : BufTy).Contents (Elt Ideal)) a0 (t_main_v95 a1)

def t_main_v97 (a1 : IVec S1x32x32x32 32) :=
  (broadcastInDim S32768x27x1 ![0, 1] bcast_S32768x27_S32768x27x1_0_1 : (⟨S32768x27, .i1⟩ : BufTy).Contents (Elt Ideal) → (⟨S32768x27x1, .i1⟩ : BufTy).Contents (Elt Ideal)) (t_main_v58 a1)

def t_main_v98 (a1 : IVec S1x32x32x32 32) :=
  (uitofp (F := Ideal) .f32 : (⟨S32768x27x1, .i1⟩ : BufTy).Contents (Elt Ideal) → (⟨S32768x27x1, .f32⟩ : BufTy).Contents (Elt Ideal)) (t_main_v97 a1)

def t_main_v99 (a1 : IVec S1x32x32x32 32) :=
  (broadcastInDim S32768x27x64 ![0, 1, 2] bcast_S32768x27x1_S32768x27x64_0_1_2 : (⟨S32768x27x1, .f32⟩ : BufTy).Contents (Elt Ideal) → (⟨S32768x27x64, .f32⟩ : BufTy).Contents (Elt Ideal)) (t_main_v98 a1)

def t_main_v100 (a0 : FVec Ideal S1x32x32x32x64 .f32) (a1 : IVec S1x32x32x32 32) :=
  (mulf (F := Ideal) (φ := .f32) : (⟨S32768x27x64, .f32⟩ : BufTy).Contents (Elt Ideal) → (⟨S32768x27x64, .f32⟩ : BufTy).Contents (Elt Ideal) → (⟨S32768x27x64, .f32⟩ : BufTy).Contents (Elt Ideal)) (t_main_v96 a0 a1) (t_main_v99 a1)

def t_main_v101 (a0 : FVec Ideal S1x32x32x32x64 .f32) (a1 : IVec S1x32x32x32 32) :=
  shapeCast S32768x1728 (t_main_v100 a0 a1) shapeCasts_S32768x27x64_S32768x1728

def t_main_v102 (a0 : FVec Ideal S1x32x32x32x64 .f32) (a1 : IVec S1x32x32x32 32) (a2 : FVec Ideal S1728x64 .f32) :=
  ((fun l r => Host.dotGeneral (F := Ideal) (φ₁ := .f32) (φ₂ := .f32) dot_S32768x1728_S1728x64_S32768x64_1_0_0_1_n_n none l r) : (⟨S32768x1728, .f32⟩ : BufTy).Contents (Elt Ideal) → (⟨S1728x64, .f32⟩ : BufTy).Contents (Elt Ideal) → (⟨S32768x64, .f32⟩ : BufTy).Contents (Elt Ideal)) (t_main_v101 a0 a1) a2

def t_main_v103 (a3 : FVec Ideal S64 .f32) :=
  (broadcastInDim S1x64 ![1] bcast_S64_S1x64_1 : (⟨S64, .f32⟩ : BufTy).Contents (Elt Ideal) → (⟨S1x64, .f32⟩ : BufTy).Contents (Elt Ideal)) a3

def t_main_v104 (a3 : FVec Ideal S64 .f32) :=
  (broadcastInDim S32768x64 ![0, 1] bcast_S1x64_S32768x64_0_1 : (⟨S1x64, .f32⟩ : BufTy).Contents (Elt Ideal) → (⟨S32768x64, .f32⟩ : BufTy).Contents (Elt Ideal)) (t_main_v103 a3)

def t_main_v105 (a0 : FVec Ideal S1x32x32x32x64 .f32) (a1 : IVec S1x32x32x32 32) (a2 : FVec Ideal S1728x64 .f32) (a3 : FVec Ideal S64 .f32) :=
  (addf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)) (t_main_v102 a0 a1 a2) (t_main_v104 a3)

def t_main_v106 (a1 : IVec S1x32x32x32 32) :=
  (broadcastInDim S32768x1 ![0] bcast_S32768_S32768x1_0 : (⟨S32768, .f32⟩ : BufTy).Contents (Elt Ideal) → (⟨S32768x1, .f32⟩ : BufTy).Contents (Elt Ideal)) (t_main_v43 a1)

def t_main_v107 (a1 : IVec S1x32x32x32 32) :=
  (broadcastInDim S32768x64 ![0, 1] bcast_S32768x1_S32768x64_0_1 : (⟨S32768x1, .f32⟩ : BufTy).Contents (Elt Ideal) → (⟨S32768x64, .f32⟩ : BufTy).Contents (Elt Ideal)) (t_main_v106 a1)

def t_main_v108 (a0 : FVec Ideal S1x32x32x32x64 .f32) (a1 : IVec S1x32x32x32 32) (a2 : FVec Ideal S1728x64 .f32) (a3 : FVec Ideal S64 .f32) :=
  (mulf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)) (t_main_v105 a0 a1 a2 a3) (t_main_v107 a1)

def t_main_cst :=
  (constant (F := Ideal) S_ .f32 0x00000000#32)

def t_main_v109 :=
  (broadcastInDim S1x32x32x32x64 ![] bcast_S_S1x32x32x32x64 : (⟨S_, .f32⟩ : BufTy).Contents (Elt Ideal) → (⟨S1x32x32x32x64, .f32⟩ : BufTy).Contents (Elt Ideal)) t_main_cst

def t_main_v110 (a1 : IVec S1x32x32x32 32) :=
  ((extractStridedSlice S32768x1 ![0, 0] · slices_S32768x4_S32768x1_0_0) : (⟨S32768x4, .i32⟩ : BufTy).Contents (Elt Ideal) → (⟨S32768x1, .i32⟩ : BufTy).Contents (Elt Ideal)) (t_main_v35 a1)

def t_main_v111 (a1 : IVec S1x32x32x32 32) :=
  shapeCast S32768 (t_main_v110 a1) shapeCasts_S32768x1_S32768

def t_main_v112 (a1 : IVec S1x32x32x32 32) :=
  ((extractStridedSlice S32768x1 ![0, 1] · slices_S32768x4_S32768x1_0_1) : (⟨S32768x4, .i32⟩ : BufTy).Contents (Elt Ideal) → (⟨S32768x1, .i32⟩ : BufTy).Contents (Elt Ideal)) (t_main_v35 a1)

def t_main_v113 (a1 : IVec S1x32x32x32 32) :=
  shapeCast S32768 (t_main_v112 a1) shapeCasts_S32768x1_S32768

def t_main_v114 (a1 : IVec S1x32x32x32 32) :=
  ((extractStridedSlice S32768x1 ![0, 2] · slices_S32768x4_S32768x1_0_2) : (⟨S32768x4, .i32⟩ : BufTy).Contents (Elt Ideal) → (⟨S32768x1, .i32⟩ : BufTy).Contents (Elt Ideal)) (t_main_v35 a1)

def t_main_v115 (a1 : IVec S1x32x32x32 32) :=
  shapeCast S32768 (t_main_v114 a1) shapeCasts_S32768x1_S32768

def t_main_v116 (a1 : IVec S1x32x32x32 32) :=
  ((extractStridedSlice S32768x1 ![0, 3] · slices_S32768x4_S32768x1_0_3) : (⟨S32768x4, .i32⟩ : BufTy).Contents (Elt Ideal) → (⟨S32768x1, .i32⟩ : BufTy).Contents (Elt Ideal)) (t_main_v35 a1)

def t_main_v117 (a1 : IVec S1x32x32x32 32) :=
  shapeCast S32768 (t_main_v116 a1) shapeCasts_S32768x1_S32768

def t_main_c_34 :=
  (constantI S_ 32 0#32)

def t_main_v118 :=
  (broadcastInDim S32768 ![] bcast_S_S32768 : (⟨S_, .i32⟩ : BufTy).Contents (Elt Ideal) → (⟨S32768, .i32⟩ : BufTy).Contents (Elt Ideal)) t_main_c_34

def t_main_v119 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) (t_main_v111 a1) t_main_v118

def t_main_c_35 :=
  (constantI S_ 32 1#32)

def t_main_v120 :=
  (broadcastInDim S32768 ![] bcast_S_S32768 : (⟨S_, .i32⟩ : BufTy).Contents (Elt Ideal) → (⟨S32768, .i32⟩ : BufTy).Contents (Elt Ideal)) t_main_c_35

def t_main_v121 (a1 : IVec S1x32x32x32 32) :=
  (addi : (⟨S32768, .i32⟩ : BufTy).Contents (Elt Ideal) → (⟨S32768, .i32⟩ : BufTy).Contents (Elt Ideal) → (⟨S32768, .i32⟩ : BufTy).Contents (Elt Ideal)) (t_main_v111 a1) t_main_v120

def t_main_v122 (a1 : IVec S1x32x32x32 32) :=
  (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)) (t_main_v119 a1) (t_main_v121 a1) (t_main_v111 a1)

def t_main_c_36 :=
  (constantI S_ 32 0#32)

def t_main_v123 :=
  (broadcastInDim S32768 ![] bcast_S_S32768 : (⟨S_, .i32⟩ : BufTy).Contents (Elt Ideal) → (⟨S32768, .i32⟩ : BufTy).Contents (Elt Ideal)) t_main_c_36

def t_main_v124 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) (t_main_v113 a1) t_main_v123

def t_main_c_37 :=
  (constantI S_ 32 32#32)

def t_main_v125 :=
  (broadcastInDim S32768 ![] bcast_S_S32768 : (⟨S_, .i32⟩ : BufTy).Contents (Elt Ideal) → (⟨S32768, .i32⟩ : BufTy).Contents (Elt Ideal)) t_main_c_37

def t_main_v126 (a1 : IVec S1x32x32x32 32) :=
  (addi : (⟨S32768, .i32⟩ : BufTy).Contents (Elt Ideal) → (⟨S32768, .i32⟩ : BufTy).Contents (Elt Ideal) → (⟨S32768, .i32⟩ : BufTy).Contents (Elt Ideal)) (t_main_v113 a1) t_main_v125

def t_main_v127 (a1 : IVec S1x32x32x32 32) :=
  (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)) (t_main_v124 a1) (t_main_v126 a1) (t_main_v113 a1)

def t_main_c_38 :=
  (constantI S_ 32 0#32)

def t_main_v128 :=
  (broadcastInDim S32768 ![] bcast_S_S32768 : (⟨S_, .i32⟩ : BufTy).Contents (Elt Ideal) → (⟨S32768, .i32⟩ : BufTy).Contents (Elt Ideal)) t_main_c_38

def t_main_v129 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) (t_main_v115 a1) t_main_v128

def t_main_c_39 :=
  (constantI S_ 32 32#32)

def t_main_v130 :=
  (broadcastInDim S32768 ![] bcast_S_S32768 : (⟨S_, .i32⟩ : BufTy).Contents (Elt Ideal) → (⟨S32768, .i32⟩ : BufTy).Contents (Elt Ideal)) t_main_c_39

def t_main_v131 (a1 : IVec S1x32x32x32 32) :=
  (addi : (⟨S32768, .i32⟩ : BufTy).Contents (Elt Ideal) → (⟨S32768, .i32⟩ : BufTy).Contents (Elt Ideal) → (⟨S32768, .i32⟩ : BufTy).Contents (Elt Ideal)) (t_main_v115 a1) t_main_v130

def t_main_v132 (a1 : IVec S1x32x32x32 32) :=
  (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)) (t_main_v129 a1) (t_main_v131 a1) (t_main_v115 a1)

def t_main_c_40 :=
  (constantI S_ 32 0#32)

def t_main_v133 :=
  (broadcastInDim S32768 ![] bcast_S_S32768 : (⟨S_, .i32⟩ : BufTy).Contents (Elt Ideal) → (⟨S32768, .i32⟩ : BufTy).Contents (Elt Ideal)) t_main_c_40

def t_main_v134 (a1 : IVec S1x32x32x32 32) :=
  (cmpi .slt : (⟨S32768, .i32⟩ : BufTy).Contents (Elt Ideal) → (⟨S32768, .i32⟩ : BufTy).Contents (Elt Ideal) → (⟨S32768, .i1⟩ : BufTy).Contents (Elt Ideal)) (t_main_v117 a1) t_main_v133

def t_main_c_41 :=
  (constantI S_ 32 32#32)

def t_main_v135 :=
  (broadcastInDim S32768 ![] bcast_S_S32768 : (⟨S_, .i32⟩ : BufTy).Contents (Elt Ideal) → (⟨S32768, .i32⟩ : BufTy).Contents (Elt Ideal)) t_main_c_41

def t_main_v136 (a1 : IVec S1x32x32x32 32) :=
  (addi : (⟨S32768, .i32⟩ : BufTy).Contents (Elt Ideal) → (⟨S32768, .i32⟩ : BufTy).Contents (Elt Ideal) → (⟨S32768, .i32⟩ : BufTy).Contents (Elt Ideal)) (t_main_v117 a1) t_main_v135

def t_main_v137 (a1 : IVec S1x32x32x32 32) :=
  (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)) (t_main_v134 a1) (t_main_v136 a1) (t_main_v117 a1)

def t_main_v138 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v122 a1)

def t_main_v139 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v127 a1)

def t_main_v140 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v132 a1)

def t_main_v141 (a1 : IVec S1x32x32x32 32) :=
  (broadcastInDim S32768x1 ![0] bcast_S32768_S32768x1_0 : (⟨S32768, .i32⟩ : BufTy).Contents (Elt Ideal) → (⟨S32768x1, .i32⟩ : BufTy).Contents (Elt Ideal)) (t_main_v137 a1)

def t_main_v142 (a1 : IVec S1x32x32x32 32) :=
  concatenate S32768x4 1 [⟨S32768x1, (t_main_v138 a1)⟩, ⟨S32768x1, (t_main_v139 a1)⟩, ⟨S32768x1, (t_main_v140 a1)⟩, ⟨S32768x1, (t_main_v141 a1)⟩] concatenates_S32768x1_S32768x1_S32768x1_S32768x1_S32768x4_d1

def t_main_v143 (a0 : FVec Ideal S1x32x32x32x64 .f32) (a1 : IVec S1x32x32x32 32) (a2 : FVec Ideal S1728x64 .f32) (a3 : FVec Ideal S64 .f32) :=
  ((fun x i u => Host.scatterAdd (F := Ideal) (φ := .f32) scatter_S1x32x32x32x64_S32768x4_S32768x64_1_0123_0123_1 x i u) : (⟨S1x32x32x32x64, .f32⟩ : BufTy).Contents (Elt Ideal) → (⟨S32768x4, .i32⟩ : BufTy).Contents (Elt Ideal) → (⟨S32768x64, .f32⟩ : BufTy).Contents (Elt Ideal) → (⟨S1x32x32x32x64, .f32⟩ : BufTy).Contents (Elt Ideal)) t_main_v109 (t_main_v142 a1) (t_main_v108 a0 a1 a2 a3)

/-- The program's result as a function of its arguments. -/
def refOut (a0 : FVec Ideal S1x32x32x32x64 .f32) (a1 : IVec S1x32x32x32 32) (a2 : FVec Ideal S1728x64 .f32) (a3 : FVec Ideal S64 .f32) :=
  (t_main_v143 a0 a1 a2 a3)

end Cert.ReferenceIdeal.RefTerm

end
-- ==== Proof.RefRunW1.lean ====
/-
  The reference program's line of host operations read stretch by stretch (stretches 1 … 6 of 22, at most twenty
  operations each, a concatenation alone in its own): the buffer contents after each stretch, and for every buffer
  written by then and read later its contents as the program's value (RefTerm's definition of that tensor value) of
  the four argument arrays before the line. A stretch's own operations are composed by the result lemmas; an earlier
  stretch's buffers are read by its lemmas.
-/
import proofs.«150033_g82085414961357_cont_sun_m_845_2_alg».proof.Proof.RefOps
import proofs.«150033_g82085414961357_cont_sun_m_845_2_alg».proof.Proof.RefTerm

set_option pp.maxSteps 5000
set_option pp.deepTerms false

noncomputable section

namespace Cert.ReferenceIdeal.RefRun

open Cert.ReferenceIdeal Cert.ReferenceIdeal.Gen Idealize.ShloMosaic Idealize.ShloMosaic.TcCoe Idealize.SL.Sem Idealize.ShloMosaic.StableHlo

-- the folds and searches over an operand's elements stay folded: the equations below never look inside them
attribute [local irreducible] Host.reduceWindow Host.scatter Host.gather Host.scatterAdd Host.reduce

open Lean Meta in
/-- `cast h a` is `a` when the two types are the same up to unfolding (a typed reference's transport at a literal
    reference): `cast_eq`, with the sameness of the types decided by unfolding. -/
simproc_decl castSame (cast _ _) := fun e => do
  let_expr cast α β h a ← e | return .continue
  unless (← withTransparency .default <| isDefEq α β) do return .continue
  return .visit { expr := a, proof? := some (mkApp3 (mkConst ``cast_eq [← getLevel β]) β h a) }

/-- The contents after two lines run one after the other. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The buffer contents before the first stretch. -/
def val0 (V0 : Valuation τ sig (Elt Ideal)) : Valuation τ sig (Elt Ideal) := V0
theorem val0_eq (V0 : Valuation τ sig (Elt Ideal)) : val0 V0 = V0 := rfl
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
attribute [irreducible] val0

set_option maxRecDepth 8192 in
set_option maxHeartbeats 4000000 in
/-- Operations 1 … 20 of 348. -/
abbrev part1 : List (HloOp τ sig (Elt Ideal)) :=
  [ nullary main_c (fun i => lit0 (S3x27.rowMajor i)),
    nullary main_c_0 (constantI S3 32 32#32),
    nullary main_c_1 (constantI S_ 32 0#32),
    unary main_c_1 main_v0 (broadcastInDim S1x32x32x32 ![] bcast_S_S1x32x32x32 : (⟨S_, .i32⟩ : BufTy).Contents (Elt Ideal) → (⟨S1x32x32x32, .i32⟩ : BufTy).Contents (Elt Ideal)),
    binary main_arg1 main_v0 main_v1 (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)),
    TRef.reshape (TRef.of (T := ⟨S1x32x32x32, .i1⟩) main_v1) main_call0.v0 rfl shapeCasts_S1x32x32x32_S32768,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![32768] ![1] ![32767] ![0] x v reduceWindows_S32768_S32768_w32768s1p32767_0 h_S_),
    nullary main_c_2 (constantI S_ 32 0#32),
    unary main_c_2 main_v3 (broadcastInDim S32768 ![] bcast_S_S32768 : (⟨S_, .i32⟩ : BufTy).Contents (Elt Ideal) → (⟨S32768, .i32⟩ : BufTy).Contents (Elt Ideal)),
    nullary main_c_3 (constantI S_ 32 0#32),
    TRef.unary (TRef.of (T := ⟨S_, .i32⟩) main_c_3) main_call1.v0 id,
    TRef.unary main_call1.v0 main_call1.v1 (broadcastInDim S32768 ![] bcast_S_S32768),
    TRef.binary main_call1.v1 (TRef.of (T := ⟨S32768, .i32⟩) main_v2) main_call1.v2 maxsi,
    nullary main_c_4 (constantI S_ 32 0#32),
    unary main_c_4 main_v5 (broadcastInDim S32768 ![] bcast_S_S32768 : (⟨S_, .i32⟩ : BufTy).Contents (Elt Ideal) → (⟨S32768, .i32⟩ : BufTy).Contents (Elt Ideal)),
    binary main_v4 main_v5 main_v6 (cmpi .slt : (⟨S32768, .i32⟩ : BufTy).Contents (Elt Ideal) → (⟨S32768, .i32⟩ : BufTy).Contents (Elt Ideal) → (⟨S32768, .i1⟩ : BufTy).Contents (Elt Ideal)),
    nullary main_c_5 (constantI S_ 32 32768#32) ]
/-- The buffer contents after the first 1 stretch. -/
def val1 (V0 : Valuation τ sig (Elt Ideal)) : Valuation τ sig (Elt Ideal) := after part1 (val0 V0)
theorem val1_eq (V0 : Valuation τ sig (Elt Ideal)) : val1 V0 = after part1 (val0 V0) := rfl
/-- The buffers that stretch 1 writes. -/
abbrev part1_W : List (Ref sig .tc) := [main_c, main_c_0, main_c_1, main_v0, main_v1, main_call0_v0, main_call0_v1, main_call0_call0_c, main_call0_call0_v0, main_v2, main_c_2, main_v3, main_c_3, main_call1_v0, main_call1_v1, main_v4, main_c_4, main_v5, main_v6, main_c_5]
set_option maxRecDepth 8192 in
theorem part1_writes : (part1 : List (HloOp τ sig (Elt Ideal))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 1 does not write keeps its contents through it. -/
theorem val1_keep (V0 : Valuation τ sig (Elt Ideal)) (r : Ref sig .tc) (h : r ∉ part1_W) :
    val1 V0 (Proc.devRef .tc r) = val0 V0 (Proc.devRef .tc r) :=
  after_of_writes_sub part1 _ part1_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) = V0 (Proc.devRef .tc main_arg3) :=
  (val1_keep V0 main_arg3 (by decide)).trans (val0_main_arg3 V0)
set_option maxRecDepth 8192 in
set_option maxHeartbeats 2000000 in
theorem val1_main_c (V0 : Valuation τ sig (Elt Ideal)) : val1 V0 (no_index (Proc.devRef .tc main_c)) = RefTerm.t_main_c := by
  unfold val1
  simp only [part1]
  after_results_simp
  (try simp only [TRef.toBuf, TRef.ofBuf, castSame]) <;> first | rfl | fail "rfl 1 main_c"
set_option maxRecDepth 8192 in
set_option maxHeartbeats 2000000 in
theorem val1_main_c_0 (V0 : Valuation τ sig (Elt Ideal)) : val1 V0 (no_index (Proc.devRef .tc main_c_0)) = RefTerm.t_main_c_0 := by
  unfold val1
  simp only [part1]
  after_results_simp
  (try simp only [TRef.toBuf, TRef.ofBuf, castSame]) <;> first | rfl | fail "rfl 1 main_c_0"
set_option maxRecDepth 8192 in
set_option maxHeartbeats 2000000 in
theorem val1_main_v1 (V0 : Valuation τ sig (Elt Ideal)) : val1 V0 (no_index (Proc.devRef .tc main_v1)) = RefTerm.t_main_v1 (V0 (Proc.devRef .tc main_arg1)) := by
  unfold val1
  simp only [part1]
  after_results_simp
  (try simp only [TRef.toBuf, TRef.ofBuf, castSame, val0_main_arg1]) <;> first | rfl | fail "rfl 1 main_v1"
set_option maxRecDepth 8192 in
set_option maxHeartbeats 2000000 in
theorem val1_main_v3 (V0 : Valuation τ sig (Elt Ideal)) : val1 V0 (no_index (Proc.devRef .tc main_v3)) = RefTerm.t_main_v3 := by
  unfold val1
  simp only [part1]
  after_results_simp
  (try simp only [TRef.toBuf, TRef.ofBuf, castSame]) <;> first | rfl | fail "rfl 1 main_v3"
set_option maxRecDepth 8192 in
set_option maxHeartbeats 2000000 in
theorem val1_main_v4 (V0 : Valuation τ sig (Elt Ideal)) : val1 V0 (no_index (Proc.devRef .tc main_v4)) = RefTerm.t_main_v4 (V0 (Proc.devRef .tc main_arg1)) := by
  unfold val1
  simp only [part1]
  after_results_simp
  (try simp only [TRef.toBuf, TRef.ofBuf, castSame, val0_main_arg1]) <;> first | rfl | fail "rfl 1 main_v4"
set_option maxRecDepth 8192 in
set_option maxHeartbeats 2000000 in
theorem val1_main_v6 (V0 : Valuation τ sig (Elt Ideal)) : val1 V0 (no_index (Proc.devRef .tc main_v6)) = RefTerm.t_main_v6 (V0 (Proc.devRef .tc main_arg1)) := by
  unfold val1
  simp only [part1]
  after_results_simp
  (try simp only [TRef.toBuf, TRef.ofBuf, castSame, val0_main_arg1]) <;> first | rfl | fail "rfl 1 main_v6"
set_option maxRecDepth 8192 in
set_option maxHeartbeats 2000000 in
theorem val1_main_c_5 (V0 : Valuation τ sig (Elt Ideal)) : val1 V0 (no_index (Proc.devRef .tc main_c_5)) = RefTerm.t_main_c_5 := by
  unfold val1
  simp only [part1]
  after_results_simp
  (try simp only [TRef.toBuf, TRef.ofBuf, castSame]) <;> first | rfl | fail "rfl 1 main_c_5"
attribute [irreducible] val1

set_option maxRecDepth 8192 in
set_option maxHeartbeats 4000000 in
/-- Operations 21 … 40 of 348. -/
abbrev part2 : List (HloOp τ sig (Elt Ideal)) :=
  [ unary main_c_5 main_v7 (broadcastInDim S32768 ![] bcast_S_S32768 : (⟨S_, .i32⟩ : BufTy).Contents (Elt Ideal) → (⟨S32768, .i32⟩ : BufTy).Contents (Elt Ideal)),
    binary main_v4 main_v7 main_v8 (addi : (⟨S32768, .i32⟩ : BufTy).Contents (Elt Ideal) → (⟨S32768, .i32⟩ : BufTy).Contents (Elt Ideal) → (⟨S32768, .i32⟩ : BufTy).Contents (Elt Ideal)),
    ternary main_v6 main_v8 main_v4 main_v9 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    unary main_v9 main_v10 (broadcastInDim S32768x1 ![0] bcast_S32768_S32768x1_0 : (⟨S32768, .i32⟩ : BufTy).Contents (Elt Ideal) → (⟨S32768x1, .i32⟩ : BufTy).Contents (Elt Ideal)),
    nullary main_c_6 (constantI S_ 32 1#32),
    unary main_c_6 main_v11 (broadcastInDim S32768 ![] bcast_S_S32768 : (⟨S_, .i32⟩ : BufTy).Contents (Elt Ideal) → (⟨S32768, .i32⟩ : BufTy).Contents (Elt Ideal)),
    ternary main_v3 main_v10 main_v11 main_v12 ((fun x i u => Host.scatter scatter_S32768_S32768x1_S32768_n_0_0_1 IntOp.addi x i u) : (⟨S32768, .i32⟩ : BufTy).Contents (Elt Ideal) → (⟨S32768x1, .i32⟩ : BufTy).Contents (Elt Ideal) → (⟨S32768, .i32⟩ : BufTy).Contents (Elt Ideal) → (⟨S32768, .i32⟩ : BufTy).Contents (Elt Ideal)),
    TRef.nullary main_call2.call0.c (constantI S_ 32 0#32),
    TRef.unary main_call2.call0.c main_call2.call0.v0 (broadcastInDim S_ ![] bcast_S_S_),
    TRef.binary (TRef.of (T := ⟨S32768, .i32⟩) main_v12) main_call2.call0.v0 main_call2.call0.v1 (fun x v => Host.reduceWindow IntOp.addi ![32768] ![1] ![32767] ![0] x v reduceWindows_S32768_S32768_w32768s1p32767_0 h_S_),
    nullary main_c_7 (constantI S_ 32 32768#32),
    TRef.unary (TRef.of (T := ⟨S_, .i32⟩) main_c_7) main_call3.v0 (broadcastInDim S32768 ![] bcast_S_S32768),
    TRef.binary (TRef.of (T := ⟨S32768, .i32⟩) main_v13) main_call3.v0 main_call3.v1 Host.divsi,
    TRef.unary (TRef.of (T := ⟨S32768, .i32⟩) main_v13) main_call3.v2 signi,
    TRef.unary (TRef.of (T := ⟨S_, .i32⟩) main_c_7) main_call3.v3 signi,
    TRef.unary main_call3.v3 main_call3.v4 (broadcastInDim S32768 ![] bcast_S_S32768),
    TRef.binary main_call3.v2 main_call3.v4 main_call3.v5 (cmpi .ne),
    TRef.unary (TRef.of (T := ⟨S_, .i32⟩) main_c_7) main_call3.v6 (broadcastInDim S32768 ![] bcast_S_S32768),
    TRef.binary (TRef.of (T := ⟨S32768, .i32⟩) main_v13) main_call3.v6 main_call3.v7 Host.remsi,
    TRef.nullary main_call3.c (constantI S_ 32 0#32) ]
/-- The buffer contents after the first 2 stretches. -/
def val2 (V0 : Valuation τ sig (Elt Ideal)) : Valuation τ sig (Elt Ideal) := after part2 (val1 V0)
theorem val2_eq (V0 : Valuation τ sig (Elt Ideal)) : val2 V0 = after part2 (val1 V0) := rfl
/-- The buffers that stretch 2 writes. -/
abbrev part2_W : List (Ref sig .tc) := [main_v7, main_v8, main_v9, main_v10, main_c_6, main_v11, main_v12, main_call2_call0_c, main_call2_call0_v0, main_v13, main_c_7, main_call3_v0, main_call3_v1, main_call3_v2, main_call3_v3, main_call3_v4, main_call3_v5, main_call3_v6, main_call3_v7, main_call3_c]
set_option maxRecDepth 8192 in
theorem part2_writes : (part2 : List (HloOp τ sig (Elt Ideal))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 2 does not write keeps its contents through it. -/
theorem val2_keep (V0 : Valuation τ sig (Elt Ideal)) (r : Ref sig .tc) (h : r ∉ part2_W) :
    val2 V0 (Proc.devRef .tc r) = val1 V0 (Proc.devRef .tc r) :=
  after_of_writes_sub part2 _ part2_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_c (V0 : Valuation τ sig (Elt Ideal)) : val2 V0 (no_index (Proc.devRef .tc main_c)) = RefTerm.t_main_c :=
  (val2_keep V0 main_c (by decide)).trans (val1_main_c V0)
theorem val2_main_c_0 (V0 : Valuation τ sig (Elt Ideal)) : val2 V0 (no_index (Proc.devRef .tc main_c_0)) = RefTerm.t_main_c_0 :=
  (val2_keep V0 main_c_0 (by decide)).trans (val1_main_c_0 V0)
theorem val2_main_v1 (V0 : Valuation τ sig (Elt Ideal)) : val2 V0 (no_index (Proc.devRef .tc main_v1)) = RefTerm.t_main_v1 (V0 (Proc.devRef .tc main_arg1)) :=
  (val2_keep V0 main_v1 (by decide)).trans (val1_main_v1 V0)
set_option maxRecDepth 8192 in
set_option maxHeartbeats 2000000 in
theorem val2_main_v13 (V0 : Valuation τ sig (Elt Ideal)) : val2 V0 (no_index (Proc.devRef .tc main_v13)) = RefTerm.t_main_v13 (V0 (Proc.devRef .tc main_arg1)) := by
  unfold val2
  simp only [part2]
  after_results_simp
  (try simp only [TRef.toBuf, TRef.ofBuf, castSame, val1_main_v4, val1_main_c_5, val1_main_v6, val1_main_v3]) <;> first | rfl | fail "rfl 2 main_v13"
set_option maxRecDepth 8192 in
set_option maxHeartbeats 2000000 in
theorem val2_main_call3_v1 (V0 : Valuation τ sig (Elt Ideal)) : val2 V0 (no_index (Proc.devRef .tc main_call3_v1)) = RefTerm.t_main_call3_v1 (V0 (Proc.devRef .tc main_arg1)) := by
  unfold val2
  simp only [part2]
  after_results_simp
  (try simp only [TRef.toBuf, TRef.ofBuf, castSame, val1_main_v4, val1_main_c_5, val1_main_v6, val1_main_v3]) <;> first | rfl | fail "rfl 2 main_call3_v1"
set_option maxRecDepth 8192 in
set_option maxHeartbeats 2000000 in
theorem val2_main_call3_v5 (V0 : Valuation τ sig (Elt Ideal)) : val2 V0 (no_index (Proc.devRef .tc main_call3_v5)) = RefTerm.t_main_call3_v5 (V0 (Proc.devRef .tc main_arg1)) := by
  unfold val2
  simp only [part2]
  after_results_simp
  (try simp only [TRef.toBuf, TRef.ofBuf, castSame, val1_main_v4, val1_main_c_5, val1_main_v6, val1_main_v3]) <;> first | rfl | fail "rfl 2 main_call3_v5"
set_option maxRecDepth 8192 in
set_option maxHeartbeats 2000000 in
theorem val2_main_call3_v7 (V0 : Valuation τ sig (Elt Ideal)) : val2 V0 (no_index (Proc.devRef .tc main_call3_v7)) = RefTerm.t_main_call3_v7 (V0 (Proc.devRef .tc main_arg1)) := by
  unfold val2
  simp only [part2]
  after_results_simp
  (try simp only [TRef.toBuf, TRef.ofBuf, castSame, val1_main_v4, val1_main_c_5, val1_main_v6, val1_main_v3]) <;> first | rfl | fail "rfl 2 main_call3_v7"
set_option maxRecDepth 8192 in
set_option maxHeartbeats 2000000 in
theorem val2_main_call3_c (V0 : Valuation τ sig (Elt Ideal)) : val2 V0 (no_index (Proc.devRef .tc main_call3_c)) = RefTerm.t_main_call3_c := by
  unfold val2
  simp only [part2]
  after_results_simp
  (try simp only [TRef.toBuf, TRef.ofBuf, castSame]) <;> first | rfl | fail "rfl 2 main_call3_c"
attribute [irreducible] val2

set_option maxRecDepth 8192 in
set_option maxHeartbeats 4000000 in
/-- Operations 41 … 60 of 348. -/
abbrev part3 : List (HloOp τ sig (Elt Ideal)) :=
  [ TRef.unary main_call3.c main_call3.v8 (broadcastInDim S32768 ![] bcast_S_S32768),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S32768 ![] bcast_S_S32768),
    TRef.binary main_call3.v1 main_call3.v11 main_call3.v12 subi,
    TRef.ternary main_call3.v10 main_call3.v12 main_call3.v1 main_call3.call0.v0 select,
    nullary main_c_8 (constantI S_ 32 1#32),
    TRef.unary (TRef.of (T := ⟨S_, .i32⟩) main_c_8) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S32768 ![] bcast_S_S32768),
    TRef.binary (TRef.of (T := ⟨S32768, .i32⟩) main_v14) main_call4.v3 main_call4.v4 Host.remsi,
    TRef.nullary main_call4.c_1 (constantI S_ 32 0#32),
    TRef.unary main_call4.c_1 main_call4.v5 (broadcastInDim S32768 ![] bcast_S_S32768),
    TRef.binary main_call4.v4 main_call4.v5 main_call4.v6 (cmpi .ne),
    TRef.nullary main_call4.c_2 (constantI S_ 32 0#32),
    TRef.unary main_call4.c_2 main_call4.v7 (broadcastInDim S32768 ![] bcast_S_S32768) ]
/-- The buffer contents after the first 3 stretches. -/
def val3 (V0 : Valuation τ sig (Elt Ideal)) : Valuation τ sig (Elt Ideal) := after part3 (val2 V0)
theorem val3_eq (V0 : Valuation τ sig (Elt Ideal)) : val3 V0 = after part3 (val2 V0) := rfl
/-- The buffers that stretch 3 writes. -/
abbrev part3_W : List (Ref sig .tc) := [main_call3_v8, main_call3_v9, main_call3_v10, main_call3_c_0, main_call3_v11, main_call3_v12, main_v14, main_c_8, main_call4_v0, main_call4_c, main_call4_v1, main_call4_c_0, main_call4_v2, main_call4_v3, main_call4_v4, main_call4_c_1, main_call4_v5, main_call4_v6, main_call4_c_2, main_call4_v7]
set_option maxRecDepth 8192 in
theorem part3_writes : (part3 : List (HloOp τ sig (Elt Ideal))).Forall fun op => op.writes ⊆ (part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 3 does not write keeps its contents through it. -/
theorem val3_keep (V0 : Valuation τ sig (Elt Ideal)) (r : Ref sig .tc) (h : r ∉ part3_W) :
    val3 V0 (Proc.devRef .tc r) = val2 V0 (Proc.devRef .tc r) :=
  after_of_writes_sub part3 _ part3_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_c (V0 : Valuation τ sig (Elt Ideal)) : val3 V0 (no_index (Proc.devRef .tc main_c)) = RefTerm.t_main_c :=
  (val3_keep V0 main_c (by decide)).trans (val2_main_c V0)
theorem val3_main_c_0 (V0 : Valuation τ sig (Elt Ideal)) : val3 V0 (no_index (Proc.devRef .tc main_c_0)) = RefTerm.t_main_c_0 :=
  (val3_keep V0 main_c_0 (by decide)).trans (val2_main_c_0 V0)
theorem val3_main_v1 (V0 : Valuation τ sig (Elt Ideal)) : val3 V0 (no_index (Proc.devRef .tc main_v1)) = RefTerm.t_main_v1 (V0 (Proc.devRef .tc main_arg1)) :=
  (val3_keep V0 main_v1 (by decide)).trans (val2_main_v1 V0)
theorem val3_main_v13 (V0 : Valuation τ sig (Elt Ideal)) : val3 V0 (no_index (Proc.devRef .tc main_v13)) = RefTerm.t_main_v13 (V0 (Proc.devRef .tc main_arg1)) :=
  (val3_keep V0 main_v13 (by decide)).trans (val2_main_v13 V0)
set_option maxRecDepth 8192 in
set_option maxHeartbeats 2000000 in
theorem val3_main_call4_v2 (V0 : Valuation τ sig (Elt Ideal)) : val3 V0 (no_index (Proc.devRef .tc main_call4_v2)) = RefTerm.t_main_call4_v2 := by
  unfold val3
  simp only [part3]
  after_results_simp
  (try simp only [TRef.toBuf, TRef.ofBuf, castSame]) <;> first | rfl | fail "rfl 3 main_call4_v2"
set_option maxRecDepth 8192 in
set_option maxHeartbeats 2000000 in
theorem val3_main_call4_v4 (V0 : Valuation τ sig (Elt Ideal)) : val3 V0 (no_index (Proc.devRef .tc main_call4_v4)) = RefTerm.t_main_call4_v4 (V0 (Proc.devRef .tc main_arg1)) := by
  unfold val3
  simp only [part3]
  after_results_simp
  (try simp only [TRef.toBuf, TRef.ofBuf, castSame, val2_main_call3_v1, val2_main_call3_c, val2_main_call3_v7, val2_main_call3_v5]) <;> first | rfl | fail "rfl 3 main_call4_v4"
set_option maxRecDepth 8192 in
set_option maxHeartbeats 2000000 in
theorem val3_main_call4_v6 (V0 : Valuation τ sig (Elt Ideal)) : val3 V0 (no_index (Proc.devRef .tc main_call4_v6)) = RefTerm.t_main_call4_v6 (V0 (Proc.devRef .tc main_arg1)) := by
  unfold val3
  simp only [part3]
  after_results_simp
  (try simp only [TRef.toBuf, TRef.ofBuf, castSame, val2_main_call3_v1, val2_main_call3_c, val2_main_call3_v7, val2_main_call3_v5]) <;> first | rfl | fail "rfl 3 main_call4_v6"
set_option maxRecDepth 8192 in
set_option maxHeartbeats 2000000 in
theorem val3_main_call4_v7 (V0 : Valuation τ sig (Elt Ideal)) : val3 V0 (no_index (Proc.devRef .tc main_call4_v7)) = RefTerm.t_main_call4_v7 := by
  unfold val3
  simp only [part3]
  after_results_simp
  (try simp only [TRef.toBuf, TRef.ofBuf, castSame]) <;> first | rfl | fail "rfl 3 main_call4_v7"
attribute [irreducible] val3

set_option maxRecDepth 8192 in
set_option maxHeartbeats 4000000 in
/-- Operations 61 … 80 of 348. -/
abbrev part4 : List (HloOp τ sig (Elt Ideal)) :=
  [ TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S32768 ![] bcast_S_S32768),
    TRef.binary main_call4.v8 main_call4.v10 main_call4.v11 (cmpi .ne),
    TRef.binary main_call4.v11 main_call4.v6 main_call4.v12 andi,
    TRef.unary main_call4.call0.v0 main_call4.v13 (broadcastInDim S32768 ![] bcast_S_S32768),
    TRef.binary main_call4.v4 main_call4.v13 main_call4.v14 addi,
    TRef.ternary main_call4.v12 main_call4.v14 main_call4.v4 main_call4.v15 select,
    nullary main_c_9 (constantI S_ 32 1024#32),
    TRef.unary (TRef.of (T := ⟨S_, .i32⟩) main_c_9) main_call5.v0 (broadcastInDim S32768 ![] bcast_S_S32768),
    TRef.binary (TRef.of (T := ⟨S32768, .i32⟩) main_v13) main_call5.v0 main_call5.v1 Host.divsi,
    TRef.unary (TRef.of (T := ⟨S32768, .i32⟩) main_v13) main_call5.v2 signi,
    TRef.unary (TRef.of (T := ⟨S_, .i32⟩) main_c_9) main_call5.v3 signi,
    TRef.unary main_call5.v3 main_call5.v4 (broadcastInDim S32768 ![] bcast_S_S32768),
    TRef.binary main_call5.v2 main_call5.v4 main_call5.v5 (cmpi .ne),
    TRef.unary (TRef.of (T := ⟨S_, .i32⟩) main_c_9) main_call5.v6 (broadcastInDim S32768 ![] bcast_S_S32768),
    TRef.binary (TRef.of (T := ⟨S32768, .i32⟩) main_v13) main_call5.v6 main_call5.v7 Host.remsi,
    TRef.nullary main_call5.c (constantI S_ 32 0#32),
    TRef.unary main_call5.c main_call5.v8 (broadcastInDim S32768 ![] bcast_S_S32768) ]
/-- The buffer contents after the first 4 stretches. -/
def val4 (V0 : Valuation τ sig (Elt Ideal)) : Valuation τ sig (Elt Ideal) := after part4 (val3 V0)
theorem val4_eq (V0 : Valuation τ sig (Elt Ideal)) : val4 V0 = after part4 (val3 V0) := rfl
/-- The buffers that stretch 4 writes. -/
abbrev part4_W : List (Ref sig .tc) := [main_call4_v8, main_call4_c_3, main_call4_v9, main_call4_v10, main_call4_v11, main_call4_v12, main_call4_v13, main_call4_v14, main_v15, main_c_9, main_call5_v0, main_call5_v1, main_call5_v2, main_call5_v3, main_call5_v4, main_call5_v5, main_call5_v6, main_call5_v7, main_call5_c, main_call5_v8]
set_option maxRecDepth 8192 in
theorem part4_writes : (part4 : List (HloOp τ sig (Elt Ideal))).Forall fun op => op.writes ⊆ (part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 4 does not write keeps its contents through it. -/
theorem val4_keep (V0 : Valuation τ sig (Elt Ideal)) (r : Ref sig .tc) (h : r ∉ part4_W) :
    val4 V0 (Proc.devRef .tc r) = val3 V0 (Proc.devRef .tc r) :=
  after_of_writes_sub part4 _ part4_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)
theorem val4_main_c (V0 : Valuation τ sig (Elt Ideal)) : val4 V0 (no_index (Proc.devRef .tc main_c)) = RefTerm.t_main_c :=
  (val4_keep V0 main_c (by decide)).trans (val3_main_c V0)
theorem val4_main_c_0 (V0 : Valuation τ sig (Elt Ideal)) : val4 V0 (no_index (Proc.devRef .tc main_c_0)) = RefTerm.t_main_c_0 :=
  (val4_keep V0 main_c_0 (by decide)).trans (val3_main_c_0 V0)
theorem val4_main_v1 (V0 : Valuation τ sig (Elt Ideal)) : val4 V0 (no_index (Proc.devRef .tc main_v1)) = RefTerm.t_main_v1 (V0 (Proc.devRef .tc main_arg1)) :=
  (val4_keep V0 main_v1 (by decide)).trans (val3_main_v1 V0)
theorem val4_main_v13 (V0 : Valuation τ sig (Elt Ideal)) : val4 V0 (no_index (Proc.devRef .tc main_v13)) = RefTerm.t_main_v13 (V0 (Proc.devRef .tc main_arg1)) :=
  (val4_keep V0 main_v13 (by decide)).trans (val3_main_v13 V0)
set_option maxRecDepth 8192 in
set_option maxHeartbeats 2000000 in
theorem val4_main_v15 (V0 : Valuation τ sig (Elt Ideal)) : val4 V0 (no_index (Proc.devRef .tc main_v15)) = RefTerm.t_main_v15 (V0 (Proc.devRef .tc main_arg1)) := by
  unfold val4
  simp only [part4]
  after_results_simp
  (try simp only [TRef.toBuf, TRef.ofBuf, castSame, val3_main_call4_v4, val3_main_call4_v2, val3_main_call4_v6, val3_main_call4_v7]) <;> first | rfl | fail "rfl 4 main_v15"
set_option maxRecDepth 8192 in
set_option maxHeartbeats 2000000 in
theorem val4_main_call5_v1 (V0 : Valuation τ sig (Elt Ideal)) : val4 V0 (no_index (Proc.devRef .tc main_call5_v1)) = RefTerm.t_main_call5_v1 (V0 (Proc.devRef .tc main_arg1)) := by
  unfold val4
  simp only [part4]
  after_results_simp
  (try simp only [TRef.toBuf, TRef.ofBuf, castSame, val3_main_v13]) <;> first | rfl | fail "rfl 4 main_call5_v1"
set_option maxRecDepth 8192 in
set_option maxHeartbeats 2000000 in
theorem val4_main_call5_v5 (V0 : Valuation τ sig (Elt Ideal)) : val4 V0 (no_index (Proc.devRef .tc main_call5_v5)) = RefTerm.t_main_call5_v5 (V0 (Proc.devRef .tc main_arg1)) := by
  unfold val4
  simp only [part4]
  after_results_simp
  (try simp only [TRef.toBuf, TRef.ofBuf, castSame, val3_main_v13]) <;> first | rfl | fail "rfl 4 main_call5_v5"
set_option maxRecDepth 8192 in
set_option maxHeartbeats 2000000 in
theorem val4_main_call5_v7 (V0 : Valuation τ sig (Elt Ideal)) : val4 V0 (no_index (Proc.devRef .tc main_call5_v7)) = RefTerm.t_main_call5_v7 (V0 (Proc.devRef .tc main_arg1)) := by
  unfold val4
  simp only [part4]
  after_results_simp
  (try simp only [TRef.toBuf, TRef.ofBuf, castSame, val3_main_v13]) <;> first | rfl | fail "rfl 4 main_call5_v7"
set_option maxRecDepth 8192 in
set_option maxHeartbeats 2000000 in
theorem val4_main_call5_v8 (V0 : Valuation τ sig (Elt Ideal)) : val4 V0 (no_index (Proc.devRef .tc main_call5_v8)) = RefTerm.t_main_call5_v8 := by
  unfold val4
  simp only [part4]
  after_results_simp
  (try simp only [TRef.toBuf, TRef.ofBuf, castSame]) <;> first | rfl | fail "rfl 4 main_call5_v8"
attribute [irreducible] val4

set_option maxRecDepth 8192 in
set_option maxHeartbeats 4000000 in
/-- Operations 81 … 100 of 348. -/
abbrev part5 : List (HloOp τ sig (Elt Ideal)) :=
  [ TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S32768 ![] bcast_S_S32768),
    TRef.binary main_call5.v1 main_call5.v11 main_call5.v12 subi,
    TRef.ternary main_call5.v10 main_call5.v12 main_call5.v1 main_call5.call0.v0 select,
    nullary main_c_10 (constantI S_ 32 32#32),
    TRef.unary (TRef.of (T := ⟨S_, .i32⟩) main_c_10) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S32768 ![] bcast_S_S32768),
    TRef.binary (TRef.of (T := ⟨S32768, .i32⟩) main_v16) main_call6.v3 main_call6.v4 Host.remsi,
    TRef.nullary main_call6.c_1 (constantI S_ 32 0#32),
    TRef.unary main_call6.c_1 main_call6.v5 (broadcastInDim S32768 ![] bcast_S_S32768),
    TRef.binary main_call6.v4 main_call6.v5 main_call6.v6 (cmpi .ne),
    TRef.nullary main_call6.c_2 (constantI S_ 32 0#32),
    TRef.unary main_call6.c_2 main_call6.v7 (broadcastInDim S32768 ![] bcast_S_S32768),
    TRef.binary main_call6.v4 main_call6.v7 main_call6.v8 (cmpi .slt) ]
/-- The buffer contents after the first 5 stretches. -/
def val5 (V0 : Valuation τ sig (Elt Ideal)) : Valuation τ sig (Elt Ideal) := after part5 (val4 V0)
theorem val5_eq (V0 : Valuation τ sig (Elt Ideal)) : val5 V0 = after part5 (val4 V0) := rfl
/-- The buffers that stretch 5 writes. -/
abbrev part5_W : List (Ref sig .tc) := [main_call5_v9, main_call5_v10, main_call5_c_0, main_call5_v11, main_call5_v12, main_v16, main_c_10, main_call6_v0, main_call6_c, main_call6_v1, main_call6_c_0, main_call6_v2, main_call6_v3, main_call6_v4, main_call6_c_1, main_call6_v5, main_call6_v6, main_call6_c_2, main_call6_v7, main_call6_v8]
set_option maxRecDepth 8192 in
theorem part5_writes : (part5 : List (HloOp τ sig (Elt Ideal))).Forall fun op => op.writes ⊆ (part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 5 does not write keeps its contents through it. -/
theorem val5_keep (V0 : Valuation τ sig (Elt Ideal)) (r : Ref sig .tc) (h : r ∉ part5_W) :
    val5 V0 (Proc.devRef .tc r) = val4 V0 (Proc.devRef .tc r) :=
  after_of_writes_sub part5 _ part5_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)
theorem val5_main_c (V0 : Valuation τ sig (Elt Ideal)) : val5 V0 (no_index (Proc.devRef .tc main_c)) = RefTerm.t_main_c :=
  (val5_keep V0 main_c (by decide)).trans (val4_main_c V0)
theorem val5_main_c_0 (V0 : Valuation τ sig (Elt Ideal)) : val5 V0 (no_index (Proc.devRef .tc main_c_0)) = RefTerm.t_main_c_0 :=
  (val5_keep V0 main_c_0 (by decide)).trans (val4_main_c_0 V0)
theorem val5_main_v1 (V0 : Valuation τ sig (Elt Ideal)) : val5 V0 (no_index (Proc.devRef .tc main_v1)) = RefTerm.t_main_v1 (V0 (Proc.devRef .tc main_arg1)) :=
  (val5_keep V0 main_v1 (by decide)).trans (val4_main_v1 V0)
theorem val5_main_v13 (V0 : Valuation τ sig (Elt Ideal)) : val5 V0 (no_index (Proc.devRef .tc main_v13)) = RefTerm.t_main_v13 (V0 (Proc.devRef .tc main_arg1)) :=
  (val5_keep V0 main_v13 (by decide)).trans (val4_main_v13 V0)
theorem val5_main_v15 (V0 : Valuation τ sig (Elt Ideal)) : val5 V0 (no_index (Proc.devRef .tc main_v15)) = RefTerm.t_main_v15 (V0 (Proc.devRef .tc main_arg1)) :=
  (val5_keep V0 main_v15 (by decide)).trans (val4_main_v15 V0)
set_option maxRecDepth 8192 in
set_option maxHeartbeats 2000000 in
theorem val5_main_call6_v2 (V0 : Valuation τ sig (Elt Ideal)) : val5 V0 (no_index (Proc.devRef .tc main_call6_v2)) = RefTerm.t_main_call6_v2 := by
  unfold val5
  simp only [part5]
  after_results_simp
  (try simp only [TRef.toBuf, TRef.ofBuf, castSame]) <;> first | rfl | fail "rfl 5 main_call6_v2"
set_option maxRecDepth 8192 in
set_option maxHeartbeats 2000000 in
theorem val5_main_call6_v4 (V0 : Valuation τ sig (Elt Ideal)) : val5 V0 (no_index (Proc.devRef .tc main_call6_v4)) = RefTerm.t_main_call6_v4 (V0 (Proc.devRef .tc main_arg1)) := by
  unfold val5
  simp only [part5]
  after_results_simp
  (try simp only [TRef.toBuf, TRef.ofBuf, castSame, val4_main_call5_v1, val4_main_call5_v8, val4_main_call5_v7, val4_main_call5_v5]) <;> first | rfl | fail "rfl 5 main_call6_v4"
set_option maxRecDepth 8192 in
set_option maxHeartbeats 2000000 in
theorem val5_main_call6_v6 (V0 : Valuation τ sig (Elt Ideal)) : val5 V0 (no_index (Proc.devRef .tc main_call6_v6)) = RefTerm.t_main_call6_v6 (V0 (Proc.devRef .tc main_arg1)) := by
  unfold val5
  simp only [part5]
  after_results_simp
  (try simp only [TRef.toBuf, TRef.ofBuf, castSame, val4_main_call5_v1, val4_main_call5_v8, val4_main_call5_v7, val4_main_call5_v5]) <;> first | rfl | fail "rfl 5 main_call6_v6"
set_option maxRecDepth 8192 in
set_option maxHeartbeats 2000000 in
theorem val5_main_call6_v8 (V0 : Valuation τ sig (Elt Ideal)) : val5 V0 (no_index (Proc.devRef .tc main_call6_v8)) = RefTerm.t_main_call6_v8 (V0 (Proc.devRef .tc main_arg1)) := by
  unfold val5
  simp only [part5]
  after_results_simp
  (try simp only [TRef.toBuf, TRef.ofBuf, castSame, val4_main_call5_v1, val4_main_call5_v8, val4_main_call5_v7, val4_main_call5_v5]) <;> first | rfl | fail "rfl 5 main_call6_v8"
attribute [irreducible] val5

set_option maxRecDepth 8192 in
set_option maxHeartbeats 4000000 in
/-- Operations 101 … 120 of 348. -/
abbrev part6 : List (HloOp τ sig (Elt Ideal)) :=
  [ TRef.nullary main_call6.c_3 (constantI S_ 32 0#32),
    TRef.binary main_call6.call0.v0 main_call6.c_3 main_call6.v9 (cmpi .slt),
    TRef.unary main_call6.v9 main_call6.v10 (broadcastInDim S32768 ![] bcast_S_S32768),
    TRef.binary main_call6.v8 main_call6.v10 main_call6.v11 (cmpi .ne),
    TRef.binary main_call6.v11 main_call6.v6 main_call6.v12 andi,
    TRef.unary main_call6.call0.v0 main_call6.v13 (broadcastInDim S32768 ![] bcast_S_S32768),
    TRef.binary main_call6.v4 main_call6.v13 main_call6.v14 addi,
    TRef.ternary main_call6.v12 main_call6.v14 main_call6.v4 main_call6.v15 select,
    nullary main_c_11 (constantI S_ 32 32#32),
    TRef.unary (TRef.of (T := ⟨S_, .i32⟩) main_c_11) main_call7.v0 (broadcastInDim S32768 ![] bcast_S_S32768),
    TRef.binary (TRef.of (T := ⟨S32768, .i32⟩) main_v13) main_call7.v0 main_call7.v1 Host.divsi,
    TRef.unary (TRef.of (T := ⟨S32768, .i32⟩) main_v13) main_call7.v2 signi,
    TRef.unary (TRef.of (T := ⟨S_, .i32⟩) main_c_11) main_call7.v3 signi,
    TRef.unary main_call7.v3 main_call7.v4 (broadcastInDim S32768 ![] bcast_S_S32768),
    TRef.binary main_call7.v2 main_call7.v4 main_call7.v5 (cmpi .ne),
    TRef.unary (TRef.of (T := ⟨S_, .i32⟩) main_c_11) main_call7.v6 (broadcastInDim S32768 ![] bcast_S_S32768),
    TRef.binary (TRef.of (T := ⟨S32768, .i32⟩) main_v13) main_call7.v6 main_call7.v7 Host.remsi,
    TRef.nullary main_call7.c (constantI S_ 32 0#32),
    TRef.unary main_call7.c main_call7.v8 (broadcastInDim S32768 ![] bcast_S_S32768),
    TRef.binary main_call7.v7 main_call7.v8 main_call7.v9 (cmpi .ne) ]
/-- The buffer contents after the first 6 stretches. -/
def val6 (V0 : Valuation τ sig (Elt Ideal)) : Valuation τ sig (Elt Ideal) := after part6 (val5 V0)
theorem val6_eq (V0 : Valuation τ sig (Elt Ideal)) : val6 V0 = after part6 (val5 V0) := rfl
/-- The buffers that stretch 6 writes. -/
abbrev part6_W : List (Ref sig .tc) := [main_call6_c_3, main_call6_v9, main_call6_v10, main_call6_v11, main_call6_v12, main_call6_v13, main_call6_v14, main_v17, main_c_11, main_call7_v0, main_call7_v1, main_call7_v2, main_call7_v3, main_call7_v4, main_call7_v5, main_call7_v6, main_call7_v7, main_call7_c, main_call7_v8, main_call7_v9]
set_option maxRecDepth 8192 in
theorem part6_writes : (part6 : List (HloOp τ sig (Elt Ideal))).Forall fun op => op.writes ⊆ (part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 6 does not write keeps its contents through it. -/
theorem val6_keep (V0 : Valuation τ sig (Elt Ideal)) (r : Ref sig .tc) (h : r ∉ part6_W) :
    val6 V0 (Proc.devRef .tc r) = val5 V0 (Proc.devRef .tc r) :=
  after_of_writes_sub part6 _ part6_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)
theorem val6_main_c (V0 : Valuation τ sig (Elt Ideal)) : val6 V0 (no_index (Proc.devRef .tc main_c)) = RefTerm.t_main_c :=
  (val6_keep V0 main_c (by decide)).trans (val5_main_c V0)
theorem val6_main_c_0 (V0 : Valuation τ sig (Elt Ideal)) : val6 V0 (no_index (Proc.devRef .tc main_c_0)) = RefTerm.t_main_c_0 :=
  (val6_keep V0 main_c_0 (by decide)).trans (val5_main_c_0 V0)
theorem val6_main_v1 (V0 : Valuation τ sig (Elt Ideal)) : val6 V0 (no_index (Proc.devRef .tc main_v1)) = RefTerm.t_main_v1 (V0 (Proc.devRef .tc main_arg1)) :=
  (val6_keep V0 main_v1 (by decide)).trans (val5_main_v1 V0)
theorem val6_main_v13 (V0 : Valuation τ sig (Elt Ideal)) : val6 V0 (no_index (Proc.devRef .tc main_v13)) = RefTerm.t_main_v13 (V0 (Proc.devRef .tc main_arg1)) :=
  (val6_keep V0 main_v13 (by decide)).trans (val5_main_v13 V0)
theorem val6_main_v15 (V0 : Valuation τ sig (Elt Ideal)) : val6 V0 (no_index (Proc.devRef .tc main_v15)) = RefTerm.t_main_v15 (V0 (Proc.devRef .tc main_arg1)) :=
  (val6_keep V0 main_v15 (by decide)).trans (val5_main_v15 V0)
set_option maxRecDepth 8192 in
set_option maxHeartbeats 2000000 in
theorem val6_main_v17 (V0 : Valuation τ sig (Elt Ideal)) : val6 V0 (no_index (Proc.devRef .tc main_v17)) = RefTerm.t_main_v17 (V0 (Proc.devRef .tc main_arg1)) := by
  unfold val6
  simp only [part6]
  after_results_simp
  (try simp only [TRef.toBuf, TRef.ofBuf, castSame, val5_main_call6_v4, val5_main_call6_v2, val5_main_call6_v6, val5_main_call6_v8]) <;> first | rfl | fail "rfl 6 main_v17"
set_option maxRecDepth 8192 in
set_option maxHeartbeats 2000000 in
theorem val6_main_call7_v1 (V0 : Valuation τ sig (Elt Ideal)) : val6 V0 (no_index (Proc.devRef .tc main_call7_v1)) = RefTerm.t_main_call7_v1 (V0 (Proc.devRef .tc main_arg1)) := by
  unfold val6
  simp only [part6]
  after_results_simp
  (try simp only [TRef.toBuf, TRef.ofBuf, castSame, val5_main_v13]) <;> first | rfl | fail "rfl 6 main_call7_v1"
set_option maxRecDepth 8192 in
set_option maxHeartbeats 2000000 in
theorem val6_main_call7_v5 (V0 : Valuation τ sig (Elt Ideal)) : val6 V0 (no_index (Proc.devRef .tc main_call7_v5)) = RefTerm.t_main_call7_v5 (V0 (Proc.devRef .tc main_arg1)) := by
  unfold val6
  simp only [part6]
  after_results_simp
  (try simp only [TRef.toBuf, TRef.ofBuf, castSame, val5_main_v13]) <;> first | rfl | fail "rfl 6 main_call7_v5"
set_option maxRecDepth 8192 in
set_option maxHeartbeats 2000000 in
theorem val6_main_call7_v9 (V0 : Valuation τ sig (Elt Ideal)) : val6 V0 (no_index (Proc.devRef .tc main_call7_v9)) = RefTerm.t_main_call7_v9 (V0 (Proc.devRef .tc main_arg1)) := by
  unfold val6
  simp only [part6]
  after_results_simp
  (try simp only [TRef.toBuf, TRef.ofBuf, castSame, val5_main_v13]) <;> first | rfl | fail "rfl 6 main_call7_v9"
attribute [irreducible] val6

end Cert.ReferenceIdeal.RefRun

end
-- ==== Proof.RefRunW2.lean ====
/-
  The reference program's line of host operations read stretch by stretch (stretches 7 … 13 of 22, at most twenty
  operations each, a concatenation alone in its own): the buffer contents after each stretch, and for every buffer
  written by then and read later its contents as the program's value (RefTerm's definition of that tensor value) of
  the four argument arrays before the line. A stretch's own operations are composed by the result lemmas; an earlier
  stretch's buffers are read by its lemmas.
-/
import proofs.«150033_g82085414961357_cont_sun_m_845_2_alg».proof.Proof.RefOps
import proofs.«150033_g82085414961357_cont_sun_m_845_2_alg».proof.Proof.RefTerm
import proofs.«150033_g82085414961357_cont_sun_m_845_2_alg».proof.Proof.RefRunW1

set_option pp.maxSteps 5000
set_option pp.deepTerms false

noncomputable section

namespace Cert.ReferenceIdeal.RefRun

open Cert.ReferenceIdeal Cert.ReferenceIdeal.Gen Idealize.ShloMosaic Idealize.ShloMosaic.TcCoe Idealize.SL.Sem Idealize.ShloMosaic.StableHlo

-- the folds and searches over an operand's elements stay folded: the equations below never look inside them
attribute [local irreducible] Host.reduceWindow Host.scatter Host.gather Host.scatterAdd Host.reduce

set_option maxRecDepth 8192 in
set_option maxHeartbeats 4000000 in
/-- Operations 121 … 140 of 348. -/
abbrev part7 : List (HloOp τ sig (Elt Ideal)) :=
  [ TRef.binary main_call7.v5 main_call7.v9 main_call7.v10 andi,
    TRef.nullary main_call7.c_0 (constantI S_ 32 1#32),
    TRef.unary main_call7.c_0 main_call7.v11 (broadcastInDim S32768 ![] bcast_S_S32768),
    TRef.binary main_call7.v1 main_call7.v11 main_call7.v12 subi,
    TRef.ternary main_call7.v10 main_call7.v12 main_call7.v1 main_call7.call0.v0 select,
    nullary main_c_12 (constantI S_ 32 32#32),
    TRef.unary (TRef.of (T := ⟨S_, .i32⟩) main_c_12) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S32768 ![] bcast_S_S32768),
    TRef.binary (TRef.of (T := ⟨S32768, .i32⟩) main_v18) main_call8.v3 main_call8.v4 Host.remsi,
    TRef.nullary main_call8.c_1 (constantI S_ 32 0#32),
    TRef.unary main_call8.c_1 main_call8.v5 (broadcastInDim S32768 ![] bcast_S_S32768),
    TRef.binary main_call8.v4 main_call8.v5 main_call8.v6 (cmpi .ne),
    TRef.nullary main_call8.c_2 (constantI S_ 32 0#32),
    TRef.unary main_call8.c_2 main_call8.v7 (broadcastInDim S32768 ![] bcast_S_S32768),
    TRef.binary main_call8.v4 main_call8.v7 main_call8.v8 (cmpi .slt),
    TRef.nullary main_call8.c_3 (constantI S_ 32 0#32) ]
/-- The buffer contents after the first 7 stretches. -/
def val7 (V0 : Valuation τ sig (Elt Ideal)) : Valuation τ sig (Elt Ideal) := after part7 (val6 V0)
theorem val7_eq (V0 : Valuation τ sig (Elt Ideal)) : val7 V0 = after part7 (val6 V0) := rfl
/-- The buffers that stretch 7 writes. -/
abbrev part7_W : List (Ref sig .tc) := [main_call7_v10, main_call7_c_0, main_call7_v11, main_call7_v12, main_v18, main_c_12, main_call8_v0, main_call8_c, main_call8_v1, main_call8_c_0, main_call8_v2, main_call8_v3, main_call8_v4, main_call8_c_1, main_call8_v5, main_call8_v6, main_call8_c_2, main_call8_v7, main_call8_v8, main_call8_c_3]
set_option maxRecDepth 8192 in
theorem part7_writes : (part7 : List (HloOp τ sig (Elt Ideal))).Forall fun op => op.writes ⊆ (part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 7 does not write keeps its contents through it. -/
theorem val7_keep (V0 : Valuation τ sig (Elt Ideal)) (r : Ref sig .tc) (h : r ∉ part7_W) :
    val7 V0 (Proc.devRef .tc r) = val6 V0 (Proc.devRef .tc r) :=
  after_of_writes_sub part7 _ part7_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)
theorem val7_main_c (V0 : Valuation τ sig (Elt Ideal)) : val7 V0 (no_index (Proc.devRef .tc main_c)) = RefTerm.t_main_c :=
  (val7_keep V0 main_c (by decide)).trans (val6_main_c V0)
theorem val7_main_c_0 (V0 : Valuation τ sig (Elt Ideal)) : val7 V0 (no_index (Proc.devRef .tc main_c_0)) = RefTerm.t_main_c_0 :=
  (val7_keep V0 main_c_0 (by decide)).trans (val6_main_c_0 V0)
theorem val7_main_v1 (V0 : Valuation τ sig (Elt Ideal)) : val7 V0 (no_index (Proc.devRef .tc main_v1)) = RefTerm.t_main_v1 (V0 (Proc.devRef .tc main_arg1)) :=
  (val7_keep V0 main_v1 (by decide)).trans (val6_main_v1 V0)
theorem val7_main_v13 (V0 : Valuation τ sig (Elt Ideal)) : val7 V0 (no_index (Proc.devRef .tc main_v13)) = RefTerm.t_main_v13 (V0 (Proc.devRef .tc main_arg1)) :=
  (val7_keep V0 main_v13 (by decide)).trans (val6_main_v13 V0)
theorem val7_main_v15 (V0 : Valuation τ sig (Elt Ideal)) : val7 V0 (no_index (Proc.devRef .tc main_v15)) = RefTerm.t_main_v15 (V0 (Proc.devRef .tc main_arg1)) :=
  (val7_keep V0 main_v15 (by decide)).trans (val6_main_v15 V0)
theorem val7_main_v17 (V0 : Valuation τ sig (Elt Ideal)) : val7 V0 (no_index (Proc.devRef .tc main_v17)) = RefTerm.t_main_v17 (V0 (Proc.devRef .tc main_arg1)) :=
  (val7_keep V0 main_v17 (by decide)).trans (val6_main_v17 V0)
set_option maxRecDepth 8192 in
set_option maxHeartbeats 2000000 in
theorem val7_main_call8_v2 (V0 : Valuation τ sig (Elt Ideal)) : val7 V0 (no_index (Proc.devRef .tc main_call8_v2)) = RefTerm.t_main_call8_v2 := by
  unfold val7
  simp only [part7]
  after_results_simp
  (try simp only [TRef.toBuf, TRef.ofBuf, castSame]) <;> first | rfl | fail "rfl 7 main_call8_v2"
set_option maxRecDepth 8192 in
set_option maxHeartbeats 2000000 in
theorem val7_main_call8_v4 (V0 : Valuation τ sig (Elt Ideal)) : val7 V0 (no_index (Proc.devRef .tc main_call8_v4)) = RefTerm.t_main_call8_v4 (V0 (Proc.devRef .tc main_arg1)) := by
  unfold val7
  simp only [part7]
  after_results_simp
  (try simp only [TRef.toBuf, TRef.ofBuf, castSame, val6_main_call7_v1, val6_main_call7_v9, val6_main_call7_v5]) <;> first | rfl | fail "rfl 7 main_call8_v4"
set_option maxRecDepth 8192 in
set_option maxHeartbeats 2000000 in
theorem val7_main_call8_v6 (V0 : Valuation τ sig (Elt Ideal)) : val7 V0 (no_index (Proc.devRef .tc main_call8_v6)) = RefTerm.t_main_call8_v6 (V0 (Proc.devRef .tc main_arg1)) := by
  unfold val7
  simp only [part7]
  after_results_simp
  (try simp only [TRef.toBuf, TRef.ofBuf, castSame, val6_main_call7_v1, val6_main_call7_v9, val6_main_call7_v5]) <;> first | rfl | fail "rfl 7 main_call8_v6"
set_option maxRecDepth 8192 in
set_option maxHeartbeats 2000000 in
theorem val7_main_call8_v8 (V0 : Valuation τ sig (Elt Ideal)) : val7 V0 (no_index (Proc.devRef .tc main_call8_v8)) = RefTerm.t_main_call8_v8 (V0 (Proc.devRef .tc main_arg1)) := by
  unfold val7
  simp only [part7]
  after_results_simp
  (try simp only [TRef.toBuf, TRef.ofBuf, castSame, val6_main_call7_v1, val6_main_call7_v9, val6_main_call7_v5]) <;> first | rfl | fail "rfl 7 main_call8_v8"
set_option maxRecDepth 8192 in
set_option maxHeartbeats 2000000 in
theorem val7_main_call8_c_3 (V0 : Valuation τ sig (Elt Ideal)) : val7 V0 (no_index (Proc.devRef .tc main_call8_c_3)) = RefTerm.t_main_call8_c_3 := by
  unfold val7
  simp only [part7]
  after_results_simp
  (try simp only [TRef.toBuf, TRef.ofBuf, castSame]) <;> first | rfl | fail "rfl 7 main_call8_c_3"
attribute [irreducible] val7

set_option maxRecDepth 8192 in
set_option maxHeartbeats 4000000 in
/-- Operations 141 … 160 of 348. -/
abbrev part8 : List (HloOp τ sig (Elt Ideal)) :=
  [ TRef.binary main_call8.call0.v0 main_call8.c_3 main_call8.v9 (cmpi .slt),
    TRef.unary main_call8.v9 main_call8.v10 (broadcastInDim S32768 ![] bcast_S_S32768),
    TRef.binary main_call8.v8 main_call8.v10 main_call8.v11 (cmpi .ne),
    TRef.binary main_call8.v11 main_call8.v6 main_call8.v12 andi,
    TRef.unary main_call8.call0.v0 main_call8.v13 (broadcastInDim S32768 ![] bcast_S_S32768),
    TRef.binary main_call8.v4 main_call8.v13 main_call8.v14 addi,
    TRef.ternary main_call8.v12 main_call8.v14 main_call8.v4 main_call8.v15 select,
    nullary main_c_13 (constantI S_ 32 1#32),
    TRef.unary (TRef.of (T := ⟨S_, .i32⟩) main_c_13) main_call9.v0 (broadcastInDim S32768 ![] bcast_S_S32768),
    TRef.binary (TRef.of (T := ⟨S32768, .i32⟩) main_v13) main_call9.v0 main_call9.v1 Host.divsi,
    TRef.unary (TRef.of (T := ⟨S32768, .i32⟩) main_v13) main_call9.v2 signi,
    TRef.unary (TRef.of (T := ⟨S_, .i32⟩) main_c_13) main_call9.v3 signi,
    TRef.unary main_call9.v3 main_call9.v4 (broadcastInDim S32768 ![] bcast_S_S32768),
    TRef.binary main_call9.v2 main_call9.v4 main_call9.v5 (cmpi .ne),
    TRef.unary (TRef.of (T := ⟨S_, .i32⟩) main_c_13) main_call9.v6 (broadcastInDim S32768 ![] bcast_S_S32768),
    TRef.binary (TRef.of (T := ⟨S32768, .i32⟩) main_v13) main_call9.v6 main_call9.v7 Host.remsi,
    TRef.nullary main_call9.c (constantI S_ 32 0#32),
    TRef.unary main_call9.c main_call9.v8 (broadcastInDim S32768 ![] bcast_S_S32768),
    TRef.binary main_call9.v7 main_call9.v8 main_call9.v9 (cmpi .ne),
    TRef.binary main_call9.v5 main_call9.v9 main_call9.v10 andi ]
/-- The buffer contents after the first 8 stretches. -/
def val8 (V0 : Valuation τ sig (Elt Ideal)) : Valuation τ sig (Elt Ideal) := after part8 (val7 V0)
theorem val8_eq (V0 : Valuation τ sig (Elt Ideal)) : val8 V0 = after part8 (val7 V0) := rfl
/-- The buffers that stretch 8 writes. -/
abbrev part8_W : List (Ref sig .tc) := [main_call8_v9, main_call8_v10, main_call8_v11, main_call8_v12, main_call8_v13, main_call8_v14, main_v19, main_c_13, main_call9_v0, main_call9_v1, main_call9_v2, main_call9_v3, main_call9_v4, main_call9_v5, main_call9_v6, main_call9_v7, main_call9_c, main_call9_v8, main_call9_v9, main_call9_v10]
set_option maxRecDepth 8192 in
theorem part8_writes : (part8 : List (HloOp τ sig (Elt Ideal))).Forall fun op => op.writes ⊆ (part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 8 does not write keeps its contents through it. -/
theorem val8_keep (V0 : Valuation τ sig (Elt Ideal)) (r : Ref sig .tc) (h : r ∉ part8_W) :
    val8 V0 (Proc.devRef .tc r) = val7 V0 (Proc.devRef .tc r) :=
  after_of_writes_sub part8 _ part8_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) = V0 (Proc.devRef .tc main_arg3) :=
  (val8_keep V0 main_arg3 (by decide)).trans (val7_main_arg3 V0)
theorem val8_main_c (V0 : Valuation τ sig (Elt Ideal)) : val8 V0 (no_index (Proc.devRef .tc main_c)) = RefTerm.t_main_c :=
  (val8_keep V0 main_c (by decide)).trans (val7_main_c V0)
theorem val8_main_c_0 (V0 : Valuation τ sig (Elt Ideal)) : val8 V0 (no_index (Proc.devRef .tc main_c_0)) = RefTerm.t_main_c_0 :=
  (val8_keep V0 main_c_0 (by decide)).trans (val7_main_c_0 V0)
theorem val8_main_v1 (V0 : Valuation τ sig (Elt Ideal)) : val8 V0 (no_index (Proc.devRef .tc main_v1)) = RefTerm.t_main_v1 (V0 (Proc.devRef .tc main_arg1)) :=
  (val8_keep V0 main_v1 (by decide)).trans (val7_main_v1 V0)
theorem val8_main_v15 (V0 : Valuation τ sig (Elt Ideal)) : val8 V0 (no_index (Proc.devRef .tc main_v15)) = RefTerm.t_main_v15 (V0 (Proc.devRef .tc main_arg1)) :=
  (val8_keep V0 main_v15 (by decide)).trans (val7_main_v15 V0)
theorem val8_main_v17 (V0 : Valuation τ sig (Elt Ideal)) : val8 V0 (no_index (Proc.devRef .tc main_v17)) = RefTerm.t_main_v17 (V0 (Proc.devRef .tc main_arg1)) :=
  (val8_keep V0 main_v17 (by decide)).trans (val7_main_v17 V0)
set_option maxRecDepth 8192 in
set_option maxHeartbeats 2000000 in
theorem val8_main_v19 (V0 : Valuation τ sig (Elt Ideal)) : val8 V0 (no_index (Proc.devRef .tc main_v19)) = RefTerm.t_main_v19 (V0 (Proc.devRef .tc main_arg1)) := by
  unfold val8
  simp only [part8]
  after_results_simp
  (try simp only [TRef.toBuf, TRef.ofBuf, castSame, val7_main_call8_v4, val7_main_call8_v2, val7_main_call8_v6, val7_main_call8_c_3, val7_main_call8_v8]) <;> first | rfl | fail "rfl 8 main_v19"
set_option maxRecDepth 8192 in
set_option maxHeartbeats 2000000 in
theorem val8_main_call9_v1 (V0 : Valuation τ sig (Elt Ideal)) : val8 V0 (no_index (Proc.devRef .tc main_call9_v1)) = RefTerm.t_main_call9_v1 (V0 (Proc.devRef .tc main_arg1)) := by
  unfold val8
  simp only [part8]
  after_results_simp
  (try simp only [TRef.toBuf, TRef.ofBuf, castSame, val7_main_v13]) <;> first | rfl | fail "rfl 8 main_call9_v1"
set_option maxRecDepth 8192 in
set_option maxHeartbeats 2000000 in
theorem val8_main_call9_v10 (V0 : Valuation τ sig (Elt Ideal)) : val8 V0 (no_index (Proc.devRef .tc main_call9_v10)) = RefTerm.t_main_call9_v10 (V0 (Proc.devRef .tc main_arg1)) := by
  unfold val8
  simp only [part8]
  after_results_simp
  (try simp only [TRef.toBuf, TRef.ofBuf, castSame, val7_main_v13]) <;> first | rfl | fail "rfl 8 main_call9_v10"
attribute [irreducible] val8

set_option maxRecDepth 8192 in
set_option maxHeartbeats 4000000 in
/-- Operations 161 … 180 of 348. -/
abbrev part9 : List (HloOp τ sig (Elt Ideal)) :=
  [ TRef.nullary main_call9.c_0 (constantI S_ 32 1#32),
    TRef.unary main_call9.c_0 main_call9.v11 (broadcastInDim S32768 ![] bcast_S_S32768),
    TRef.binary main_call9.v1 main_call9.v11 main_call9.v12 subi,
    TRef.ternary main_call9.v10 main_call9.v12 main_call9.v1 main_call9.call0.v0 select,
    nullary main_c_14 (constantI S_ 32 32#32),
    TRef.unary (TRef.of (T := ⟨S_, .i32⟩) main_c_14) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S32768 ![] bcast_S_S32768),
    TRef.binary (TRef.of (T := ⟨S32768, .i32⟩) main_v20) main_call10.v3 main_call10.v4 Host.remsi,
    TRef.nullary main_call10.c_1 (constantI S_ 32 0#32),
    TRef.unary main_call10.c_1 main_call10.v5 (broadcastInDim S32768 ![] bcast_S_S32768),
    TRef.binary main_call10.v4 main_call10.v5 main_call10.v6 (cmpi .ne),
    TRef.nullary main_call10.c_2 (constantI S_ 32 0#32),
    TRef.unary main_call10.c_2 main_call10.v7 (broadcastInDim S32768 ![] bcast_S_S32768),
    TRef.binary main_call10.v4 main_call10.v7 main_call10.v8 (cmpi .slt),
    TRef.nullary main_call10.c_3 (constantI S_ 32 0#32),
    TRef.binary main_call10.call0.v0 main_call10.c_3 main_call10.v9 (cmpi .slt) ]
/-- The buffer contents after the first 9 stretches. -/
def val9 (V0 : Valuation τ sig (Elt Ideal)) : Valuation τ sig (Elt Ideal) := after part9 (val8 V0)
theorem val9_eq (V0 : Valuation τ sig (Elt Ideal)) : val9 V0 = after part9 (val8 V0) := rfl
/-- The buffers that stretch 9 writes. -/
abbrev part9_W : List (Ref sig .tc) := [main_call9_c_0, main_call9_v11, main_call9_v12, main_v20, main_c_14, main_call10_v0, main_call10_c, main_call10_v1, main_call10_c_0, main_call10_v2, main_call10_v3, main_call10_v4, main_call10_c_1, main_call10_v5, main_call10_v6, main_call10_c_2, main_call10_v7, main_call10_v8, main_call10_c_3, main_call10_v9]
set_option maxRecDepth 8192 in
theorem part9_writes : (part9 : List (HloOp τ sig (Elt Ideal))).Forall fun op => op.writes ⊆ (part9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 9 does not write keeps its contents through it. -/
theorem val9_keep (V0 : Valuation τ sig (Elt Ideal)) (r : Ref sig .tc) (h : r ∉ part9_W) :
    val9 V0 (Proc.devRef .tc r) = val8 V0 (Proc.devRef .tc r) :=
  after_of_writes_sub part9 _ part9_writes h
theorem val9_main_arg0 (V0 : Valuation τ sig (Elt Ideal)) : val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) = V0 (Proc.devRef .tc main_arg2) :=
  (val9_keep V0 main_arg2 (by decide)).trans (val8_main_arg2 V0)
theorem val9_main_arg3 (V0 : Valuation τ sig (Elt Ideal)) : val9 V0 (no_index (Proc.devRef .tc main_arg3)) = V0 (Proc.devRef .tc main_arg3) :=
  (val9_keep V0 main_arg3 (by decide)).trans (val8_main_arg3 V0)
theorem val9_main_c (V0 : Valuation τ sig (Elt Ideal)) : val9 V0 (no_index (Proc.devRef .tc main_c)) = RefTerm.t_main_c :=
  (val9_keep V0 main_c (by decide)).trans (val8_main_c V0)
theorem val9_main_c_0 (V0 : Valuation τ sig (Elt Ideal)) : val9 V0 (no_index (Proc.devRef .tc main_c_0)) = RefTerm.t_main_c_0 :=
  (val9_keep V0 main_c_0 (by decide)).trans (val8_main_c_0 V0)
theorem val9_main_v1 (V0 : Valuation τ sig (Elt Ideal)) : val9 V0 (no_index (Proc.devRef .tc main_v1)) = RefTerm.t_main_v1 (V0 (Proc.devRef .tc main_arg1)) :=
  (val9_keep V0 main_v1 (by decide)).trans (val8_main_v1 V0)
theorem val9_main_v15 (V0 : Valuation τ sig (Elt Ideal)) : val9 V0 (no_index (Proc.devRef .tc main_v15)) = RefTerm.t_main_v15 (V0 (Proc.devRef .tc main_arg1)) :=
  (val9_keep V0 main_v15 (by decide)).trans (val8_main_v15 V0)
theorem val9_main_v17 (V0 : Valuation τ sig (Elt Ideal)) : val9 V0 (no_index (Proc.devRef .tc main_v17)) = RefTerm.t_main_v17 (V0 (Proc.devRef .tc main_arg1)) :=
  (val9_keep V0 main_v17 (by decide)).trans (val8_main_v17 V0)
theorem val9_main_v19 (V0 : Valuation τ sig (Elt Ideal)) : val9 V0 (no_index (Proc.devRef .tc main_v19)) = RefTerm.t_main_v19 (V0 (Proc.devRef .tc main_arg1)) :=
  (val9_keep V0 main_v19 (by decide)).trans (val8_main_v19 V0)
set_option maxRecDepth 8192 in
set_option maxHeartbeats 2000000 in
theorem val9_main_call10_v2 (V0 : Valuation τ sig (Elt Ideal)) : val9 V0 (no_index (Proc.devRef .tc main_call10_v2)) = RefTerm.t_main_call10_v2 := by
  unfold val9
  simp only [part9]
  after_results_simp
  (try simp only [TRef.toBuf, TRef.ofBuf, castSame]) <;> first | rfl | fail "rfl 9 main_call10_v2"
set_option maxRecDepth 8192 in
set_option maxHeartbeats 2000000 in
theorem val9_main_call10_v4 (V0 : Valuation τ sig (Elt Ideal)) : val9 V0 (no_index (Proc.devRef .tc main_call10_v4)) = RefTerm.t_main_call10_v4 (V0 (Proc.devRef .tc main_arg1)) := by
  unfold val9
  simp only [part9]
  after_results_simp
  (try simp only [TRef.toBuf, TRef.ofBuf, castSame, val8_main_call9_v1, val8_main_call9_v10]) <;> first | rfl | fail "rfl 9 main_call10_v4"
set_option maxRecDepth 8192 in
set_option maxHeartbeats 2000000 in
theorem val9_main_call10_v6 (V0 : Valuation τ sig (Elt Ideal)) : val9 V0 (no_index (Proc.devRef .tc main_call10_v6)) = RefTerm.t_main_call10_v6 (V0 (Proc.devRef .tc main_arg1)) := by
  unfold val9
  simp only [part9]
  after_results_simp
  (try simp only [TRef.toBuf, TRef.ofBuf, castSame, val8_main_call9_v1, val8_main_call9_v10]) <;> first | rfl | fail "rfl 9 main_call10_v6"
set_option maxRecDepth 8192 in
set_option maxHeartbeats 2000000 in
theorem val9_main_call10_v8 (V0 : Valuation τ sig (Elt Ideal)) : val9 V0 (no_index (Proc.devRef .tc main_call10_v8)) = RefTerm.t_main_call10_v8 (V0 (Proc.devRef .tc main_arg1)) := by
  unfold val9
  simp only [part9]
  after_results_simp
  (try simp only [TRef.toBuf, TRef.ofBuf, castSame, val8_main_call9_v1, val8_main_call9_v10]) <;> first | rfl | fail "rfl 9 main_call10_v8"
set_option maxRecDepth 8192 in
set_option maxHeartbeats 2000000 in
theorem val9_main_call10_v9 (V0 : Valuation τ sig (Elt Ideal)) : val9 V0 (no_index (Proc.devRef .tc main_call10_v9)) = RefTerm.t_main_call10_v9 := by
  unfold val9
  simp only [part9]
  after_results_simp
  (try simp only [TRef.toBuf, TRef.ofBuf, castSame]) <;> first | rfl | fail "rfl 9 main_call10_v9"
attribute [irreducible] val9

set_option maxRecDepth 8192 in
set_option maxHeartbeats 4000000 in
/-- Operations 181 … 200 of 348. -/
abbrev part10 : List (HloOp τ sig (Elt Ideal)) :=
  [ TRef.unary main_call10.v9 main_call10.v10 (broadcastInDim S32768 ![] bcast_S_S32768),
    TRef.binary main_call10.v8 main_call10.v10 main_call10.v11 (cmpi .ne),
    TRef.binary main_call10.v11 main_call10.v6 main_call10.v12 andi,
    TRef.unary main_call10.call0.v0 main_call10.v13 (broadcastInDim S32768 ![] bcast_S_S32768),
    TRef.binary main_call10.v4 main_call10.v13 main_call10.v14 addi,
    TRef.ternary main_call10.v12 main_call10.v14 main_call10.v4 main_call10.v15 select,
    nullary main_v22 (iotaInDim S32768 32 0),
    unary main_v1 main_v23 ((extui 32 · natLt_1_32) : (⟨S1x32x32x32, .i1⟩ : BufTy).Contents (Elt Ideal) → (⟨S1x32x32x32, .i32⟩ : BufTy).Contents (Elt Ideal)),
    nullary main_c_15 (constantI S_ 32 0#32),
    binary main_v23 main_c_15 main_v24 ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)),
    unary main_v24 main_v25 (broadcastInDim S32768 ![] bcast_S_S32768 : (⟨S_, .i32⟩ : BufTy).Contents (Elt Ideal) → (⟨S32768, .i32⟩ : BufTy).Contents (Elt Ideal)),
    binary main_v22 main_v25 main_v26 (cmpi .sge : (⟨S32768, .i32⟩ : BufTy).Contents (Elt Ideal) → (⟨S32768, .i32⟩ : BufTy).Contents (Elt Ideal) → (⟨S32768, .i1⟩ : BufTy).Contents (Elt Ideal)),
    nullary main_c_16 (constantI S_ 32 0#32),
    TRef.unary (TRef.of (T := ⟨S_, .i32⟩) main_c_16) main_call11.v0 id,
    TRef.unary main_call11.v0 main_call11.v1 (broadcastInDim S32768 ![] bcast_S_S32768),
    TRef.ternary (TRef.of (T := ⟨S32768, .i1⟩) main_v26) main_call11.v1 (TRef.of (T := ⟨S32768, .i32⟩) main_v15) main_call11.v2 select,
    nullary main_c_17 (constantI S_ 32 0#32),
    TRef.unary (TRef.of (T := ⟨S_, .i32⟩) main_c_17) main_call12.v0 id,
    TRef.unary main_call12.v0 main_call12.v1 (broadcastInDim S32768 ![] bcast_S_S32768),
    TRef.ternary (TRef.of (T := ⟨S32768, .i1⟩) main_v26) main_call12.v1 (TRef.of (T := ⟨S32768, .i32⟩) main_v17) main_call12.v2 select ]
/-- The buffer contents after the first 10 stretches. -/
def val10 (V0 : Valuation τ sig (Elt Ideal)) : Valuation τ sig (Elt Ideal) := after part10 (val9 V0)
theorem val10_eq (V0 : Valuation τ sig (Elt Ideal)) : val10 V0 = after part10 (val9 V0) := rfl
/-- The buffers that stretch 10 writes. -/
abbrev part10_W : List (Ref sig .tc) := [main_call10_v10, main_call10_v11, main_call10_v12, main_call10_v13, main_call10_v14, main_v21, main_v22, main_v23, main_c_15, main_v24, main_v25, main_v26, main_c_16, main_call11_v0, main_call11_v1, main_v27, main_c_17, main_call12_v0, main_call12_v1, main_v28]
set_option maxRecDepth 8192 in
theorem part10_writes : (part10 : List (HloOp τ sig (Elt Ideal))).Forall fun op => op.writes ⊆ (part10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 10 does not write keeps its contents through it. -/
theorem val10_keep (V0 : Valuation τ sig (Elt Ideal)) (r : Ref sig .tc) (h : r ∉ part10_W) :
    val10 V0 (Proc.devRef .tc r) = val9 V0 (Proc.devRef .tc r) :=
  after_of_writes_sub part10 _ part10_writes h
theorem val10_main_arg0 (V0 : Valuation τ sig (Elt Ideal)) : val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) = V0 (Proc.devRef .tc main_arg2) :=
  (val10_keep V0 main_arg2 (by decide)).trans (val9_main_arg2 V0)
theorem val10_main_arg3 (V0 : Valuation τ sig (Elt Ideal)) : val10 V0 (no_index (Proc.devRef .tc main_arg3)) = V0 (Proc.devRef .tc main_arg3) :=
  (val10_keep V0 main_arg3 (by decide)).trans (val9_main_arg3 V0)
theorem val10_main_c (V0 : Valuation τ sig (Elt Ideal)) : val10 V0 (no_index (Proc.devRef .tc main_c)) = RefTerm.t_main_c :=
  (val10_keep V0 main_c (by decide)).trans (val9_main_c V0)
theorem val10_main_c_0 (V0 : Valuation τ sig (Elt Ideal)) : val10 V0 (no_index (Proc.devRef .tc main_c_0)) = RefTerm.t_main_c_0 :=
  (val10_keep V0 main_c_0 (by decide)).trans (val9_main_c_0 V0)
theorem val10_main_v19 (V0 : Valuation τ sig (Elt Ideal)) : val10 V0 (no_index (Proc.devRef .tc main_v19)) = RefTerm.t_main_v19 (V0 (Proc.devRef .tc main_arg1)) :=
  (val10_keep V0 main_v19 (by decide)).trans (val9_main_v19 V0)
set_option maxRecDepth 8192 in
set_option maxHeartbeats 2000000 in
theorem val10_main_v21 (V0 : Valuation τ sig (Elt Ideal)) : val10 V0 (no_index (Proc.devRef .tc main_v21)) = RefTerm.t_main_v21 (V0 (Proc.devRef .tc main_arg1)) := by
  unfold val10
  simp only [part10]
  after_results_simp
  (try simp only [TRef.toBuf, TRef.ofBuf, castSame, val9_main_call10_v4, val9_main_call10_v2, val9_main_call10_v6, val9_main_call10_v9, val9_main_call10_v8]) <;> first | rfl | fail "rfl 10 main_v21"
set_option maxRecDepth 8192 in
set_option maxHeartbeats 2000000 in
theorem val10_main_v26 (V0 : Valuation τ sig (Elt Ideal)) : val10 V0 (no_index (Proc.devRef .tc main_v26)) = RefTerm.t_main_v26 (V0 (Proc.devRef .tc main_arg1)) := by
  unfold val10
  simp only [part10]
  after_results_simp
  (try simp only [TRef.toBuf, TRef.ofBuf, castSame, val9_main_v1]) <;> first | rfl | fail "rfl 10 main_v26"
set_option maxRecDepth 8192 in
set_option maxHeartbeats 2000000 in
theorem val10_main_v27 (V0 : Valuation τ sig (Elt Ideal)) : val10 V0 (no_index (Proc.devRef .tc main_v27)) = RefTerm.t_main_v27 (V0 (Proc.devRef .tc main_arg1)) := by
  unfold val10
  simp only [part10]
  after_results_simp
  (try simp only [TRef.toBuf, TRef.ofBuf, castSame, val9_main_v15, val9_main_v1]) <;> first | rfl | fail "rfl 10 main_v27"
set_option maxRecDepth 8192 in
set_option maxHeartbeats 2000000 in
theorem val10_main_v28 (V0 : Valuation τ sig (Elt Ideal)) : val10 V0 (no_index (Proc.devRef .tc main_v28)) = RefTerm.t_main_v28 (V0 (Proc.devRef .tc main_arg1)) := by
  unfold val10
  simp only [part10]
  after_results_simp
  (try simp only [TRef.toBuf, TRef.ofBuf, castSame, val9_main_v17, val9_main_v1]) <;> first | rfl | fail "rfl 10 main_v28"
attribute [irreducible] val10

set_option maxRecDepth 8192 in
set_option maxHeartbeats 4000000 in
/-- Operations 201 … 212 of 348. -/
abbrev part11 : List (HloOp τ sig (Elt Ideal)) :=
  [ nullary main_c_18 (constantI S_ 32 0#32),
    TRef.unary (TRef.of (T := ⟨S_, .i32⟩) main_c_18) main_call13.v0 id,
    TRef.unary main_call13.v0 main_call13.v1 (broadcastInDim S32768 ![] bcast_S_S32768),
    TRef.ternary (TRef.of (T := ⟨S32768, .i1⟩) main_v26) main_call13.v1 (TRef.of (T := ⟨S32768, .i32⟩) main_v19) main_call13.v2 select,
    nullary main_c_19 (constantI S_ 32 0#32),
    TRef.unary (TRef.of (T := ⟨S_, .i32⟩) main_c_19) main_call14.v0 id,
    TRef.unary main_call14.v0 main_call14.v1 (broadcastInDim S32768 ![] bcast_S_S32768),
    TRef.ternary (TRef.of (T := ⟨S32768, .i1⟩) main_v26) main_call14.v1 (TRef.of (T := ⟨S32768, .i32⟩) main_v21) main_call14.v2 select,
    unary main_v27 main_v31 (broadcastInDim S32768x1 ![0] bcast_S32768_S32768x1_0 : (⟨S32768, .i32⟩ : BufTy).Contents (Elt Ideal) → (⟨S32768x1, .i32⟩ : BufTy).Contents (Elt Ideal)),
    unary main_v28 main_v32 (broadcastInDim S32768x1 ![0] bcast_S32768_S32768x1_0 : (⟨S32768, .i32⟩ : BufTy).Contents (Elt Ideal) → (⟨S32768x1, .i32⟩ : BufTy).Contents (Elt Ideal)),
    unary main_v29 main_v33 (broadcastInDim S32768x1 ![0] bcast_S32768_S32768x1_0 : (⟨S32768, .i32⟩ : BufTy).Contents (Elt Ideal) → (⟨S32768x1, .i32⟩ : BufTy).Contents (Elt Ideal)),
    unary main_v30 main_v34 (broadcastInDim S32768x1 ![0] bcast_S32768_S32768x1_0 : (⟨S32768, .i32⟩ : BufTy).Contents (Elt Ideal) → (⟨S32768x1, .i32⟩ : BufTy).Contents (Elt Ideal)) ]
/-- The buffer contents after the first 11 stretches. -/
def val11 (V0 : Valuation τ sig (Elt Ideal)) : Valuation τ sig (Elt Ideal) := after part11 (val10 V0)
theorem val11_eq (V0 : Valuation τ sig (Elt Ideal)) : val11 V0 = after part11 (val10 V0) := rfl
/-- The buffers that stretch 11 writes. -/
abbrev part11_W : List (Ref sig .tc) := [main_c_18, main_call13_v0, main_call13_v1, main_v29, main_c_19, main_call14_v0, main_call14_v1, main_v30, main_v31, main_v32, main_v33, main_v34]
set_option maxRecDepth 8192 in
theorem part11_writes : (part11 : List (HloOp τ sig (Elt Ideal))).Forall fun op => op.writes ⊆ (part11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 11 does not write keeps its contents through it. -/
theorem val11_keep (V0 : Valuation τ sig (Elt Ideal)) (r : Ref sig .tc) (h : r ∉ part11_W) :
    val11 V0 (Proc.devRef .tc r) = val10 V0 (Proc.devRef .tc r) :=
  after_of_writes_sub part11 _ part11_writes h
theorem val11_main_arg0 (V0 : Valuation τ sig (Elt Ideal)) : val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) = V0 (Proc.devRef .tc main_arg2) :=
  (val11_keep V0 main_arg2 (by decide)).trans (val10_main_arg2 V0)
theorem val11_main_arg3 (V0 : Valuation τ sig (Elt Ideal)) : val11 V0 (no_index (Proc.devRef .tc main_arg3)) = V0 (Proc.devRef .tc main_arg3) :=
  (val11_keep V0 main_arg3 (by decide)).trans (val10_main_arg3 V0)
theorem val11_main_c (V0 : Valuation τ sig (Elt Ideal)) : val11 V0 (no_index (Proc.devRef .tc main_c)) = RefTerm.t_main_c :=
  (val11_keep V0 main_c (by decide)).trans (val10_main_c V0)
theorem val11_main_c_0 (V0 : Valuation τ sig (Elt Ideal)) : val11 V0 (no_index (Proc.devRef .tc main_c_0)) = RefTerm.t_main_c_0 :=
  (val11_keep V0 main_c_0 (by decide)).trans (val10_main_c_0 V0)
set_option maxRecDepth 8192 in
set_option maxHeartbeats 2000000 in
theorem val11_main_v31 (V0 : Valuation τ sig (Elt Ideal)) : val11 V0 (no_index (Proc.devRef .tc main_v31)) = RefTerm.t_main_v31 (V0 (Proc.devRef .tc main_arg1)) := by
  unfold val11
  simp only [part11]
  after_results_simp
  (try simp only [TRef.toBuf, TRef.ofBuf, castSame, val10_main_v27]) <;> first | rfl | fail "rfl 11 main_v31"
set_option maxRecDepth 8192 in
set_option maxHeartbeats 2000000 in
theorem val11_main_v32 (V0 : Valuation τ sig (Elt Ideal)) : val11 V0 (no_index (Proc.devRef .tc main_v32)) = RefTerm.t_main_v32 (V0 (Proc.devRef .tc main_arg1)) := by
  unfold val11
  simp only [part11]
  after_results_simp
  (try simp only [TRef.toBuf, TRef.ofBuf, castSame, val10_main_v28]) <;> first | rfl | fail "rfl 11 main_v32"
set_option maxRecDepth 8192 in
set_option maxHeartbeats 2000000 in
theorem val11_main_v33 (V0 : Valuation τ sig (Elt Ideal)) : val11 V0 (no_index (Proc.devRef .tc main_v33)) = RefTerm.t_main_v33 (V0 (Proc.devRef .tc main_arg1)) := by
  unfold val11
  simp only [part11]
  after_results_simp
  (try simp only [TRef.toBuf, TRef.ofBuf, castSame, val10_main_v19, val10_main_v26]) <;> first | rfl | fail "rfl 11 main_v33"
set_option maxRecDepth 8192 in
set_option maxHeartbeats 2000000 in
theorem val11_main_v34 (V0 : Valuation τ sig (Elt Ideal)) : val11 V0 (no_index (Proc.devRef .tc main_v34)) = RefTerm.t_main_v34 (V0 (Proc.devRef .tc main_arg1)) := by
  unfold val11
  simp only [part11]
  after_results_simp
  (try simp only [TRef.toBuf, TRef.ofBuf, castSame, val10_main_v21, val10_main_v26]) <;> first | rfl | fail "rfl 11 main_v34"
attribute [irreducible] val11

set_option maxRecDepth 8192 in
set_option maxHeartbeats 4000000 in
/-- Operation 213 of 348. -/
abbrev part12 : List (HloOp τ sig (Elt Ideal)) :=
  [ nary ![main_v31, main_v32, main_v33, main_v34] main_v35 (fun u => concatenate S32768x4 1 [⟨S32768x1, u 0⟩, ⟨S32768x1, u 1⟩, ⟨S32768x1, u 2⟩, ⟨S32768x1, u 3⟩] concatenates_S32768x1_S32768x1_S32768x1_S32768x1_S32768x4_d1) ]
/-- The buffer contents after the first 12 stretches. -/
def val12 (V0 : Valuation τ sig (Elt Ideal)) : Valuation τ sig (Elt Ideal) := after part12 (val11 V0)
theorem val12_eq (V0 : Valuation τ sig (Elt Ideal)) : val12 V0 = after part12 (val11 V0) := rfl
/-- The buffers that stretch 12 writes. -/
abbrev part12_W : List (Ref sig .tc) := [main_v35]
set_option maxRecDepth 8192 in
theorem part12_writes : (part12 : List (HloOp τ sig (Elt Ideal))).Forall fun op => op.writes ⊆ (part12_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch 12 does not write keeps its contents through it. -/
theorem val12_keep (V0 : Valuation τ sig (Elt Ideal)) (r : Ref sig .tc) (h : r ∉ part12_W) :
    val12 V0 (Proc.devRef .tc r) = val11 V0 (Proc.devRef .tc r) :=
  after_of_writes_sub part12 _ part12_writes h
theorem val12_main_arg0 (V0 : Valuation τ sig (Elt Ideal)) : val12 V0 (no_index (Proc.devRef .tc main_arg0)) = V0 (Proc.devRef .tc main_arg0) :=
  (val12_keep V0 main_arg0 (by decide)).trans (val11_main_arg0 V0)
theorem val12_main_arg1 (V0 : Valuation τ sig (Elt Ideal)) : val12 V0 (no_index (Proc.devRef .tc main_arg1)) = V0 (Proc.devRef .tc main_arg1) :=
  (val12_keep V0 main_arg1 (by decide)).trans (val11_main_arg1 V0)
theorem val12_main_arg2 (V0 : Valuation τ sig (Elt Ideal)) : val12 V0 (no_index (Proc.devRef .tc main_arg2)) = V0 (Proc.devRef .tc main_arg2) :=
  (val12_keep V0 main_arg2 (by decide)).trans (val11_main_arg2 V0)
theorem val12_main_arg3 (V0 : Valuation τ sig (Elt Ideal)) : val12 V0 (no_index (Proc.devRef .tc main_arg3)) = V0 (Proc.devRef .tc main_arg3) :=
  (val12_keep V0 main_arg3 (by decide)).trans (val11_main_arg3 V0)
theorem val12_main_c (V0 : Valuation τ sig (Elt Ideal)) : val12 V0 (no_index (Proc.devRef .tc main_c)) = RefTerm.t_main_c :=
  (val12_keep V0 main_c (by decide)).trans (val11_main_c V0)
theorem val12_main_c_0 (V0 : Valuation τ sig (Elt Ideal)) : val12 V0 (no_index (Proc.devRef .tc main_c_0)) = RefTerm.t_main_c_0 :=
  (val12_keep V0 main_c_0 (by decide)).trans (val11_main_c_0 V0)
set_option maxRecDepth 8192 in
set_option maxHeartbeats 2000000 in
theorem val12_main_v35 (V0 : Valuation τ sig (Elt Ideal)) : val12 V0 (no_index (Proc.devRef .tc main_v35)) = RefTerm.t_main_v35 (V0 (Proc.devRef .tc main_arg1)) := by
  unfold val12
  simp only [part12]
  rw [after_cons, after_nil, nary_result]
  dsimp only [Matrix.cons_val]
  rw [val11_main_v31, val11_main_v32, val11_main_v33, val11_main_v34]
  first | rfl | fail "rfl 12 main_v35"
attribute [irreducible] val12

set_option maxRecDepth 8192 in
set_option maxHeartbeats 4000000 in
/-- Operations 214 … 233 of 348. -/
abbrev part13 : List (HloOp τ sig (Elt Ideal)) :=
  [ nullary main_c_20 (constantI S_ 32 0#32),
    unary main_c_20 main_v36 (broadcastInDim S1x32x32x32 ![] bcast_S_S1x32x32x32 : (⟨S_, .i32⟩ : BufTy).Contents (Elt Ideal) → (⟨S1x32x32x32, .i32⟩ : BufTy).Contents (Elt Ideal)),
    binary main_arg1 main_v36 main_v37 (cmpi .ne : (⟨S1x32x32x32, .i32⟩ : BufTy).Contents (Elt Ideal) → (⟨S1x32x32x32, .i32⟩ : BufTy).Contents (Elt Ideal) → (⟨S1x32x32x32, .i1⟩ : BufTy).Contents (Elt Ideal)),
    unary main_v37 main_v38 ((extui 32 · natLt_1_32) : (⟨S1x32x32x32, .i1⟩ : BufTy).Contents (Elt Ideal) → (⟨S1x32x32x32, .i32⟩ : BufTy).Contents (Elt Ideal)),
    nullary main_c_21 (constantI S_ 32 0#32),
    binary main_v38 main_c_21 main_v39 ((fun x v => Host.reduce IntOp.addi x v reducesTo_S1x32x32x32_S_d0_1_2_3 h_S_) : (⟨S1x32x32x32, .i32⟩ : BufTy).Contents (Elt Ideal) → (⟨S_, .i32⟩ : BufTy).Contents (Elt Ideal) → (⟨S_, .i32⟩ : BufTy).Contents (Elt Ideal)),
    nullary main_v40 (iotaInDim S32768 32 0),
    unary main_v39 main_v41 (broadcastInDim S32768 ![] bcast_S_S32768 : (⟨S_, .i32⟩ : BufTy).Contents (Elt Ideal) → (⟨S32768, .i32⟩ : BufTy).Contents (Elt Ideal)),
    binary main_v40 main_v41 main_v42 (cmpi .slt : (⟨S32768, .i32⟩ : BufTy).Contents (Elt Ideal) → (⟨S32768, .i32⟩ : BufTy).Contents (Elt Ideal) → (⟨S32768, .i1⟩ : BufTy).Contents (Elt Ideal)),
    unary main_v42 main_v43 (uitofp (F := Ideal) .f32 : (⟨S32768, .i1⟩ : BufTy).Contents (Elt Ideal) → (⟨S32768, .f32⟩ : BufTy).Contents (Elt Ideal)),
    unary main_v35 main_v44 ((extractStridedSlice S32768x1 ![0, 0] · slices_S32768x4_S32768x1_0_0) : (⟨S32768x4, .i32⟩ : BufTy).Contents (Elt Ideal) → (⟨S32768x1, .i32⟩ : BufTy).Contents (Elt Ideal)),
    reshape main_v44 main_v45 rfl shapeCasts_S32768x1_S32768,
    unary main_v35 main_v46 ((extractStridedSlice S32768x3 ![0, 1] · slices_S32768x4_S32768x3_0_1) : (⟨S32768x4, .i32⟩ : BufTy).Contents (Elt Ideal) → (⟨S32768x3, .i32⟩ : BufTy).Contents (Elt Ideal)),
    unary main_v46 main_v47 (broadcastInDim S32768x3x1 ![0, 1] bcast_S32768x3_S32768x3x1_0_1 : (⟨S32768x3, .i32⟩ : BufTy).Contents (Elt Ideal) → (⟨S32768x3x1, .i32⟩ : BufTy).Contents (Elt Ideal)),
    unary main_c main_v48 (broadcastInDim S1x3x27 ![1, 2] bcast_S3x27_S1x3x27_1_2 : (⟨S3x27, .i32⟩ : BufTy).Contents (Elt Ideal) → (⟨S1x3x27, .i32⟩ : BufTy).Contents (Elt Ideal)),
    unary main_v47 main_v49 (broadcastInDim S32768x3x27 ![0, 1, 2] bcast_S32768x3x1_S32768x3x27_0_1_2 : (⟨S32768x3x1, .i32⟩ : BufTy).Contents (Elt Ideal) → (⟨S32768x3x27, .i32⟩ : BufTy).Contents (Elt Ideal)),
    unary main_v48 main_v50 (broadcastInDim S32768x3x27 ![0, 1, 2] bcast_S1x3x27_S32768x3x27_0_1_2 : (⟨S1x3x27, .i32⟩ : BufTy).Contents (Elt Ideal) → (⟨S32768x3x27, .i32⟩ : BufTy).Contents (Elt Ideal)),
    binary main_v49 main_v50 main_v51 (addi : (⟨S32768x3x27, .i32⟩ : BufTy).Contents (Elt Ideal) → (⟨S32768x3x27, .i32⟩ : BufTy).Contents (Elt Ideal) → (⟨S32768x3x27, .i32⟩ : BufTy).Contents (Elt Ideal)),
    nullary main_c_22 (constantI S_ 32 0#32),
    unary main_c_22 main_v52 (broadcastInDim S32768x3x27 ![] bcast_S_S32768x3x27 : (⟨S_, .i32⟩ : BufTy).Contents (Elt Ideal) → (⟨S32768x3x27, .i32⟩ : BufTy).Contents (Elt Ideal)) ]
/-- The buffer contents after the first 13 stretches. -/
def val13 (V0 : Valuation τ sig (Elt Ideal)) : Valuation τ sig (Elt Ideal) := after part13 (val12 V0)
theorem val13_eq (V0 : Valuation τ sig (Elt Ideal)) : val13 V0 = after part13 (val12 V0) := rfl
/-- The buffers that stretch 13 writes. -/
abbrev part13_W : List (Ref sig .tc) := [main_c_20, main_v36, main_v37, main_v38, main_c_21, main_v39, main_v40, main_v41, main_v42, main_v43, main_v44, main_v45, main_v46, main_v47, main_v48, main_v49, main_v50, main_v51, main_c_22, main_v52]
set_option maxRecDepth 8192 in
theorem part13_writes : (part13 : List (HloOp τ sig (Elt Ideal))).Forall fun op => op.writes ⊆ (part13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 13 does not write keeps its contents through it. -/
theorem val13_keep (V0 : Valuation τ sig (Elt Ideal)) (r : Ref sig .tc) (h : r ∉ part13_W) :
    val13 V0 (Proc.devRef .tc r) = val12 V0 (Proc.devRef .tc r) :=
  after_of_writes_sub part13 _ part13_writes h
theorem val13_main_arg0 (V0 : Valuation τ sig (Elt Ideal)) : val13 V0 (no_index (Proc.devRef .tc main_arg0)) = V0 (Proc.devRef .tc main_arg0) :=
  (val13_keep V0 main_arg0 (by decide)).trans (val12_main_arg0 V0)
theorem val13_main_arg1 (V0 : Valuation τ sig (Elt Ideal)) : val13 V0 (no_index (Proc.devRef .tc main_arg1)) = V0 (Proc.devRef .tc main_arg1) :=
  (val13_keep V0 main_arg1 (by decide)).trans (val12_main_arg1 V0)
theorem val13_main_arg2 (V0 : Valuation τ sig (Elt Ideal)) : val13 V0 (no_index (Proc.devRef .tc main_arg2)) = V0 (Proc.devRef .tc main_arg2) :=
  (val13_keep V0 main_arg2 (by decide)).trans (val12_main_arg2 V0)
theorem val13_main_arg3 (V0 : Valuation τ sig (Elt Ideal)) : val13 V0 (no_index (Proc.devRef .tc main_arg3)) = V0 (Proc.devRef .tc main_arg3) :=
  (val13_keep V0 main_arg3 (by decide)).trans (val12_main_arg3 V0)
theorem val13_main_c_0 (V0 : Valuation τ sig (Elt Ideal)) : val13 V0 (no_index (Proc.devRef .tc main_c_0)) = RefTerm.t_main_c_0 :=
  (val13_keep V0 main_c_0 (by decide)).trans (val12_main_c_0 V0)
theorem val13_main_v35 (V0 : Valuation τ sig (Elt Ideal)) : val13 V0 (no_index (Proc.devRef .tc main_v35)) = RefTerm.t_main_v35 (V0 (Proc.devRef .tc main_arg1)) :=
  (val13_keep V0 main_v35 (by decide)).trans (val12_main_v35 V0)
set_option maxRecDepth 8192 in
set_option maxHeartbeats 2000000 in
theorem val13_main_v43 (V0 : Valuation τ sig (Elt Ideal)) : val13 V0 (no_index (Proc.devRef .tc main_v43)) = RefTerm.t_main_v43 (V0 (Proc.devRef .tc main_arg1)) := by
  unfold val13
  simp only [part13]
  after_results_simp
  (try simp only [TRef.toBuf, TRef.ofBuf, castSame, val12_main_arg1]) <;> first | rfl | fail "rfl 13 main_v43"
set_option maxRecDepth 8192 in
set_option maxHeartbeats 2000000 in
theorem val13_main_v45 (V0 : Valuation τ sig (Elt Ideal)) : val13 V0 (no_index (Proc.devRef .tc main_v45)) = RefTerm.t_main_v45 (V0 (Proc.devRef .tc main_arg1)) := by
  unfold val13
  simp only [part13]
  after_results_simp
  (try simp only [TRef.toBuf, TRef.ofBuf, castSame, val12_main_v35]) <;> first | rfl | fail "rfl 13 main_v45"
set_option maxRecDepth 8192 in
set_option maxHeartbeats 2000000 in
theorem val13_main_v51 (V0 : Valuation τ sig (Elt Ideal)) : val13 V0 (no_index (Proc.devRef .tc main_v51)) = RefTerm.t_main_v51 (V0 (Proc.devRef .tc main_arg1)) := by
  unfold val13
  simp only [part13]
  after_results_simp
  (try simp only [TRef.toBuf, TRef.ofBuf, castSame, val12_main_c, val12_main_v35]) <;> first | rfl | fail "rfl 13 main_v51"
set_option maxRecDepth 8192 in
set_option maxHeartbeats 2000000 in
theorem val13_main_v52 (V0 : Valuation τ sig (Elt Ideal)) : val13 V0 (no_index (Proc.devRef .tc main_v52)) = RefTerm.t_main_v52 := by
  unfold val13
  simp only [part13]
  after_results_simp
  (try simp only [TRef.toBuf, TRef.ofBuf, castSame]) <;> first | rfl | fail "rfl 13 main_v52"
attribute [irreducible] val13

end Cert.ReferenceIdeal.RefRun

end
-- ==== Proof.RefRunW3.lean ====
/-
  The reference program's line of host operations read stretch by stretch (stretches 14 … 22 of 22, at most twenty
  operations each, a concatenation alone in its own): the buffer contents after each stretch, and for every buffer
  written by then and read later its contents as the program's value (RefTerm's definition of that tensor value) of
  the four argument arrays before the line. A stretch's own operations are composed by the result lemmas; an earlier
  stretch's buffers are read by its lemmas.
-/
import proofs.«150033_g82085414961357_cont_sun_m_845_2_alg».proof.Proof.RefOps
import proofs.«150033_g82085414961357_cont_sun_m_845_2_alg».proof.Proof.RefTerm
import proofs.«150033_g82085414961357_cont_sun_m_845_2_alg».proof.Proof.RefRunW2

set_option pp.maxSteps 5000
set_option pp.deepTerms false

noncomputable section

namespace Cert.ReferenceIdeal.RefRun

open Cert.ReferenceIdeal Cert.ReferenceIdeal.Gen Idealize.ShloMosaic Idealize.ShloMosaic.TcCoe Idealize.SL.Sem Idealize.ShloMosaic.StableHlo

-- the folds and searches over an operand's elements stay folded: the equations below never look inside them
attribute [local irreducible] Host.reduceWindow Host.scatter Host.gather Host.scatterAdd Host.reduce

set_option maxRecDepth 8192 in
set_option maxHeartbeats 4000000 in
/-- Operations 234 … 253 of 348. -/
abbrev part14 : List (HloOp τ sig (Elt Ideal)) :=
  [ binary main_v51 main_v52 main_v53 (cmpi .sge : (⟨S32768x3x27, .i32⟩ : BufTy).Contents (Elt Ideal) → (⟨S32768x3x27, .i32⟩ : BufTy).Contents (Elt Ideal) → (⟨S32768x3x27, .i1⟩ : BufTy).Contents (Elt Ideal)),
    unary main_c_0 main_v54 (broadcastInDim S1x3x1 ![1] bcast_S3_S1x3x1_1 : (⟨S3, .i32⟩ : BufTy).Contents (Elt Ideal) → (⟨S1x3x1, .i32⟩ : BufTy).Contents (Elt Ideal)),
    unary main_v54 main_v55 (broadcastInDim S32768x3x27 ![0, 1, 2] bcast_S1x3x1_S32768x3x27_0_1_2 : (⟨S1x3x1, .i32⟩ : BufTy).Contents (Elt Ideal) → (⟨S32768x3x27, .i32⟩ : BufTy).Contents (Elt Ideal)),
    binary main_v51 main_v55 main_v56 (cmpi .slt : (⟨S32768x3x27, .i32⟩ : BufTy).Contents (Elt Ideal) → (⟨S32768x3x27, .i32⟩ : BufTy).Contents (Elt Ideal) → (⟨S32768x3x27, .i1⟩ : BufTy).Contents (Elt Ideal)),
    binary main_v53 main_v56 main_v57 (andi : (⟨S32768x3x27, .i1⟩ : BufTy).Contents (Elt Ideal) → (⟨S32768x3x27, .i1⟩ : BufTy).Contents (Elt Ideal) → (⟨S32768x3x27, .i1⟩ : BufTy).Contents (Elt Ideal)),
    nullary main_c_23 (constantI S_ 1 1#1),
    binary main_v57 main_c_23 main_v58 ((fun x v => Host.reduce IntOp.andi x v reducesTo_S32768x3x27_S32768x27_d1 h_S_) : (⟨S32768x3x27, .i1⟩ : BufTy).Contents (Elt Ideal) → (⟨S_, .i1⟩ : BufTy).Contents (Elt Ideal) → (⟨S32768x27, .i1⟩ : BufTy).Contents (Elt Ideal)),
    nullary main_c_24 (constantI S_ 32 1#32),
    unary main_c_24 main_v59 (broadcastInDim S3 ![] bcast_S_S3 : (⟨S_, .i32⟩ : BufTy).Contents (Elt Ideal) → (⟨S3, .i32⟩ : BufTy).Contents (Elt Ideal)),
    binary main_c_0 main_v59 main_v60 (subi : (⟨S3, .i32⟩ : BufTy).Contents (Elt Ideal) → (⟨S3, .i32⟩ : BufTy).Contents (Elt Ideal) → (⟨S3, .i32⟩ : BufTy).Contents (Elt Ideal)),
    unary main_v60 main_v61 (broadcastInDim S1x3x1 ![1] bcast_S3_S1x3x1_1 : (⟨S3, .i32⟩ : BufTy).Contents (Elt Ideal) → (⟨S1x3x1, .i32⟩ : BufTy).Contents (Elt Ideal)),
    nullary main_c_25 (constantI S_ 32 0#32),
    TRef.unary (TRef.of (T := ⟨S_, .i32⟩) main_c_25) main_call15.v0 id,
    TRef.unary main_call15.v0 main_call15.v1 (broadcastInDim S32768x3x27 ![] bcast_S_S32768x3x27),
    TRef.binary main_call15.v1 (TRef.of (T := ⟨S32768x3x27, .i32⟩) main_v51) main_call15.v2 maxsi,
    TRef.unary (TRef.of (T := ⟨S1x3x1, .i32⟩) main_v61) main_call15.v3 (broadcastInDim S32768x3x27 ![0, 1, 2] bcast_S1x3x1_S32768x3x27_0_1_2),
    TRef.binary main_call15.v3 main_call15.v2 main_call15.v4 minsi,
    unary main_v45 main_v63 (broadcastInDim S32768x1 ![0] bcast_S32768_S32768x1_0 : (⟨S32768, .i32⟩ : BufTy).Contents (Elt Ideal) → (⟨S32768x1, .i32⟩ : BufTy).Contents (Elt Ideal)),
    unary main_v63 main_v64 (broadcastInDim S32768x27 ![0, 1] bcast_S32768x1_S32768x27_0_1 : (⟨S32768x1, .i32⟩ : BufTy).Contents (Elt Ideal) → (⟨S32768x27, .i32⟩ : BufTy).Contents (Elt Ideal)),
    unary main_v62 main_v65 ((extractStridedSlice S32768x1x27 ![0, 0, 0] · slices_S32768x3x27_S32768x1x27_0_0_0) : (⟨S32768x3x27, .i32⟩ : BufTy).Contents (Elt Ideal) → (⟨S32768x1x27, .i32⟩ : BufTy).Contents (Elt Ideal)) ]
/-- The buffer contents after the first 14 stretches. -/
def val14 (V0 : Valuation τ sig (Elt Ideal)) : Valuation τ sig (Elt Ideal) := after part14 (val13 V0)
theorem val14_eq (V0 : Valuation τ sig (Elt Ideal)) : val14 V0 = after part14 (val13 V0) := rfl
/-- The buffers that stretch 14 writes. -/
abbrev part14_W : List (Ref sig .tc) := [main_v53, main_v54, main_v55, main_v56, main_v57, main_c_23, main_v58, main_c_24, main_v59, main_v60, main_v61, main_c_25, main_call15_v0, main_call15_v1, main_call15_v2, main_call15_v3, main_v62, main_v63, main_v64, main_v65]
set_option maxRecDepth 8192 in
theorem part14_writes : (part14 : List (HloOp τ sig (Elt Ideal))).Forall fun op => op.writes ⊆ (part14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 14 does not write keeps its contents through it. -/
theorem val14_keep (V0 : Valuation τ sig (Elt Ideal)) (r : Ref sig .tc) (h : r ∉ part14_W) :
    val14 V0 (Proc.devRef .tc r) = val13 V0 (Proc.devRef .tc r) :=
  after_of_writes_sub part14 _ part14_writes h
theorem val14_main_arg0 (V0 : Valuation τ sig (Elt Ideal)) : val14 V0 (no_index (Proc.devRef .tc main_arg0)) = V0 (Proc.devRef .tc main_arg0) :=
  (val14_keep V0 main_arg0 (by decide)).trans (val13_main_arg0 V0)
theorem val14_main_arg1 (V0 : Valuation τ sig (Elt Ideal)) : val14 V0 (no_index (Proc.devRef .tc main_arg1)) = V0 (Proc.devRef .tc main_arg1) :=
  (val14_keep V0 main_arg1 (by decide)).trans (val13_main_arg1 V0)
theorem val14_main_arg2 (V0 : Valuation τ sig (Elt Ideal)) : val14 V0 (no_index (Proc.devRef .tc main_arg2)) = V0 (Proc.devRef .tc main_arg2) :=
  (val14_keep V0 main_arg2 (by decide)).trans (val13_main_arg2 V0)
theorem val14_main_arg3 (V0 : Valuation τ sig (Elt Ideal)) : val14 V0 (no_index (Proc.devRef .tc main_arg3)) = V0 (Proc.devRef .tc main_arg3) :=
  (val14_keep V0 main_arg3 (by decide)).trans (val13_main_arg3 V0)
theorem val14_main_v35 (V0 : Valuation τ sig (Elt Ideal)) : val14 V0 (no_index (Proc.devRef .tc main_v35)) = RefTerm.t_main_v35 (V0 (Proc.devRef .tc main_arg1)) :=
  (val14_keep V0 main_v35 (by decide)).trans (val13_main_v35 V0)
theorem val14_main_v43 (V0 : Valuation τ sig (Elt Ideal)) : val14 V0 (no_index (Proc.devRef .tc main_v43)) = RefTerm.t_main_v43 (V0 (Proc.devRef .tc main_arg1)) :=
  (val14_keep V0 main_v43 (by decide)).trans (val13_main_v43 V0)
set_option maxRecDepth 8192 in
set_option maxHeartbeats 2000000 in
theorem val14_main_v58 (V0 : Valuation τ sig (Elt Ideal)) : val14 V0 (no_index (Proc.devRef .tc main_v58)) = RefTerm.t_main_v58 (V0 (Proc.devRef .tc main_arg1)) := by
  unfold val14
  simp only [part14]
  after_results_simp
  (try simp only [TRef.toBuf, TRef.ofBuf, castSame, val13_main_c_0, val13_main_v51, val13_main_v52]) <;> first | rfl | fail "rfl 14 main_v58"
set_option maxRecDepth 8192 in
set_option maxHeartbeats 2000000 in
theorem val14_main_v62 (V0 : Valuation τ sig (Elt Ideal)) : val14 V0 (no_index (Proc.devRef .tc main_v62)) = RefTerm.t_main_v62 (V0 (Proc.devRef .tc main_arg1)) := by
  unfold val14
  simp only [part14]
  after_results_simp
  (try simp only [TRef.toBuf, TRef.ofBuf, castSame, val13_main_v51, val13_main_c_0]) <;> first | rfl | fail "rfl 14 main_v62"
set_option maxRecDepth 8192 in
set_option maxHeartbeats 2000000 in
theorem val14_main_v64 (V0 : Valuation τ sig (Elt Ideal)) : val14 V0 (no_index (Proc.devRef .tc main_v64)) = RefTerm.t_main_v64 (V0 (Proc.devRef .tc main_arg1)) := by
  unfold val14
  simp only [part14]
  after_results_simp
  (try simp only [TRef.toBuf, TRef.ofBuf, castSame, val13_main_v45]) <;> first | rfl | fail "rfl 14 main_v64"
set_option maxRecDepth 8192 in
set_option maxHeartbeats 2000000 in
theorem val14_main_v65 (V0 : Valuation τ sig (Elt Ideal)) : val14 V0 (no_index (Proc.devRef .tc main_v65)) = RefTerm.t_main_v65 (V0 (Proc.devRef .tc main_arg1)) := by
  unfold val14
  simp only [part14]
  after_results_simp
  (try simp only [TRef.toBuf, TRef.ofBuf, castSame, val13_main_v51, val13_main_c_0]) <;> first | rfl | fail "rfl 14 main_v65"
attribute [irreducible] val14

set_option maxRecDepth 8192 in
set_option maxHeartbeats 4000000 in
/-- Operations 254 … 273 of 348. -/
abbrev part15 : List (HloOp τ sig (Elt Ideal)) :=
  [ reshape main_v65 main_v66 rfl shapeCasts_S32768x1x27_S32768x27,
    unary main_v62 main_v67 ((extractStridedSlice S32768x1x27 ![0, 1, 0] · slices_S32768x3x27_S32768x1x27_0_1_0) : (⟨S32768x3x27, .i32⟩ : BufTy).Contents (Elt Ideal) → (⟨S32768x1x27, .i32⟩ : BufTy).Contents (Elt Ideal)),
    reshape main_v67 main_v68 rfl shapeCasts_S32768x1x27_S32768x27,
    unary main_v62 main_v69 ((extractStridedSlice S32768x1x27 ![0, 2, 0] · slices_S32768x3x27_S32768x1x27_0_2_0) : (⟨S32768x3x27, .i32⟩ : BufTy).Contents (Elt Ideal) → (⟨S32768x1x27, .i32⟩ : BufTy).Contents (Elt Ideal)),
    reshape main_v69 main_v70 rfl shapeCasts_S32768x1x27_S32768x27,
    nullary main_c_26 (constantI S_ 32 0#32),
    unary main_c_26 main_v71 (broadcastInDim S32768x27 ![] bcast_S_S32768x27 : (⟨S_, .i32⟩ : BufTy).Contents (Elt Ideal) → (⟨S32768x27, .i32⟩ : BufTy).Contents (Elt Ideal)),
    binary main_v64 main_v71 main_v72 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_27 (constantI S_ 32 1#32),
    unary main_c_27 main_v73 (broadcastInDim S32768x27 ![] bcast_S_S32768x27 : (⟨S_, .i32⟩ : BufTy).Contents (Elt Ideal) → (⟨S32768x27, .i32⟩ : BufTy).Contents (Elt Ideal)),
    binary main_v64 main_v73 main_v74 (addi : (⟨S32768x27, .i32⟩ : BufTy).Contents (Elt Ideal) → (⟨S32768x27, .i32⟩ : BufTy).Contents (Elt Ideal) → (⟨S32768x27, .i32⟩ : BufTy).Contents (Elt Ideal)),
    ternary main_v72 main_v74 main_v64 main_v75 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_28 (constantI S_ 32 0#32),
    unary main_c_28 main_v76 (broadcastInDim S32768x27 ![] bcast_S_S32768x27 : (⟨S_, .i32⟩ : BufTy).Contents (Elt Ideal) → (⟨S32768x27, .i32⟩ : BufTy).Contents (Elt Ideal)),
    binary main_v66 main_v76 main_v77 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_29 (constantI S_ 32 32#32),
    unary main_c_29 main_v78 (broadcastInDim S32768x27 ![] bcast_S_S32768x27 : (⟨S_, .i32⟩ : BufTy).Contents (Elt Ideal) → (⟨S32768x27, .i32⟩ : BufTy).Contents (Elt Ideal)),
    binary main_v66 main_v78 main_v79 (addi : (⟨S32768x27, .i32⟩ : BufTy).Contents (Elt Ideal) → (⟨S32768x27, .i32⟩ : BufTy).Contents (Elt Ideal) → (⟨S32768x27, .i32⟩ : BufTy).Contents (Elt Ideal)),
    ternary main_v77 main_v79 main_v66 main_v80 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_30 (constantI S_ 32 0#32) ]
/-- The buffer contents after the first 15 stretches. -/
def val15 (V0 : Valuation τ sig (Elt Ideal)) : Valuation τ sig (Elt Ideal) := after part15 (val14 V0)
theorem val15_eq (V0 : Valuation τ sig (Elt Ideal)) : val15 V0 = after part15 (val14 V0) := rfl
/-- The buffers that stretch 15 writes. -/
abbrev part15_W : List (Ref sig .tc) := [main_v66, main_v67, main_v68, main_v69, main_v70, main_c_26, main_v71, main_v72, main_c_27, main_v73, main_v74, main_v75, main_c_28, main_v76, main_v77, main_c_29, main_v78, main_v79, main_v80, main_c_30]
set_option maxRecDepth 8192 in
theorem part15_writes : (part15 : List (HloOp τ sig (Elt Ideal))).Forall fun op => op.writes ⊆ (part15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 15 does not write keeps its contents through it. -/
theorem val15_keep (V0 : Valuation τ sig (Elt Ideal)) (r : Ref sig .tc) (h : r ∉ part15_W) :
    val15 V0 (Proc.devRef .tc r) = val14 V0 (Proc.devRef .tc r) :=
  after_of_writes_sub part15 _ part15_writes h
theorem val15_main_arg0 (V0 : Valuation τ sig (Elt Ideal)) : val15 V0 (no_index (Proc.devRef .tc main_arg0)) = V0 (Proc.devRef .tc main_arg0) :=
  (val15_keep V0 main_arg0 (by decide)).trans (val14_main_arg0 V0)
theorem val15_main_arg1 (V0 : Valuation τ sig (Elt Ideal)) : val15 V0 (no_index (Proc.devRef .tc main_arg1)) = V0 (Proc.devRef .tc main_arg1) :=
  (val15_keep V0 main_arg1 (by decide)).trans (val14_main_arg1 V0)
theorem val15_main_arg2 (V0 : Valuation τ sig (Elt Ideal)) : val15 V0 (no_index (Proc.devRef .tc main_arg2)) = V0 (Proc.devRef .tc main_arg2) :=
  (val15_keep V0 main_arg2 (by decide)).trans (val14_main_arg2 V0)
theorem val15_main_arg3 (V0 : Valuation τ sig (Elt Ideal)) : val15 V0 (no_index (Proc.devRef .tc main_arg3)) = V0 (Proc.devRef .tc main_arg3) :=
  (val15_keep V0 main_arg3 (by decide)).trans (val14_main_arg3 V0)
theorem val15_main_v35 (V0 : Valuation τ sig (Elt Ideal)) : val15 V0 (no_index (Proc.devRef .tc main_v35)) = RefTerm.t_main_v35 (V0 (Proc.devRef .tc main_arg1)) :=
  (val15_keep V0 main_v35 (by decide)).trans (val14_main_v35 V0)
theorem val15_main_v43 (V0 : Valuation τ sig (Elt Ideal)) : val15 V0 (no_index (Proc.devRef .tc main_v43)) = RefTerm.t_main_v43 (V0 (Proc.devRef .tc main_arg1)) :=
  (val15_keep V0 main_v43 (by decide)).trans (val14_main_v43 V0)
theorem val15_main_v58 (V0 : Valuation τ sig (Elt Ideal)) : val15 V0 (no_index (Proc.devRef .tc main_v58)) = RefTerm.t_main_v58 (V0 (Proc.devRef .tc main_arg1)) :=
  (val15_keep V0 main_v58 (by decide)).trans (val14_main_v58 V0)
set_option maxRecDepth 8192 in
set_option maxHeartbeats 2000000 in
theorem val15_main_v68 (V0 : Valuation τ sig (Elt Ideal)) : val15 V0 (no_index (Proc.devRef .tc main_v68)) = RefTerm.t_main_v68 (V0 (Proc.devRef .tc main_arg1)) := by
  unfold val15
  simp only [part15]
  after_results_simp
  (try simp only [TRef.toBuf, TRef.ofBuf, castSame, val14_main_v62]) <;> first | rfl | fail "rfl 15 main_v68"
set_option maxRecDepth 8192 in
set_option maxHeartbeats 2000000 in
theorem val15_main_v70 (V0 : Valuation τ sig (Elt Ideal)) : val15 V0 (no_index (Proc.devRef .tc main_v70)) = RefTerm.t_main_v70 (V0 (Proc.devRef .tc main_arg1)) := by
  unfold val15
  simp only [part15]
  after_results_simp
  (try simp only [TRef.toBuf, TRef.ofBuf, castSame, val14_main_v62]) <;> first | rfl | fail "rfl 15 main_v70"
set_option maxRecDepth 8192 in
set_option maxHeartbeats 2000000 in
theorem val15_main_v75 (V0 : Valuation τ sig (Elt Ideal)) : val15 V0 (no_index (Proc.devRef .tc main_v75)) = RefTerm.t_main_v75 (V0 (Proc.devRef .tc main_arg1)) := by
  unfold val15
  simp only [part15]
  after_results_simp
  (try simp only [TRef.toBuf, TRef.ofBuf, castSame, val14_main_v64]) <;> first | rfl | fail "rfl 15 main_v75"
set_option maxRecDepth 8192 in
set_option maxHeartbeats 2000000 in
theorem val15_main_v80 (V0 : Valuation τ sig (Elt Ideal)) : val15 V0 (no_index (Proc.devRef .tc main_v80)) = RefTerm.t_main_v80 (V0 (Proc.devRef .tc main_arg1)) := by
  unfold val15
  simp only [part15]
  after_results_simp
  (try simp only [TRef.toBuf, TRef.ofBuf, castSame, val14_main_v65]) <;> first | rfl | fail "rfl 15 main_v80"
set_option maxRecDepth 8192 in
set_option maxHeartbeats 2000000 in
theorem val15_main_c_30 (V0 : Valuation τ sig (Elt Ideal)) : val15 V0 (no_index (Proc.devRef .tc main_c_30)) = RefTerm.t_main_c_30 := by
  unfold val15
  simp only [part15]
  after_results_simp
  (try simp only [TRef.toBuf, TRef.ofBuf, castSame]) <;> first | rfl | fail "rfl 15 main_c_30"
attribute [irreducible] val15

set_option maxRecDepth 8192 in
set_option maxHeartbeats 4000000 in
/-- Operations 274 … 290 of 348. -/
abbrev part16 : List (HloOp τ sig (Elt Ideal)) :=
  [ unary main_c_30 main_v81 (broadcastInDim S32768x27 ![] bcast_S_S32768x27 : (⟨S_, .i32⟩ : BufTy).Contents (Elt Ideal) → (⟨S32768x27, .i32⟩ : BufTy).Contents (Elt Ideal)),
    binary main_v68 main_v81 main_v82 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_31 (constantI S_ 32 32#32),
    unary main_c_31 main_v83 (broadcastInDim S32768x27 ![] bcast_S_S32768x27 : (⟨S_, .i32⟩ : BufTy).Contents (Elt Ideal) → (⟨S32768x27, .i32⟩ : BufTy).Contents (Elt Ideal)),
    binary main_v68 main_v83 main_v84 (addi : (⟨S32768x27, .i32⟩ : BufTy).Contents (Elt Ideal) → (⟨S32768x27, .i32⟩ : BufTy).Contents (Elt Ideal) → (⟨S32768x27, .i32⟩ : BufTy).Contents (Elt Ideal)),
    ternary main_v82 main_v84 main_v68 main_v85 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    nullary main_c_32 (constantI S_ 32 0#32),
    unary main_c_32 main_v86 (broadcastInDim S32768x27 ![] bcast_S_S32768x27 : (⟨S_, .i32⟩ : BufTy).Contents (Elt Ideal) → (⟨S32768x27, .i32⟩ : BufTy).Contents (Elt Ideal)),
    binary main_v70 main_v86 main_v87 (cmpi .slt : (⟨S32768x27, .i32⟩ : BufTy).Contents (Elt Ideal) → (⟨S32768x27, .i32⟩ : BufTy).Contents (Elt Ideal) → (⟨S32768x27, .i1⟩ : BufTy).Contents (Elt Ideal)),
    nullary main_c_33 (constantI S_ 32 32#32),
    unary main_c_33 main_v88 (broadcastInDim S32768x27 ![] bcast_S_S32768x27 : (⟨S_, .i32⟩ : BufTy).Contents (Elt Ideal) → (⟨S32768x27, .i32⟩ : BufTy).Contents (Elt Ideal)),
    binary main_v70 main_v88 main_v89 (addi : (⟨S32768x27, .i32⟩ : BufTy).Contents (Elt Ideal) → (⟨S32768x27, .i32⟩ : BufTy).Contents (Elt Ideal) → (⟨S32768x27, .i32⟩ : BufTy).Contents (Elt Ideal)),
    ternary main_v87 main_v89 main_v70 main_v90 (select : (⟨S32768x27, .i1⟩ : BufTy).Contents (Elt Ideal) → (⟨S32768x27, .i32⟩ : BufTy).Contents (Elt Ideal) → (⟨S32768x27, .i32⟩ : BufTy).Contents (Elt Ideal) → (⟨S32768x27, .i32⟩ : BufTy).Contents (Elt Ideal)),
    unary main_v75 main_v91 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v80 main_v92 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v85 main_v93 (broadcastInDim S32768x27x1 ![0, 1] bcast_S32768x27_S32768x27x1_0_1 : (⟨S32768x27, .i32⟩ : BufTy).Contents (Elt Ideal) → (⟨S32768x27x1, .i32⟩ : BufTy).Contents (Elt Ideal)),
    unary main_v90 main_v94 (broadcastInDim S32768x27x1 ![0, 1] bcast_S32768x27_S32768x27x1_0_1 : (⟨S32768x27, .i32⟩ : BufTy).Contents (Elt Ideal) → (⟨S32768x27x1, .i32⟩ : BufTy).Contents (Elt Ideal)) ]
/-- The buffer contents after the first 16 stretches. -/
def val16 (V0 : Valuation τ sig (Elt Ideal)) : Valuation τ sig (Elt Ideal) := after part16 (val15 V0)
theorem val16_eq (V0 : Valuation τ sig (Elt Ideal)) : val16 V0 = after part16 (val15 V0) := rfl
/-- The buffers that stretch 16 writes. -/
abbrev part16_W : List (Ref sig .tc) := [main_v81, main_v82, main_c_31, main_v83, main_v84, main_v85, main_c_32, main_v86, main_v87, main_c_33, main_v88, main_v89, main_v90, main_v91, main_v92, main_v93, main_v94]
set_option maxRecDepth 8192 in
theorem part16_writes : (part16 : List (HloOp τ sig (Elt Ideal))).Forall fun op => op.writes ⊆ (part16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 16 does not write keeps its contents through it. -/
theorem val16_keep (V0 : Valuation τ sig (Elt Ideal)) (r : Ref sig .tc) (h : r ∉ part16_W) :
    val16 V0 (Proc.devRef .tc r) = val15 V0 (Proc.devRef .tc r) :=
  after_of_writes_sub part16 _ part16_writes h
theorem val16_main_arg0 (V0 : Valuation τ sig (Elt Ideal)) : val16 V0 (no_index (Proc.devRef .tc main_arg0)) = V0 (Proc.devRef .tc main_arg0) :=
  (val16_keep V0 main_arg0 (by decide)).trans (val15_main_arg0 V0)
theorem val16_main_arg1 (V0 : Valuation τ sig (Elt Ideal)) : val16 V0 (no_index (Proc.devRef .tc main_arg1)) = V0 (Proc.devRef .tc main_arg1) :=
  (val16_keep V0 main_arg1 (by decide)).trans (val15_main_arg1 V0)
theorem val16_main_arg2 (V0 : Valuation τ sig (Elt Ideal)) : val16 V0 (no_index (Proc.devRef .tc main_arg2)) = V0 (Proc.devRef .tc main_arg2) :=
  (val16_keep V0 main_arg2 (by decide)).trans (val15_main_arg2 V0)
theorem val16_main_arg3 (V0 : Valuation τ sig (Elt Ideal)) : val16 V0 (no_index (Proc.devRef .tc main_arg3)) = V0 (Proc.devRef .tc main_arg3) :=
  (val16_keep V0 main_arg3 (by decide)).trans (val15_main_arg3 V0)
theorem val16_main_v35 (V0 : Valuation τ sig (Elt Ideal)) : val16 V0 (no_index (Proc.devRef .tc main_v35)) = RefTerm.t_main_v35 (V0 (Proc.devRef .tc main_arg1)) :=
  (val16_keep V0 main_v35 (by decide)).trans (val15_main_v35 V0)
theorem val16_main_v43 (V0 : Valuation τ sig (Elt Ideal)) : val16 V0 (no_index (Proc.devRef .tc main_v43)) = RefTerm.t_main_v43 (V0 (Proc.devRef .tc main_arg1)) :=
  (val16_keep V0 main_v43 (by decide)).trans (val15_main_v43 V0)
theorem val16_main_v58 (V0 : Valuation τ sig (Elt Ideal)) : val16 V0 (no_index (Proc.devRef .tc main_v58)) = RefTerm.t_main_v58 (V0 (Proc.devRef .tc main_arg1)) :=
  (val16_keep V0 main_v58 (by decide)).trans (val15_main_v58 V0)
set_option maxRecDepth 8192 in
set_option maxHeartbeats 2000000 in
theorem val16_main_v91 (V0 : Valuation τ sig (Elt Ideal)) : val16 V0 (no_index (Proc.devRef .tc main_v91)) = RefTerm.t_main_v91 (V0 (Proc.devRef .tc main_arg1)) := by
  unfold val16
  simp only [part16]
  after_results_simp
  (try simp only [TRef.toBuf, TRef.ofBuf, castSame, val15_main_v75]) <;> first | rfl | fail "rfl 16 main_v91"
set_option maxRecDepth 8192 in
set_option maxHeartbeats 2000000 in
theorem val16_main_v92 (V0 : Valuation τ sig (Elt Ideal)) : val16 V0 (no_index (Proc.devRef .tc main_v92)) = RefTerm.t_main_v92 (V0 (Proc.devRef .tc main_arg1)) := by
  unfold val16
  simp only [part16]
  after_results_simp
  (try simp only [TRef.toBuf, TRef.ofBuf, castSame, val15_main_v80]) <;> first | rfl | fail "rfl 16 main_v92"
set_option maxRecDepth 8192 in
set_option maxHeartbeats 2000000 in
theorem val16_main_v93 (V0 : Valuation τ sig (Elt Ideal)) : val16 V0 (no_index (Proc.devRef .tc main_v93)) = RefTerm.t_main_v93 (V0 (Proc.devRef .tc main_arg1)) := by
  unfold val16
  simp only [part16]
  after_results_simp
  (try simp only [TRef.toBuf, TRef.ofBuf, castSame, val15_main_v68, val15_main_c_30]) <;> first | rfl | fail "rfl 16 main_v93"
set_option maxRecDepth 8192 in
set_option maxHeartbeats 2000000 in
theorem val16_main_v94 (V0 : Valuation τ sig (Elt Ideal)) : val16 V0 (no_index (Proc.devRef .tc main_v94)) = RefTerm.t_main_v94 (V0 (Proc.devRef .tc main_arg1)) := by
  unfold val16
  simp only [part16]
  after_results_simp
  (try simp only [TRef.toBuf, TRef.ofBuf, castSame, val15_main_v70]) <;> first | rfl | fail "rfl 16 main_v94"
attribute [irreducible] val16

set_option maxRecDepth 8192 in
set_option maxHeartbeats 4000000 in
/-- Operation 291 of 348. -/
abbrev part17 : List (HloOp τ sig (Elt Ideal)) :=
  [ nary ![main_v91, main_v92, main_v93, main_v94] main_v95 (fun u => concatenate S32768x27x4 2 [⟨S32768x27x1, u 0⟩, ⟨S32768x27x1, u 1⟩, ⟨S32768x27x1, u 2⟩, ⟨S32768x27x1, u 3⟩] concatenates_S32768x27x1_S32768x27x1_S32768x27x1_S32768x27x1_S32768x27x4_d2) ]
/-- The buffer contents after the first 17 stretches. -/
def val17 (V0 : Valuation τ sig (Elt Ideal)) : Valuation τ sig (Elt Ideal) := after part17 (val16 V0)
theorem val17_eq (V0 : Valuation τ sig (Elt Ideal)) : val17 V0 = after part17 (val16 V0) := rfl
/-- The buffers that stretch 17 writes. -/
abbrev part17_W : List (Ref sig .tc) := [main_v95]
set_option maxRecDepth 8192 in
theorem part17_writes : (part17 : List (HloOp τ sig (Elt Ideal))).Forall fun op => op.writes ⊆ (part17_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch 17 does not write keeps its contents through it. -/
theorem val17_keep (V0 : Valuation τ sig (Elt Ideal)) (r : Ref sig .tc) (h : r ∉ part17_W) :
    val17 V0 (Proc.devRef .tc r) = val16 V0 (Proc.devRef .tc r) :=
  after_of_writes_sub part17 _ part17_writes h
theorem val17_main_arg0 (V0 : Valuation τ sig (Elt Ideal)) : val17 V0 (no_index (Proc.devRef .tc main_arg0)) = V0 (Proc.devRef .tc main_arg0) :=
  (val17_keep V0 main_arg0 (by decide)).trans (val16_main_arg0 V0)
theorem val17_main_arg1 (V0 : Valuation τ sig (Elt Ideal)) : val17 V0 (no_index (Proc.devRef .tc main_arg1)) = V0 (Proc.devRef .tc main_arg1) :=
  (val17_keep V0 main_arg1 (by decide)).trans (val16_main_arg1 V0)
theorem val17_main_arg2 (V0 : Valuation τ sig (Elt Ideal)) : val17 V0 (no_index (Proc.devRef .tc main_arg2)) = V0 (Proc.devRef .tc main_arg2) :=
  (val17_keep V0 main_arg2 (by decide)).trans (val16_main_arg2 V0)
theorem val17_main_arg3 (V0 : Valuation τ sig (Elt Ideal)) : val17 V0 (no_index (Proc.devRef .tc main_arg3)) = V0 (Proc.devRef .tc main_arg3) :=
  (val17_keep V0 main_arg3 (by decide)).trans (val16_main_arg3 V0)
theorem val17_main_v35 (V0 : Valuation τ sig (Elt Ideal)) : val17 V0 (no_index (Proc.devRef .tc main_v35)) = RefTerm.t_main_v35 (V0 (Proc.devRef .tc main_arg1)) :=
  (val17_keep V0 main_v35 (by decide)).trans (val16_main_v35 V0)
theorem val17_main_v43 (V0 : Valuation τ sig (Elt Ideal)) : val17 V0 (no_index (Proc.devRef .tc main_v43)) = RefTerm.t_main_v43 (V0 (Proc.devRef .tc main_arg1)) :=
  (val17_keep V0 main_v43 (by decide)).trans (val16_main_v43 V0)
theorem val17_main_v58 (V0 : Valuation τ sig (Elt Ideal)) : val17 V0 (no_index (Proc.devRef .tc main_v58)) = RefTerm.t_main_v58 (V0 (Proc.devRef .tc main_arg1)) :=
  (val17_keep V0 main_v58 (by decide)).trans (val16_main_v58 V0)
set_option maxRecDepth 8192 in
set_option maxHeartbeats 2000000 in
theorem val17_main_v95 (V0 : Valuation τ sig (Elt Ideal)) : val17 V0 (no_index (Proc.devRef .tc main_v95)) = RefTerm.t_main_v95 (V0 (Proc.devRef .tc main_arg1)) := by
  unfold val17
  simp only [part17]
  rw [after_cons, after_nil, nary_result]
  dsimp only [Matrix.cons_val]
  rw [val16_main_v91, val16_main_v92, val16_main_v93, val16_main_v94]
  first | rfl | fail "rfl 17 main_v95"
attribute [irreducible] val17

set_option maxRecDepth 8192 in
set_option maxHeartbeats 4000000 in
/-- Operations 292 … 311 of 348. -/
abbrev part18 : List (HloOp τ sig (Elt Ideal)) :=
  [ binary main_arg0 main_v95 main_v96 ((fun x i => Host.gather gather_S1x32x32x32x64_S32768x27x4_S32768x27x64_2_0123_n_n_0123_2_111164 x i) : (⟨S1x32x32x32x64, .f32⟩ : BufTy).Contents (Elt Ideal) → (⟨S32768x27x4, .i32⟩ : BufTy).Contents (Elt Ideal) → (⟨S32768x27x64, .f32⟩ : BufTy).Contents (Elt Ideal)),
    unary main_v58 main_v97 (broadcastInDim S32768x27x1 ![0, 1] bcast_S32768x27_S32768x27x1_0_1 : (⟨S32768x27, .i1⟩ : BufTy).Contents (Elt Ideal) → (⟨S32768x27x1, .i1⟩ : BufTy).Contents (Elt Ideal)),
    unary main_v97 main_v98 (uitofp (F := Ideal) .f32 : (⟨S32768x27x1, .i1⟩ : BufTy).Contents (Elt Ideal) → (⟨S32768x27x1, .f32⟩ : BufTy).Contents (Elt Ideal)),
    unary main_v98 main_v99 (broadcastInDim S32768x27x64 ![0, 1, 2] bcast_S32768x27x1_S32768x27x64_0_1_2 : (⟨S32768x27x1, .f32⟩ : BufTy).Contents (Elt Ideal) → (⟨S32768x27x64, .f32⟩ : BufTy).Contents (Elt Ideal)),
    binary main_v96 main_v99 main_v100 (mulf (F := Ideal) (φ := .f32) : (⟨S32768x27x64, .f32⟩ : BufTy).Contents (Elt Ideal) → (⟨S32768x27x64, .f32⟩ : BufTy).Contents (Elt Ideal) → (⟨S32768x27x64, .f32⟩ : BufTy).Contents (Elt Ideal)),
    reshape main_v100 main_v101 rfl shapeCasts_S32768x27x64_S32768x1728,
    binary main_v101 main_arg2 main_v102 ((fun l r => Host.dotGeneral (F := Ideal) (φ₁ := .f32) (φ₂ := .f32) dot_S32768x1728_S1728x64_S32768x64_1_0_0_1_n_n none l r) : (⟨S32768x1728, .f32⟩ : BufTy).Contents (Elt Ideal) → (⟨S1728x64, .f32⟩ : BufTy).Contents (Elt Ideal) → (⟨S32768x64, .f32⟩ : BufTy).Contents (Elt Ideal)),
    unary main_arg3 main_v103 (broadcastInDim S1x64 ![1] bcast_S64_S1x64_1 : (⟨S64, .f32⟩ : BufTy).Contents (Elt Ideal) → (⟨S1x64, .f32⟩ : BufTy).Contents (Elt Ideal)),
    unary main_v103 main_v104 (broadcastInDim S32768x64 ![0, 1] bcast_S1x64_S32768x64_0_1 : (⟨S1x64, .f32⟩ : BufTy).Contents (Elt Ideal) → (⟨S32768x64, .f32⟩ : BufTy).Contents (Elt Ideal)),
    binary main_v102 main_v104 main_v105 (addf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)),
    unary main_v43 main_v106 (broadcastInDim S32768x1 ![0] bcast_S32768_S32768x1_0 : (⟨S32768, .f32⟩ : BufTy).Contents (Elt Ideal) → (⟨S32768x1, .f32⟩ : BufTy).Contents (Elt Ideal)),
    unary main_v106 main_v107 (broadcastInDim S32768x64 ![0, 1] bcast_S32768x1_S32768x64_0_1 : (⟨S32768x1, .f32⟩ : BufTy).Contents (Elt Ideal) → (⟨S32768x64, .f32⟩ : BufTy).Contents (Elt Ideal)),
    binary main_v105 main_v107 main_v108 (mulf (F := Ideal) (φ := .f32) : (⟨S32768x64, .f32⟩ : BufTy).Contents (Elt Ideal) → (⟨S32768x64, .f32⟩ : BufTy).Contents (Elt Ideal) → (⟨S32768x64, .f32⟩ : BufTy).Contents (Elt Ideal)),
    nullary main_cst (constant (F := Ideal) S_ .f32 0x00000000#32),
    unary main_cst main_v109 (broadcastInDim S1x32x32x32x64 ![] bcast_S_S1x32x32x32x64 : (⟨S_, .f32⟩ : BufTy).Contents (Elt Ideal) → (⟨S1x32x32x32x64, .f32⟩ : BufTy).Contents (Elt Ideal)),
    unary main_v35 main_v110 ((extractStridedSlice S32768x1 ![0, 0] · slices_S32768x4_S32768x1_0_0) : (⟨S32768x4, .i32⟩ : BufTy).Contents (Elt Ideal) → (⟨S32768x1, .i32⟩ : BufTy).Contents (Elt Ideal)),
    reshape main_v110 main_v111 rfl shapeCasts_S32768x1_S32768,
    unary main_v35 main_v112 ((extractStridedSlice S32768x1 ![0, 1] · slices_S32768x4_S32768x1_0_1) : (⟨S32768x4, .i32⟩ : BufTy).Contents (Elt Ideal) → (⟨S32768x1, .i32⟩ : BufTy).Contents (Elt Ideal)),
    reshape main_v112 main_v113 rfl shapeCasts_S32768x1_S32768,
    unary main_v35 main_v114 ((extractStridedSlice S32768x1 ![0, 2] · slices_S32768x4_S32768x1_0_2) : (⟨S32768x4, .i32⟩ : BufTy).Contents (Elt Ideal) → (⟨S32768x1, .i32⟩ : BufTy).Contents (Elt Ideal)) ]
/-- The buffer contents after the first 18 stretches. -/
def val18 (V0 : Valuation τ sig (Elt Ideal)) : Valuation τ sig (Elt Ideal) := after part18 (val17 V0)
theorem val18_eq (V0 : Valuation τ sig (Elt Ideal)) : val18 V0 = after part18 (val17 V0) := rfl
/-- The buffers that stretch 18 writes. -/
abbrev part18_W : List (Ref sig .tc) := [main_v96, main_v97, main_v98, main_v99, main_v100, main_v101, main_v102, main_v103, main_v104, main_v105, main_v106, main_v107, main_v108, main_cst, main_v109, main_v110, main_v111, main_v112, main_v113, main_v114]
set_option maxRecDepth 8192 in
theorem part18_writes : (part18 : List (HloOp τ sig (Elt Ideal))).Forall fun op => op.writes ⊆ (part18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 18 does not write keeps its contents through it. -/
theorem val18_keep (V0 : Valuation τ sig (Elt Ideal)) (r : Ref sig .tc) (h : r ∉ part18_W) :
    val18 V0 (Proc.devRef .tc r) = val17 V0 (Proc.devRef .tc r) :=
  after_of_writes_sub part18 _ part18_writes h
theorem val18_main_arg0 (V0 : Valuation τ sig (Elt Ideal)) : val18 V0 (no_index (Proc.devRef .tc main_arg0)) = V0 (Proc.devRef .tc main_arg0) :=
  (val18_keep V0 main_arg0 (by decide)).trans (val17_main_arg0 V0)
theorem val18_main_arg1 (V0 : Valuation τ sig (Elt Ideal)) : val18 V0 (no_index (Proc.devRef .tc main_arg1)) = V0 (Proc.devRef .tc main_arg1) :=
  (val18_keep V0 main_arg1 (by decide)).trans (val17_main_arg1 V0)
theorem val18_main_arg2 (V0 : Valuation τ sig (Elt Ideal)) : val18 V0 (no_index (Proc.devRef .tc main_arg2)) = V0 (Proc.devRef .tc main_arg2) :=
  (val18_keep V0 main_arg2 (by decide)).trans (val17_main_arg2 V0)
theorem val18_main_arg3 (V0 : Valuation τ sig (Elt Ideal)) : val18 V0 (no_index (Proc.devRef .tc main_arg3)) = V0 (Proc.devRef .tc main_arg3) :=
  (val18_keep V0 main_arg3 (by decide)).trans (val17_main_arg3 V0)
theorem val18_main_v35 (V0 : Valuation τ sig (Elt Ideal)) : val18 V0 (no_index (Proc.devRef .tc main_v35)) = RefTerm.t_main_v35 (V0 (Proc.devRef .tc main_arg1)) :=
  (val18_keep V0 main_v35 (by decide)).trans (val17_main_v35 V0)
set_option maxRecDepth 8192 in
set_option maxHeartbeats 2000000 in
theorem val18_main_v108 (V0 : Valuation τ sig (Elt Ideal)) : val18 V0 (no_index (Proc.devRef .tc main_v108)) = RefTerm.t_main_v108 (V0 (Proc.devRef .tc main_arg0)) (V0 (Proc.devRef .tc main_arg1)) (V0 (Proc.devRef .tc main_arg2)) (V0 (Proc.devRef .tc main_arg3)) := by
  unfold val18
  simp only [part18]
  after_results_simp
  (try simp only [TRef.toBuf, TRef.ofBuf, castSame, val17_main_v43, val17_main_arg3, val17_main_arg2, val17_main_v58, val17_main_v95, val17_main_arg0]) <;> first | rfl | fail "rfl 18 main_v108"
set_option maxRecDepth 8192 in
set_option maxHeartbeats 2000000 in
theorem val18_main_v109 (V0 : Valuation τ sig (Elt Ideal)) : val18 V0 (no_index (Proc.devRef .tc main_v109)) = RefTerm.t_main_v109 := by
  unfold val18
  simp only [part18]
  after_results_simp
  (try simp only [TRef.toBuf, TRef.ofBuf, castSame]) <;> first | rfl | fail "rfl 18 main_v109"
set_option maxRecDepth 8192 in
set_option maxHeartbeats 2000000 in
theorem val18_main_v111 (V0 : Valuation τ sig (Elt Ideal)) : val18 V0 (no_index (Proc.devRef .tc main_v111)) = RefTerm.t_main_v111 (V0 (Proc.devRef .tc main_arg1)) := by
  unfold val18
  simp only [part18]
  after_results_simp
  (try simp only [TRef.toBuf, TRef.ofBuf, castSame, val17_main_v35]) <;> first | rfl | fail "rfl 18 main_v111"
set_option maxRecDepth 8192 in
set_option maxHeartbeats 2000000 in
theorem val18_main_v113 (V0 : Valuation τ sig (Elt Ideal)) : val18 V0 (no_index (Proc.devRef .tc main_v113)) = RefTerm.t_main_v113 (V0 (Proc.devRef .tc main_arg1)) := by
  unfold val18
  simp only [part18]
  after_results_simp
  (try simp only [TRef.toBuf, TRef.ofBuf, castSame, val17_main_v35]) <;> first | rfl | fail "rfl 18 main_v113"
set_option maxRecDepth 8192 in
set_option maxHeartbeats 2000000 in
theorem val18_main_v114 (V0 : Valuation τ sig (Elt Ideal)) : val18 V0 (no_index (Proc.devRef .tc main_v114)) = RefTerm.t_main_v114 (V0 (Proc.devRef .tc main_arg1)) := by
  unfold val18
  simp only [part18]
  after_results_simp
  (try simp only [TRef.toBuf, TRef.ofBuf, castSame, val17_main_v35]) <;> first | rfl | fail "rfl 18 main_v114"
attribute [irreducible] val18

set_option maxRecDepth 8192 in
set_option maxHeartbeats 4000000 in
/-- Operations 312 … 331 of 348. -/
abbrev part19 : List (HloOp τ sig (Elt Ideal)) :=
  [ reshape main_v114 main_v115 rfl shapeCasts_S32768x1_S32768,
    unary main_v35 main_v116 ((extractStridedSlice S32768x1 ![0, 3] · slices_S32768x4_S32768x1_0_3) : (⟨S32768x4, .i32⟩ : BufTy).Contents (Elt Ideal) → (⟨S32768x1, .i32⟩ : BufTy).Contents (Elt Ideal)),
    reshape main_v116 main_v117 rfl shapeCasts_S32768x1_S32768,
    nullary main_c_34 (constantI S_ 32 0#32),
    unary main_c_34 main_v118 (broadcastInDim S32768 ![] bcast_S_S32768 : (⟨S_, .i32⟩ : BufTy).Contents (Elt Ideal) → (⟨S32768, .i32⟩ : BufTy).Contents (Elt Ideal)),
    binary main_v111 main_v118 main_v119 (cmpi .slt : (⟨S32768, .i32⟩ : BufTy).Contents (Elt Ideal) → (⟨S32768, .i32⟩ : BufTy).Contents (Elt Ideal) → (⟨S32768, .i1⟩ : BufTy).Contents (Elt Ideal)),
    nullary main_c_35 (constantI S_ 32 1#32),
    unary main_c_35 main_v120 (broadcastInDim S32768 ![] bcast_S_S32768 : (⟨S_, .i32⟩ : BufTy).Contents (Elt Ideal) → (⟨S32768, .i32⟩ : BufTy).Contents (Elt Ideal)),
    binary main_v111 main_v120 main_v121 (addi : (⟨S32768, .i32⟩ : BufTy).Contents (Elt Ideal) → (⟨S32768, .i32⟩ : BufTy).Contents (Elt Ideal) → (⟨S32768, .i32⟩ : BufTy).Contents (Elt Ideal)),
    ternary main_v119 main_v121 main_v111 main_v122 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_36 (constantI S_ 32 0#32),
    unary main_c_36 main_v123 (broadcastInDim S32768 ![] bcast_S_S32768 : (⟨S_, .i32⟩ : BufTy).Contents (Elt Ideal) → (⟨S32768, .i32⟩ : BufTy).Contents (Elt Ideal)),
    binary main_v113 main_v123 main_v124 (cmpi .slt : (⟨S32768, .i32⟩ : BufTy).Contents (Elt Ideal) → (⟨S32768, .i32⟩ : BufTy).Contents (Elt Ideal) → (⟨S32768, .i1⟩ : BufTy).Contents (Elt Ideal)),
    nullary main_c_37 (constantI S_ 32 32#32),
    unary main_c_37 main_v125 (broadcastInDim S32768 ![] bcast_S_S32768 : (⟨S_, .i32⟩ : BufTy).Contents (Elt Ideal) → (⟨S32768, .i32⟩ : BufTy).Contents (Elt Ideal)),
    binary main_v113 main_v125 main_v126 (addi : (⟨S32768, .i32⟩ : BufTy).Contents (Elt Ideal) → (⟨S32768, .i32⟩ : BufTy).Contents (Elt Ideal) → (⟨S32768, .i32⟩ : BufTy).Contents (Elt Ideal)),
    ternary main_v124 main_v126 main_v113 main_v127 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_38 (constantI S_ 32 0#32),
    unary main_c_38 main_v128 (broadcastInDim S32768 ![] bcast_S_S32768 : (⟨S_, .i32⟩ : BufTy).Contents (Elt Ideal) → (⟨S32768, .i32⟩ : BufTy).Contents (Elt Ideal)),
    binary main_v115 main_v128 main_v129 (cmpi .slt : (⟨S32768, .i32⟩ : BufTy).Contents (Elt Ideal) → (⟨S32768, .i32⟩ : BufTy).Contents (Elt Ideal) → (⟨S32768, .i1⟩ : BufTy).Contents (Elt Ideal)) ]
/-- The buffer contents after the first 19 stretches. -/
def val19 (V0 : Valuation τ sig (Elt Ideal)) : Valuation τ sig (Elt Ideal) := after part19 (val18 V0)
theorem val19_eq (V0 : Valuation τ sig (Elt Ideal)) : val19 V0 = after part19 (val18 V0) := rfl
/-- The buffers that stretch 19 writes. -/
abbrev part19_W : List (Ref sig .tc) := [main_v115, main_v116, main_v117, main_c_34, main_v118, main_v119, main_c_35, main_v120, main_v121, main_v122, main_c_36, main_v123, main_v124, main_c_37, main_v125, main_v126, main_v127, main_c_38, main_v128, main_v129]
set_option maxRecDepth 8192 in
theorem part19_writes : (part19 : List (HloOp τ sig (Elt Ideal))).Forall fun op => op.writes ⊆ (part19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 19 does not write keeps its contents through it. -/
theorem val19_keep (V0 : Valuation τ sig (Elt Ideal)) (r : Ref sig .tc) (h : r ∉ part19_W) :
    val19 V0 (Proc.devRef .tc r) = val18 V0 (Proc.devRef .tc r) :=
  after_of_writes_sub part19 _ part19_writes h
theorem val19_main_arg0 (V0 : Valuation τ sig (Elt Ideal)) : val19 V0 (no_index (Proc.devRef .tc main_arg0)) = V0 (Proc.devRef .tc main_arg0) :=
  (val19_keep V0 main_arg0 (by decide)).trans (val18_main_arg0 V0)
theorem val19_main_arg1 (V0 : Valuation τ sig (Elt Ideal)) : val19 V0 (no_index (Proc.devRef .tc main_arg1)) = V0 (Proc.devRef .tc main_arg1) :=
  (val19_keep V0 main_arg1 (by decide)).trans (val18_main_arg1 V0)
theorem val19_main_arg2 (V0 : Valuation τ sig (Elt Ideal)) : val19 V0 (no_index (Proc.devRef .tc main_arg2)) = V0 (Proc.devRef .tc main_arg2) :=
  (val19_keep V0 main_arg2 (by decide)).trans (val18_main_arg2 V0)
theorem val19_main_arg3 (V0 : Valuation τ sig (Elt Ideal)) : val19 V0 (no_index (Proc.devRef .tc main_arg3)) = V0 (Proc.devRef .tc main_arg3) :=
  (val19_keep V0 main_arg3 (by decide)).trans (val18_main_arg3 V0)
theorem val19_main_v108 (V0 : Valuation τ sig (Elt Ideal)) : val19 V0 (no_index (Proc.devRef .tc main_v108)) = RefTerm.t_main_v108 (V0 (Proc.devRef .tc main_arg0)) (V0 (Proc.devRef .tc main_arg1)) (V0 (Proc.devRef .tc main_arg2)) (V0 (Proc.devRef .tc main_arg3)) :=
  (val19_keep V0 main_v108 (by decide)).trans (val18_main_v108 V0)
theorem val19_main_v109 (V0 : Valuation τ sig (Elt Ideal)) : val19 V0 (no_index (Proc.devRef .tc main_v109)) = RefTerm.t_main_v109 :=
  (val19_keep V0 main_v109 (by decide)).trans (val18_main_v109 V0)
set_option maxRecDepth 8192 in
set_option maxHeartbeats 2000000 in
theorem val19_main_v115 (V0 : Valuation τ sig (Elt Ideal)) : val19 V0 (no_index (Proc.devRef .tc main_v115)) = RefTerm.t_main_v115 (V0 (Proc.devRef .tc main_arg1)) := by
  unfold val19
  simp only [part19]
  after_results_simp
  (try simp only [TRef.toBuf, TRef.ofBuf, castSame, val18_main_v114]) <;> first | rfl | fail "rfl 19 main_v115"
set_option maxRecDepth 8192 in
set_option maxHeartbeats 2000000 in
theorem val19_main_v117 (V0 : Valuation τ sig (Elt Ideal)) : val19 V0 (no_index (Proc.devRef .tc main_v117)) = RefTerm.t_main_v117 (V0 (Proc.devRef .tc main_arg1)) := by
  unfold val19
  simp only [part19]
  after_results_simp
  (try simp only [TRef.toBuf, TRef.ofBuf, castSame, val18_main_v35]) <;> first | rfl | fail "rfl 19 main_v117"
set_option maxRecDepth 8192 in
set_option maxHeartbeats 2000000 in
theorem val19_main_v122 (V0 : Valuation τ sig (Elt Ideal)) : val19 V0 (no_index (Proc.devRef .tc main_v122)) = RefTerm.t_main_v122 (V0 (Proc.devRef .tc main_arg1)) := by
  unfold val19
  simp only [part19]
  after_results_simp
  (try simp only [TRef.toBuf, TRef.ofBuf, castSame, val18_main_v111]) <;> first | rfl | fail "rfl 19 main_v122"
set_option maxRecDepth 8192 in
set_option maxHeartbeats 2000000 in
theorem val19_main_v127 (V0 : Valuation τ sig (Elt Ideal)) : val19 V0 (no_index (Proc.devRef .tc main_v127)) = RefTerm.t_main_v127 (V0 (Proc.devRef .tc main_arg1)) := by
  unfold val19
  simp only [part19]
  after_results_simp
  (try simp only [TRef.toBuf, TRef.ofBuf, castSame, val18_main_v113]) <;> first | rfl | fail "rfl 19 main_v127"
set_option maxRecDepth 8192 in
set_option maxHeartbeats 2000000 in
theorem val19_main_v129 (V0 : Valuation τ sig (Elt Ideal)) : val19 V0 (no_index (Proc.devRef .tc main_v129)) = RefTerm.t_main_v129 (V0 (Proc.devRef .tc main_arg1)) := by
  unfold val19
  simp only [part19]
  after_results_simp
  (try simp only [TRef.toBuf, TRef.ofBuf, castSame, val18_main_v114]) <;> first | rfl | fail "rfl 19 main_v129"
attribute [irreducible] val19

set_option maxRecDepth 8192 in
set_option maxHeartbeats 4000000 in
/-- Operations 332 … 346 of 348. -/
abbrev part20 : List (HloOp τ sig (Elt Ideal)) :=
  [ nullary main_c_39 (constantI S_ 32 32#32),
    unary main_c_39 main_v130 (broadcastInDim S32768 ![] bcast_S_S32768 : (⟨S_, .i32⟩ : BufTy).Contents (Elt Ideal) → (⟨S32768, .i32⟩ : BufTy).Contents (Elt Ideal)),
    binary main_v115 main_v130 main_v131 (addi : (⟨S32768, .i32⟩ : BufTy).Contents (Elt Ideal) → (⟨S32768, .i32⟩ : BufTy).Contents (Elt Ideal) → (⟨S32768, .i32⟩ : BufTy).Contents (Elt Ideal)),
    ternary main_v129 main_v131 main_v115 main_v132 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    nullary main_c_40 (constantI S_ 32 0#32),
    unary main_c_40 main_v133 (broadcastInDim S32768 ![] bcast_S_S32768 : (⟨S_, .i32⟩ : BufTy).Contents (Elt Ideal) → (⟨S32768, .i32⟩ : BufTy).Contents (Elt Ideal)),
    binary main_v117 main_v133 main_v134 (cmpi .slt : (⟨S32768, .i32⟩ : BufTy).Contents (Elt Ideal) → (⟨S32768, .i32⟩ : BufTy).Contents (Elt Ideal) → (⟨S32768, .i1⟩ : BufTy).Contents (Elt Ideal)),
    nullary main_c_41 (constantI S_ 32 32#32),
    unary main_c_41 main_v135 (broadcastInDim S32768 ![] bcast_S_S32768 : (⟨S_, .i32⟩ : BufTy).Contents (Elt Ideal) → (⟨S32768, .i32⟩ : BufTy).Contents (Elt Ideal)),
    binary main_v117 main_v135 main_v136 (addi : (⟨S32768, .i32⟩ : BufTy).Contents (Elt Ideal) → (⟨S32768, .i32⟩ : BufTy).Contents (Elt Ideal) → (⟨S32768, .i32⟩ : BufTy).Contents (Elt Ideal)),
    ternary main_v134 main_v136 main_v117 main_v137 (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal)),
    unary main_v122 main_v138 (broadcastInDim S32768x1 ![0] bcast_S32768_S32768x1_0 : (⟨S32768, .i32⟩ : BufTy).Contents (Elt Ideal) → (⟨S32768x1, .i32⟩ : BufTy).Contents (Elt Ideal)),
    unary main_v127 main_v139 (broadcastInDim S32768x1 ![0] bcast_S32768_S32768x1_0 : (⟨S32768, .i32⟩ : BufTy).Contents (Elt Ideal) → (⟨S32768x1, .i32⟩ : BufTy).Contents (Elt Ideal)),
    unary main_v132 main_v140 (broadcastInDim S32768x1 ![0] bcast_S32768_S32768x1_0 : (⟨S32768, .i32⟩ : BufTy).Contents (Elt Ideal) → (⟨S32768x1, .i32⟩ : BufTy).Contents (Elt Ideal)),
    unary main_v137 main_v141 (broadcastInDim S32768x1 ![0] bcast_S32768_S32768x1_0 : (⟨S32768, .i32⟩ : BufTy).Contents (Elt Ideal) → (⟨S32768x1, .i32⟩ : BufTy).Contents (Elt Ideal)) ]
/-- The buffer contents after the first 20 stretches. -/
def val20 (V0 : Valuation τ sig (Elt Ideal)) : Valuation τ sig (Elt Ideal) := after part20 (val19 V0)
theorem val20_eq (V0 : Valuation τ sig (Elt Ideal)) : val20 V0 = after part20 (val19 V0) := rfl
/-- The buffers that stretch 20 writes. -/
abbrev part20_W : List (Ref sig .tc) := [main_c_39, main_v130, main_v131, main_v132, main_c_40, main_v133, main_v134, main_c_41, main_v135, main_v136, main_v137, main_v138, main_v139, main_v140, main_v141]
set_option maxRecDepth 8192 in
theorem part20_writes : (part20 : List (HloOp τ sig (Elt Ideal))).Forall fun op => op.writes ⊆ (part20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 20 does not write keeps its contents through it. -/
theorem val20_keep (V0 : Valuation τ sig (Elt Ideal)) (r : Ref sig .tc) (h : r ∉ part20_W) :
    val20 V0 (Proc.devRef .tc r) = val19 V0 (Proc.devRef .tc r) :=
  after_of_writes_sub part20 _ part20_writes h
theorem val20_main_arg0 (V0 : Valuation τ sig (Elt Ideal)) : val20 V0 (no_index (Proc.devRef .tc main_arg0)) = V0 (Proc.devRef .tc main_arg0) :=
  (val20_keep V0 main_arg0 (by decide)).trans (val19_main_arg0 V0)
theorem val20_main_arg1 (V0 : Valuation τ sig (Elt Ideal)) : val20 V0 (no_index (Proc.devRef .tc main_arg1)) = V0 (Proc.devRef .tc main_arg1) :=
  (val20_keep V0 main_arg1 (by decide)).trans (val19_main_arg1 V0)
theorem val20_main_arg2 (V0 : Valuation τ sig (Elt Ideal)) : val20 V0 (no_index (Proc.devRef .tc main_arg2)) = V0 (Proc.devRef .tc main_arg2) :=
  (val20_keep V0 main_arg2 (by decide)).trans (val19_main_arg2 V0)
theorem val20_main_arg3 (V0 : Valuation τ sig (Elt Ideal)) : val20 V0 (no_index (Proc.devRef .tc main_arg3)) = V0 (Proc.devRef .tc main_arg3) :=
  (val20_keep V0 main_arg3 (by decide)).trans (val19_main_arg3 V0)
theorem val20_main_v108 (V0 : Valuation τ sig (Elt Ideal)) : val20 V0 (no_index (Proc.devRef .tc main_v108)) = RefTerm.t_main_v108 (V0 (Proc.devRef .tc main_arg0)) (V0 (Proc.devRef .tc main_arg1)) (V0 (Proc.devRef .tc main_arg2)) (V0 (Proc.devRef .tc main_arg3)) :=
  (val20_keep V0 main_v108 (by decide)).trans (val19_main_v108 V0)
theorem val20_main_v109 (V0 : Valuation τ sig (Elt Ideal)) : val20 V0 (no_index (Proc.devRef .tc main_v109)) = RefTerm.t_main_v109 :=
  (val20_keep V0 main_v109 (by decide)).trans (val19_main_v109 V0)
set_option maxRecDepth 8192 in
set_option maxHeartbeats 2000000 in
theorem val20_main_v138 (V0 : Valuation τ sig (Elt Ideal)) : val20 V0 (no_index (Proc.devRef .tc main_v138)) = RefTerm.t_main_v138 (V0 (Proc.devRef .tc main_arg1)) := by
  unfold val20
  simp only [part20]
  after_results_simp
  (try simp only [TRef.toBuf, TRef.ofBuf, castSame, val19_main_v122]) <;> first | rfl | fail "rfl 20 main_v138"
set_option maxRecDepth 8192 in
set_option maxHeartbeats 2000000 in
theorem val20_main_v139 (V0 : Valuation τ sig (Elt Ideal)) : val20 V0 (no_index (Proc.devRef .tc main_v139)) = RefTerm.t_main_v139 (V0 (Proc.devRef .tc main_arg1)) := by
  unfold val20
  simp only [part20]
  after_results_simp
  (try simp only [TRef.toBuf, TRef.ofBuf, castSame, val19_main_v127]) <;> first | rfl | fail "rfl 20 main_v139"
set_option maxRecDepth 8192 in
set_option maxHeartbeats 2000000 in
theorem val20_main_v140 (V0 : Valuation τ sig (Elt Ideal)) : val20 V0 (no_index (Proc.devRef .tc main_v140)) = RefTerm.t_main_v140 (V0 (Proc.devRef .tc main_arg1)) := by
  unfold val20
  simp only [part20]
  after_results_simp
  (try simp only [TRef.toBuf, TRef.ofBuf, castSame, val19_main_v115, val19_main_v129]) <;> first | rfl | fail "rfl 20 main_v140"
set_option maxRecDepth 8192 in
set_option maxHeartbeats 2000000 in
theorem val20_main_v141 (V0 : Valuation τ sig (Elt Ideal)) : val20 V0 (no_index (Proc.devRef .tc main_v141)) = RefTerm.t_main_v141 (V0 (Proc.devRef .tc main_arg1)) := by
  unfold val20
  simp only [part20]
  after_results_simp
  (try simp only [TRef.toBuf, TRef.ofBuf, castSame, val19_main_v117]) <;> first | rfl | fail "rfl 20 main_v141"
attribute [irreducible] val20

set_option maxRecDepth 8192 in
set_option maxHeartbeats 4000000 in
/-- Operation 347 of 348. -/
abbrev part21 : List (HloOp τ sig (Elt Ideal)) :=
  [ nary ![main_v138, main_v139, main_v140, main_v141] main_v142 (fun u => concatenate S32768x4 1 [⟨S32768x1, u 0⟩, ⟨S32768x1, u 1⟩, ⟨S32768x1, u 2⟩, ⟨S32768x1, u 3⟩] concatenates_S32768x1_S32768x1_S32768x1_S32768x1_S32768x4_d1) ]
/-- The buffer contents after the first 21 stretches. -/
def val21 (V0 : Valuation τ sig (Elt Ideal)) : Valuation τ sig (Elt Ideal) := after part21 (val20 V0)
theorem val21_eq (V0 : Valuation τ sig (Elt Ideal)) : val21 V0 = after part21 (val20 V0) := rfl
/-- The buffers that stretch 21 writes. -/
abbrev part21_W : List (Ref sig .tc) := [main_v142]
set_option maxRecDepth 8192 in
theorem part21_writes : (part21 : List (HloOp τ sig (Elt Ideal))).Forall fun op => op.writes ⊆ (part21_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch 21 does not write keeps its contents through it. -/
theorem val21_keep (V0 : Valuation τ sig (Elt Ideal)) (r : Ref sig .tc) (h : r ∉ part21_W) :
    val21 V0 (Proc.devRef .tc r) = val20 V0 (Proc.devRef .tc r) :=
  after_of_writes_sub part21 _ part21_writes h
theorem val21_main_arg0 (V0 : Valuation τ sig (Elt Ideal)) : val21 V0 (no_index (Proc.devRef .tc main_arg0)) = V0 (Proc.devRef .tc main_arg0) :=
  (val21_keep V0 main_arg0 (by decide)).trans (val20_main_arg0 V0)
theorem val21_main_arg1 (V0 : Valuation τ sig (Elt Ideal)) : val21 V0 (no_index (Proc.devRef .tc main_arg1)) = V0 (Proc.devRef .tc main_arg1) :=
  (val21_keep V0 main_arg1 (by decide)).trans (val20_main_arg1 V0)
theorem val21_main_arg2 (V0 : Valuation τ sig (Elt Ideal)) : val21 V0 (no_index (Proc.devRef .tc main_arg2)) = V0 (Proc.devRef .tc main_arg2) :=
  (val21_keep V0 main_arg2 (by decide)).trans (val20_main_arg2 V0)
theorem val21_main_arg3 (V0 : Valuation τ sig (Elt Ideal)) : val21 V0 (no_index (Proc.devRef .tc main_arg3)) = V0 (Proc.devRef .tc main_arg3) :=
  (val21_keep V0 main_arg3 (by decide)).trans (val20_main_arg3 V0)
theorem val21_main_v108 (V0 : Valuation τ sig (Elt Ideal)) : val21 V0 (no_index (Proc.devRef .tc main_v108)) = RefTerm.t_main_v108 (V0 (Proc.devRef .tc main_arg0)) (V0 (Proc.devRef .tc main_arg1)) (V0 (Proc.devRef .tc main_arg2)) (V0 (Proc.devRef .tc main_arg3)) :=
  (val21_keep V0 main_v108 (by decide)).trans (val20_main_v108 V0)
theorem val21_main_v109 (V0 : Valuation τ sig (Elt Ideal)) : val21 V0 (no_index (Proc.devRef .tc main_v109)) = RefTerm.t_main_v109 :=
  (val21_keep V0 main_v109 (by decide)).trans (val20_main_v109 V0)
set_option maxRecDepth 8192 in
set_option maxHeartbeats 2000000 in
theorem val21_main_v142 (V0 : Valuation τ sig (Elt Ideal)) : val21 V0 (no_index (Proc.devRef .tc main_v142)) = RefTerm.t_main_v142 (V0 (Proc.devRef .tc main_arg1)) := by
  unfold val21
  simp only [part21]
  rw [after_cons, after_nil, nary_result]
  dsimp only [Matrix.cons_val]
  rw [val20_main_v138, val20_main_v139, val20_main_v140, val20_main_v141]
  first | rfl | fail "rfl 21 main_v142"
attribute [irreducible] val21

set_option maxRecDepth 8192 in
set_option maxHeartbeats 4000000 in
/-- Operation 348 of 348. -/
abbrev part22 : List (HloOp τ sig (Elt Ideal)) :=
  [ ternary main_v109 main_v142 main_v108 main_v143 ((fun x i u => Host.scatterAdd (F := Ideal) (φ := .f32) scatter_S1x32x32x32x64_S32768x4_S32768x64_1_0123_0123_1 x i u) : (⟨S1x32x32x32x64, .f32⟩ : BufTy).Contents (Elt Ideal) → (⟨S32768x4, .i32⟩ : BufTy).Contents (Elt Ideal) → (⟨S32768x64, .f32⟩ : BufTy).Contents (Elt Ideal) → (⟨S1x32x32x32x64, .f32⟩ : BufTy).Contents (Elt Ideal)) ]
/-- The buffer contents after the first 22 stretches. -/
def val22 (V0 : Valuation τ sig (Elt Ideal)) : Valuation τ sig (Elt Ideal) := after part22 (val21 V0)
theorem val22_eq (V0 : Valuation τ sig (Elt Ideal)) : val22 V0 = after part22 (val21 V0) := rfl
/-- The buffers that stretch 22 writes. -/
abbrev part22_W : List (Ref sig .tc) := [main_v143]
set_option maxRecDepth 8192 in
theorem part22_writes : (part22 : List (HloOp τ sig (Elt Ideal))).Forall fun op => op.writes ⊆ (part22_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch 22 does not write keeps its contents through it. -/
theorem val22_keep (V0 : Valuation τ sig (Elt Ideal)) (r : Ref sig .tc) (h : r ∉ part22_W) :
    val22 V0 (Proc.devRef .tc r) = val21 V0 (Proc.devRef .tc r) :=
  after_of_writes_sub part22 _ part22_writes h
theorem val22_main_arg0 (V0 : Valuation τ sig (Elt Ideal)) : val22 V0 (no_index (Proc.devRef .tc main_arg0)) = V0 (Proc.devRef .tc main_arg0) :=
  (val22_keep V0 main_arg0 (by decide)).trans (val21_main_arg0 V0)
theorem val22_main_arg1 (V0 : Valuation τ sig (Elt Ideal)) : val22 V0 (no_index (Proc.devRef .tc main_arg1)) = V0 (Proc.devRef .tc main_arg1) :=
  (val22_keep V0 main_arg1 (by decide)).trans (val21_main_arg1 V0)
theorem val22_main_arg2 (V0 : Valuation τ sig (Elt Ideal)) : val22 V0 (no_index (Proc.devRef .tc main_arg2)) = V0 (Proc.devRef .tc main_arg2) :=
  (val22_keep V0 main_arg2 (by decide)).trans (val21_main_arg2 V0)
theorem val22_main_arg3 (V0 : Valuation τ sig (Elt Ideal)) : val22 V0 (no_index (Proc.devRef .tc main_arg3)) = V0 (Proc.devRef .tc main_arg3) :=
  (val22_keep V0 main_arg3 (by decide)).trans (val21_main_arg3 V0)
set_option maxRecDepth 8192 in
set_option maxHeartbeats 2000000 in
theorem val22_main_v143 (V0 : Valuation τ sig (Elt Ideal)) : val22 V0 (no_index (Proc.devRef .tc main_v143)) = RefTerm.t_main_v143 (V0 (Proc.devRef .tc main_arg0)) (V0 (Proc.devRef .tc main_arg1)) (V0 (Proc.devRef .tc main_arg2)) (V0 (Proc.devRef .tc main_arg3)) := by
  unfold val22
  simp only [part22]
  after_results_simp
  (try simp only [TRef.toBuf, TRef.ofBuf, castSame, val21_main_v108, val21_main_v142, val21_main_v109]) <;> first | rfl | fail "rfl 22 main_v143"
attribute [irreducible] val22

end Cert.ReferenceIdeal.RefRun

end
-- ==== Proof.RefRun.lean ====
/-
  The reference program's run: every weakly fair execution of @main terminates with the result buffer at the
  program's value as a function of the four argument arrays, and the arguments unchanged.
-/
import proofs.«150033_g82085414961357_cont_sun_m_845_2_alg».proof.Proof.RefRunA
import proofs.«150033_g82085414961357_cont_sun_m_845_2_alg».proof.Proof.RefRunW3

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 100000 in
set_option maxHeartbeats 4000000 in
/-- The operation list is its 22 stretches, in order. -/
theorem ops_parts : (ops : List (HloOp τ sig (Elt Ideal))) = part1 ++ (part2 ++ (part3 ++ (part4 ++ (part5 ++ (part6 ++ (part7 ++ (part8 ++ (part9 ++ (part10 ++ (part11 ++ (part12 ++ (part13 ++ (part14 ++ (part15 ++ (part16 ++ (part17 ++ (part18 ++ (part19 ++ (part20 ++ (part21 ++ (part22))))))))))))))))))))) := rfl

set_option maxRecDepth 100000 in
set_option maxHeartbeats 4000000 in
/-- Every operation determines its results. -/
theorem ops_fresh : (ops : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

/-- The contents after the whole line are the contents after the last stretch. -/
theorem after_ops (V0 : Valuation τ sig (Elt Ideal)) : after ops V0 = val22 V0 := by
  rw [ops_parts]
  simp only [after_app, val22_eq, val21_eq, val20_eq, val19_eq, val18_eq, val17_eq, val16_eq, val15_eq, val14_eq, val13_eq, val12_eq, val11_eq, val10_eq, val9_eq, val8_eq, val7_eq, val6_eq, val5_eq, val4_eq, val3_eq, val2_eq, val1_eq, val0_eq]

/-- The result buffer after the line holds the program's value of the arguments' contents before it. -/
theorem out_eq (V : Valuation τ sig (Elt Ideal)) :
    after ops V (main_v143 : DevRef τ sig)
      = RefTerm.refOut (V (main_arg0 : DevRef τ sig)) (V (main_arg1 : DevRef τ sig)) (V (main_arg2 : DevRef τ sig))
          (V (main_arg3 : DevRef τ sig)) := by
  rw [after_ops]; exact val22_main_v143 V

theorem arg0_eq (V : Valuation τ sig (Elt Ideal)) :
    after ops V (main_arg0 : DevRef τ sig) = V (main_arg0 : DevRef τ sig) := by
  rw [after_ops]; exact val22_main_arg0 V

theorem arg1_eq (V : Valuation τ sig (Elt Ideal)) :
    after ops V (main_arg1 : DevRef τ sig) = V (main_arg1 : DevRef τ sig) := by
  rw [after_ops]; exact val22_main_arg1 V

theorem arg2_eq (V : Valuation τ sig (Elt Ideal)) :
    after ops V (main_arg2 : DevRef τ sig) = V (main_arg2 : DevRef τ sig) := by
  rw [after_ops]; exact val22_main_arg2 V

theorem arg3_eq (V : Valuation τ sig (Elt Ideal)) :
    after ops V (main_arg3 : DevRef τ sig) = V (main_arg3 : DevRef τ sig) := by
  rw [after_ops]; exact val22_main_arg3 V

/-- On every device, from any memory with zero counters: every weakly fair execution of @main terminates with the
    result at the program's value of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v143) = RefTerm.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v143).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ
      (fun _ => List.forall_iff_forall_mem.mp ops_fresh))

end Cert.ReferenceIdeal.RefRun

end
-- ==== Proof.LibPrefixEnum.lean ====
/-
  Enumerating the positions where a predicate holds by two prefix counts.

  Given a decidable predicate `p` on the naturals and a length `n`, write `c i = Nat.count p (i + 1)` for the
  number of positions `k ≤ i` with `p k` (the inclusive prefix count).  Count, for each value `k`, how many
  positions `i < n` have `c i = k` (a histogram of the prefix counts), and take the inclusive prefix sums of that
  histogram: `flat j = Σ_{k ≤ j} #{i < n | c i = k}`.  Then `flat j` is the number of positions `i < n` whose
  prefix count is at most `j`, and because the prefix count is monotone that set is an initial segment:
    * for `j` below the total count `Nat.count p n` it is `range (Nat.nth p j)`, so `flat j` IS the `j`-th position
      (from zero) at which `p` holds — it is below `n`, `p` holds there, and exactly `j` earlier positions satisfy `p`;
    * for `j` at or above the total count it is all of `range n`, so `flat j = n`.
  Conversely every position `q < n` with `p q` is `flat (Nat.count p q)`.  So `j ↦ flat j` is a bijection from
  the numbers below the total count onto the positions below `n` where `p` holds, in increasing order.
-/
import Mathlib.Data.Nat.Nth
import Mathlib.Algebra.BigOperators.Group.Finset.Basic
import Mathlib.Data.Finset.Card

namespace PrefixEnum

open Finset

variable (p : ℕ → Prop) [DecidablePred p]

/-- The number of positions `i < n` whose inclusive prefix count is at most `j`. -/
def flat (n j : ℕ) : ℕ := #{i ∈ range n | Nat.count p (i + 1) ≤ j}

/-- The histogram of the inclusive prefix counts: how many positions `i < n` have prefix count exactly `k`. -/
def hist (n k : ℕ) : ℕ := #{i ∈ range n | Nat.count p (i + 1) = k}

/-- The inclusive prefix sums of the histogram count the positions whose prefix count is at most `j`:
    the sets `{c = k}`, `k ≤ j`, are disjoint and their union is `{c ≤ j}`. -/
theorem sum_hist (n j : ℕ) : ∑ k ∈ range (j + 1), hist p n k = flat p n j := by
  unfold hist flat
  rw [← Finset.card_biUnion]
  · congr 1
    ext i
    simp only [mem_biUnion, mem_range, mem_filter]
    constructor
    · rintro ⟨k, hk, hi, rfl⟩
      exact ⟨hi, by omega⟩
    · rintro ⟨hi, hle⟩
      exact ⟨_, by omega, hi, rfl⟩
  · intro a _ b _ hab
    rw [Function.onFun, Finset.disjoint_left]
    intro i hia hib
    simp only [mem_filter] at hia hib
    exact hab (hia.2.symm.trans hib.2)

/-- Below the total count, the positions with prefix count at most `j` are exactly those before the `j`-th
    position where `p` holds. -/
theorem filter_eq_range_nth {n j : ℕ} (hj : j < Nat.count p n) :
    {i ∈ range n | Nat.count p (i + 1) ≤ j} = range (Nat.nth p j) := by
  have hn : ∀ hf : (Set.ofPred p).Finite, j < #hf.toFinset := fun hf =>
    lt_of_lt_of_le hj (Nat.count_le_card hf n)
  have hlt : Nat.nth p j < n := Nat.nth_lt_of_lt_count hj
  ext i
  simp only [mem_filter, mem_range]
  constructor
  · rintro ⟨_, hle⟩
    by_contra hge
    have h1 : Nat.count p (Nat.nth p j + 1) ≤ Nat.count p (i + 1) :=
      Nat.count_monotone p (by omega)
    rw [Nat.count_nth_succ hn] at h1
    omega
  · intro hi
    refine ⟨by omega, ?_⟩
    have h1 : Nat.count p (i + 1) ≤ Nat.count p (Nat.nth p j) := Nat.count_monotone p (by omega)
    rwa [Nat.count_nth hn] at h1

/-- Below the total count, `flat j` is the `j`-th position where `p` holds. -/
theorem flat_eq_nth {n j : ℕ} (hj : j < Nat.count p n) : flat p n j = Nat.nth p j := by
  unfold flat
  rw [filter_eq_range_nth p hj, card_range]

/-- At or above the total count every position qualifies: `flat j = n`. -/
theorem flat_eq_of_le {n j : ℕ} (hj : Nat.count p n ≤ j) : flat p n j = n := by
  unfold flat
  rw [Finset.filter_true_of_mem, card_range]
  intro i hi
  exact le_trans (Nat.count_monotone p (by simp only [mem_range] at hi; omega)) hj

/-- Below the total count, `flat j` is a position below `n`. -/
theorem flat_lt {n j : ℕ} (hj : j < Nat.count p n) : flat p n j < n := by
  rw [flat_eq_nth p hj]; exact Nat.nth_lt_of_lt_count hj

/-- Below the total count, `p` holds at `flat j`. -/
theorem flat_mem {n j : ℕ} (hj : j < Nat.count p n) : p (flat p n j) := by
  rw [flat_eq_nth p hj]
  exact Nat.nth_mem j fun hf => lt_of_lt_of_le hj (Nat.count_le_card hf n)

/-- Below the total count, exactly `j` positions before `flat j` satisfy `p`. -/
theorem count_flat {n j : ℕ} (hj : j < Nat.count p n) : Nat.count p (flat p n j) = j := by
  rw [flat_eq_nth p hj]
  exact Nat.count_nth fun hf => lt_of_lt_of_le hj (Nat.count_le_card hf n)

/-- The number of earlier positions satisfying `p`, at a position `q < n` where `p` holds, is below the total. -/
theorem count_lt_of_mem {n q : ℕ} (hq : q < n) (hp : p q) : Nat.count p q < Nat.count p n :=
  Nat.count_strict_mono hp hq

/-- Every position `q < n` where `p` holds is `flat` of the number of earlier positions satisfying `p`. -/
theorem flat_count {n q : ℕ} (hq : q < n) (hp : p q) : flat p n (Nat.count p q) = q := by
  rw [flat_eq_nth p (count_lt_of_mem p hq hp)]
  exact Nat.nth_count hp

/-- `flat j = q` at a position `q < n` where `p` holds exactly when `j` is the number of earlier positions
    satisfying `p`: each such position is listed once. -/
theorem flat_eq_iff {n j q : ℕ} (hq : q < n) (hp : p q) : flat p n j = q ↔ j = Nat.count p q := by
  constructor
  · intro h
    by_cases hj : j < Nat.count p n
    · rw [← h, count_flat p hj]
    · rw [flat_eq_of_le p (by omega)] at h; omega
  · rintro rfl; exact flat_count p hq hp

end PrefixEnum
-- ==== Proof.LibPrefixSum.lean ====
/-
  The inclusive prefix sum that a full-width padded window sum computes, read at an index.

  `Host.reduceWindow IntOp.addi ![m + 1] ![1] ![m] ![0] x init` over a one-axis array of length `m + 1` slides a window
  of `m + 1` positions over the array padded with `m` initial values on the low side: the window at output
  position `j` covers padded positions `j … j + m`, that is, array positions `0 … j` preceded by `m - j` padding
  cells.  With the initial value `0` its sum is `x 0 + … + x j`: the inclusive prefix sum.  The sum is taken as a
  left fold over the window's positions; addition of bit vectors is commutative and associative, so the fold is
  the finite sum over the window, which is re-indexed by `q ↦ j + q - m` onto `0 … j`.

  Then two facts that turn such sums of 32-bit words into natural numbers: a finite sum of bit vectors has the
  sum of their values as its value when that sum is below `2 ^ w`; and a sum of indicator words `1` / `0` of a
  decidable predicate over `range n` has value `Nat.count p n` when `n < 2 ^ w`.
-/
import Idealize.ShloMosaic.PureOps.Contract
import Idealize.ShloMosaic.Lib.ValueIdx
import Mathlib.Data.BitVec
import Mathlib.Data.Nat.Count
import Mathlib.Algebra.BigOperators.Intervals
import Mathlib.Algebra.BigOperators.Fin

namespace PrefixSumRead

open Idealize.ShloMosaic

/-- A left fold that adds one term per list element is the start value plus the sum of the terms. -/
theorem foldl_add_eq {α ι : Type*} [AddCommMonoid α] (g : ι → α) (l : List ι) (v : α) :
    l.foldl (fun r k => r + g k) v = v + (l.map g).sum := by
  induction l generalizing v with
  | nil => simp
  | cons a l ih => simp [ih, add_assoc]

/-- The same over all of `Fin N` in order: the start value plus the finite sum. -/
theorem foldl_finRange_add_eq {α : Type*} [AddCommMonoid α] {N : ℕ} (g : Fin N → α) (v : α) :
    (List.finRange N).foldl (fun r k => r + g k) v = v + ∑ k, g k := by
  rw [foldl_add_eq, ← List.ofFn_eq_map, List.sum_ofFn]

/-- The indices of a one-axis shape are its coordinates. -/
def idxEquiv1 {n : ℕ} : (⟨1, ![n]⟩ : Shape).Idx ≃ Fin n where
  toFun j := j 0
  invFun a := ValueIdx.ix1 a
  left_inv j := (ValueIdx.eq_ix1 j).symm
  right_inv _ := rfl

@[simp] theorem idxEquiv1_apply {n : ℕ} (j : (⟨1, ![n]⟩ : Shape).Idx) : idxEquiv1 j = j 0 := rfl

/-- A sum over a one-axis shape's indices is the sum over its coordinates. -/
theorem sum_idx1 {M : Type*} [AddCommMonoid M] {n : ℕ} (f : (⟨1, ![n]⟩ : Shape).Idx → M) :
    ∑ i, f i = ∑ a : Fin n, f (ValueIdx.ix1 a) :=
  (Fintype.sum_equiv idxEquiv1.symm _ _ fun _ => rfl).symm

/-- The window at output position `j0 ≤ m`, of `m + 1` cells of which the first `m - j0` are padding: the cells
    `q` with `m ≤ j0 + q` hold array position `j0 + q - m`, and these are the positions `0 … j0`. -/
theorem sum_shift {α : Type*} [AddCommMonoid α] (X : ℕ → α) (m j0 : ℕ) (hj : j0 ≤ m) :
    (∑ q ∈ Finset.range (m + 1), if m ≤ j0 + q then X (j0 + q - m) else 0) = ∑ k ∈ Finset.range (j0 + 1), X k := by
  rw [← Finset.sum_filter]
  refine Finset.sum_nbij' (fun q => j0 + q - m) (fun k => k + m - j0) ?_ ?_ ?_ ?_ ?_
  · intro q hq; simp only [Finset.mem_filter, Finset.mem_range] at hq ⊢; omega
  · intro k hk; simp only [Finset.mem_filter, Finset.mem_range] at hk ⊢; omega
  · intro q hq; simp only [Finset.mem_filter, Finset.mem_range] at hq; omega
  · intro k hk; simp only [Finset.mem_range] at hk; omega
  · intro q _; rfl

/-- The full-width window sum, padded `m` low, of a one-axis integer array of length `m + 1` whose entry at
    coordinate `k` is `X k`, from the initial value `0`: at output position `j` the inclusive prefix sum
    `X 0 + … + X j`. -/
theorem reduceWindow_addi_prefix {w m : ℕ}
    (x : (⟨1, ![m + 1]⟩ : Shape).Idx → BitVec w) (X : ℕ → BitVec w)
    (hx : ∀ i, x i = X (i 0).val)
    {u : Shape} (init : u.Idx → BitVec w) (hu : 0 < u.numel) (hinit : init (Shape.Idx.first hu) = 0)
    (h : (⟨1, ![m + 1]⟩ : Shape).ReduceWindows ![m + 1] ![1] ![m] ![0] ⟨1, ![m + 1]⟩)
    (j : (⟨1, ![m + 1]⟩ : Shape).Idx) :
    Host.reduceWindow IntOp.addi ![m + 1] ![1] ![m] ![0] x init h hu j
      = ∑ k ∈ Finset.range ((j 0).val + 1), X k := by
  unfold Host.reduceWindow
  simp only [IntOp.addi]
  rw [foldl_finRange_add_eq, hinit, zero_add]
  have hj : (j 0).val < m + 1 := (j 0).isLt
  rw [Fintype.sum_equiv ((Shape.rowMajor _).symm.trans idxEquiv1) _
        (fun q : Fin (m + 1) => if m ≤ (j 0).val + q.val then X ((j 0).val + q.val - m) else 0) ?_]
  · rw [Fin.sum_univ_eq_sum_range (fun q => if m ≤ (j 0).val + q then X ((j 0).val + q - m) else 0) (m + 1)]
    exact sum_shift X m (j 0).val (by omega)
  · intro k
    simp only [Equiv.trans_apply, idxEquiv1_apply]
    have hy : ((Shape.rowMajor (⟨1, ![m + 1]⟩ : Shape)).symm k 0).val < m + 1 := ((Shape.rowMajor _).symm k 0).isLt
    by_cases h2 : m ≤ (j 0).val + ((Shape.rowMajor (⟨1, ![m + 1]⟩ : Shape)).symm k 0).val
    · refine Eq.trans ?_ (if_pos h2).symm
      split_ifs with h1
      · exact (hx _).trans (congrArg X (by simp))
      · exact absurd (by intro a; fin_cases a; simp; omega) h1
    · refine Eq.trans ?_ (if_neg h2).symm
      split_ifs with h1
      · exfalso
        have := (h1 0).1
        simp at this
        omega
      · rfl

/-- A finite sum of bit vectors has the sum of their values as its value, when that sum fits the width. -/
theorem toNat_sum {ι : Type*} [DecidableEq ι] {w : ℕ} (s : Finset ι) (f : ι → BitVec w)
    (hlt : ∑ i ∈ s, (f i).toNat < 2 ^ w) : (∑ i ∈ s, f i).toNat = ∑ i ∈ s, (f i).toNat := by
  induction s using Finset.induction_on with
  | empty => simp
  | insert a s ha ih =>
    rw [Finset.sum_insert ha] at hlt ⊢
    rw [Finset.sum_insert ha, BitVec.toNat_add, ih (by omega), Nat.mod_eq_of_lt hlt]

/-- The value of the indicator word of a proposition. -/
theorem toNat_indicator {w : ℕ} (hw : 0 < w) (c : Prop) [Decidable c] :
    (if c then (1 : BitVec w) else 0).toNat = if c then 1 else 0 := by
  split_ifs
  · show (BitVec.ofNat w 1).toNat = 1
    rw [BitVec.toNat_ofNat]
    exact Nat.one_mod_two_pow hw
  · rfl

/-- The number of positions below `n` satisfying `p`, as a sum of indicators. -/
theorem count_eq_sum (p : ℕ → Prop) [DecidablePred p] (n : ℕ) :
    Nat.count p n = ∑ k ∈ Finset.range n, if p k then 1 else 0 := by
  induction n with
  | zero => simp
  | succ n ih => rw [Nat.count_succ, Finset.sum_range_succ, ih]

/-- A sum of indicator words `1` / `0` of `p` over `range n` has value `Nat.count p n`, when `n < 2 ^ w`. -/
theorem toNat_sum_indicator {w : ℕ} (hw : 0 < w) (p : ℕ → Prop) [DecidablePred p] (n : ℕ) (hn : n < 2 ^ w) :
    (∑ k ∈ Finset.range n, if p k then (1 : BitVec w) else 0).toNat = Nat.count p n := by
  have hsum : ∑ k ∈ Finset.range n, (if p k then (1 : BitVec w) else 0).toNat = Nat.count p n := by
    rw [count_eq_sum]; exact Finset.sum_congr rfl fun k _ => toNat_indicator hw (p k)
  rw [toNat_sum _ _ (by rw [hsum]; exact lt_of_le_of_lt (Nat.count_le p) hn), hsum]

end PrefixSumRead
-- ==== Proof.LibScatterSum.lean ====
/-
  A scatter whose combiner is addition, read at an index: the operand's entry plus the sum of the updates that land there.

  `Host.scatter d f x idx upd` folds over the update indices in row-major order; the step for an update index whose
  landing index (`ScatterDims.resultIdx?`) is `some i` replaces the entry at `i` by `f` of that entry and the update,
  and an update whose landing index is `none` (outside the operand) is dropped.  When `f` is the addition of a
  commutative monoid, every step adds to entry `b` the update if it lands on `b` and zero otherwise, so the entry at
  `i` after the fold is the entry before it plus the sum of the updates whose landing index is `some i`.  This holds
  for every choice of dimension numbers; it is the same formula the exact float accumulation
  `Ideal.hostScatterAdd` is defined by.
-/
import Idealize.ShloMosaic.PureOps.ShapeOps
import Mathlib.Algebra.BigOperators.Group.Finset.Basic
import Mathlib.Algebra.BigOperators.Fin

namespace ScatterSum

open Idealize.ShloMosaic

/-- A fold whose every step adds `g n b` to entry `b`: the entry at `b` ends at its start plus the sum of the
    `g n b` over the list. -/
theorem foldl_of_step {α β ι : Type*} [AddCommMonoid α] (step : (β → α) → ι → (β → α)) (g : ι → β → α)
    (hstep : ∀ r n b, step r n b = r b + g n b) (l : List ι) (r : β → α) (b : β) :
    (l.foldl step r) b = r b + (l.map fun n => g n b).sum := by
  induction l generalizing r with
  | nil => simp
  | cons a l ih =>
    simp only [List.foldl_cons, List.map_cons, List.sum_cons]
    rw [ih, hstep, add_assoc]

variable {α : Type} [AddCommMonoid α] {s si u : Shape} {w : ℕ}

/-- A scatter with an additive combiner at an index: the operand's entry plus the sum of the updates whose
    landing index is that entry. -/
theorem scatter_add_apply (d : ScatterDims s si u) (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [foldl_of_step _
    (fun n b => if d.resultIdx? (u.rowMajor.symm n) idx = some b then upd (u.rowMajor.symm n) else 0) ?_,
    ← List.ofFn_eq_map, List.sum_ofFn, Finset.sum_filter]
  · congr 1
    exact Equiv.sum_comp u.rowMajor.symm (fun j => if d.resultIdx? j idx = some i then upd j else 0)
  · intro r n b
    cases hres : d.resultIdx? (u.rowMajor.symm n) idx with
    | none => simp
    | some i =>
      by_cases hb : b = i
      · subst hb; simp [hf]
      · have hne : ¬ (i = b) := fun h => hb h.symm
        simp [hb, hne]

end ScatterSum
-- ==== Proof.LibVecScatter.lean ====
/-
  Adding a vector of updates into a one-axis table at positions given by an index vector (jnp's `x.at[idx].add(u)` of a
  one-axis array, and `jnp.bincount` when the updates are ones), read at an index.

  For a table `x` of `N` entries, positions `idx` of `E` integer words (held as an `E × 1` array) and updates `u` of
  `E` entries, the scatter whose dimension numbers have no update window axis, insert the table's one axis and map the one
  index component to it sends update `e` to table position `idx e`, read as a SIGNED integer and not clamped, when
  `0 ≤ idx e < N`, and drops it otherwise (`vecDst`, `vecScatter_resultIdx`).  With an additive combiner the table's
  entry at `r` ends at `x r` plus the sum of the updates at the positions `e` with `idx e = r`
  (`vecScatter_add_apply`).
-/
import Idealize.ShloMosaic.PureOps.ShapeOps
import Idealize.ShloMosaic.Lib.ValueIdx
import proofs.«150033_g82085414961357_cont_sun_m_845_2_alg».proof.Proof.LibScatterSum
import proofs.«150033_g82085414961357_cont_sun_m_845_2_alg».proof.Proof.LibPrefixSum

namespace VecScatter

open Idealize.ShloMosaic Idealize.ShloMosaic.ValueIdx

/-- The scatter dimension numbers of `x.at[idx].add(u)` for a one-axis table `x : [N]`, positions `idx : [E, 1]` and
    updates `u : [E]`: no update window axis, the table's axis inserted and the target of the one index component, the
    index vector on the indices' second axis. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The table position update `e` goes to: `idx[e, 0]` read as a signed integer when that is in `[0, N)`, none
    otherwise. -/
def vecDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

variable {N E w : Nat} (wf : ScatterDims.WF ⟨1, ![N]⟩ ⟨2, ![E, 1]⟩ ⟨1, ![E]⟩ [] [0] [0] 1)

/-- The window starts at the position word, read signed. -/
theorem vecScatter_start (idx : IVec ⟨2, ![E, 1]⟩ w) (e : Fin E) :
    (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The table's axis is inserted: its window coordinate is 0. -/
theorem vecScatter_window (e : Fin E) : (vecScatterDims N E wf).window (ix1 e) (0 : Fin 1) = 0 := by
  unfold ScatterDims.window
  rw [dif_neg (show (0 : Fin 1) ∉ (vecScatterDims N E wf).sKept by simp [ScatterDims.sKept, Shape.kept, List.mem_filter])]

/-- Where update `e` lands: at its position word when that is a position of the table, nowhere otherwise. -/
theorem vecScatter_resultIdx (idx : IVec ⟨2, ![E, 1]⟩ w) (e : Fin E) :
    (vecScatterDims N E wf).resultIdx? (ix1 e) idx = (vecDst N idx e).map ix1 := by
  have hs := vecScatter_start wf idx e
  have hw := vecScatter_window wf e
  unfold ScatterDims.resultIdx? vecDst
  by_cases h : 0 ≤ (idx (ix2 e (0 : Fin 1))).toInt ∧ (idx (ix2 e (0 : Fin 1))).toInt < N
  · have hall : ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx (0 : Fin 1) + ((vecScatterDims N E wf).window (ix1 e) (0 : Fin 1) : Int) ∧
          (vecScatterDims N E wf).start (ix1 e) idx (0 : Fin 1) + ((vecScatterDims N E wf).window (ix1 e) (0 : Fin 1) : Int) < (N : Int)
        rw [hs, hw]; omega
    rw [dif_pos hall, dif_pos h]
    simp only [Option.map_some]
    congr 1
    funext a
    refine Fin.ext ?_
    match a with
    | ⟨0, _⟩ =>
      show ((vecScatterDims N E wf).start (ix1 e) idx (0 : Fin 1) + ((vecScatterDims N E wf).window (ix1 e) (0 : Fin 1) : Int)).toNat
        = (idx (ix2 e (0 : Fin 1))).toInt.toNat
      rw [hs, hw]; simp
  · have hnall : ¬ ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro hall
      have h0 := hall (0 : Fin 1)
      rw [hs, hw] at h0
      apply h
      have : ((⟨1, ![N]⟩ : Shape).size (0 : Fin 1) : Int) = (N : Int) := rfl
      rw [this] at h0
      omega
    rw [dif_neg hnall, dif_neg h]
    rfl

/-- Two one-axis indices given by coordinates are equal exactly when the coordinates are. -/
theorem ix1_eq_ix1 {n : Nat} (a a' : Fin n) : ix1 a = ix1 a' ↔ a = a' :=
  ⟨fun h => congrFun h 0, fun h => h ▸ rfl⟩

/-- The scatter with an additive combiner read at position `r`: the table's entry plus the updates at the positions
    whose position word is `r`. -/
theorem vecScatter_add_apply {α : Type} [AddCommMonoid α] (f : α → α → α) (hf : ∀ a b, f a b = a + b)
    (x : (⟨1, ![N]⟩ : Shape).Idx → α) (idx : IVec ⟨2, ![E, 1]⟩ w) (upd : (⟨1, ![E]⟩ : Shape).Idx → α) (r : Fin N) :
    Host.scatter (vecScatterDims N E wf) f x idx upd (ix1 r)
      = x (ix1 r) + ∑ e ∈ Finset.univ.filter (fun e : Fin E => vecDst N idx e = some r), upd (ix1 e) := by
  rw [ScatterSum.scatter_add_apply _ f hf]
  congr 1
  rw [Finset.sum_filter, PrefixSumRead.sum_idx1, Finset.sum_filter]
  refine Finset.sum_congr rfl fun e _ => ?_
  have key : ((vecScatterDims N E wf).resultIdx? (ix1 e) idx = some (ix1 r)) ↔ vecDst N idx e = some r := by
    rw [vecScatter_resultIdx]
    cases vecDst N idx e with
    | none => simp
    | some r' =>
      simp only [Option.map_some, Option.some.injEq]
      exact ix1_eq_ix1 r' r
  simp only [key]

end VecScatter
-- ==== Proof.LibNonzeroWords.lean ====
/-
  The position list of `jnp.nonzero(mask, size = n)` on machine words: two prefix sums around a histogram.

  jax computes the flat positions where a mask of length `n` is set as follows.  `c = cumsum(mask)`: `c i` is the
  number of set positions `≤ i`.  `c` is clipped below at `0` and a negative value would be wrapped by `+ n` (neither
  changes a count).  `h = zeros(n).at[c].add(1)`: `h k` is the number of positions `i` with `c i = k`; the count
  `n` itself (reached only when every position is set) falls outside and is dropped.  `flat = cumsum(h)`: `flat j` is
  the number of positions whose count is `≤ j`.  All of it is carried out on `w`-bit words.

  Here each stage's VALUE (`toNat`) is identified, for `n < 2 ^ w` (and `2 n < 2 ^ w` where a word is read signed):
  the first prefix sum's is `Nat.count p (i + 1)`; the clip and the wrap are the identity on a word whose value is
  below `2 ^ (w - 1)`; the histogram's is `PrefixEnum.hist`; the second prefix sum's is `PrefixEnum.flat` — which
  (LibPrefixEnum) is the `j`-th set position for `j` below the number of set positions and `n` from there on.
-/
import proofs.«150033_g82085414961357_cont_sun_m_845_2_alg».proof.Proof.LibPrefixEnum
import proofs.«150033_g82085414961357_cont_sun_m_845_2_alg».proof.Proof.LibPrefixSum
import proofs.«150033_g82085414961357_cont_sun_m_845_2_alg».proof.Proof.LibVecScatter

namespace NonzeroWords

open Idealize.ShloMosaic Idealize.ShloMosaic.ValueIdx PrefixSumRead VecScatter

/-! ## Small non-negative words -/

variable {w : ℕ}

/-- A word whose value is below half the range reads the same signed and unsigned. -/
theorem toInt_of_small (v : BitVec w) (h : 2 * v.toNat < 2 ^ w) : v.toInt = (v.toNat : ℤ) :=
  BitVec.toInt_eq_toNat_of_lt h

/-- Such a word is not below zero in the signed order. -/
theorem not_slt_zero_of_small (v : BitVec w) (h : 2 * v.toNat < 2 ^ w) : v.slt 0 = false := by
  have h0 : (0 : BitVec w).toInt = 0 := BitVec.toInt_zero
  rw [BitVec.slt_eq_decide, toInt_of_small v h, h0]
  simp

/-- Clipping such a word below at zero (the signed maximum with zero) leaves it. -/
theorem maxsi_zero_of_small (v : BitVec w) (h : 2 * v.toNat < 2 ^ w) : IntOp.maxsi 0 v = v := by
  unfold IntOp.maxsi
  rw [not_slt_zero_of_small v h]
  simp

/-- The signed test "below zero" of such a word is the false bit. -/
theorem cmpi_slt_zero_of_small (v : BitVec w) (h : 2 * v.toNat < 2 ^ w) : IntOp.cmpi .slt v 0 = 0#1 := by
  unfold IntOp.cmpi
  simp only [not_slt_zero_of_small v h]
  rfl

/-- The negative-index wrap `v < 0 ? v + n : v` leaves such a word. -/
theorem wrap_of_small (v n : BitVec w) (h : 2 * v.toNat < 2 ^ w) :
    Scalar.select (IntOp.cmpi .slt v 0) (IntOp.addi v n) v = v := by
  rw [cmpi_slt_zero_of_small v h]
  unfold Scalar.select
  rw [if_neg (by decide)]

/-! ## The first prefix sum: the number of set positions so far -/

/-- The inclusive prefix sum of the indicator words of `p` has value `Nat.count p (j + 1)` at position `j`. -/
theorem prefix_count_toNat {m : ℕ} (hw : 0 < w) (hm : m + 1 < 2 ^ w) (p : ℕ → Prop) [DecidablePred p]
    (x : (⟨1, ![m + 1]⟩ : Shape).Idx → BitVec w) (hx : ∀ i, x i = if p (i 0).val then 1 else 0)
    {u : Shape} (init : u.Idx → BitVec w) (hu : 0 < u.numel) (hinit : init (Shape.Idx.first hu) = 0)
    (h : (⟨1, ![m + 1]⟩ : Shape).ReduceWindows ![m + 1] ![1] ![m] ![0] ⟨1, ![m + 1]⟩)
    (j : (⟨1, ![m + 1]⟩ : Shape).Idx) :
    (Host.reduceWindow IntOp.addi ![m + 1] ![1] ![m] ![0] x init h hu j).toNat = Nat.count p ((j 0).val + 1) := by
  have hj : (j 0).val < m + 1 := (j 0).isLt
  rw [reduceWindow_addi_prefix x (fun k => if p k then 1 else 0) hx init hu hinit h j,
    toNat_sum_indicator hw p _ (by omega)]

/-! ## The histogram of the counts -/

/-- Ones added into a table of zeros at positions whose words read (signed) `cnt e`: the entry at `r` has value
    the number of `e` with `cnt e = r`. -/
theorem bincount_toNat {N E : ℕ} (hw : 0 < w) (hE : E < 2 ^ w)
    (wf : ScatterDims.WF ⟨1, ![N]⟩ ⟨2, ![E, 1]⟩ ⟨1, ![E]⟩ [] [0] [0] 1)
    (x0 : (⟨1, ![N]⟩ : Shape).Idx → BitVec w) (hx0 : ∀ i, x0 i = 0)
    (idx : IVec ⟨2, ![E, 1]⟩ w) (upd : (⟨1, ![E]⟩ : Shape).Idx → BitVec w) (hupd : ∀ i, upd i = 1)
    (cnt : ℕ → ℕ) (hidx : ∀ e : Fin E, (idx (ix2 e (0 : Fin 1))).toInt = (cnt e.val : ℤ)) (r : Fin N) :
    (Host.scatter (vecScatterDims N E wf) IntOp.addi x0 idx upd (ix1 r)).toNat
      = Finset.card {e ∈ Finset.range E | cnt e = r.val} := by
  have hdst : ∀ e : Fin E, vecDst N idx e = some r ↔ cnt e.val = r.val := by
    intro e
    have h1 := hidx e
    have hr := r.isLt
    unfold vecDst
    split_ifs with hc
    · simp only [Option.some.injEq, Fin.ext_iff, h1]
      omega
    · rw [h1] at hc
      simp only [reduceCtorEq, false_iff]
      omega
  rw [vecScatter_add_apply wf IntOp.addi (fun _ _ => rfl), hx0, zero_add, Finset.sum_filter]
  simp only [hdst, hupd]
  rw [Fin.sum_univ_eq_sum_range (fun k => if cnt k = r.val then (1 : BitVec w) else 0) E,
    toNat_sum_indicator hw (fun k => cnt k = r.val) E hE, Nat.count_eq_card_filter_range]

/-! ## The second prefix sum: the position list -/

/-- The inclusive prefix sum of words whose values are the histogram of the prefix counts of `p` has value
    `PrefixEnum.flat p (m + 1) j` at position `j`. -/
theorem flat_toNat {m : ℕ} (hm : m + 1 < 2 ^ w) (p : ℕ → Prop) [DecidablePred p]
    (hst : (⟨1, ![m + 1]⟩ : Shape).Idx → BitVec w)
    (hh : ∀ i, (hst i).toNat = PrefixEnum.hist p (m + 1) (i 0).val)
    {u : Shape} (init : u.Idx → BitVec w) (hu : 0 < u.numel) (hinit : init (Shape.Idx.first hu) = 0)
    (h : (⟨1, ![m + 1]⟩ : Shape).ReduceWindows ![m + 1] ![1] ![m] ![0] ⟨1, ![m + 1]⟩)
    (j : (⟨1, ![m + 1]⟩ : Shape).Idx) :
    (Host.reduceWindow IntOp.addi ![m + 1] ![1] ![m] ![0] hst init h hu j).toNat
      = PrefixEnum.flat p (m + 1) (j 0).val := by
  have hj : (j 0).val < m + 1 := (j 0).isLt
  let X : ℕ → BitVec w := fun k => if hk : k < m + 1 then hst (ix1 ⟨k, hk⟩) else 0
  have hx : ∀ i, hst i = X (i 0).val := by
    intro i
    show hst i = if hk : (i 0).val < m + 1 then hst (ix1 ⟨(i 0).val, hk⟩) else 0
    rw [dif_pos (show (i 0).val < m + 1 from (i 0).isLt)]
    exact congrArg hst (eq_ix1 i)
  have hX : ∀ k ∈ Finset.range ((j 0).val + 1), (X k).toNat = PrefixEnum.hist p (m + 1) k := by
    intro k hk
    have hk' : k < m + 1 := by simp only [Finset.mem_range] at hk; omega
    show (if hk : k < m + 1 then hst (ix1 ⟨k, hk⟩) else 0).toNat = _
    rw [dif_pos hk', hh]
    rfl
  have hsum : ∑ k ∈ Finset.range ((j 0).val + 1), (X k).toNat = PrefixEnum.flat p (m + 1) (j 0).val := by
    rw [Finset.sum_congr rfl hX, PrefixEnum.sum_hist]
  have hle : PrefixEnum.flat p (m + 1) (j 0).val ≤ m + 1 := by
    unfold PrefixEnum.flat
    exact (Finset.card_filter_le _ _).trans (by simp)
  rw [reduceWindow_addi_prefix hst X hx init hu hinit h j, toNat_sum _ _ (by rw [hsum]; omega), hsum]

end NonzeroWords
-- ==== Proof.LibFloorDivWords.lean ====
/-
  jax's integer floor-division and remainder (`//` and `%`), as they lower, on small non-negative machine words.

  `x // y` lowers to the truncating signed quotient `q` corrected downwards by one when the signs of `x` and `y`
  differ and the truncating remainder is not zero; `x % y` lowers to the truncating remainder `r` (the divisor first
  replaced by `1` if it is `0`) corrected by `+ y` when `r ≠ 0` and `r` and `y` lie on different sides of zero.
  For a dividend `0 ≤ x < 2 ^ (w - 1)` and a divisor `0 < y < 2 ^ (w - 1)` neither correction fires: the signed
  quotient and remainder are the unsigned ones (no division corner is met), the sign of `y` is `1` and that of `x` is
  `0` only when the remainder is `0` too, and the remainder is non-negative like the divisor.  So the words are
  `x / y` and `x % y`, with values `x.toNat / y.toNat` and `x.toNat % y.toNat`.
-/
import Idealize.ShloMosaic.PureOps.Float
import Mathlib.Data.BitVec

namespace FloorDivWords

open Idealize.ShloMosaic

variable {w : ℕ}

/-- The sign word StableHLO's `sign` gives an integer: `0`, `-1` or `1`. -/
def wordSign (x : BitVec w) : BitVec w := if x = 0 then 0 else if x.msb then -1 else 1

theorem msb_of_small (x : BitVec w) (h : 2 * x.toNat < 2 ^ w) : x.msb = false :=
  BitVec.msb_eq_false_iff_two_mul_lt.2 h

theorem sdiv_of_small (x y : BitVec w) (hx : 2 * x.toNat < 2 ^ w) (hy : 2 * y.toNat < 2 ^ w) : x.sdiv y = x / y := by
  rw [BitVec.sdiv_eq, msb_of_small x hx, msb_of_small y hy]
  try rfl

theorem srem_of_small (x y : BitVec w) (hx : 2 * x.toNat < 2 ^ w) (hy : 2 * y.toNat < 2 ^ w) : x.srem y = x % y := by
  rw [BitVec.srem_eq, msb_of_small x hx, msb_of_small y hy]
  try rfl

/-- A small dividend and a non-zero divisor are not at the signed division's corner. -/
theorem not_corner (hw : 0 < w) (x y : BitVec w) (hx : 2 * x.toNat < 2 ^ w) (hy0 : y ≠ 0) : ¬ IntOp.SDivCorner x y := by
  rintro (h | ⟨h, _⟩)
  · exact hy0 h
  · have hm : x.msb = false := msb_of_small x hx
    rw [h, BitVec.msb_intMin] at hm
    simp at hm
    omega

theorem divsi_of_small (u : ArithUnit) (hw : 0 < w) (x y : BitVec w) (hx : 2 * x.toNat < 2 ^ w) (hy : 2 * y.toNat < 2 ^ w)
    (hy0 : y ≠ 0) : IntOp.divsi u x y = x / y := by
  unfold IntOp.divsi
  rw [if_neg (not_corner hw x y hx hy0), sdiv_of_small x y hx hy]

theorem remsi_of_small (u : ArithUnit) (hw : 0 < w) (x y : BitVec w) (hx : 2 * x.toNat < 2 ^ w) (hy : 2 * y.toNat < 2 ^ w)
    (hy0 : y ≠ 0) : IntOp.remsi u x y = x % y := by
  unfold IntOp.remsi
  rw [if_neg (not_corner hw x y hx hy0), srem_of_small x y hx hy]

/-- The remainder of a small word by any word is small. -/
theorem umod_small (x y : BitVec w) (hx : 2 * x.toNat < 2 ^ w) : 2 * (x % y).toNat < 2 ^ w := by
  rw [BitVec.toNat_umod]
  by_cases hy : y.toNat = 0
  · rw [hy, Nat.mod_zero]; exact hx
  · have := Nat.mod_le x.toNat y.toNat; omega

/-- jax's floor division of a small non-negative word by a small positive word, as it lowers: the quotient. -/
theorem floorDiv_word (u : ArithUnit) (hw : 0 < w) (x y : BitVec w) (hx : 2 * x.toNat < 2 ^ w) (hy : 2 * y.toNat < 2 ^ w)
    (hy0 : y ≠ 0) :
    Scalar.select (IntOp.andi (IntOp.cmpi .ne (wordSign x) (wordSign y)) (IntOp.cmpi .ne (IntOp.remsi u x y) 0))
      (IntOp.subi (IntOp.divsi u x y) 1) (IntOp.divsi u x y) = x / y := by
  rw [remsi_of_small u hw x y hx hy hy0, divsi_of_small u hw x y hx hy hy0]
  have hc : IntOp.andi (IntOp.cmpi .ne (wordSign x) (wordSign y)) (IntOp.cmpi .ne (x % y) 0) = 0#1 := by
    by_cases hx0 : x = 0
    · subst hx0
      have : (0 : BitVec w) % y = 0 := by
        apply BitVec.eq_of_toNat_eq; rw [BitVec.toNat_umod]; simp
      rw [this]
      unfold IntOp.andi IntOp.cmpi
      simp
    · have hsx : wordSign x = 1 := by unfold wordSign; rw [if_neg hx0, msb_of_small x hx]; rfl
      have hsy : wordSign y = 1 := by unfold wordSign; rw [if_neg hy0, msb_of_small y hy]; rfl
      rw [hsx, hsy]
      unfold IntOp.andi IntOp.cmpi
      simp
  rw [hc]
  unfold Scalar.select
  rw [if_neg (by decide)]

/-- jax's remainder of a small non-negative word by a small positive word, as it lowers: the remainder. -/
theorem remainder_word (u : ArithUnit) (hw : 0 < w) (x y : BitVec w) (hx : 2 * x.toNat < 2 ^ w) (hy : 2 * y.toNat < 2 ^ w)
    (hy0 : y ≠ 0) :
    let y' := Scalar.select (IntOp.cmpi .eq y 0) 1 y
    let r := IntOp.remsi u x y'
    Scalar.select (IntOp.andi (IntOp.cmpi .ne (IntOp.cmpi .slt r 0) (IntOp.cmpi .slt y' 0)) (IntOp.cmpi .ne r 0))
      (IntOp.addi r y') r = x % y := by
  intro y' r
  have hy' : y' = y := by
    show Scalar.select (IntOp.cmpi .eq y 0) 1 y = y
    have hb : (y == (0#w : BitVec w)) = false := beq_eq_false_iff_ne.mpr hy0
    have hc0 : IntOp.cmpi .eq y 0 = 0#1 := by
      unfold IntOp.cmpi
      simp
      rw [hb]
      rfl
    unfold Scalar.select
    rw [hc0, if_neg (by decide)]
  have hr : r = x % y := by
    show IntOp.remsi u x y' = x % y
    rw [hy', remsi_of_small u hw x y hx hy hy0]
  have h0 : (0 : BitVec w).toInt = 0 := BitVec.toInt_zero
  have hrs : (x % y).slt 0#w = false := by
    show (x % y).slt 0 = false
    rw [BitVec.slt_eq_decide, BitVec.toInt_eq_toNat_of_lt (umod_small x y hx), h0]
    simp <;> omega
  have hys : y.slt 0#w = false := by
    show y.slt 0 = false
    rw [BitVec.slt_eq_decide, BitVec.toInt_eq_toNat_of_lt hy, h0]
    simp <;> omega
  rw [hr, hy']
  have hc : IntOp.andi (IntOp.cmpi .ne (IntOp.cmpi .slt (x % y) 0) (IntOp.cmpi .slt y 0)) (IntOp.cmpi .ne (x % y) 0) = 0#1 := by
    unfold IntOp.andi IntOp.cmpi
    simp [hrs, hys]
  rw [hc]
  unfold Scalar.select
  rw [if_neg (by decide)]

theorem toNat_div (x y : BitVec w) : (x / y).toNat = x.toNat / y.toNat := BitVec.toNat_udiv

theorem toNat_mod (x y : BitVec w) : (x % y).toNat = x.toNat % y.toNat := BitVec.toNat_umod

end FloorDivWords
-- ==== Proof.RefValNonzero.lean ====
/-
  The reference's position list.  The index array, compared with zero and flattened row-major, is a mask of 32768
  positions; position `k` is the voxel `(k / 1024 % 32, k / 32 % 32, k % 32)`.  Its inclusive prefix sum counts the set
  positions so far; clipped at zero and wrapped as a negative index would be (both the identity on a count), the
  counts index a table of zeros into which ones are added, giving the histogram of the counts; the inclusive prefix
  sum of that histogram is, at `j`, the number of positions whose count is at most `j` — the `j`-th set position while
  `j` is below the number of set positions, and 32768 from there on.
-/
import proofs.«150033_g82085414961357_cont_sun_m_845_2_alg».proof.Proof.RefTerm
import proofs.«150033_g82085414961357_cont_sun_m_845_2_alg».proof.Proof.LibNonzeroWords
import proofs.«150033_g82085414961357_cont_sun_m_845_2_alg».proof.Proof.LibFloorDivWords
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefTerm Idealize.ShloMosaic Idealize.ShloMosaic.ValueIdx

/-- The mask on flat positions: position `k` of the row-major 32 × 32 × 32 volume is set when the index array is non-zero
    at the voxel `(k / 1024 % 32, k / 32 % 32, k % 32)`. -/
def P (a1 : IVec S1x32x32x32 32) (k : ℕ) : Prop :=
  a1 (ix4 (0 : Fin 1) (⟨k / 1024 % 32, by omega⟩ : Fin 32) (⟨k / 32 % 32, by omega⟩ : Fin 32) (⟨k % 32, by omega⟩ : Fin 32)) ≠ 0

instance (a1 : IVec S1x32x32x32 32) : DecidablePred (P a1) := fun k => by unfold P; infer_instance

/-- The word a signed "not equal to zero" test gives, widened to 32 bits: `1` or `0`. -/
theorem ne_word (x : BitVec 32) : (IntOp.cmpi .ne x 0#32).setWidth 32 = if x ≠ 0 then 1 else 0 := by
  unfold IntOp.cmpi
  by_cases h : x = 0
  · subst h; simp
  · have hb : (x != 0#32) = true := bne_iff_ne.mpr h
    simp [hb]
    exact h

/-- The flattened mask as words: `1` at the set positions, `0` elsewhere. -/
theorem maskWord (a1 : IVec S1x32x32x32 32) (i : S32768.Idx) :
    t_main_call0_v1 a1 i = if P a1 (i 0).val then 1 else 0 := by
  have hi : (i 0).val < 32768 := (i 0).isLt
  unfold t_main_call0_v1 t_main_call0_v0
  dsimp only
  rw [extui_apply]
  rw [shapeCast_apply (t_main_v1 a1) shapeCasts_S1x32x32x32_S32768 i
    (ix4 (0 : Fin 1) (⟨(i 0).val / 1024 % 32, by omega⟩ : Fin 32) (⟨(i 0).val / 32 % 32, by omega⟩ : Fin 32) (⟨(i 0).val % 32, by omega⟩ : Fin 32))
    (by rw [Shape.rowMajor_val_four, Shape.rowMajor_val_one]; simp; omega)]
  unfold t_main_v1 t_main_v0 t_main_c_1
  dsimp only
  show (IntOp.cmpi .ne (a1 _) (broadcastInDim S1x32x32x32 ![] bcast_S_S1x32x32x32 (constantI S_ 32 0#32) _)).setWidth 32 = _
  rw [broadcastInDim_scalar_apply]
  unfold constantI P
  exact ne_word _

/-- The prefix sums start from the zero word. -/
theorem init_cumsum0 : t_main_call0_call0_v0 (Shape.Idx.first h_S_) = 0 := by
  unfold t_main_call0_call0_v0 t_main_call0_call0_c
  rw [broadcastInDim_scalar_apply]
  rfl

theorem init_cumsum1 : t_main_call2_call0_v0 (Shape.Idx.first h_S_) = 0 := by
  unfold t_main_call2_call0_v0 t_main_call2_call0_c
  rw [broadcastInDim_scalar_apply]
  rfl

/-- The first prefix sum: the number of set positions up to and including `j`. -/
theorem count_word (a1 : IVec S1x32x32x32 32) (j : S32768.Idx) :
    (t_main_v2 a1 j).toNat = Nat.count (P a1) ((j 0).val + 1) := by
  unfold t_main_v2
  exact NonzeroWords.prefix_count_toNat (m := 32767) (w := 32) (by norm_num) (by norm_num) (P a1) (t_main_call0_v1 a1) (maskWord a1)
    t_main_call0_call0_v0 h_S_ init_cumsum0 reduceWindows_S32768_S32768_w32768s1p32767_0 j

/-- A count of at most 32768 positions is a small word. -/
theorem count_small (a1 : IVec S1x32x32x32 32) (j : S32768.Idx) : 2 * (t_main_v2 a1 j).toNat < 2 ^ 32 := by
  have hj : (j 0).val < 32768 := (j 0).isLt
  have := Nat.count_le (P a1) (n := (j 0).val + 1)
  rw [count_word]
  omega

/-- Clipping the counts below at zero leaves them. -/
theorem v4_eq (a1 : IVec S1x32x32x32 32) (j : S32768.Idx) : t_main_v4 a1 j = t_main_v2 a1 j := by
  unfold t_main_v4 t_main_call1_v1 t_main_call1_v0 t_main_c_3
  show IntOp.maxsi (broadcastInDim S32768 ![] bcast_S_S32768 (id (constantI S_ 32 0#32)) j) (t_main_v2 a1 j) = _
  rw [broadcastInDim_scalar_apply]
  exact NonzeroWords.maxsi_zero_of_small _ (count_small a1 j)

/-- The negative-index wrap leaves them too. -/
theorem v9_eq (a1 : IVec S1x32x32x32 32) (j : S32768.Idx) : t_main_v9 a1 j = t_main_v2 a1 j := by
  unfold t_main_v9 t_main_v6 t_main_v8 t_main_v5 t_main_v7 t_main_c_4 t_main_c_5
  show Scalar.select (IntOp.cmpi .slt (t_main_v4 a1 j) (broadcastInDim S32768 ![] bcast_S_S32768 (constantI S_ 32 0#32) j))
    (IntOp.addi (t_main_v4 a1 j) (broadcastInDim S32768 ![] bcast_S_S32768 (constantI S_ 32 32768#32) j)) (t_main_v4 a1 j) = _
  rw [broadcastInDim_scalar_apply, v4_eq]
  exact NonzeroWords.wrap_of_small _ _ (count_small a1 j)

/-- The counts as an `[N, 1]` index array. -/
theorem v10_eq (a1 : IVec S1x32x32x32 32) (e : Fin 32768) : t_main_v10 a1 (ix2 e (0 : Fin 1)) = t_main_v2 a1 (ix1 e) := by
  unfold t_main_v10
  show broadcastInDim S32768x1 ![0] bcast_S32768_S32768x1_0 (t_main_v9 a1) (ix2 e (0 : Fin 1)) = _
  rw [broadcastInDim_apply ![0] bcast_S32768_S32768x1_0 (t_main_v9 a1) (ix2 e (0 : Fin 1)) (ix1 e)
    (by intro a; match a with | ⟨0, _⟩ => rfl), v9_eq]

/-- The histogram of the counts. -/
theorem hist_word (a1 : IVec S1x32x32x32 32) (i : S32768.Idx) :
    (t_main_v12 a1 i).toNat = PrefixEnum.hist (P a1) 32768 (i 0).val := by
  rw [eq_ix1 i]
  unfold t_main_v12
  show (Host.scatter (VecScatter.vecScatterDims 32768 32768 scatter_S32768_S32768x1_S32768_n_0_0_1_wf) IntOp.addi t_main_v3 (t_main_v10 a1) t_main_v11 (ix1 (i 0))).toNat = _
  have h3 : ∀ i', t_main_v3 i' = 0 := by
    intro i'
    unfold t_main_v3 t_main_c_2
    show broadcastInDim S32768 ![] bcast_S_S32768 (constantI S_ 32 0#32) i' = 0
    rw [broadcastInDim_scalar_apply]; rfl
  have h11 : ∀ i', t_main_v11 i' = 1 := by
    intro i'
    unfold t_main_v11 t_main_c_6
    show broadcastInDim S32768 ![] bcast_S_S32768 (constantI S_ 32 1#32) i' = 1
    rw [broadcastInDim_scalar_apply]; rfl
  have hidx : ∀ e : Fin 32768, (t_main_v10 a1 (ix2 e (0 : Fin 1))).toInt = ((Nat.count (P a1) (e.val + 1) : ℕ) : ℤ) := by
    intro e
    rw [v10_eq, NonzeroWords.toInt_of_small _ (count_small a1 (ix1 e)), count_word]
  rw [NonzeroWords.bincount_toNat (w := 32) (by norm_num) (by norm_num) _ t_main_v3 h3 (t_main_v10 a1) t_main_v11 h11
    (fun e => Nat.count (P a1) (e + 1)) hidx (i 0)]
  rfl

/-- The second prefix sum: the position list. -/
theorem flat_word (a1 : IVec S1x32x32x32 32) (j : S32768.Idx) :
    (t_main_v13 a1 j).toNat = PrefixEnum.flat (P a1) 32768 (j 0).val := by
  unfold t_main_v13
  exact NonzeroWords.flat_toNat (m := 32767) (w := 32) (by norm_num) (P a1) (t_main_v12 a1) (hist_word a1)
    t_main_call2_call0_v0 h_S_ init_cumsum1 reduceWindows_S32768_S32768_w32768s1p32767_0 j

end Cert.ReferenceIdeal.RefValue

end
-- ==== Proof.RefValCoord.lean ====
/-
  The reference's voxel coordinates.  jax recovers the coordinates of flat position `q` as `(q // stride) % size` on each
  axis, with its floor-division and remainder lowered through truncating division, signs and corrections.  The
  position list's entries lie in `0 … 32768` and the divisors are `32768, 1024, 32, 1` and `1, 32, 32, 32`, so the
  corrections never fire and the words are the plain quotients and remainders.
-/
import proofs.«150033_g82085414961357_cont_sun_m_845_2_alg».proof.Proof.RefValNonzero

noncomputable section

namespace Cert.ReferenceIdeal.RefValue

open Cert.ReferenceIdeal Cert.ReferenceIdeal.Gen Cert.ReferenceIdeal.RefTerm Idealize.ShloMosaic Idealize.ShloMosaic.ValueIdx

/-- jax's floor division of a vector of small non-negative words by a small positive constant, as it lowers. -/
theorem floorDiv_vec (x : IVec S32768 32) (yw : BitVec 32) (j : S32768.Idx)
    (hx : 2 * (x j).toNat < 2 ^ 32) (hy : 2 * yw.toNat < 2 ^ 32) (hy0 : yw ≠ 0) :
    select (andi (cmpi .ne (signi x) (broadcastInDim S32768 ![] bcast_S_S32768 (signi (constantI S_ 32 yw))))
        (cmpi .ne (Host.remsi x (broadcastInDim S32768 ![] bcast_S_S32768 (constantI S_ 32 yw))) (broadcastInDim S32768 ![] bcast_S_S32768 (constantI S_ 32 0#32))))
      (subi (Host.divsi x (broadcastInDim S32768 ![] bcast_S_S32768 (constantI S_ 32 yw))) (broadcastInDim S32768 ![] bcast_S_S32768 (constantI S_ 32 1#32)))
      (Host.divsi x (broadcastInDim S32768 ![] bcast_S_S32768 (constantI S_ 32 yw))) j = x j / yw := by
  unfold select andi cmpi subi Host.divsi Host.remsi signi
  simp only [broadcastInDim_scalar_apply, constantI]
  exact FloorDivWords.floorDiv_word .host (by norm_num) (x j) yw hx hy hy0

/-- jax's remainder of a vector of small non-negative words by a small positive constant, as it lowers. -/
theorem remainder_vec (x : IVec S32768 32) (yw : BitVec 32) (j : S32768.Idx)
    (hx : 2 * (x j).toNat < 2 ^ 32) (hy : 2 * yw.toNat < 2 ^ 32) (hy0 : yw ≠ 0) :
    select (andi (cmpi .ne (cmpi .slt (Host.remsi x (broadcastInDim S32768 ![] bcast_S_S32768 (select (cmpi .eq (id (constantI S_ 32 yw)) (constantI S_ 32 0#32)) (constantI S_ 32 1#32) (id (constantI S_ 32 yw))))) (broadcastInDim S32768 ![] bcast_S_S32768 (constantI S_ 32 0#32)))
          (broadcastInDim S32768 ![] bcast_S_S32768 (cmpi .slt (select (cmpi .eq (id (constantI S_ 32 yw)) (constantI S_ 32 0#32)) (constantI S_ 32 1#32) (id (constantI S_ 32 yw))) (constantI S_ 32 0#32))))
        (cmpi .ne (Host.remsi x (broadcastInDim S32768 ![] bcast_S_S32768 (select (cmpi .eq (id (constantI S_ 32 yw)) (constantI S_ 32 0#32)) (constantI S_ 32 1#32) (id (constantI S_ 32 yw))))) (broadcastInDim S32768 ![] bcast_S_S32768 (constantI S_ 32 0#32))))
      (addi (Host.remsi x (broadcastInDim S32768 ![] bcast_S_S32768 (select (cmpi .eq (id (constantI S_ 32 yw)) (constantI S_ 32 0#32)) (constantI S_ 32 1#32) (id (constantI S_ 32 yw))))) (broadcastInDim S32768 ![] bcast_S_S32768 (select (cmpi .eq (id (constantI S_ 32 yw)) (constantI S_ 32 0#32)) (constantI S_ 32 1#32) (id (constantI S_ 32 yw)))))
      (Host.remsi x (broadcastInDim S32768 ![] bcast_S_S32768 (select (cmpi .eq (id (constantI S_ 32 yw)) (constantI S_ 32 0#32)) (constantI S_ 32 1#32) (id (constantI S_ 32 yw))))) j = x j % yw := by
  unfold select andi cmpi addi Host.remsi
  simp only [broadcastInDim_scalar_apply, constantI, id]
  exact FloorDivWords.remainder_word .host (by norm_num) (x j) yw hx hy hy0

/-- The position list's entries are at most 32768. -/
theorem flat_le (a1 : IVec S1x32x32x32 32) (j : S32768.Idx) : PrefixEnum.flat (P a1) 32768 (j 0).val ≤ 32768 := by
  unfold PrefixEnum.flat
  exact (Finset.card_filter_le _ _).trans (by simp)

theorem flat_small (a1 : IVec S1x32x32x32 32) (j : S32768.Idx) : 2 * (t_main_v13 a1 j).toNat < 2 ^ 32 := by
  have := flat_le a1 j
  rw [flat_word]
  omega

/-- The position list floor-divided by 32768. -/
theorem v14_eq (a1 : IVec S1x32x32x32 32) (j : S32768.Idx) : t_main_v14 a1 j = t_main_v13 a1 j / 32768#32 := by
  unfold t_main_v14 t_main_call3_v10 t_main_call3_v12 t_main_call3_v5 t_main_call3_v9 t_main_call3_v1 t_main_call3_v2 t_main_call3_v4 t_main_call3_v3 t_main_call3_v7 t_main_call3_v6 t_main_call3_v8 t_main_call3_v11 t_main_call3_v0 t_main_call3_c t_main_call3_c_0 t_main_c_7
  exact floorDiv_vec (t_main_v13 a1) 32768#32 j (flat_small a1 j) (by decide) (by decide)

theorem v14_toNat (a1 : IVec S1x32x32x32 32) (j : S32768.Idx) :
    (t_main_v14 a1 j).toNat = PrefixEnum.flat (P a1) 32768 (j 0).val / 32768 := by
  rw [v14_eq, BitVec.toNat_udiv, flat_word]
  rfl

theorem v14_small (a1 : IVec S1x32x32x32 32) (j : S32768.Idx) : 2 * (t_main_v14 a1 j).toNat < 2 ^ 32 := by
  have := flat_le a1 j
  have hd := Nat.div_le_self (PrefixEnum.flat (P a1) 32768 (j 0).val) 32768
  rw [v14_toNat]
  omega

/-- …and reduced modulo 1. -/
theorem v15_eq (a1 : IVec S1x32x32x32 32) (j : S32768.Idx) : t_main_v15 a1 j = t_main_v14 a1 j % 1#32 := by
  unfold t_main_v15 t_main_call4_v12 t_main_call4_v14 t_main_call4_v11 t_main_call4_v6 t_main_call4_v8 t_main_call4_v10 t_main_call4_v9 t_main_call4_v13 t_main_call4_v4 t_main_call4_v3 t_main_call4_v2 t_main_call4_v1 t_main_call4_v0 t_main_call4_v5 t_main_call4_v7 t_main_call4_c t_main_call4_c_0 t_main_call4_c_1 t_main_call4_c_2 t_main_call4_c_3 t_main_c_8
  exact remainder_vec (t_main_v14 a1) 1#32 j (v14_small a1 j) (by decide) (by decide)

/-- The position list floor-divided by 1024. -/
theorem v16_eq (a1 : IVec S1x32x32x32 32) (j : S32768.Idx) : t_main_v16 a1 j = t_main_v13 a1 j / 1024#32 := by
  unfold t_main_v16 t_main_call5_v10 t_main_call5_v12 t_main_call5_v5 t_main_call5_v9 t_main_call5_v1 t_main_call5_v2 t_main_call5_v4 t_main_call5_v3 t_main_call5_v7 t_main_call5_v6 t_main_call5_v8 t_main_call5_v11 t_main_call5_v0 t_main_call5_c t_main_call5_c_0 t_main_c_9
  exact floorDiv_vec (t_main_v13 a1) 1024#32 j (flat_small a1 j) (by decide) (by decide)

theorem v16_toNat (a1 : IVec S1x32x32x32 32) (j : S32768.Idx) :
    (t_main_v16 a1 j).toNat = PrefixEnum.flat (P a1) 32768 (j 0).val / 1024 := by
  rw [v16_eq, BitVec.toNat_udiv, flat_word]
  rfl

theorem v16_small (a1 : IVec S1x32x32x32 32) (j : S32768.Idx) : 2 * (t_main_v16 a1 j).toNat < 2 ^ 32 := by
  have := flat_le a1 j
  have hd := Nat.div_le_self (PrefixEnum.flat (P a1) 32768 (j 0).val) 1024
  rw [v16_toNat]
  omega

/-- …and reduced modulo 32. -/
theorem v17_eq (a1 : IVec S1x32x32x32 32) (j : S32768.Idx) : t_main_v17 a1 j = t_main_v16 a1 j % 32#32 := by
  unfold t_main_v17 t_main_call6_v12 t_main_call6_v14 t_main_call6_v11 t_main_call6_v6 t_main_call6_v8 t_main_call6_v10 t_main_call6_v9 t_main_call6_v13 t_main_call6_v4 t_main_call6_v3 t_main_call6_v2 t_main_call6_v1 t_main_call6_v0 t_main_call6_v5 t_main_call6_v7 t_main_call6_c t_main_call6_c_0 t_main_call6_c_1 t_main_call6_c_2 t_main_call6_c_3 t_main_c_10
  exact remainder_vec (t_main_v16 a1) 32#32 j (v16_small a1 j) (by decide) (by decide)

/-- The position list floor-divided by 32. -/
theorem v18_eq (a1 : IVec S1x32x32x32 32) (j : S32768.Idx) : t_main_v18 a1 j = t_main_v13 a1 j / 32#32 := by
  unfold t_main_v18 t_main_call7_v10 t_main_call7_v12 t_main_call7_v5 t_main_call7_v9 t_main_call7_v1 t_main_call7_v2 t_main_call7_v4 t_main_call7_v3 t_main_call7_v7 t_main_call7_v6 t_main_call7_v8 t_main_call7_v11 t_main_call7_v0 t_main_call7_c t_main_call7_c_0 t_main_c_11
  exact floorDiv_vec (t_main_v13 a1) 32#32 j (flat_small a1 j) (by decide) (by decide)

theorem v18_toNat (a1 : IVec S1x32x32x32 32) (j : S32768.Idx) :
    (t_main_v18 a1 j).toNat = PrefixEnum.flat (P a1) 32768 (j 0).val / 32 := by
  rw [v18_eq, BitVec.toNat_udiv, flat_word]
  rfl

theorem v18_small (a1 : IVec S1x32x32x32 32) (j : S32768.Idx) : 2 * (t_main_v18 a1 j).toNat < 2 ^ 32 := by
  have := flat_le a1 j
  have hd := Nat.div_le_self (PrefixEnum.flat (P a1) 32768 (j 0).val) 32
  rw [v18_toNat]
  omega

/-- …and reduced modulo 32. -/
theorem v19_eq (a1 : IVec S1x32x32x32 32) (j : S32768.Idx) : t_main_v19 a1 j = t_main_v18 a1 j % 32#32 := by
  unfold t_main_v19 t_main_call8_v12 t_main_call8_v14 t_main_call8_v11 t_main_call8_v6 t_main_call8_v8 t_main_call8_v10 t_main_call8_v9 t_main_call8_v13 t_main_call8_v4 t_main_call8_v3 t_main_call8_v2 t_main_call8_v1 t_main_call8_v0 t_main_call8_v5 t_main_call8_v7 t_main_call8_c t_main_call8_c_0 t_main_call8_c_1 t_main_call8_c_2 t_main_call8_c_3 t_main_c_12
  exact remainder_vec (t_main_v18 a1) 32#32 j (v18_small a1 j) (by decide) (by decide)

/-- The position list floor-divided by 1. -/
theorem v20_eq (a1 : IVec S1x32x32x32 32) (j : S32768.Idx) : t_main_v20 a1 j = t_main_v13 a1 j / 1#32 := by
  unfold t_main_v20 t_main_call9_v10 t_main_call9_v12 t_main_call9_v5 t_main_call9_v9 t_main_call9_v1 t_main_call9_v2 t_main_call9_v4 t_main_call9_v3 t_main_call9_v7 t_main_call9_v6 t_main_call9_v8 t_main_call9_v11 t_main_call9_v0 t_main_call9_c t_main_call9_c_0 t_main_c_13
  exact floorDiv_vec (t_main_v13 a1) 1#32 j (flat_small a1 j) (by decide) (by decide)

theorem v20_toNat (a1 : IVec S1x32x32x32 32) (j : S32768.Idx) :
    (t_main_v20 a1 j).toNat = PrefixEnum.flat (P a1) 32768 (j 0).val / 1 := by
  rw [v20_eq, BitVec.toNat_udiv, flat_word]
  rfl

theorem v20_small (a1 : IVec S1x32x32x32 32) (j : S32768.Idx) : 2 * (t_main_v20 a1 j).toNat < 2 ^ 32 := by
  have := flat_le a1 j
  have hd := Nat.div_le_self (PrefixEnum.flat (P a1) 32768 (j 0).val) 1
  rw [v20_toNat]
  omega

/-- …and reduced modulo 32. -/
theorem v21_eq (a1 : IVec S1x32x32x32 32) (j : S32768.Idx) : t_main_v21 a1 j = t_main_v20 a1 j % 32#32 := by
  unfold t_main_v21 t_main_call10_v12 t_main_call10_v14 t_main_call10_v11 t_main_call10_v6 t_main_call10_v8 t_main_call10_v10 t_main_call10_v9 t_main_call10_v13 t_main_call10_v4 t_main_call10_v3 t_main_call10_v2 t_main_call10_v1 t_main_call10_v0 t_main_call10_v5 t_main_call10_v7 t_main_call10_c t_main_call10_c_0 t_main_call10_c_1 t_main_call10_c_2 t_main_call10_c_3 t_main_c_14
  exact remainder_vec (t_main_v20 a1) 32#32 j (v20_small a1 j) (by decide) (by decide)

end Cert.ReferenceIdeal.RefValue

end
-- ==== Proof.RefValValid.lean ====
/-
  The reference's row bookkeeping: the number of set positions, the fill of the padding rows, the table of row
  coordinates and the row weights.
-/
import proofs.«150033_g82085414961357_cont_sun_m_845_2_alg».proof.Proof.RefValCoord
import Idealize.ShloMosaic.PureOps.Reduce

noncomputable section

namespace Cert.ReferenceIdeal.RefValue

open Cert.ReferenceIdeal Cert.ReferenceIdeal.Gen Cert.ReferenceIdeal.RefTerm Idealize.ShloMosaic Idealize.ShloMosaic.ValueIdx

instance : Subsingleton S_.Idx := ⟨fun a b => funext fun d => d.elim0⟩

theorem numel_index : S1x32x32x32.numel = 32768 := by decide

/-- The index at row-major position `n` of the `[1, 32, 32, 32]` array is the voxel `(n / 1024 % 32, n / 32 % 32, n % 32)`. -/
theorem unravel (n : Fin S1x32x32x32.numel) :
    S1x32x32x32.rowMajor.symm n
      = ix4 (0 : Fin 1) (⟨n.val / 1024 % 32, by omega⟩ : Fin 32) (⟨n.val / 32 % 32, by omega⟩ : Fin 32) (⟨n.val % 32, by omega⟩ : Fin 32) := by
  have hn : n.val < 32768 := numel_index ▸ n.isLt
  rw [Equiv.symm_apply_eq]
  refine Fin.ext ?_
  rw [Shape.rowMajor_val_four]
  simp
  omega

/-- A full sum of 32-bit words over the `[1, 32, 32, 32]` array whose entry at a voxel is `1` where the index array is
    non-zero and `0` elsewhere, from `0`: the number of set positions. -/
theorem reduceAll_count (a1 : IVec S1x32x32x32 32) (x : IVec S1x32x32x32 32) (hx : ∀ i, x i = if a1 i ≠ 0 then 1 else 0)
    (init : S_.Idx → BitVec 32) (hinit : init (Shape.Idx.first h_S_) = 0) (j : S_.Idx) :
    (Host.reduce IntOp.addi x init reducesTo_S1x32x32x32_S_d0_1_2_3 h_S_ j).toNat = Nat.count (P a1) 32768 := by
  rw [Host.reduce_eq_foldl]
  have hf : (((List.finRange S1x32x32x32.numel).map S1x32x32x32.rowMajor.symm).filter
      fun i => reducesTo_S1x32x32x32_S_d0_1_2_3.drop i = j) = (List.finRange S1x32x32x32.numel).map S1x32x32x32.rowMajor.symm :=
    List.filter_eq_self.2 fun i _ => by simp [Subsingleton.elim (reducesTo_S1x32x32x32_S_d0_1_2_3.drop i) j]
  rw [hf, show (fun (r : BitVec 32) (i : S1x32x32x32.Idx) => IntOp.addi r (x i)) = fun r i => r + x i from rfl,
    PrefixSumRead.foldl_add_eq, hinit, zero_add, List.map_map, ← List.ofFn_eq_map, List.sum_ofFn]
  have hterm : ∀ n : Fin S1x32x32x32.numel, (x ∘ S1x32x32x32.rowMajor.symm) n = if P a1 n.val then 1 else 0 := by
    intro n
    show x (S1x32x32x32.rowMajor.symm n) = _
    rw [hx, unravel]
    rfl
  rw [Finset.sum_congr rfl fun n _ => hterm n,
    Fin.sum_univ_eq_sum_range (fun k => if P a1 k then (1 : BitVec 32) else 0) S1x32x32x32.numel, numel_index,
    PrefixSumRead.toNat_sum_indicator (by norm_num) (P a1) 32768 (by norm_num)]

/-- The index array compared with zero and widened: `1` or `0` at each voxel. -/
theorem v23_word (a1 : IVec S1x32x32x32 32) (i : S1x32x32x32.Idx) : t_main_v23 a1 i = if a1 i ≠ 0 then 1 else 0 := by
  unfold t_main_v23 t_main_v1 t_main_v0 t_main_c_1
  show (IntOp.cmpi .ne (a1 i) (broadcastInDim S1x32x32x32 ![] bcast_S_S1x32x32x32 (constantI S_ 32 0#32) i)).setWidth 32 = _
  rw [broadcastInDim_scalar_apply]
  exact ne_word _

theorem v38_word (a1 : IVec S1x32x32x32 32) (i : S1x32x32x32.Idx) : t_main_v38 a1 i = if a1 i ≠ 0 then 1 else 0 := by
  unfold t_main_v38 t_main_v37 t_main_v36 t_main_c_20
  show (IntOp.cmpi .ne (a1 i) (broadcastInDim S1x32x32x32 ![] bcast_S_S1x32x32x32 (constantI S_ 32 0#32) i)).setWidth 32 = _
  rw [broadcastInDim_scalar_apply]
  exact ne_word _

/-- The number of set positions, as computed for the fill… -/
theorem nv_word (a1 : IVec S1x32x32x32 32) (j : S_.Idx) : (t_main_v24 a1 j).toNat = Nat.count (P a1) 32768 := by
  unfold t_main_v24
  exact reduceAll_count a1 (t_main_v23 a1) (v23_word a1) t_main_c_15 rfl j

/-- …and again for the row weights. -/
theorem nv_word' (a1 : IVec S1x32x32x32 32) (j : S_.Idx) : (t_main_v39 a1 j).toNat = Nat.count (P a1) 32768 := by
  unfold t_main_v39
  exact reduceAll_count a1 (t_main_v38 a1) (v38_word a1) t_main_c_21 rfl j

/-! ## Signed comparisons of small words -/

theorem toInt_small (a : BitVec 32) (ha : 2 * a.toNat < 2 ^ 32) : a.toInt = (a.toNat : ℤ) := BitVec.toInt_eq_toNat_of_lt ha

/-- `a ≥ b` (signed) on small words is the comparison of their values. -/
theorem sge_small (a b : BitVec 32) (ha : 2 * a.toNat < 2 ^ 32) (hb : 2 * b.toNat < 2 ^ 32) :
    IntOp.cmpi .sge a b = if b.toNat ≤ a.toNat then 1#1 else 0#1 := by
  unfold IntOp.cmpi
  by_cases h : b.toNat ≤ a.toNat
  · have hs : b.sle a = true := BitVec.sle_iff_toInt_le.2 (by rw [toInt_small a ha, toInt_small b hb]; exact_mod_cast h)
    rw [if_pos h]; simp [hs]
  · have hs : b.sle a = false := by
      rw [← Bool.not_eq_true]
      intro hh
      have := BitVec.sle_iff_toInt_le.1 hh
      rw [toInt_small a ha, toInt_small b hb] at this
      exact h (by exact_mod_cast this)
    rw [if_neg h]; simp [hs]

/-- `a < b` (signed) on small words is the comparison of their values. -/
theorem slt_small (a b : BitVec 32) (ha : 2 * a.toNat < 2 ^ 32) (hb : 2 * b.toNat < 2 ^ 32) :
    IntOp.cmpi .slt a b = if a.toNat < b.toNat then 1#1 else 0#1 := by
  unfold IntOp.cmpi
  by_cases h : a.toNat < b.toNat
  · have hs : a.slt b = true := BitVec.slt_iff_toInt_lt.2 (by rw [toInt_small a ha, toInt_small b hb]; exact_mod_cast h)
    rw [if_pos h]; simp [hs]
  · have hs : a.slt b = false := by
      rw [← Bool.not_eq_true]
      intro hh
      have := BitVec.slt_iff_toInt_lt.1 hh
      rw [toInt_small a ha, toInt_small b hb] at this
      exact h (by exact_mod_cast this)
    rw [if_neg h]; simp [hs]

/-- The row number as a word. -/
theorem iota_toNat (j : Fin 32768) : (BitVec.ofNat 32 j.val).toNat = j.val := by
  have := j.isLt
  rw [BitVec.toNat_ofNat]
  exact Nat.mod_eq_of_lt (by omega)

theorem nv_le (a1 : IVec S1x32x32x32 32) : Nat.count (P a1) 32768 ≤ 32768 := Nat.count_le (P a1)

/-! ## The fill of the padding rows -/

/-- Row `j` is a padding row exactly when `j` is at or beyond the number of set positions. -/
theorem v26_eq (a1 : IVec S1x32x32x32 32) (j : Fin 32768) :
    t_main_v26 a1 (ix1 j) = if Nat.count (P a1) 32768 ≤ j.val then 1#1 else 0#1 := by
  have hj := j.isLt
  have hn := nv_le a1
  unfold t_main_v26 t_main_v25 t_main_v22
  show IntOp.cmpi .sge (iotaInDim S32768 32 0 (ix1 j)) (broadcastInDim S32768 ![] bcast_S_S32768 (t_main_v24 a1) (ix1 j)) = _
  rw [broadcastInDim_scalar_apply, iotaInDim_apply,
    sge_small _ _ (by rw [show ((ix1 j : S32768.Idx) 0).val = j.val from rfl, iota_toNat]; omega) (by rw [nv_word]; omega),
    nv_word, show ((ix1 j : S32768.Idx) 0).val = j.val from rfl, iota_toNat]

/-- A coordinate column with the padding rows filled with zero. -/
theorem fill_eq (a1 : IVec S1x32x32x32 32) (x : IVec S32768 32) (j : Fin 32768) :
    select (t_main_v26 a1) (broadcastInDim S32768 ![] bcast_S_S32768 (id (constantI S_ 32 0#32))) x (ix1 j)
      = if Nat.count (P a1) 32768 ≤ j.val then 0 else x (ix1 j) := by
  show Scalar.select (t_main_v26 a1 (ix1 j)) (broadcastInDim S32768 ![] bcast_S_S32768 (id (constantI S_ 32 0#32)) (ix1 j)) (x (ix1 j)) = _
  rw [v26_eq, broadcastInDim_scalar_apply]
  split_ifs
  · exact select_one _ _
  · exact select_zero _ _

theorem v27_eq (a1 : IVec S1x32x32x32 32) (j : Fin 32768) :
    t_main_v27 a1 (ix1 j) = if Nat.count (P a1) 32768 ≤ j.val then 0 else t_main_v15 a1 (ix1 j) := by
  unfold t_main_v27 t_main_call11_v1 t_main_call11_v0 t_main_c_16
  exact fill_eq a1 _ j

theorem v28_eq (a1 : IVec S1x32x32x32 32) (j : Fin 32768) :
    t_main_v28 a1 (ix1 j) = if Nat.count (P a1) 32768 ≤ j.val then 0 else t_main_v17 a1 (ix1 j) := by
  unfold t_main_v28 t_main_call12_v1 t_main_call12_v0 t_main_c_17
  exact fill_eq a1 _ j

theorem v29_eq (a1 : IVec S1x32x32x32 32) (j : Fin 32768) :
    t_main_v29 a1 (ix1 j) = if Nat.count (P a1) 32768 ≤ j.val then 0 else t_main_v19 a1 (ix1 j) := by
  unfold t_main_v29 t_main_call13_v1 t_main_call13_v0 t_main_c_18
  exact fill_eq a1 _ j

theorem v30_eq (a1 : IVec S1x32x32x32 32) (j : Fin 32768) :
    t_main_v30 a1 (ix1 j) = if Nat.count (P a1) 32768 ≤ j.val then 0 else t_main_v21 a1 (ix1 j) := by
  unfold t_main_v30 t_main_call14_v1 t_main_call14_v0 t_main_c_19
  exact fill_eq a1 _ j

/-! ## The rows' coordinates as numbers -/

/-- The position row `j` sits at: the `j`-th set position, and position `0` for a padding row. -/
def rowPos (a1 : IVec S1x32x32x32 32) (j : ℕ) : ℕ :=
  if Nat.count (P a1) 32768 ≤ j then 0 else PrefixEnum.flat (P a1) 32768 j

theorem rowB_toNat (a1 : IVec S1x32x32x32 32) (j : Fin 32768) : (t_main_v27 a1 (ix1 j)).toNat = 0 := by
  rw [v27_eq]
  split_ifs
  · rfl
  · rw [v15_eq, BitVec.toNat_umod]
    exact Nat.mod_one _

theorem rowZ_toNat (a1 : IVec S1x32x32x32 32) (j : Fin 32768) : (t_main_v28 a1 (ix1 j)).toNat = rowPos a1 j.val / 1024 % 32 := by
  rw [v28_eq]
  unfold rowPos
  split_ifs
  · rfl
  · rw [v17_eq, BitVec.toNat_umod, v16_toNat]; rfl

theorem rowY_toNat (a1 : IVec S1x32x32x32 32) (j : Fin 32768) : (t_main_v29 a1 (ix1 j)).toNat = rowPos a1 j.val / 32 % 32 := by
  rw [v29_eq]
  unfold rowPos
  split_ifs
  · rfl
  · rw [v19_eq, BitVec.toNat_umod, v18_toNat]; rfl

theorem rowX_toNat (a1 : IVec S1x32x32x32 32) (j : Fin 32768) : (t_main_v30 a1 (ix1 j)).toNat = rowPos a1 j.val % 32 := by
  rw [v30_eq]
  unfold rowPos
  split_ifs
  · rfl
  · rw [v21_eq, BitVec.toNat_umod, v20_toNat]
    show PrefixEnum.flat (P a1) 32768 j.val / 1 % 32 = _
    rw [Nat.div_one]

/-! ## The row weights -/

/-- Row `j` weighs `1` when it lists a set position and `0` when it is padding. -/
theorem v43_eq (a1 : IVec S1x32x32x32 32) (j : Fin 32768) :
    t_main_v43 a1 (ix1 j) = if j.val < Nat.count (P a1) 32768 then (1 : EReal) else 0 := by
  have hj := j.isLt
  have hn := nv_le a1
  unfold t_main_v43 t_main_v42 t_main_v41 t_main_v40
  show (((IntOp.cmpi .slt (iotaInDim S32768 32 0 (ix1 j)) (broadcastInDim S32768 ![] bcast_S_S32768 (t_main_v39 a1) (ix1 j))).toNat : ℝ) : EReal) = _
  rw [broadcastInDim_scalar_apply, iotaInDim_apply,
    slt_small _ _ (by rw [show ((ix1 j : S32768.Idx) 0).val = j.val from rfl, iota_toNat]; omega) (by rw [nv_word']; omega),
    nv_word', show ((ix1 j : S32768.Idx) 0).val = j.val from rfl, iota_toNat]
  split_ifs <;> simp

end Cert.ReferenceIdeal.RefValue

end
-- ==== Proof.LibPointScatter.lean ====
/-
  Adding rows of updates into a five-axis table at points given by four-component indices (jnp's
  `x.at[i0, i1, i2, i3].add(u)` of an array `[A, B, C, D, K]` with index vectors of length `E`), read at an index.

  The scatter's dimension numbers take the updates' second axis as the one window axis (it goes to the table's last
  axis), insert the table's first four axes and map the four index components to them in order, the index vector on
  the indices' second axis.  Update element `(e, k)` lands at `(i0 e, i1 e, i2 e, i3 e, k)`, each component read as a
  SIGNED integer and not clamped, when every component is inside its axis, and is dropped otherwise (`pointDst`,
  `pointScatter_resultIdx`).  So the exact float accumulation is, at `(a, b, c, d, k)`, the table's element plus the sum
  of `u (e, k)` over the positions `e` whose point is `(a, b, c, d)` (`hostScatterAdd_point_apply`).
-/
import Idealize.ShloMosaic.PureOps.Ideal.Laws
import Idealize.ShloMosaic.Lib.ValueIdx

noncomputable section

open scoped BigOperators

namespace PointScatter

open Idealize.ShloMosaic Idealize.ShloMosaic.ValueIdx

/-- The scatter dimension numbers of `x.at[i0, i1, i2, i3].add(u)` for `x : [A, B, C, D, K]`, indices `[E, 4]` and updates
    `[E, K]`. -/
abbrev pointScatterDims (A B C D K E : Nat)
    (wf : ScatterDims.WF ⟨5, ![A, B, C, D, K]⟩ ⟨2, ![E, 4]⟩ ⟨2, ![E, K]⟩ [1] [0, 1, 2, 3] [0, 1, 2, 3] 1) :
    ScatterDims ⟨5, ![A, B, C, D, K]⟩ ⟨2, ![E, 4]⟩ ⟨2, ![E, K]⟩ where
  updateWindowDims := [1]
  insertedWindowDims := [0, 1, 2, 3]
  scatterDimsToOperandDims := [0, 1, 2, 3]
  indexVectorDim := 1
  wf := wf

/-- The point update position `e` goes to: its four index components read signed, when each is inside its axis. -/
def pointDst {E w : Nat} (A B C D : Nat) (idx : IVec ⟨2, ![E, 4]⟩ w) (e : Fin E) : Option (Fin A × Fin B × Fin C × Fin D) :=
  if h : (0 ≤ (idx (ix2 e (0 : Fin 4))).toInt ∧ (idx (ix2 e (0 : Fin 4))).toInt < A) ∧ (0 ≤ (idx (ix2 e (1 : Fin 4))).toInt ∧ (idx (ix2 e (1 : Fin 4))).toInt < B) ∧
      (0 ≤ (idx (ix2 e (2 : Fin 4))).toInt ∧ (idx (ix2 e (2 : Fin 4))).toInt < C) ∧ (0 ≤ (idx (ix2 e (3 : Fin 4))).toInt ∧ (idx (ix2 e (3 : Fin 4))).toInt < D) then
    some (⟨(idx (ix2 e (0 : Fin 4))).toInt.toNat, by omega⟩, ⟨(idx (ix2 e (1 : Fin 4))).toInt.toNat, by omega⟩, ⟨(idx (ix2 e (2 : Fin 4))).toInt.toNat, by omega⟩, ⟨(idx (ix2 e (3 : Fin 4))).toInt.toNat, by omega⟩)
  else none

variable {A B C D K E w : Nat}
  (wf : ScatterDims.WF ⟨5, ![A, B, C, D, K]⟩ ⟨2, ![E, 4]⟩ ⟨2, ![E, K]⟩ [1] [0, 1, 2, 3] [0, 1, 2, 3] 1)

/-- On operand axis 0 the window starts at component 0 of the index, read signed. -/
theorem pointScatter_start0 (idx : IVec ⟨2, ![E, 4]⟩ w) (e : Fin E) (k : Fin K) :
    (pointScatterDims A B C D K E wf).start (ix2 e k) idx (0 : Fin 5) = (idx (ix2 e (0 : Fin 4))).toInt := by
  unfold ScatterDims.start
  rw [dif_pos (show (0 : Fin 5) ∈ (pointScatterDims A B C D K E wf).scatterDimsToOperandDims from (by decide : (0 : Fin 5) ∈ ([0, 1, 2, 3] : List (Fin 5))))]
  have hsi : (pointScatterDims A B C D K E wf).siIdx (ix2 e k) ⟨List.idxOf (0 : Fin 5) (pointScatterDims A B C D K E wf).scatterDimsToOperandDims,
      List.idxOf_lt_length_iff.2 (by decide : (0 : Fin 5) ∈ ([0, 1, 2, 3] : List (Fin 5)))⟩ = ix2 e (0 : Fin 4) := by
    funext b; refine Fin.ext ?_
    match b with
    | ⟨0, _⟩ => rfl
    | ⟨1, _⟩ => rfl
  rw [hsi]

/-- Operand axis 0 is inserted: its window coordinate is 0. -/
theorem pointScatter_window0 (e : Fin E) (k : Fin K) :
    (pointScatterDims A B C D K E wf).window (ix2 e k) (0 : Fin 5) = 0 := by
  unfold ScatterDims.window
  rw [dif_neg (show (0 : Fin 5) ∉ (pointScatterDims A B C D K E wf).sKept by simp [ScatterDims.sKept, Shape.kept, List.mem_filter])]

/-- On operand axis 1 the window starts at component 1 of the index, read signed. -/
theorem pointScatter_start1 (idx : IVec ⟨2, ![E, 4]⟩ w) (e : Fin E) (k : Fin K) :
    (pointScatterDims A B C D K E wf).start (ix2 e k) idx (1 : Fin 5) = (idx (ix2 e (1 : Fin 4))).toInt := by
  unfold ScatterDims.start
  rw [dif_pos (show (1 : Fin 5) ∈ (pointScatterDims A B C D K E wf).scatterDimsToOperandDims from (by decide : (1 : Fin 5) ∈ ([0, 1, 2, 3] : List (Fin 5))))]
  have hsi : (pointScatterDims A B C D K E wf).siIdx (ix2 e k) ⟨List.idxOf (1 : Fin 5) (pointScatterDims A B C D K E wf).scatterDimsToOperandDims,
      List.idxOf_lt_length_iff.2 (by decide : (1 : Fin 5) ∈ ([0, 1, 2, 3] : List (Fin 5)))⟩ = ix2 e (1 : Fin 4) := by
    funext b; refine Fin.ext ?_
    match b with
    | ⟨0, _⟩ => rfl
    | ⟨1, _⟩ => rfl
  rw [hsi]

/-- Operand axis 1 is inserted: its window coordinate is 0. -/
theorem pointScatter_window1 (e : Fin E) (k : Fin K) :
    (pointScatterDims A B C D K E wf).window (ix2 e k) (1 : Fin 5) = 0 := by
  unfold ScatterDims.window
  rw [dif_neg (show (1 : Fin 5) ∉ (pointScatterDims A B C D K E wf).sKept by simp [ScatterDims.sKept, Shape.kept, List.mem_filter])]

/-- On operand axis 2 the window starts at component 2 of the index, read signed. -/
theorem pointScatter_start2 (idx : IVec ⟨2, ![E, 4]⟩ w) (e : Fin E) (k : Fin K) :
    (pointScatterDims A B C D K E wf).start (ix2 e k) idx (2 : Fin 5) = (idx (ix2 e (2 : Fin 4))).toInt := by
  unfold ScatterDims.start
  rw [dif_pos (show (2 : Fin 5) ∈ (pointScatterDims A B C D K E wf).scatterDimsToOperandDims from (by decide : (2 : Fin 5) ∈ ([0, 1, 2, 3] : List (Fin 5))))]
  have hsi : (pointScatterDims A B C D K E wf).siIdx (ix2 e k) ⟨List.idxOf (2 : Fin 5) (pointScatterDims A B C D K E wf).scatterDimsToOperandDims,
      List.idxOf_lt_length_iff.2 (by decide : (2 : Fin 5) ∈ ([0, 1, 2, 3] : List (Fin 5)))⟩ = ix2 e (2 : Fin 4) := by
    funext b; refine Fin.ext ?_
    match b with
    | ⟨0, _⟩ => rfl
    | ⟨1, _⟩ => rfl
  rw [hsi]

/-- Operand axis 2 is inserted: its window coordinate is 0. -/
theorem pointScatter_window2 (e : Fin E) (k : Fin K) :
    (pointScatterDims A B C D K E wf).window (ix2 e k) (2 : Fin 5) = 0 := by
  unfold ScatterDims.window
  rw [dif_neg (show (2 : Fin 5) ∉ (pointScatterDims A B C D K E wf).sKept by simp [ScatterDims.sKept, Shape.kept, List.mem_filter])]

/-- On operand axis 3 the window starts at component 3 of the index, read signed. -/
theorem pointScatter_start3 (idx : IVec ⟨2, ![E, 4]⟩ w) (e : Fin E) (k : Fin K) :
    (pointScatterDims A B C D K E wf).start (ix2 e k) idx (3 : Fin 5) = (idx (ix2 e (3 : Fin 4))).toInt := by
  unfold ScatterDims.start
  rw [dif_pos (show (3 : Fin 5) ∈ (pointScatterDims A B C D K E wf).scatterDimsToOperandDims from (by decide : (3 : Fin 5) ∈ ([0, 1, 2, 3] : List (Fin 5))))]
  have hsi : (pointScatterDims A B C D K E wf).siIdx (ix2 e k) ⟨List.idxOf (3 : Fin 5) (pointScatterDims A B C D K E wf).scatterDimsToOperandDims,
      List.idxOf_lt_length_iff.2 (by decide : (3 : Fin 5) ∈ ([0, 1, 2, 3] : List (Fin 5)))⟩ = ix2 e (3 : Fin 4) := by
    funext b; refine Fin.ext ?_
    match b with
    | ⟨0, _⟩ => rfl
    | ⟨1, _⟩ => rfl
  rw [hsi]

/-- Operand axis 3 is inserted: its window coordinate is 0. -/
theorem pointScatter_window3 (e : Fin E) (k : Fin K) :
    (pointScatterDims A B C D K E wf).window (ix2 e k) (3 : Fin 5) = 0 := by
  unfold ScatterDims.window
  rw [dif_neg (show (3 : Fin 5) ∉ (pointScatterDims A B C D K E wf).sKept by simp [ScatterDims.sKept, Shape.kept, List.mem_filter])]

/-- On the last operand axis the window starts at 0. -/
theorem pointScatter_start4 (idx : IVec ⟨2, ![E, 4]⟩ w) (e : Fin E) (k : Fin K) :
    (pointScatterDims A B C D K E wf).start (ix2 e k) idx (4 : Fin 5) = 0 := by
  unfold ScatterDims.start
  rw [dif_neg (show (4 : Fin 5) ∉ ([0, 1, 2, 3] : List (Fin 5)) by decide)]

/-- On the last operand axis the window coordinate is the update's column. -/
theorem pointScatter_window4 (e : Fin E) (k : Fin K) : (pointScatterDims A B C D K E wf).window (ix2 e k) (4 : Fin 5) = k.val := by
  unfold ScatterDims.window
  rw [dif_pos (show (4 : Fin 5) ∈ (pointScatterDims A B C D K E wf).sKept by simp [ScatterDims.sKept, Shape.kept, List.mem_filter, List.mem_finRange])]
  rfl

/-- Where update element `(e, k)` lands: at its point and column `k`, or nowhere. -/
theorem pointScatter_resultIdx (idx : IVec ⟨2, ![E, 4]⟩ w) (e : Fin E) (k : Fin K) :
    (pointScatterDims A B C D K E wf).resultIdx? (ix2 e k) idx = (pointDst A B C D idx e).map (fun q => ix5 q.1 q.2.1 q.2.2.1 q.2.2.2 k) := by
  have hs0 := pointScatter_start0 wf idx e k
  have hs1 := pointScatter_start1 wf idx e k
  have hs2 := pointScatter_start2 wf idx e k
  have hs3 := pointScatter_start3 wf idx e k
  have hs4 := pointScatter_start4 wf idx e k
  have hw0 := pointScatter_window0 wf e k
  have hw1 := pointScatter_window1 wf e k
  have hw2 := pointScatter_window2 wf e k
  have hw3 := pointScatter_window3 wf e k
  have hw4 := pointScatter_window4 wf e k
  have hk := k.isLt
  have hsz0 : ((⟨5, ![A, B, C, D, K]⟩ : Shape).size (0 : Fin 5) : Int) = (A : Int) := rfl
  have hsz1 : ((⟨5, ![A, B, C, D, K]⟩ : Shape).size (1 : Fin 5) : Int) = (B : Int) := rfl
  have hsz2 : ((⟨5, ![A, B, C, D, K]⟩ : Shape).size (2 : Fin 5) : Int) = (C : Int) := rfl
  have hsz3 : ((⟨5, ![A, B, C, D, K]⟩ : Shape).size (3 : Fin 5) : Int) = (D : Int) := rfl
  have hsz4 : ((⟨5, ![A, B, C, D, K]⟩ : Shape).size (4 : Fin 5) : Int) = (K : Int) := rfl
  unfold ScatterDims.resultIdx? pointDst
  by_cases h : (0 ≤ (idx (ix2 e (0 : Fin 4))).toInt ∧ (idx (ix2 e (0 : Fin 4))).toInt < A) ∧ (0 ≤ (idx (ix2 e (1 : Fin 4))).toInt ∧ (idx (ix2 e (1 : Fin 4))).toInt < B) ∧
      (0 ≤ (idx (ix2 e (2 : Fin 4))).toInt ∧ (idx (ix2 e (2 : Fin 4))).toInt < C) ∧ (0 ≤ (idx (ix2 e (3 : Fin 4))).toInt ∧ (idx (ix2 e (3 : Fin 4))).toInt < D)
  · have hall : ∀ a : Fin 5, 0 ≤ (pointScatterDims A B C D K E wf).start (ix2 e k) idx a + ((pointScatterDims A B C D K E wf).window (ix2 e k) a : Int) ∧
        (pointScatterDims A B C D K E wf).start (ix2 e k) idx a + ((pointScatterDims A B C D K E wf).window (ix2 e k) a : Int) < ((⟨5, ![A, B, C, D, K]⟩ : Shape).size a : Int) := by
      intro a
      match a with
      | ⟨0, _⟩ =>
        show 0 ≤ (pointScatterDims A B C D K E wf).start (ix2 e k) idx (0 : Fin 5) + ((pointScatterDims A B C D K E wf).window (ix2 e k) (0 : Fin 5) : Int) ∧
          (pointScatterDims A B C D K E wf).start (ix2 e k) idx (0 : Fin 5) + ((pointScatterDims A B C D K E wf).window (ix2 e k) (0 : Fin 5) : Int) < ((⟨5, ![A, B, C, D, K]⟩ : Shape).size (0 : Fin 5) : Int)
        rw [hs0, hw0, hsz0]; omega
      | ⟨1, _⟩ =>
        show 0 ≤ (pointScatterDims A B C D K E wf).start (ix2 e k) idx (1 : Fin 5) + ((pointScatterDims A B C D K E wf).window (ix2 e k) (1 : Fin 5) : Int) ∧
          (pointScatterDims A B C D K E wf).start (ix2 e k) idx (1 : Fin 5) + ((pointScatterDims A B C D K E wf).window (ix2 e k) (1 : Fin 5) : Int) < ((⟨5, ![A, B, C, D, K]⟩ : Shape).size (1 : Fin 5) : Int)
        rw [hs1, hw1, hsz1]; omega
      | ⟨2, _⟩ =>
        show 0 ≤ (pointScatterDims A B C D K E wf).start (ix2 e k) idx (2 : Fin 5) + ((pointScatterDims A B C D K E wf).window (ix2 e k) (2 : Fin 5) : Int) ∧
          (pointScatterDims A B C D K E wf).start (ix2 e k) idx (2 : Fin 5) + ((pointScatterDims A B C D K E wf).window (ix2 e k) (2 : Fin 5) : Int) < ((⟨5, ![A, B, C, D, K]⟩ : Shape).size (2 : Fin 5) : Int)
        rw [hs2, hw2, hsz2]; omega
      | ⟨3, _⟩ =>
        show 0 ≤ (pointScatterDims A B C D K E wf).start (ix2 e k) idx (3 : Fin 5) + ((pointScatterDims A B C D K E wf).window (ix2 e k) (3 : Fin 5) : Int) ∧
          (pointScatterDims A B C D K E wf).start (ix2 e k) idx (3 : Fin 5) + ((pointScatterDims A B C D K E wf).window (ix2 e k) (3 : Fin 5) : Int) < ((⟨5, ![A, B, C, D, K]⟩ : Shape).size (3 : Fin 5) : Int)
        rw [hs3, hw3, hsz3]; omega
      | ⟨4, _⟩ =>
        show 0 ≤ (pointScatterDims A B C D K E wf).start (ix2 e k) idx (4 : Fin 5) + ((pointScatterDims A B C D K E wf).window (ix2 e k) (4 : Fin 5) : Int) ∧
          (pointScatterDims A B C D K E wf).start (ix2 e k) idx (4 : Fin 5) + ((pointScatterDims A B C D K E wf).window (ix2 e k) (4 : Fin 5) : Int) < ((⟨5, ![A, B, C, D, K]⟩ : Shape).size (4 : Fin 5) : Int)
        rw [hs4, hw4, hsz4]; omega
    rw [dif_pos hall, dif_pos h]
    simp only [Option.map_some]
    congr 1
    funext a
    refine Fin.ext ?_
    match a with
    | ⟨0, _⟩ =>
      show ((pointScatterDims A B C D K E wf).start (ix2 e k) idx (0 : Fin 5) + ((pointScatterDims A B C D K E wf).window (ix2 e k) (0 : Fin 5) : Int)).toNat = (idx (ix2 e (0 : Fin 4))).toInt.toNat
      rw [hs0, hw0]; simp
    | ⟨1, _⟩ =>
      show ((pointScatterDims A B C D K E wf).start (ix2 e k) idx (1 : Fin 5) + ((pointScatterDims A B C D K E wf).window (ix2 e k) (1 : Fin 5) : Int)).toNat = (idx (ix2 e (1 : Fin 4))).toInt.toNat
      rw [hs1, hw1]; simp
    | ⟨2, _⟩ =>
      show ((pointScatterDims A B C D K E wf).start (ix2 e k) idx (2 : Fin 5) + ((pointScatterDims A B C D K E wf).window (ix2 e k) (2 : Fin 5) : Int)).toNat = (idx (ix2 e (2 : Fin 4))).toInt.toNat
      rw [hs2, hw2]; simp
    | ⟨3, _⟩ =>
      show ((pointScatterDims A B C D K E wf).start (ix2 e k) idx (3 : Fin 5) + ((pointScatterDims A B C D K E wf).window (ix2 e k) (3 : Fin 5) : Int)).toNat = (idx (ix2 e (3 : Fin 4))).toInt.toNat
      rw [hs3, hw3]; simp
    | ⟨4, _⟩ =>
      show ((pointScatterDims A B C D K E wf).start (ix2 e k) idx (4 : Fin 5) + ((pointScatterDims A B C D K E wf).window (ix2 e k) (4 : Fin 5) : Int)).toNat = k.val
      rw [hs4, hw4]; simp
  · have hnall : ¬ ∀ a : Fin 5, 0 ≤ (pointScatterDims A B C D K E wf).start (ix2 e k) idx a + ((pointScatterDims A B C D K E wf).window (ix2 e k) a : Int) ∧
        (pointScatterDims A B C D K E wf).start (ix2 e k) idx a + ((pointScatterDims A B C D K E wf).window (ix2 e k) a : Int) < ((⟨5, ![A, B, C, D, K]⟩ : Shape).size a : Int) := by
      intro hall
      have h0 := hall (0 : Fin 5)
      have h1 := hall (1 : Fin 5)
      have h2 := hall (2 : Fin 5)
      have h3 := hall (3 : Fin 5)
      rw [hs0, hw0, hsz0] at h0
      rw [hs1, hw1, hsz1] at h1
      rw [hs2, hw2, hsz2] at h2
      rw [hs3, hw3, hsz3] at h3
      apply h
      omega
    rw [dif_neg hnall, dif_neg h]
    rfl

/-- Two rank-5 indices given by coordinates are equal exactly when the coordinates are. -/
theorem ix5_eq_ix5 {n0 n1 n2 n3 n4 : Nat} (a a' : Fin n0) (b b' : Fin n1) (c c' : Fin n2) (d d' : Fin n3) (k k' : Fin n4) :
    ix5 a b c d k = ix5 a' b' c' d' k' ↔ a = a' ∧ b = b' ∧ c = c' ∧ d = d' ∧ k = k' := by
  constructor
  · intro h; exact ⟨congrFun h 0, congrFun h 1, congrFun h 2, congrFun h 3, congrFun h 4⟩
  · rintro ⟨rfl, rfl, rfl, rfl, rfl⟩; rfl

/-- THE ACCUMULATING SCATTER READ AT `(a, b, c, d, k)`: the table's element plus the updates' column-`k` elements at the
    positions whose point is `(a, b, c, d)`. -/
theorem hostScatterAdd_point_apply (x : (⟨5, ![A, B, C, D, K]⟩ : Shape).Idx → EReal) (idx : IVec ⟨2, ![E, 4]⟩ w)
    (upd : (⟨2, ![E, K]⟩ : Shape).Idx → EReal) (a : Fin A) (b : Fin B) (c : Fin C) (d : Fin D) (k : Fin K) :
    Ideal.hostScatterAdd (pointScatterDims A B C D K E wf) x idx upd (ix5 a b c d k)
      = x (ix5 a b c d k) + ∑ e ∈ Finset.univ.filter (fun e : Fin E => pointDst A B C D idx e = some (a, b, c, d)), upd (ix2 e k) := by
  unfold Ideal.hostScatterAdd
  congr 1
  rw [Finset.sum_filter, sum_idx2, Finset.sum_filter]
  refine Finset.sum_congr rfl fun e _ => ?_
  have key : ∀ k' : Fin K, ((pointScatterDims A B C D K E wf).resultIdx? (ix2 e k') idx = some (ix5 a b c d k)) ↔ (pointDst A B C D idx e = some (a, b, c, d) ∧ k' = k) := by
    intro k'
    rw [pointScatter_resultIdx]
    cases pointDst A B C D idx e with
    | none => simp
    | some q =>
      obtain ⟨q0, q1, q2, q3⟩ := q
      simp only [Option.map_some, Option.some.injEq, Prod.mk.injEq]
      rw [ix5_eq_ix5]
      tauto
  simp only [key]
  by_cases hr : pointDst A B C D idx e = some (a, b, c, d)
  · simp only [hr, true_and, Finset.sum_ite_eq', Finset.mem_univ, if_true]
  · simp only [hr, false_and, if_false, Finset.sum_const_zero]

end PointScatter

end
-- ==== Proof.RefValTable.lean ====
/-
  The reference's table of row coordinates, column by column, and the index array of the final accumulation: the same
  four columns sliced back out, each passed through the negative-index wrap (the identity on a coordinate) and put
  side by side again.
-/
import proofs.«150033_g82085414961357_cont_sun_m_845_2_alg».proof.Proof.RefValValid
import proofs.«150033_g82085414961357_cont_sun_m_845_2_alg».proof.Proof.LibPointScatter

noncomputable section

namespace Cert.ReferenceIdeal.RefValue

open Cert.ReferenceIdeal Cert.ReferenceIdeal.Gen Cert.ReferenceIdeal.RefTerm Idealize.ShloMosaic Idealize.ShloMosaic.ValueIdx

/-- Four `[N, 1]` columns side by side, read at `(j, k)`: column `k` at `(j, 0)`. -/
theorem concat_cols {α : Type} (c0 c1 c2 c3 : S32768x1.Idx → α) (j : Fin 32768) :
    concatenate S32768x4 1 [⟨S32768x1, c0⟩, ⟨S32768x1, c1⟩, ⟨S32768x1, c2⟩, ⟨S32768x1, c3⟩] concatenates_S32768x1_S32768x1_S32768x1_S32768x1_S32768x4_d1 (ix2 j (0 : Fin 4)) = c0 (ix2 j (0 : Fin 1))
    ∧ concatenate S32768x4 1 [⟨S32768x1, c0⟩, ⟨S32768x1, c1⟩, ⟨S32768x1, c2⟩, ⟨S32768x1, c3⟩] concatenates_S32768x1_S32768x1_S32768x1_S32768x1_S32768x4_d1 (ix2 j (1 : Fin 4)) = c1 (ix2 j (0 : Fin 1))
    ∧ concatenate S32768x4 1 [⟨S32768x1, c0⟩, ⟨S32768x1, c1⟩, ⟨S32768x1, c2⟩, ⟨S32768x1, c3⟩] concatenates_S32768x1_S32768x1_S32768x1_S32768x1_S32768x4_d1 (ix2 j (2 : Fin 4)) = c2 (ix2 j (0 : Fin 1))
    ∧ concatenate S32768x4 1 [⟨S32768x1, c0⟩, ⟨S32768x1, c1⟩, ⟨S32768x1, c2⟩, ⟨S32768x1, c3⟩] concatenates_S32768x1_S32768x1_S32768x1_S32768x1_S32768x4_d1 (ix2 j (3 : Fin 4)) = c3 (ix2 j (0 : Fin 1)) := by
  refine ⟨?_, ?_, ?_, ?_⟩
  · exact concatenate_apply_piece (t := S32768x4) (1 : Fin 2) [⟨S32768x1, c0⟩, ⟨S32768x1, c1⟩, ⟨S32768x1, c2⟩, ⟨S32768x1, c3⟩] concatenates_S32768x1_S32768x1_S32768x1_S32768x1_S32768x4_d1 (ix2 j (0 : Fin 4)) 0 (by simp) S32768x1 c0 rfl rfl 0 rfl
      (ix2 j (0 : Fin 1)) (fun b hb => by match b with | ⟨0, _⟩ => rfl | ⟨1, _⟩ => exact absurd rfl hb) rfl
  · exact concatenate_apply_piece (t := S32768x4) (1 : Fin 2) [⟨S32768x1, c0⟩, ⟨S32768x1, c1⟩, ⟨S32768x1, c2⟩, ⟨S32768x1, c3⟩] concatenates_S32768x1_S32768x1_S32768x1_S32768x1_S32768x4_d1 (ix2 j (1 : Fin 4)) 1 (by simp) S32768x1 c1 rfl rfl 1 rfl
      (ix2 j (0 : Fin 1)) (fun b hb => by match b with | ⟨0, _⟩ => rfl | ⟨1, _⟩ => exact absurd rfl hb) rfl
  · exact concatenate_apply_piece (t := S32768x4) (1 : Fin 2) [⟨S32768x1, c0⟩, ⟨S32768x1, c1⟩, ⟨S32768x1, c2⟩, ⟨S32768x1, c3⟩] concatenates_S32768x1_S32768x1_S32768x1_S32768x1_S32768x4_d1 (ix2 j (2 : Fin 4)) 2 (by simp) S32768x1 c2 rfl rfl 2 rfl
      (ix2 j (0 : Fin 1)) (fun b hb => by match b with | ⟨0, _⟩ => rfl | ⟨1, _⟩ => exact absurd rfl hb) rfl
  · exact concatenate_apply_piece (t := S32768x4) (1 : Fin 2) [⟨S32768x1, c0⟩, ⟨S32768x1, c1⟩, ⟨S32768x1, c2⟩, ⟨S32768x1, c3⟩] concatenates_S32768x1_S32768x1_S32768x1_S32768x1_S32768x4_d1 (ix2 j (3 : Fin 4)) 3 (by simp) S32768x1 c3 rfl rfl 3 rfl
      (ix2 j (0 : Fin 1)) (fun b hb => by match b with | ⟨0, _⟩ => rfl | ⟨1, _⟩ => exact absurd rfl hb) rfl

/-- A vector as an `[N, 1]` column, read at `(j, 0)`. -/
theorem col_apply {α : Type} (x : S32768.Idx → α) (j : Fin 32768) :
    broadcastInDim S32768x1 ![0] bcast_S32768_S32768x1_0 x (ix2 j (0 : Fin 1)) = x (ix1 j) :=
  broadcastInDim_apply ![0] bcast_S32768_S32768x1_0 x (ix2 j (0 : Fin 1)) (ix1 j) (by intro a; match a with | ⟨0, _⟩ => rfl)

/-- The table of row coordinates, column by column. -/
theorem v35_cols (a1 : IVec S1x32x32x32 32) (j : Fin 32768) :
    t_main_v35 a1 (ix2 j (0 : Fin 4)) = t_main_v27 a1 (ix1 j) ∧ t_main_v35 a1 (ix2 j (1 : Fin 4)) = t_main_v28 a1 (ix1 j)
    ∧ t_main_v35 a1 (ix2 j (2 : Fin 4)) = t_main_v29 a1 (ix1 j) ∧ t_main_v35 a1 (ix2 j (3 : Fin 4)) = t_main_v30 a1 (ix1 j) := by
  have h := concat_cols (t_main_v31 a1) (t_main_v32 a1) (t_main_v33 a1) (t_main_v34 a1) j
  unfold t_main_v35
  refine ⟨h.1.trans ?_, h.2.1.trans ?_, h.2.2.1.trans ?_, h.2.2.2.trans ?_⟩
  · unfold t_main_v31; exact col_apply _ j
  · unfold t_main_v32; exact col_apply _ j
  · unfold t_main_v33; exact col_apply _ j
  · unfold t_main_v34; exact col_apply _ j

/-! ## The coordinate words are small -/

theorem v27_small (a1 : IVec S1x32x32x32 32) (j : Fin 32768) : 2 * (t_main_v27 a1 (ix1 j)).toNat < 2 ^ 32 := by
  rw [rowB_toNat]; norm_num
theorem v28_small (a1 : IVec S1x32x32x32 32) (j : Fin 32768) : 2 * (t_main_v28 a1 (ix1 j)).toNat < 2 ^ 32 := by
  have := Nat.mod_lt (rowPos a1 j.val / 1024) (by norm_num : 0 < 32); rw [rowZ_toNat]; omega
theorem v29_small (a1 : IVec S1x32x32x32 32) (j : Fin 32768) : 2 * (t_main_v29 a1 (ix1 j)).toNat < 2 ^ 32 := by
  have := Nat.mod_lt (rowPos a1 j.val / 32) (by norm_num : 0 < 32); rw [rowY_toNat]; omega
theorem v30_small (a1 : IVec S1x32x32x32 32) (j : Fin 32768) : 2 * (t_main_v30 a1 (ix1 j)).toNat < 2 ^ 32 := by
  have := Nat.mod_lt (rowPos a1 j.val) (by norm_num : 0 < 32); rw [rowX_toNat]; omega

/-! ## The accumulation's index array -/

theorem v111_eq (a1 : IVec S1x32x32x32 32) (j : Fin 32768) : t_main_v111 a1 (ix1 j) = t_main_v27 a1 (ix1 j) := by
  unfold t_main_v111 t_main_v110
  rw [shapeCast_apply _ shapeCasts_S32768x1_S32768 (ix1 j) (ix2 j (0 : Fin 1)) (by rw [Shape.rowMajor_val_two, Shape.rowMajor_val_one]; simp)]
  show extractStridedSlice S32768x1 ![0, 0] (t_main_v35 a1) slices_S32768x4_S32768x1_0_0 (ix2 j (0 : Fin 1)) = _
  rw [extractStridedSlice_apply ![0, 0] (t_main_v35 a1) slices_S32768x4_S32768x1_0_0 (ix2 j (0 : Fin 1)) (ix2 j (0 : Fin 4))
    (by intro a; match a with | ⟨0, _⟩ => simp | ⟨1, _⟩ => simp)]
  exact (v35_cols a1 j).1

theorem v113_eq (a1 : IVec S1x32x32x32 32) (j : Fin 32768) : t_main_v113 a1 (ix1 j) = t_main_v28 a1 (ix1 j) := by
  unfold t_main_v113 t_main_v112
  rw [shapeCast_apply _ shapeCasts_S32768x1_S32768 (ix1 j) (ix2 j (0 : Fin 1)) (by rw [Shape.rowMajor_val_two, Shape.rowMajor_val_one]; simp)]
  show extractStridedSlice S32768x1 ![0, 1] (t_main_v35 a1) slices_S32768x4_S32768x1_0_1 (ix2 j (0 : Fin 1)) = _
  rw [extractStridedSlice_apply ![0, 1] (t_main_v35 a1) slices_S32768x4_S32768x1_0_1 (ix2 j (0 : Fin 1)) (ix2 j (1 : Fin 4))
    (by intro a; match a with | ⟨0, _⟩ => simp | ⟨1, _⟩ => simp)]
  exact (v35_cols a1 j).2.1

theorem v115_eq (a1 : IVec S1x32x32x32 32) (j : Fin 32768) : t_main_v115 a1 (ix1 j) = t_main_v29 a1 (ix1 j) := by
  unfold t_main_v115 t_main_v114
  rw [shapeCast_apply _ shapeCasts_S32768x1_S32768 (ix1 j) (ix2 j (0 : Fin 1)) (by rw [Shape.rowMajor_val_two, Shape.rowMajor_val_one]; simp)]
  show extractStridedSlice S32768x1 ![0, 2] (t_main_v35 a1) slices_S32768x4_S32768x1_0_2 (ix2 j (0 : Fin 1)) = _
  rw [extractStridedSlice_apply ![0, 2] (t_main_v35 a1) slices_S32768x4_S32768x1_0_2 (ix2 j (0 : Fin 1)) (ix2 j (2 : Fin 4))
    (by intro a; match a with | ⟨0, _⟩ => simp | ⟨1, _⟩ => simp)]
  exact (v35_cols a1 j).2.2.1

theorem v117_eq (a1 : IVec S1x32x32x32 32) (j : Fin 32768) : t_main_v117 a1 (ix1 j) = t_main_v30 a1 (ix1 j) := by
  unfold t_main_v117 t_main_v116
  rw [shapeCast_apply _ shapeCasts_S32768x1_S32768 (ix1 j) (ix2 j (0 : Fin 1)) (by rw [Shape.rowMajor_val_two, Shape.rowMajor_val_one]; simp)]
  show extractStridedSlice S32768x1 ![0, 3] (t_main_v35 a1) slices_S32768x4_S32768x1_0_3 (ix2 j (0 : Fin 1)) = _
  rw [extractStridedSlice_apply ![0, 3] (t_main_v35 a1) slices_S32768x4_S32768x1_0_3 (ix2 j (0 : Fin 1)) (ix2 j (3 : Fin 4))
    (by intro a; match a with | ⟨0, _⟩ => simp | ⟨1, _⟩ => simp)]
  exact (v35_cols a1 j).2.2.2

theorem v122_eq (a1 : IVec S1x32x32x32 32) (j : Fin 32768) : t_main_v122 a1 (ix1 j) = t_main_v111 a1 (ix1 j) := by
  unfold t_main_v122 t_main_v119 t_main_v121 t_main_v118 t_main_v120
  show Scalar.select (IntOp.cmpi .slt (t_main_v111 a1 (ix1 j)) (broadcastInDim S32768 ![] bcast_S_S32768 t_main_c_34 (ix1 j)))
    (IntOp.addi (t_main_v111 a1 (ix1 j)) (broadcastInDim S32768 ![] bcast_S_S32768 t_main_c_35 (ix1 j))) (t_main_v111 a1 (ix1 j)) = _
  rw [broadcastInDim_scalar_apply]
  exact NonzeroWords.wrap_of_small _ _ (by rw [v111_eq]; exact v27_small a1 j)

theorem v127_eq (a1 : IVec S1x32x32x32 32) (j : Fin 32768) : t_main_v127 a1 (ix1 j) = t_main_v113 a1 (ix1 j) := by
  unfold t_main_v127 t_main_v124 t_main_v126 t_main_v123 t_main_v125
  show Scalar.select (IntOp.cmpi .slt (t_main_v113 a1 (ix1 j)) (broadcastInDim S32768 ![] bcast_S_S32768 t_main_c_36 (ix1 j)))
    (IntOp.addi (t_main_v113 a1 (ix1 j)) (broadcastInDim S32768 ![] bcast_S_S32768 t_main_c_37 (ix1 j))) (t_main_v113 a1 (ix1 j)) = _
  rw [broadcastInDim_scalar_apply]
  exact NonzeroWords.wrap_of_small _ _ (by rw [v113_eq]; exact v28_small a1 j)

theorem v132_eq (a1 : IVec S1x32x32x32 32) (j : Fin 32768) : t_main_v132 a1 (ix1 j) = t_main_v115 a1 (ix1 j) := by
  unfold t_main_v132 t_main_v129 t_main_v131 t_main_v128 t_main_v130
  show Scalar.select (IntOp.cmpi .slt (t_main_v115 a1 (ix1 j)) (broadcastInDim S32768 ![] bcast_S_S32768 t_main_c_38 (ix1 j)))
    (IntOp.addi (t_main_v115 a1 (ix1 j)) (broadcastInDim S32768 ![] bcast_S_S32768 t_main_c_39 (ix1 j))) (t_main_v115 a1 (ix1 j)) = _
  rw [broadcastInDim_scalar_apply]
  exact NonzeroWords.wrap_of_small _ _ (by rw [v115_eq]; exact v29_small a1 j)

theorem v137_eq (a1 : IVec S1x32x32x32 32) (j : Fin 32768) : t_main_v137 a1 (ix1 j) = t_main_v117 a1 (ix1 j) := by
  unfold t_main_v137 t_main_v134 t_main_v136 t_main_v133 t_main_v135
  show Scalar.select (IntOp.cmpi .slt (t_main_v117 a1 (ix1 j)) (broadcastInDim S32768 ![] bcast_S_S32768 t_main_c_40 (ix1 j)))
    (IntOp.addi (t_main_v117 a1 (ix1 j)) (broadcastInDim S32768 ![] bcast_S_S32768 t_main_c_41 (ix1 j))) (t_main_v117 a1 (ix1 j)) = _
  rw [broadcastInDim_scalar_apply]
  exact NonzeroWords.wrap_of_small _ _ (by rw [v117_eq]; exact v30_small a1 j)

/-- The accumulation's index array, column by column: the row's coordinates again. -/
theorem v142_cols (a1 : IVec S1x32x32x32 32) (j : Fin 32768) :
    t_main_v142 a1 (ix2 j (0 : Fin 4)) = t_main_v27 a1 (ix1 j) ∧ t_main_v142 a1 (ix2 j (1 : Fin 4)) = t_main_v28 a1 (ix1 j)
    ∧ t_main_v142 a1 (ix2 j (2 : Fin 4)) = t_main_v29 a1 (ix1 j) ∧ t_main_v142 a1 (ix2 j (3 : Fin 4)) = t_main_v30 a1 (ix1 j) := by
  have h := concat_cols (t_main_v138 a1) (t_main_v139 a1) (t_main_v140 a1) (t_main_v141 a1) j
  unfold t_main_v142
  refine ⟨h.1.trans ?_, h.2.1.trans ?_, h.2.2.1.trans ?_, h.2.2.2.trans ?_⟩
  · unfold t_main_v138; rw [col_apply, v122_eq, v111_eq]
  · unfold t_main_v139; rw [col_apply, v127_eq, v113_eq]
  · unfold t_main_v140; rw [col_apply, v132_eq, v115_eq]
  · unfold t_main_v141; rw [col_apply, v137_eq, v117_eq]

end Cert.ReferenceIdeal.RefValue

end
-- ==== Proof.RefValNeigh.lean ====
/-
  The reference's neighbour arithmetic.  Row `j`'s three coordinates, each shifted by tap `kk`'s offset `-1, 0, 1` on
  that axis, as words read signed; the test that all three shifted coordinates lie in `0 … 31` (a signed `≥ 0`, a
  signed `< 32`, their conjunction, folded over the three axes); and, where the test holds, that clipping into `0 … 31`,
  slicing an axis out and the negative-index wrap all leave the shifted coordinate as it is.
-/
import proofs.«150033_g82085414961357_cont_sun_m_845_2_alg».proof.Proof.RefValTable

noncomputable section

namespace Cert.ReferenceIdeal.RefValue

open Cert.ReferenceIdeal Cert.ReferenceIdeal.Gen Cert.ReferenceIdeal.RefTerm Idealize.ShloMosaic Idealize.ShloMosaic.ValueIdx

/-! ## Words -/

/-- A sum of words whose signed values add up inside the signed range has that sum as its signed value. -/
theorem toInt_add_small (x y : BitVec 32) (h1 : -(2147483648 : ℤ) ≤ x.toInt + y.toInt) (h2 : x.toInt + y.toInt < 2147483648) :
    (x + y).toInt = x.toInt + y.toInt := by
  rw [BitVec.toInt_add]
  unfold Int.bmod
  norm_num
  omega

/-- The three rows of the table of tap offsets, read signed. -/
theorem lit_row0 : ∀ kk : Fin 27, (lit0 ⟨kk.val, by omega⟩).toInt = (kk.val / 9 : ℤ) - 1 := by decide
theorem lit_row1 : ∀ kk : Fin 27, (lit0 ⟨27 + kk.val, by omega⟩).toInt = (kk.val / 3 % 3 : ℤ) - 1 := by decide
theorem lit_row2 : ∀ kk : Fin 27, (lit0 ⟨54 + kk.val, by omega⟩).toInt = (kk.val % 3 : ℤ) - 1 := by decide

/-- The offset of tap `kk` on axis `a`. -/
def offInt (a : Fin 3) (kk : Fin 27) : ℤ :=
  match a with
  | ⟨0, _⟩ => (kk.val / 9 : ℤ) - 1
  | ⟨1, _⟩ => (kk.val / 3 % 3 : ℤ) - 1
  | ⟨2, _⟩ => (kk.val % 3 : ℤ) - 1

theorem offInt_bounds (a : Fin 3) (kk : Fin 27) : -1 ≤ offInt a kk ∧ offInt a kk ≤ 1 := by
  have hk := kk.isLt
  match a with
  | ⟨0, _⟩ => show -1 ≤ (kk.val / 9 : ℤ) - 1 ∧ (kk.val / 9 : ℤ) - 1 ≤ 1; omega
  | ⟨1, _⟩ => show -1 ≤ (kk.val / 3 % 3 : ℤ) - 1 ∧ (kk.val / 3 % 3 : ℤ) - 1 ≤ 1; omega
  | ⟨2, _⟩ => show -1 ≤ (kk.val % 3 : ℤ) - 1 ∧ (kk.val % 3 : ℤ) - 1 ≤ 1; omega

theorem off_toInt (a : Fin 3) (kk : Fin 27) : (lit0 (S3x27.rowMajor (ix2 a kk))).toInt = offInt a kk := by
  match a with
  | ⟨0, _⟩ =>
    have e : S3x27.rowMajor (ix2 (⟨0, by omega⟩ : Fin 3) kk) = (⟨kk.val, by omega⟩ : Fin 81) :=
      Fin.ext (by rw [Shape.rowMajor_val_two]; simp)
    rw [e]; exact lit_row0 kk
  | ⟨1, _⟩ =>
    have e : S3x27.rowMajor (ix2 (⟨1, by omega⟩ : Fin 3) kk) = (⟨27 + kk.val, by omega⟩ : Fin 81) :=
      Fin.ext (by rw [Shape.rowMajor_val_two]; simp)
    rw [e]; exact lit_row1 kk
  | ⟨2, _⟩ =>
    have e : S3x27.rowMajor (ix2 (⟨2, by omega⟩ : Fin 3) kk) = (⟨54 + kk.val, by omega⟩ : Fin 81) :=
      Fin.ext (by rw [Shape.rowMajor_val_two]; simp)
    rw [e]; exact lit_row2 kk

/-! ## The rows' coordinates -/

/-- Row `j`'s coordinate word on axis `a`. -/
def coordW (a1 : IVec S1x32x32x32 32) (j : Fin 32768) (a : Fin 3) : BitVec 32 :=
  match a with
  | ⟨0, _⟩ => t_main_v28 a1 (ix1 j)
  | ⟨1, _⟩ => t_main_v29 a1 (ix1 j)
  | ⟨2, _⟩ => t_main_v30 a1 (ix1 j)

/-- …and its value. -/
def coordN (a1 : IVec S1x32x32x32 32) (j : ℕ) (a : Fin 3) : ℕ :=
  match a with
  | ⟨0, _⟩ => rowPos a1 j / 1024 % 32
  | ⟨1, _⟩ => rowPos a1 j / 32 % 32
  | ⟨2, _⟩ => rowPos a1 j % 32

theorem coordN_lt (a1 : IVec S1x32x32x32 32) (j : ℕ) (a : Fin 3) : coordN a1 j a < 32 := by
  match a with
  | ⟨0, _⟩ => exact Nat.mod_lt _ (by norm_num)
  | ⟨1, _⟩ => exact Nat.mod_lt _ (by norm_num)
  | ⟨2, _⟩ => exact Nat.mod_lt _ (by norm_num)

theorem coordW_toNat (a1 : IVec S1x32x32x32 32) (j : Fin 32768) (a : Fin 3) : (coordW a1 j a).toNat = coordN a1 j.val a := by
  match a with
  | ⟨0, _⟩ => exact rowZ_toNat a1 j
  | ⟨1, _⟩ => exact rowY_toNat a1 j
  | ⟨2, _⟩ => exact rowX_toNat a1 j

theorem coordW_toInt (a1 : IVec S1x32x32x32 32) (j : Fin 32768) (a : Fin 3) : (coordW a1 j a).toInt = (coordN a1 j.val a : ℤ) := by
  have := coordN_lt a1 j.val a
  rw [toInt_small _ (by rw [coordW_toNat]; omega), coordW_toNat]

/-- The three coordinate columns of the table, sliced out. -/
theorem v46_eq (a1 : IVec S1x32x32x32 32) (j : Fin 32768) (a : Fin 3) : t_main_v46 a1 (ix2 j a) = coordW a1 j a := by
  unfold t_main_v46
  show extractStridedSlice S32768x3 ![0, 1] (t_main_v35 a1) slices_S32768x4_S32768x3_0_1 (ix2 j a) = _
  rw [extractStridedSlice_apply ![0, 1] (t_main_v35 a1) slices_S32768x4_S32768x3_0_1 (ix2 j a) (ix2 j (⟨a.val + 1, by omega⟩ : Fin 4))
    (by intro b; match b with
      | ⟨0, _⟩ => simp
      | ⟨1, _⟩ => show a.val + 1 = 1 + a.val; omega)]
  match a with
  | ⟨0, _⟩ => exact (v35_cols a1 j).2.1
  | ⟨1, _⟩ => exact (v35_cols a1 j).2.2.1
  | ⟨2, _⟩ => exact (v35_cols a1 j).2.2.2

/-- The shifted coordinate: row `j`'s coordinate on axis `a` plus tap `kk`'s offset there. -/
theorem v51_eq (a1 : IVec S1x32x32x32 32) (j : Fin 32768) (a : Fin 3) (kk : Fin 27) :
    t_main_v51 a1 (ix3 j a kk) = coordW a1 j a + lit0 (S3x27.rowMajor (ix2 a kk)) := by
  unfold t_main_v51 t_main_v49 t_main_v50 t_main_v48 t_main_v47 t_main_c
  show IntOp.addi
      (broadcastInDim S32768x3x27 ![0, 1, 2] bcast_S32768x3x1_S32768x3x27_0_1_2
        (broadcastInDim S32768x3x1 ![0, 1] bcast_S32768x3_S32768x3x1_0_1 (t_main_v46 a1)) (ix3 j a kk))
      (broadcastInDim S32768x3x27 ![0, 1, 2] bcast_S1x3x27_S32768x3x27_0_1_2
        (broadcastInDim S1x3x27 ![1, 2] bcast_S3x27_S1x3x27_1_2 (fun i => lit0 (S3x27.rowMajor i))) (ix3 j a kk)) = _
  rw [broadcastInDim_apply ![0, 1, 2] bcast_S32768x3x1_S32768x3x27_0_1_2 _ (ix3 j a kk) (ix3 j a (0 : Fin 1))
      (by intro b; match b with | ⟨0, _⟩ => rfl | ⟨1, _⟩ => rfl | ⟨2, _⟩ => rfl),
    broadcastInDim_apply ![0, 1] bcast_S32768x3_S32768x3x1_0_1 _ (ix3 j a (0 : Fin 1)) (ix2 j a)
      (by intro b; match b with | ⟨0, _⟩ => rfl | ⟨1, _⟩ => rfl),
    broadcastInDim_apply ![0, 1, 2] bcast_S1x3x27_S32768x3x27_0_1_2 _ (ix3 j a kk) (ix3 (0 : Fin 1) a kk)
      (by intro b; match b with | ⟨0, _⟩ => rfl | ⟨1, _⟩ => rfl | ⟨2, _⟩ => rfl),
    broadcastInDim_apply ![1, 2] bcast_S3x27_S1x3x27_1_2 _ (ix3 (0 : Fin 1) a kk) (ix2 a kk)
      (by intro b; match b with | ⟨0, _⟩ => rfl | ⟨1, _⟩ => rfl),
    v46_eq]
  rfl

/-- Its signed value. -/
theorem v51_toInt (a1 : IVec S1x32x32x32 32) (j : Fin 32768) (a : Fin 3) (kk : Fin 27) :
    (t_main_v51 a1 (ix3 j a kk)).toInt = (coordN a1 j.val a : ℤ) + offInt a kk := by
  have hc := coordN_lt a1 j.val a
  have ho := offInt_bounds a kk
  rw [v51_eq, toInt_add_small _ _ (by rw [coordW_toInt, off_toInt]; omega) (by rw [coordW_toInt, off_toInt]; omega),
    coordW_toInt, off_toInt]

/-! ## The in-bounds test -/

/-- A word read signed lies in `0 … 31`. -/
def sIn (x : BitVec 32) : Prop := 0 ≤ x.toInt ∧ x.toInt < 32

instance (x : BitVec 32) : Decidable (sIn x) := by unfold sIn; infer_instance

/-- The conjunction of the signed tests `x ≥ 0` and `x < 32`, as a bit. -/
theorem inb_word (x : BitVec 32) : IntOp.andi (IntOp.cmpi .sge x 0#32) (IntOp.cmpi .slt x 32#32) = if sIn x then 1#1 else 0#1 := by
  have h0 : (0#32 : BitVec 32).toInt = 0 := by decide
  have h32 : (32#32 : BitVec 32).toInt = 32 := by decide
  have e1 : (0#32 : BitVec 32).sle x = decide (0 ≤ x.toInt) := by
    have : (0#32 : BitVec 32).sle x = decide ((0#32 : BitVec 32).toInt ≤ x.toInt) := rfl
    rw [this, h0]
  have e2 : x.slt 32#32 = decide (x.toInt < 32) := by
    have : x.slt 32#32 = decide (x.toInt < (32#32 : BitVec 32).toInt) := rfl
    rw [this, h32]
  show BitVec.ofBool ((0#32 : BitVec 32).sle x) &&& BitVec.ofBool (x.slt 32#32) = _
  rw [e1, e2]
  by_cases h1 : 0 ≤ x.toInt <;> by_cases h2 : x.toInt < 32 <;> simp [sIn, h1, h2]

/-- A word in `0 … 31` is small. -/
theorem small_of_sIn (x : BitVec 32) (h : sIn x) : 2 * x.toNat < 2 ^ 32 := by
  by_contra hc
  have := BitVec.toInt_eq_toNat_cond x
  rw [if_neg hc] at this
  have hx := x.isLt
  unfold sIn at h
  omega

theorem toNat_of_sIn (x : BitVec 32) (h : sIn x) : (x.toNat : ℤ) = x.toInt := (toInt_small x (small_of_sIn x h)).symm

/-- The test on one axis. -/
theorem v57_eq (a1 : IVec S1x32x32x32 32) (j : Fin 32768) (a : Fin 3) (kk : Fin 27) :
    t_main_v57 a1 (ix3 j a kk) = if sIn (t_main_v51 a1 (ix3 j a kk)) then 1#1 else 0#1 := by
  unfold t_main_v57 t_main_v53 t_main_v56 t_main_v52 t_main_v55 t_main_v54 t_main_c_22 t_main_c_0
  show IntOp.andi (IntOp.cmpi .sge (t_main_v51 a1 (ix3 j a kk)) (broadcastInDim S32768x3x27 ![] bcast_S_S32768x3x27 (constantI S_ 32 0#32) (ix3 j a kk)))
      (IntOp.cmpi .slt (t_main_v51 a1 (ix3 j a kk))
        (broadcastInDim S32768x3x27 ![0, 1, 2] bcast_S1x3x1_S32768x3x27_0_1_2 (broadcastInDim S1x3x1 ![1] bcast_S3_S1x3x1_1 (constantI S3 32 32#32)) (ix3 j a kk))) = _
  rw [broadcastInDim_scalar_apply,
    broadcastInDim_apply ![0, 1, 2] bcast_S1x3x1_S32768x3x27_0_1_2 _ (ix3 j a kk) (ix3 (0 : Fin 1) a (0 : Fin 1))
      (by intro b; match b with | ⟨0, _⟩ => rfl | ⟨1, _⟩ => rfl | ⟨2, _⟩ => rfl),
    broadcastInDim_apply ![1] bcast_S3_S1x3x1_1 _ (ix3 (0 : Fin 1) a (0 : Fin 1)) (ix1 a) (by intro b; match b with | ⟨0, _⟩ => rfl)]
  exact inb_word _

/-- An `and`-fold of bits from `1` is `1` exactly when every bit is. -/
theorem fold_andi_eq {ι : Type} [DecidableEq ι] (s : Finset ι) (g : ι → BitVec 1) :
    s.fold IntOp.andi 1#1 g = if ∀ i ∈ s, g i = 1#1 then 1#1 else 0#1 := by
  have hb : ∀ x : BitVec 1, x = 0#1 ∨ x = 1#1 := by decide
  induction s using Finset.induction_on with
  | empty => simp
  | insert a s ha ih =>
    rw [Finset.fold_insert ha, ih]
    simp only [Finset.forall_mem_insert]
    rcases hb (g a) with h | h
    · rw [h, if_neg (show ¬ ((0#1 : BitVec 1) = 1#1 ∧ ∀ i ∈ s, g i = 1#1) from fun hh => absurd hh.1 (by decide))]
      by_cases hs : ∀ i ∈ s, g i = 1#1
      · rw [if_pos hs]; rfl
      · rw [if_neg hs]; rfl
    · rw [h]
      by_cases hs : ∀ i ∈ s, g i = 1#1
      · rw [if_pos hs, if_pos ⟨rfl, hs⟩]; rfl
      · rw [if_neg hs, if_neg (fun hh => hs hh.2)]; rfl

theorem reduces_axis1 : S32768x3x27.Reduces [1] S32768x27 := by decide

/-- The index over `(j, kk)` with coordinate `a` on the reduced axis. -/
theorem lift_eq (j : Fin 32768) (kk : Fin 27) (a : Fin (S32768x3x27.size (1 : Fin 3))) :
    reduces_axis1.lift (ix2 j kk) a = ix3 j a kk := by
  funext c
  refine Fin.ext ?_
  show reduces_axis1.liftVal (ix2 j kk) a.val c = _
  unfold Shape.Reduces.liftVal
  match c with
  | ⟨0, _⟩ => simp
  | ⟨1, _⟩ => simp
  | ⟨2, _⟩ => simp

/-- The test over the three axes. -/
theorem v58_eq (a1 : IVec S1x32x32x32 32) (j : Fin 32768) (kk : Fin 27) :
    t_main_v58 a1 (ix2 j kk) = if ∀ a : Fin 3, sIn (t_main_v51 a1 (ix3 j a kk)) then 1#1 else 0#1 := by
  unfold t_main_v58 t_main_c_23
  show Host.reduce IntOp.andi (t_main_v57 a1) (constantI S_ 1 1#1) reducesTo_S32768x3x27_S32768x27_d1 h_S_ (ix2 j kk) = _
  rw [Host.reduce_eq_fold_single IntOp.andi (t_main_v57 a1) (constantI S_ 1 1#1) reducesTo_S32768x3x27_S32768x27_d1 reduces_axis1 h_S_ (ix2 j kk)]
  show Finset.fold IntOp.andi 1#1 (t_main_v57 a1 ∘ reduces_axis1.lift (ix2 j kk)) Finset.univ = _
  rw [fold_andi_eq]
  have hiff : (∀ i ∈ (Finset.univ : Finset (Fin (S32768x3x27.size (1 : Fin 3)))), (t_main_v57 a1 ∘ reduces_axis1.lift (ix2 j kk)) i = 1#1)
      ↔ ∀ a : Fin 3, sIn (t_main_v51 a1 (ix3 j a kk)) := by
    constructor
    · intro h a
      have h3 : t_main_v57 a1 (ix3 j a kk) = 1#1 :=
        (congrArg (t_main_v57 a1) (lift_eq j kk a)).symm.trans (h a (Finset.mem_univ _))
      by_contra hn
      have h4 := (v57_eq a1 j a kk).symm.trans h3
      rw [if_neg hn] at h4
      exact absurd h4 (by decide)
    · intro h a _
      exact (congrArg (t_main_v57 a1) (lift_eq j kk a)).trans ((v57_eq a1 j a kk).trans (if_pos (h a)))
  simp only [hiff]

/-! ## Where the test holds, the clip, the slices and the wrap keep the shifted coordinate -/

theorem clip_word (v : BitVec 32) (h : sIn v) : IntOp.minsi 31#32 (IntOp.maxsi 0#32 v) = v := by
  have h0 : (0#32 : BitVec 32).toInt = 0 := by decide
  have h31 : (31#32 : BitVec 32).toInt = 31 := by decide
  unfold sIn at h
  have e1 : v.slt 0#32 = false := by
    rw [← Bool.not_eq_true]; intro hh
    have := BitVec.slt_iff_toInt_lt.1 hh; rw [h0] at this; omega
  have e2 : (31#32 : BitVec 32).slt v = false := by
    rw [← Bool.not_eq_true]; intro hh
    have := BitVec.slt_iff_toInt_lt.1 hh; rw [h31] at this; omega
  unfold IntOp.minsi IntOp.maxsi
  simp [e1, e2]

theorem v62_eq (a1 : IVec S1x32x32x32 32) (j : Fin 32768) (a : Fin 3) (kk : Fin 27) (h : sIn (t_main_v51 a1 (ix3 j a kk))) :
    t_main_v62 a1 (ix3 j a kk) = t_main_v51 a1 (ix3 j a kk) := by
  unfold t_main_v62 t_main_call15_v3 t_main_call15_v2 t_main_call15_v1 t_main_call15_v0 t_main_v61 t_main_v60 t_main_v59 t_main_c_25 t_main_c_24 t_main_c_0
  show IntOp.minsi
      (broadcastInDim S32768x3x27 ![0, 1, 2] bcast_S1x3x1_S32768x3x27_0_1_2
        (broadcastInDim S1x3x1 ![1] bcast_S3_S1x3x1_1 (subi (constantI S3 32 32#32) (broadcastInDim S3 ![] bcast_S_S3 (constantI S_ 32 1#32)))) (ix3 j a kk))
      (IntOp.maxsi (broadcastInDim S32768x3x27 ![] bcast_S_S32768x3x27 (id (constantI S_ 32 0#32)) (ix3 j a kk)) (t_main_v51 a1 (ix3 j a kk))) = _
  rw [broadcastInDim_scalar_apply,
    broadcastInDim_apply ![0, 1, 2] bcast_S1x3x1_S32768x3x27_0_1_2 _ (ix3 j a kk) (ix3 (0 : Fin 1) a (0 : Fin 1))
      (by intro b; match b with | ⟨0, _⟩ => rfl | ⟨1, _⟩ => rfl | ⟨2, _⟩ => rfl),
    broadcastInDim_apply ![1] bcast_S3_S1x3x1_1 _ (ix3 (0 : Fin 1) a (0 : Fin 1)) (ix1 a) (by intro b; match b with | ⟨0, _⟩ => rfl)]
  show IntOp.minsi (IntOp.subi 32#32 (broadcastInDim S3 ![] bcast_S_S3 (constantI S_ 32 1#32) (ix1 a))) (IntOp.maxsi 0#32 (t_main_v51 a1 (ix3 j a kk))) = _
  rw [broadcastInDim_scalar_apply]
  exact clip_word _ h

set_option maxRecDepth 100000 in
theorem v66_eq (a1 : IVec S1x32x32x32 32) (j : Fin 32768) (kk : Fin 27) : t_main_v66 a1 (ix2 j kk) = t_main_v62 a1 (ix3 j (0 : Fin 3) kk) := by
  unfold t_main_v66 t_main_v65
  rw [shapeCast_apply _ shapeCasts_S32768x1x27_S32768x27 (ix2 j kk) (ix3 j (0 : Fin 1) kk)
    (by rw [Shape.rowMajor_val_three, Shape.rowMajor_val_two]; show (j.val * 1 + 0) * 27 + kk.val = j.val * 27 + kk.val; omega)]
  show extractStridedSlice S32768x1x27 ![0, 0, 0] (t_main_v62 a1) slices_S32768x3x27_S32768x1x27_0_0_0 (ix3 j (0 : Fin 1) kk) = _
  rw [extractStridedSlice_apply ![0, 0, 0] (t_main_v62 a1) slices_S32768x3x27_S32768x1x27_0_0_0 (ix3 j (0 : Fin 1) kk) (ix3 j (0 : Fin 3) kk)
    (by intro b; match b with
      | ⟨0, _⟩ => show j.val = 0 + j.val; omega
      | ⟨1, _⟩ => show (0 : ℕ) = 0 + 0; rfl
      | ⟨2, _⟩ => show kk.val = 0 + kk.val; omega)]

set_option maxRecDepth 100000 in
theorem v68_eq (a1 : IVec S1x32x32x32 32) (j : Fin 32768) (kk : Fin 27) : t_main_v68 a1 (ix2 j kk) = t_main_v62 a1 (ix3 j (1 : Fin 3) kk) := by
  unfold t_main_v68 t_main_v67
  rw [shapeCast_apply _ shapeCasts_S32768x1x27_S32768x27 (ix2 j kk) (ix3 j (0 : Fin 1) kk)
    (by rw [Shape.rowMajor_val_three, Shape.rowMajor_val_two]; show (j.val * 1 + 0) * 27 + kk.val = j.val * 27 + kk.val; omega)]
  show extractStridedSlice S32768x1x27 ![0, 1, 0] (t_main_v62 a1) slices_S32768x3x27_S32768x1x27_0_1_0 (ix3 j (0 : Fin 1) kk) = _
  rw [extractStridedSlice_apply ![0, 1, 0] (t_main_v62 a1) slices_S32768x3x27_S32768x1x27_0_1_0 (ix3 j (0 : Fin 1) kk) (ix3 j (1 : Fin 3) kk)
    (by intro b; match b with
      | ⟨0, _⟩ => show j.val = 0 + j.val; omega
      | ⟨1, _⟩ => show (1 : ℕ) = 1 + 0; rfl
      | ⟨2, _⟩ => show kk.val = 0 + kk.val; omega)]

set_option maxRecDepth 100000 in
theorem v70_eq (a1 : IVec S1x32x32x32 32) (j : Fin 32768) (kk : Fin 27) : t_main_v70 a1 (ix2 j kk) = t_main_v62 a1 (ix3 j (2 : Fin 3) kk) := by
  unfold t_main_v70 t_main_v69
  rw [shapeCast_apply _ shapeCasts_S32768x1x27_S32768x27 (ix2 j kk) (ix3 j (0 : Fin 1) kk)
    (by rw [Shape.rowMajor_val_three, Shape.rowMajor_val_two]; show (j.val * 1 + 0) * 27 + kk.val = j.val * 27 + kk.val; omega)]
  show extractStridedSlice S32768x1x27 ![0, 2, 0] (t_main_v62 a1) slices_S32768x3x27_S32768x1x27_0_2_0 (ix3 j (0 : Fin 1) kk) = _
  rw [extractStridedSlice_apply ![0, 2, 0] (t_main_v62 a1) slices_S32768x3x27_S32768x1x27_0_2_0 (ix3 j (0 : Fin 1) kk) (ix3 j (2 : Fin 3) kk)
    (by intro b; match b with
      | ⟨0, _⟩ => show j.val = 0 + j.val; omega
      | ⟨1, _⟩ => show (2 : ℕ) = 2 + 0; rfl
      | ⟨2, _⟩ => show kk.val = 0 + kk.val; omega)]

theorem v80_eq (a1 : IVec S1x32x32x32 32) (j : Fin 32768) (kk : Fin 27) (hs : 2 * (t_main_v66 a1 (ix2 j kk)).toNat < 2 ^ 32) :
    t_main_v80 a1 (ix2 j kk) = t_main_v66 a1 (ix2 j kk) := by
  unfold t_main_v80 t_main_v77 t_main_v79 t_main_v76 t_main_v78
  show Scalar.select (IntOp.cmpi .slt (t_main_v66 a1 (ix2 j kk)) (broadcastInDim S32768x27 ![] bcast_S_S32768x27 t_main_c_28 (ix2 j kk)))
    (IntOp.addi (t_main_v66 a1 (ix2 j kk)) (broadcastInDim S32768x27 ![] bcast_S_S32768x27 t_main_c_29 (ix2 j kk))) (t_main_v66 a1 (ix2 j kk)) = _
  rw [broadcastInDim_scalar_apply]
  exact NonzeroWords.wrap_of_small _ _ hs

theorem v85_eq (a1 : IVec S1x32x32x32 32) (j : Fin 32768) (kk : Fin 27) (hs : 2 * (t_main_v68 a1 (ix2 j kk)).toNat < 2 ^ 32) :
    t_main_v85 a1 (ix2 j kk) = t_main_v68 a1 (ix2 j kk) := by
  unfold t_main_v85 t_main_v82 t_main_v84 t_main_v81 t_main_v83
  show Scalar.select (IntOp.cmpi .slt (t_main_v68 a1 (ix2 j kk)) (broadcastInDim S32768x27 ![] bcast_S_S32768x27 t_main_c_30 (ix2 j kk)))
    (IntOp.addi (t_main_v68 a1 (ix2 j kk)) (broadcastInDim S32768x27 ![] bcast_S_S32768x27 t_main_c_31 (ix2 j kk))) (t_main_v68 a1 (ix2 j kk)) = _
  rw [broadcastInDim_scalar_apply]
  exact NonzeroWords.wrap_of_small _ _ hs

theorem v90_eq (a1 : IVec S1x32x32x32 32) (j : Fin 32768) (kk : Fin 27) (hs : 2 * (t_main_v70 a1 (ix2 j kk)).toNat < 2 ^ 32) :
    t_main_v90 a1 (ix2 j kk) = t_main_v70 a1 (ix2 j kk) := by
  unfold t_main_v90 t_main_v87 t_main_v89 t_main_v86 t_main_v88
  show Scalar.select (IntOp.cmpi .slt (t_main_v70 a1 (ix2 j kk)) (broadcastInDim S32768x27 ![] bcast_S_S32768x27 t_main_c_32 (ix2 j kk)))
    (IntOp.addi (t_main_v70 a1 (ix2 j kk)) (broadcastInDim S32768x27 ![] bcast_S_S32768x27 t_main_c_33 (ix2 j kk))) (t_main_v70 a1 (ix2 j kk)) = _
  rw [broadcastInDim_scalar_apply]
  exact NonzeroWords.wrap_of_small _ _ hs

/-- Four `[N, 27, 1]` arrays side by side along the last axis, read at `(j, kk, k)`: array `k` at `(j, kk, 0)`. -/
theorem concat_cols3 {α : Type} (c0 c1 c2 c3 : S32768x27x1.Idx → α) (j : Fin 32768) (kk : Fin 27) :
    concatenate S32768x27x4 2 [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (0 : Fin 4)) = c0 (ix3 j kk (0 : Fin 1))
    ∧ concatenate S32768x27x4 2 [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (1 : Fin 4)) = c1 (ix3 j kk (0 : Fin 1))
    ∧ concatenate S32768x27x4 2 [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (2 : Fin 4)) = c2 (ix3 j kk (0 : Fin 1))
    ∧ concatenate S32768x27x4 2 [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (3 : Fin 4)) = c3 (ix3 j kk (0 : Fin 1)) := by
  refine ⟨?_, ?_, ?_, ?_⟩
  · exact concatenate_apply_piece (t := S32768x27x4) (2 : Fin 3) [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (0 : Fin 4)) 0 (by simp) S32768x27x1 c0 rfl rfl 0 rfl
      (ix3 j kk (0 : Fin 1)) (fun b hb => by match b with | ⟨0, _⟩ => rfl | ⟨1, _⟩ => rfl | ⟨2, _⟩ => exact absurd rfl hb) rfl
  · exact concatenate_apply_piece (t := S32768x27x4) (2 : Fin 3) [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (1 : Fin 4)) 1 (by simp) S32768x27x1 c1 rfl rfl 1 rfl
      (ix3 j kk (0 : Fin 1)) (fun b hb => by match b with | ⟨0, _⟩ => rfl | ⟨1, _⟩ => rfl | ⟨2, _⟩ => exact absurd rfl hb) rfl
  · exact concatenate_apply_piece (t := S32768x27x4) (2 : Fin 3) [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (2 : Fin 4)) 2 (by simp) S32768x27x1 c2 rfl rfl 2 rfl
      (ix3 j kk (0 : Fin 1)) (fun b hb => by match b with | ⟨0, _⟩ => rfl | ⟨1, _⟩ => rfl | ⟨2, _⟩ => exact absurd rfl hb) rfl
  · exact concatenate_apply_piece (t := S32768x27x4) (2 : Fin 3) [⟨S32768x27x1, c0⟩, ⟨S32768x27x1, c1⟩, ⟨S32768x27x1, c2⟩, ⟨S32768x27x1, c3⟩] concatenates_S32768x27x1_S32768x27x1_S32768x27x1_S32768x27x1_S32768x27x4_d2 (ix3 j kk (3 : Fin 4)) 3 (by simp) S32768x27x1 c3 rfl rfl 3 rfl
      (ix3 j kk (0 : Fin 1)) (fun b hb => by match b with | ⟨0, _⟩ => rfl | ⟨1, _⟩ => rfl | ⟨2, _⟩ => exact absurd rfl hb) rfl

/-- An `[N, 27]` array as `[N, 27, 1]`, read at `(j, kk, 0)`. -/
theorem col3_apply {α : Type} (x : S32768x27.Idx → α) (j : Fin 32768) (kk : Fin 27) :
    broadcastInDim S32768x27x1 ![0, 1] bcast_S32768x27_S32768x27x1_0_1 x (ix3 j kk (0 : Fin 1)) = x (ix2 j kk) :=
  broadcastInDim_apply ![0, 1] bcast_S32768x27_S32768x27x1_0_1 x (ix3 j kk (0 : Fin 1)) (ix2 j kk)
    (by intro a; match a with | ⟨0, _⟩ => rfl | ⟨1, _⟩ => rfl)

/-- The gather's index at `(j, kk)` on the three voxel axes, where tap `kk` of row `j` stays inside the volume: the shifted
    coordinates. -/
theorem v95_inside (a1 : IVec S1x32x32x32 32) (j : Fin 32768) (kk : Fin 27) (hin : ∀ a : Fin 3, sIn (t_main_v51 a1 (ix3 j a kk))) :
    t_main_v95 a1 (ix3 j kk (1 : Fin 4)) = t_main_v51 a1 (ix3 j (0 : Fin 3) kk)
    ∧ t_main_v95 a1 (ix3 j kk (2 : Fin 4)) = t_main_v51 a1 (ix3 j (1 : Fin 3) kk)
    ∧ t_main_v95 a1 (ix3 j kk (3 : Fin 4)) = t_main_v51 a1 (ix3 j (2 : Fin 3) kk) := by
  have h := concat_cols3 (t_main_v91 a1) (t_main_v92 a1) (t_main_v93 a1) (t_main_v94 a1) j kk
  have e0 : t_main_v66 a1 (ix2 j kk) = t_main_v51 a1 (ix3 j (0 : Fin 3) kk) := by rw [v66_eq, v62_eq a1 j 0 kk (hin 0)]
  have e1 : t_main_v68 a1 (ix2 j kk) = t_main_v51 a1 (ix3 j (1 : Fin 3) kk) := by rw [v68_eq, v62_eq a1 j 1 kk (hin 1)]
  have e2 : t_main_v70 a1 (ix2 j kk) = t_main_v51 a1 (ix3 j (2 : Fin 3) kk) := by rw [v70_eq, v62_eq a1 j 2 kk (hin 2)]
  unfold t_main_v95
  refine ⟨h.2.1.trans ?_, h.2.2.1.trans ?_, h.2.2.2.trans ?_⟩
  · unfold t_main_v92; rw [col3_apply, v80_eq a1 j kk (by rw [e0]; exact small_of_sIn _ (hin 0)), e0]
  · unfold t_main_v93; rw [col3_apply, v85_eq a1 j kk (by rw [e1]; exact small_of_sIn _ (hin 1)), e1]
  · unfold t_main_v94; rw [col3_apply, v90_eq a1 j kk (by rw [e2]; exact small_of_sIn _ (hin 2)), e2]

end Cert.ReferenceIdeal.RefValue

end
-- ==== Proof.LibPointGather.lean ====
/-
  Taking rows of a five-axis table at points given by four-component indices (jnp's `x[i0, i1, i2, i3]` of an array
  `[A, B, C, D, K]` with index arrays of shape `[E, M]`), read at an index.

  The gather's dimension numbers keep the table's last axis as the one offset axis (the result's third), collapse the
  first four axes and map the four start-index components to them in order, the index vector on the indices' third
  axis, slices `1 × 1 × 1 × 1 × K`.  The result at `(e, m, k)` is the table at `(c0, c1, c2, c3, k)` where `ca` is
  component `a` of the index at `(e, m)`, read as a SIGNED integer and CLAMPED into its axis: `min (toNat) (size - 1)`,
  a negative component reading `0` (`pointGather_apply`).
-/
import Idealize.ShloMosaic.PureOps.Ideal.Laws
import Idealize.ShloMosaic.Lib.ValueIdx

namespace PointGather

open Idealize.ShloMosaic Idealize.ShloMosaic.ValueIdx

variable {α : Type}

/-- The gather dimension numbers of `x[i0, i1, i2, i3]` for `x : [A, B, C, D, K]` and indices `[E, M, 4]`, result `[E, M, K]`. -/
abbrev pointGatherDims (A B C D K E M : Nat)
    (wf : GatherDims.WF ⟨5, ![A, B, C, D, K]⟩ ⟨3, ![E, M, 4]⟩ ⟨3, ![E, M, K]⟩ [2] [0, 1, 2, 3] [] [0, 1, 2, 3] [] 2 ![1, 1, 1, 1, K]) :
    GatherDims ⟨5, ![A, B, C, D, K]⟩ ⟨3, ![E, M, 4]⟩ ⟨3, ![E, M, K]⟩ where
  offsetDims := [2]
  collapsedSliceDims := [0, 1, 2, 3]
  operandBatchingDims := []
  startIndicesBatchingDims := []
  startIndexMap := [0, 1, 2, 3]
  indexVectorDim := 2
  sliceSizes := ![1, 1, 1, 1, K]
  wf := wf

variable {A B C D K E M w : Nat}
  (wf : GatherDims.WF ⟨5, ![A, B, C, D, K]⟩ ⟨3, ![E, M, 4]⟩ ⟨3, ![E, M, K]⟩ [2] [0, 1, 2, 3] [] [0, 1, 2, 3] [] 2 ![1, 1, 1, 1, K])

/-- Operand axis 0: component 0 of the index, read signed and clamped into `[0, A - 1]`. -/
theorem pointGather_coord0 (idx : IVec ⟨3, ![E, M, 4]⟩ w) (e : Fin E) (m : Fin M) (k : Fin K) :
    (pointGatherDims A B C D K E M wf).start (ix3 e m k) idx (0 : Fin 5) + (pointGatherDims A B C D K E M wf).batchCoord (ix3 e m k) (0 : Fin 5) + (pointGatherDims A B C D K E M wf).offCoord (ix3 e m k) (0 : Fin 5)
      = min (idx (ix3 e m (0 : Fin 4))).toInt.toNat (A - 1) := by
  rw [GatherDims.batchCoord_eq_zero _ _ _ List.not_mem_nil,
    GatherDims.offCoord_eq_zero _ _ _ (fun h => ((GatherDims.mem_sKept _ _).mp h).1 (by decide : (0 : Fin 5) ∈ ([0, 1, 2, 3] : List (Fin 5))))]
  simp only [Nat.add_zero]
  unfold GatherDims.start
  rw [dif_pos (show (0 : Fin 5) ∈ (pointGatherDims A B C D K E M wf).startIndexMap from (by decide : (0 : Fin 5) ∈ ([0, 1, 2, 3] : List (Fin 5))))]
  have hsi : (pointGatherDims A B C D K E M wf).siIdx (ix3 e m k) ⟨List.idxOf (0 : Fin 5) (pointGatherDims A B C D K E M wf).startIndexMap,
      List.idxOf_lt_length_iff.2 (by decide : (0 : Fin 5) ∈ ([0, 1, 2, 3] : List (Fin 5)))⟩ = ix3 e m (0 : Fin 4) := by
    funext b; refine Fin.ext ?_
    match b with
    | ⟨0, _⟩ => rfl
    | ⟨1, _⟩ => rfl
    | ⟨2, _⟩ => rfl
  rw [hsi]
  rfl

/-- Operand axis 1: component 1 of the index, read signed and clamped into `[0, B - 1]`. -/
theorem pointGather_coord1 (idx : IVec ⟨3, ![E, M, 4]⟩ w) (e : Fin E) (m : Fin M) (k : Fin K) :
    (pointGatherDims A B C D K E M wf).start (ix3 e m k) idx (1 : Fin 5) + (pointGatherDims A B C D K E M wf).batchCoord (ix3 e m k) (1 : Fin 5) + (pointGatherDims A B C D K E M wf).offCoord (ix3 e m k) (1 : Fin 5)
      = min (idx (ix3 e m (1 : Fin 4))).toInt.toNat (B - 1) := by
  rw [GatherDims.batchCoord_eq_zero _ _ _ List.not_mem_nil,
    GatherDims.offCoord_eq_zero _ _ _ (fun h => ((GatherDims.mem_sKept _ _).mp h).1 (by decide : (1 : Fin 5) ∈ ([0, 1, 2, 3] : List (Fin 5))))]
  simp only [Nat.add_zero]
  unfold GatherDims.start
  rw [dif_pos (show (1 : Fin 5) ∈ (pointGatherDims A B C D K E M wf).startIndexMap from (by decide : (1 : Fin 5) ∈ ([0, 1, 2, 3] : List (Fin 5))))]
  have hsi : (pointGatherDims A B C D K E M wf).siIdx (ix3 e m k) ⟨List.idxOf (1 : Fin 5) (pointGatherDims A B C D K E M wf).startIndexMap,
      List.idxOf_lt_length_iff.2 (by decide : (1 : Fin 5) ∈ ([0, 1, 2, 3] : List (Fin 5)))⟩ = ix3 e m (1 : Fin 4) := by
    funext b; refine Fin.ext ?_
    match b with
    | ⟨0, _⟩ => rfl
    | ⟨1, _⟩ => rfl
    | ⟨2, _⟩ => rfl
  rw [hsi]
  rfl

/-- Operand axis 2: component 2 of the index, read signed and clamped into `[0, C - 1]`. -/
theorem pointGather_coord2 (idx : IVec ⟨3, ![E, M, 4]⟩ w) (e : Fin E) (m : Fin M) (k : Fin K) :
    (pointGatherDims A B C D K E M wf).start (ix3 e m k) idx (2 : Fin 5) + (pointGatherDims A B C D K E M wf).batchCoord (ix3 e m k) (2 : Fin 5) + (pointGatherDims A B C D K E M wf).offCoord (ix3 e m k) (2 : Fin 5)
      = min (idx (ix3 e m (2 : Fin 4))).toInt.toNat (C - 1) := by
  rw [GatherDims.batchCoord_eq_zero _ _ _ List.not_mem_nil,
    GatherDims.offCoord_eq_zero _ _ _ (fun h => ((GatherDims.mem_sKept _ _).mp h).1 (by decide : (2 : Fin 5) ∈ ([0, 1, 2, 3] : List (Fin 5))))]
  simp only [Nat.add_zero]
  unfold GatherDims.start
  rw [dif_pos (show (2 : Fin 5) ∈ (pointGatherDims A B C D K E M wf).startIndexMap from (by decide : (2 : Fin 5) ∈ ([0, 1, 2, 3] : List (Fin 5))))]
  have hsi : (pointGatherDims A B C D K E M wf).siIdx (ix3 e m k) ⟨List.idxOf (2 : Fin 5) (pointGatherDims A B C D K E M wf).startIndexMap,
      List.idxOf_lt_length_iff.2 (by decide : (2 : Fin 5) ∈ ([0, 1, 2, 3] : List (Fin 5)))⟩ = ix3 e m (2 : Fin 4) := by
    funext b; refine Fin.ext ?_
    match b with
    | ⟨0, _⟩ => rfl
    | ⟨1, _⟩ => rfl
    | ⟨2, _⟩ => rfl
  rw [hsi]
  rfl

/-- Operand axis 3: component 3 of the index, read signed and clamped into `[0, D - 1]`. -/
theorem pointGather_coord3 (idx : IVec ⟨3, ![E, M, 4]⟩ w) (e : Fin E) (m : Fin M) (k : Fin K) :
    (pointGatherDims A B C D K E M wf).start (ix3 e m k) idx (3 : Fin 5) + (pointGatherDims A B C D K E M wf).batchCoord (ix3 e m k) (3 : Fin 5) + (pointGatherDims A B C D K E M wf).offCoord (ix3 e m k) (3 : Fin 5)
      = min (idx (ix3 e m (3 : Fin 4))).toInt.toNat (D - 1) := by
  rw [GatherDims.batchCoord_eq_zero _ _ _ List.not_mem_nil,
    GatherDims.offCoord_eq_zero _ _ _ (fun h => ((GatherDims.mem_sKept _ _).mp h).1 (by decide : (3 : Fin 5) ∈ ([0, 1, 2, 3] : List (Fin 5))))]
  simp only [Nat.add_zero]
  unfold GatherDims.start
  rw [dif_pos (show (3 : Fin 5) ∈ (pointGatherDims A B C D K E M wf).startIndexMap from (by decide : (3 : Fin 5) ∈ ([0, 1, 2, 3] : List (Fin 5))))]
  have hsi : (pointGatherDims A B C D K E M wf).siIdx (ix3 e m k) ⟨List.idxOf (3 : Fin 5) (pointGatherDims A B C D K E M wf).startIndexMap,
      List.idxOf_lt_length_iff.2 (by decide : (3 : Fin 5) ∈ ([0, 1, 2, 3] : List (Fin 5)))⟩ = ix3 e m (3 : Fin 4) := by
    funext b; refine Fin.ext ?_
    match b with
    | ⟨0, _⟩ => rfl
    | ⟨1, _⟩ => rfl
    | ⟨2, _⟩ => rfl
  rw [hsi]
  rfl

/-- The table's last axis: the result's column. -/
theorem pointGather_coord4 (idx : IVec ⟨3, ![E, M, 4]⟩ w) (e : Fin E) (m : Fin M) (k : Fin K) :
    (pointGatherDims A B C D K E M wf).start (ix3 e m k) idx (4 : Fin 5) + (pointGatherDims A B C D K E M wf).batchCoord (ix3 e m k) (4 : Fin 5) + (pointGatherDims A B C D K E M wf).offCoord (ix3 e m k) (4 : Fin 5) = k.val := by
  rw [GatherDims.batchCoord_eq_zero _ _ _ List.not_mem_nil]
  have hs : (pointGatherDims A B C D K E M wf).start (ix3 e m k) idx (4 : Fin 5) = 0 := by
    unfold GatherDims.start
    rw [dif_neg (show (4 : Fin 5) ∉ ([0, 1, 2, 3] : List (Fin 5)) by decide)]
  rw [hs]
  simp only [Nat.add_zero, Nat.zero_add]
  unfold GatherDims.offCoord
  rw [dif_pos ((GatherDims.mem_sKept _ _).mpr ⟨show (4 : Fin 5) ∉ ([0, 1, 2, 3] : List (Fin 5)) by decide, List.not_mem_nil⟩)]
  rfl

/-- THE GATHER READ AT `(e, m, k)`: the table at the clamped point the index at `(e, m)` names, column `k`. -/
theorem pointGather_apply (hA : 0 < A) (hB : 0 < B) (hC : 0 < C) (hD : 0 < D)
    (x : (⟨5, ![A, B, C, D, K]⟩ : Shape).Idx → α) (idx : IVec ⟨3, ![E, M, 4]⟩ w) (e : Fin E) (m : Fin M) (k : Fin K) :
    Host.gather (pointGatherDims A B C D K E M wf) x idx (ix3 e m k)
      = x (ix5 (⟨min (idx (ix3 e m (0 : Fin 4))).toInt.toNat (A - 1), by omega⟩ : Fin A)
               (⟨min (idx (ix3 e m (1 : Fin 4))).toInt.toNat (B - 1), by omega⟩ : Fin B)
               (⟨min (idx (ix3 e m (2 : Fin 4))).toInt.toNat (C - 1), by omega⟩ : Fin C)
               (⟨min (idx (ix3 e m (3 : Fin 4))).toInt.toNat (D - 1), by omega⟩ : Fin D) k) := by
  unfold Host.gather
  congr 1
  funext a
  refine Fin.ext ?_
  match a with
  | ⟨0, _⟩ => exact pointGather_coord0 wf idx e m k
  | ⟨1, _⟩ => exact pointGather_coord1 wf idx e m k
  | ⟨2, _⟩ => exact pointGather_coord2 wf idx e m k
  | ⟨3, _⟩ => exact pointGather_coord3 wf idx e m k
  | ⟨4, _⟩ => exact pointGather_coord4 wf idx e m k

end PointGather
-- ==== Proof.RefValTap.lean ====
/-
  The reference's row terms.  For row `j` at voxel `(z, y, x)` (its three coordinates) and tap `kk`: the gathered feature
  at the clipped neighbour, times the in-bounds bit as `1` or `0`, is the tap of the zero-padded volume; flattened to
  `27 · 64` columns and multiplied into the weights it is the convolution at the voxel; plus the bias and times the
  row weight it is the row's term.
-/
import proofs.«150033_g82085414961357_cont_sun_m_845_2_alg».proof.Proof.RefValNeigh
import proofs.«150033_g82085414961357_cont_sun_m_845_2_alg».proof.Proof.LibPointGather
import proofs.«150033_g82085414961357_cont_sun_m_845_2_alg».proof.Proof.LibDotIx2
import proofs.«150033_g82085414961357_cont_sun_m_845_2_alg».proof.Proof.Spec

noncomputable section

open scoped BigOperators

namespace Cert.ReferenceIdeal.RefValue

open Cert.ReferenceIdeal Cert.ReferenceIdeal.Gen Cert.ReferenceIdeal.RefTerm Idealize.ShloMosaic Idealize.ShloMosaic.ValueIdx

/-- Row `j`'s voxel coordinate on axis `a`. -/
def vox (a1 : IVec S1x32x32x32 32) (j : ℕ) (a : Fin 3) : Fin 32 := ⟨coordN a1 j a, coordN_lt a1 j a⟩

/-- Tap `kk` of row `j`'s voxel stays inside the volume exactly when the three shifted coordinates pass the test. -/
theorem inVol_iff (a1 : IVec S1x32x32x32 32) (j : Fin 32768) (kk : Fin 27) :
    ConvSpec.InVol (vox a1 j.val 0) (vox a1 j.val 1) (vox a1 j.val 2) kk ↔ ∀ a : Fin 3, sIn (t_main_v51 a1 (ix3 j a kk)) := by
  have hk := kk.isLt
  unfold ConvSpec.InVol sIn
  simp only [v51_toInt]
  constructor
  · rintro ⟨h0, h1, h2⟩ a
    match a with
    | ⟨0, _⟩ => show 0 ≤ (coordN a1 j.val 0 : ℤ) + ((kk.val / 9 : ℤ) - 1) ∧ (coordN a1 j.val 0 : ℤ) + ((kk.val / 9 : ℤ) - 1) < 32
                have : (vox a1 j.val 0).val = coordN a1 j.val 0 := rfl
                omega
    | ⟨1, _⟩ => show 0 ≤ (coordN a1 j.val 1 : ℤ) + ((kk.val / 3 % 3 : ℤ) - 1) ∧ (coordN a1 j.val 1 : ℤ) + ((kk.val / 3 % 3 : ℤ) - 1) < 32
                have : (vox a1 j.val 1).val = coordN a1 j.val 1 := rfl
                omega
    | ⟨2, _⟩ => show 0 ≤ (coordN a1 j.val 2 : ℤ) + ((kk.val % 3 : ℤ) - 1) ∧ (coordN a1 j.val 2 : ℤ) + ((kk.val % 3 : ℤ) - 1) < 32
                have : (vox a1 j.val 2).val = coordN a1 j.val 2 := rfl
                omega
  · intro h
    have h0 : 0 ≤ (coordN a1 j.val 0 : ℤ) + ((kk.val / 9 : ℤ) - 1) ∧ (coordN a1 j.val 0 : ℤ) + ((kk.val / 9 : ℤ) - 1) < 32 := h 0
    have h1 : 0 ≤ (coordN a1 j.val 1 : ℤ) + ((kk.val / 3 % 3 : ℤ) - 1) ∧ (coordN a1 j.val 1 : ℤ) + ((kk.val / 3 % 3 : ℤ) - 1) < 32 := h 1
    have h2 : 0 ≤ (coordN a1 j.val 2 : ℤ) + ((kk.val % 3 : ℤ) - 1) ∧ (coordN a1 j.val 2 : ℤ) + ((kk.val % 3 : ℤ) - 1) < 32 := h 2
    have e0 : (vox a1 j.val 0).val = coordN a1 j.val 0 := rfl
    have e1 : (vox a1 j.val 1).val = coordN a1 j.val 1 := rfl
    have e2 : (vox a1 j.val 2).val = coordN a1 j.val 2 := rfl
    omega

/-- The gathered feature: the feature array at the point the gather's index names, each component clamped into its axis. -/
theorem v96_eq (a0 : FVec Ideal S1x32x32x32x64 .f32) (a1 : IVec S1x32x32x32 32) (j : Fin 32768) (kk : Fin 27) (c : Fin 64) :
    t_main_v96 a0 a1 (ix3 j kk c)
      = a0 (ix5 (⟨min (t_main_v95 a1 (ix3 j kk (0 : Fin 4))).toInt.toNat (1 - 1), by omega⟩ : Fin 1)
          (⟨min (t_main_v95 a1 (ix3 j kk (1 : Fin 4))).toInt.toNat (32 - 1), by omega⟩ : Fin 32)
          (⟨min (t_main_v95 a1 (ix3 j kk (2 : Fin 4))).toInt.toNat (32 - 1), by omega⟩ : Fin 32)
          (⟨min (t_main_v95 a1 (ix3 j kk (3 : Fin 4))).toInt.toNat (32 - 1), by omega⟩ : Fin 32) c) := by
  unfold t_main_v96
  exact PointGather.pointGather_apply (A := 1) (B := 32) (C := 32) (D := 32) (K := 64) (E := 32768) (M := 27)
    gather_S1x32x32x32x64_S32768x27x4_S32768x27x64_2_0123_n_n_0123_2_111164_wf (by norm_num) (by norm_num) (by norm_num) (by norm_num)
    a0 (t_main_v95 a1) j kk c

/-- The in-bounds bit as a number, spread along the channels. -/
theorem v99_eq (a1 : IVec S1x32x32x32 32) (j : Fin 32768) (kk : Fin 27) (c : Fin 64) :
    t_main_v99 a1 (ix3 j kk c) = (((t_main_v58 a1 (ix2 j kk)).toNat : ℝ) : EReal) := by
  unfold t_main_v99 t_main_v98 t_main_v97
  rw [broadcastInDim_apply ![0, 1, 2] bcast_S32768x27x1_S32768x27x64_0_1_2 _ (ix3 j kk c) (ix3 j kk (0 : Fin 1))
    (by intro b; match b with | ⟨0, _⟩ => rfl | ⟨1, _⟩ => rfl | ⟨2, _⟩ => rfl)]
  show (((broadcastInDim S32768x27x1 ![0, 1] bcast_S32768x27_S32768x27x1_0_1 (t_main_v58 a1) (ix3 j kk (0 : Fin 1))).toNat : ℝ) : EReal) = _
  rw [col3_apply]

/-- THE TAP: the masked gathered feature is the tap of the zero-padded volume at the row's voxel. -/
theorem tap_eq (a0 : FVec Ideal S1x32x32x32x64 .f32) (a1 : IVec S1x32x32x32 32) (j : Fin 32768) (kk : Fin 27) (c : Fin 64) :
    t_main_v100 a0 a1 (ix3 j kk c) = ConvSpec.tap a0 (vox a1 j.val 0) (vox a1 j.val 1) (vox a1 j.val 2) kk c := by
  unfold t_main_v100
  show t_main_v96 a0 a1 (ix3 j kk c) * t_main_v99 a1 (ix3 j kk c) = _
  rw [v99_eq, v58_eq]
  unfold ConvSpec.tap
  by_cases hin : ∀ a : Fin 3, sIn (t_main_v51 a1 (ix3 j a kk))
  · have hvol := (inVol_iff a1 j kk).2 hin
    have e := v95_inside a1 j kk hin
    have hk := kk.isLt
    rw [if_pos hin, dif_pos hvol, v96_eq]
    have one : (((1#1 : BitVec 1).toNat : ℝ) : EReal) = 1 := by simp
    rw [one, mul_one]
    refine congrArg a0 (funext fun a => Fin.ext ?_)
    have s0 := hin 0
    have s1 := hin 1
    have s2 := hin 2
    unfold sIn at s0 s1 s2
    rw [v51_toInt] at s0 s1 s2
    match a with
    | ⟨0, _⟩ => show min (t_main_v95 a1 (ix3 j kk (0 : Fin 4))).toInt.toNat (1 - 1) = 0; omega
    | ⟨1, _⟩ =>
      show min (t_main_v95 a1 (ix3 j kk (1 : Fin 4))).toInt.toNat (32 - 1) = (vox a1 j.val 0).val + kk.val / 9 - 1
      rw [e.1, v51_toInt]
      have : (vox a1 j.val 0).val = coordN a1 j.val 0 := rfl
      have ho : offInt 0 kk = (kk.val / 9 : ℤ) - 1 := rfl
      rw [ho] at s0 ⊢
      omega
    | ⟨2, _⟩ =>
      show min (t_main_v95 a1 (ix3 j kk (2 : Fin 4))).toInt.toNat (32 - 1) = (vox a1 j.val 1).val + kk.val / 3 % 3 - 1
      rw [e.2.1, v51_toInt]
      have : (vox a1 j.val 1).val = coordN a1 j.val 1 := rfl
      have ho : offInt 1 kk = (kk.val / 3 % 3 : ℤ) - 1 := rfl
      rw [ho] at s1 ⊢
      omega
    | ⟨3, _⟩ =>
      show min (t_main_v95 a1 (ix3 j kk (3 : Fin 4))).toInt.toNat (32 - 1) = (vox a1 j.val 2).val + kk.val % 3 - 1
      rw [e.2.2, v51_toInt]
      have : (vox a1 j.val 2).val = coordN a1 j.val 2 := rfl
      have ho : offInt 2 kk = (kk.val % 3 : ℤ) - 1 := rfl
      rw [ho] at s2 ⊢
      omega
    | ⟨4, _⟩ => rfl
  · rw [if_neg hin, dif_neg (fun h => hin ((inVol_iff a1 j kk).1 h))]
    simp

/-! ## The product with the weights -/

theorem plainRef : PlainDot dot_S32768x1728_S1728x64_S32768x64_1_0_0_1_n_n where
  rank := rfl
  size := rfl
  l0 := fun j q => rfl
  l1 := fun j q => dot_S32768x1728_S1728x64_S32768x64_1_0_0_1_n_n.lhsIdx_val_of_single (cl := 1) rfl j q
  r0 := fun j q => dot_S32768x1728_S1728x64_S32768x64_1_0_0_1_n_n.rhsIdx_val_of_single (cr := 0) rfl j q
  r1 := fun j q => rfl

/-- The masked gathered features flattened to `27 · 64` columns: column `64 kk + c` is tap `kk`, channel `c`. -/
theorem v101_eq (a0 : FVec Ideal S1x32x32x32x64 .f32) (a1 : IVec S1x32x32x32 32) (j : Fin 32768) (kk : Fin 27) (c : Fin 64) :
    t_main_v101 a0 a1 (ix2 j (⟨kk.val * 64 + c.val, by omega⟩ : Fin 1728)) = t_main_v100 a0 a1 (ix3 j kk c) := by
  unfold t_main_v101
  exact shapeCast_apply _ shapeCasts_S32768x27x64_S32768x1728 _ (ix3 j kk c)
    (by rw [Shape.rowMajor_val_three, Shape.rowMajor_val_two]
        show (j.val * 27 + kk.val) * 64 + c.val = j.val * 1728 + (kk.val * 64 + c.val)
        omega)

/-- THE CONVOLUTION at the row's voxel. -/
theorem v102_eq (a0 : FVec Ideal S1x32x32x32x64 .f32) (a1 : IVec S1x32x32x32 32) (a2 : FVec Ideal S1728x64 .f32) (j : Fin 32768) (f : Fin 64) :
    t_main_v102 a0 a1 a2 (ix2 j f) = ConvSpec.conv a0 a2 (vox a1 j.val 0) (vox a1 j.val 1) (vox a1 j.val 2) f := by
  unfold t_main_v102 ConvSpec.conv
  show FloatOps.dotGeneral dot_S32768x1728_S1728x64_S32768x64_1_0_0_1_n_n none .single (t_main_v101 a0 a1) a2 (ix2 j f) = _
  rw [dotGeneral_ix2_any plainRef none .single (t_main_v101 a0 a1) a2 j f, ← Fintype.sum_prod_type']
  refine (Fintype.sum_equiv (finProdFinEquiv (m := 27) (n := 64)) _ _ fun x => ?_).symm
  obtain ⟨kk, c⟩ := x
  have he : (finProdFinEquiv (m := 27) (n := 64) (kk, c) : Fin 1728) = (⟨kk.val * 64 + c.val, by omega⟩ : Fin 1728) :=
    Fin.ext (by rw [finProdFinEquiv_apply_val]; show c.val + 64 * kk.val = kk.val * 64 + c.val; omega)
  show ConvSpec.tap a0 _ _ _ kk c * a2 (ix2 (⟨kk.val * 64 + c.val, by omega⟩ : Fin 1728) f) = _
  rw [he, v101_eq, tap_eq]

/-- THE ROW TERM: the convolution at the row's voxel plus the bias, times the row's weight. -/
theorem v108_eq (a0 : FVec Ideal S1x32x32x32x64 .f32) (a1 : IVec S1x32x32x32 32) (a2 : FVec Ideal S1728x64 .f32) (a3 : FVec Ideal S64 .f32)
    (j : Fin 32768) (f : Fin 64) :
    t_main_v108 a0 a1 a2 a3 (ix2 j f)
      = (ConvSpec.conv a0 a2 (vox a1 j.val 0) (vox a1 j.val 1) (vox a1 j.val 2) f + a3 (ix1 f)) * t_main_v43 a1 (ix1 j) := by
  unfold t_main_v108 t_main_v105
  show (t_main_v102 a0 a1 a2 (ix2 j f) + t_main_v104 a3 (ix2 j f)) * t_main_v107 a1 (ix2 j f) = _
  have h104 : t_main_v104 a3 (ix2 j f) = a3 (ix1 f) := by
    unfold t_main_v104 t_main_v103
    rw [broadcastInDim_apply ![0, 1] bcast_S1x64_S32768x64_0_1 _ (ix2 j f) (ix2 (0 : Fin 1) f)
        (by intro b; match b with | ⟨0, _⟩ => rfl | ⟨1, _⟩ => rfl),
      broadcastInDim_apply ![1] bcast_S64_S1x64_1 a3 (ix2 (0 : Fin 1) f) (ix1 f) (by intro b; match b with | ⟨0, _⟩ => rfl)]
  have h107 : t_main_v107 a1 (ix2 j f) = t_main_v43 a1 (ix1 j) := by
    unfold t_main_v107 t_main_v106
    rw [broadcastInDim_apply ![0, 1] bcast_S32768x1_S32768x64_0_1 _ (ix2 j f) (ix2 j (0 : Fin 1))
        (by intro b; match b with | ⟨0, _⟩ => rfl | ⟨1, _⟩ => rfl), col_apply]
  rw [v102_eq, h104, h107]

end Cert.ReferenceIdeal.RefValue

end
-- ==== Proof.LibRowListSum.lean ====
/-
  Summing the rows of a `nonzero` row list back onto their positions gives the dense masked array.

  A computation over the set positions of a mask of length `n` is often written through the padded row list of
  `jnp.nonzero(mask, size = n)`: row `j`, for `j` below the number `nv` of set positions, sits at the `j`-th set
  position `flat j` and carries a term `F (flat j)`; the remaining rows `nv ≤ j < n` are padding, sit wherever the
  fill value puts them, and carry the term `0` (a row weight `0`).  Accumulating every row's term onto its position
  (a scatter-add) then leaves, at a position `v < n`, the term `F v` if the mask is set at `v` and `0` if it is not:
  each set position is listed exactly once among the first `nv` rows (LibPrefixEnum: `flat j = v ↔ j = count p v`),
  an unset position is never listed there, and padding rows add zero wherever they land.
-/
import proofs.«150033_g82085414961357_cont_sun_m_845_2_alg».proof.Proof.LibPrefixEnum
import Mathlib.Algebra.BigOperators.Fin

namespace RowListSum

open Finset

variable {M : Type*} [AddCommMonoid M] (p : ℕ → Prop) [DecidablePred p]

/-- The rows that land on `v` sum to `F v` where the mask is set and to `0` where it is not. -/
theorem sum_rows (n : ℕ) (F term : ℕ → M) (pos : ℕ → ℕ)
    (h1 : ∀ j, j < Nat.count p n → pos j = PrefixEnum.flat p n j ∧ term j = F (PrefixEnum.flat p n j))
    (h2 : ∀ j, Nat.count p n ≤ j → term j = 0) (v : ℕ) (hv : v < n) :
    ∑ j ∈ (range n).filter (fun j => pos j = v), term j = if p v then F v else 0 := by
  rw [Finset.sum_filter]
  split_ifs with hp
  · have hc : Nat.count p v < Nat.count p n := PrefixEnum.count_lt_of_mem p hv hp
    have hcn : Nat.count p v < n := lt_of_lt_of_le hc (Nat.count_le p)
    rw [Finset.sum_eq_single (Nat.count p v)]
    · rw [if_pos ((h1 _ hc).1.trans (PrefixEnum.flat_count p hv hp)), (h1 _ hc).2, PrefixEnum.flat_count p hv hp]
    · intro j _ hne
      by_cases hjn : j < Nat.count p n
      · rw [if_neg]
        intro he
        apply hne
        rw [(h1 j hjn).1] at he
        exact (PrefixEnum.flat_eq_iff p hv hp).1 he
      · rw [h2 j (by omega)]
        simp
    · intro hnot
      exact absurd (mem_range.2 hcn) hnot
  · apply Finset.sum_eq_zero
    intro j _
    by_cases hjn : j < Nat.count p n
    · rw [if_neg]
      intro he
      rw [(h1 j hjn).1] at he
      exact hp (he ▸ PrefixEnum.flat_mem p hjn)
    · rw [h2 j (by omega)]
      simp

/-- The same with the rows indexed by `Fin n`, as a filtered sum over all of them. -/
theorem sum_rows_fin (n : ℕ) (F term : ℕ → M) (pos : ℕ → ℕ)
    (h1 : ∀ j, j < Nat.count p n → pos j = PrefixEnum.flat p n j ∧ term j = F (PrefixEnum.flat p n j))
    (h2 : ∀ j, Nat.count p n ≤ j → term j = 0) (v : ℕ) (hv : v < n) :
    ∑ e ∈ (univ : Finset (Fin n)).filter (fun e => pos e.val = v), term e.val = if p v then F v else 0 := by
  rw [Finset.sum_filter, Fin.sum_univ_eq_sum_range (fun j => if pos j = v then term j else 0) n, ← Finset.sum_filter]
  exact sum_rows p n F term pos h1 h2 v hv

end RowListSum
-- ==== Proof.RefValFinal.lean ====
/-
  The reference's result.  The final accumulation adds row `j`'s term at the row's voxel; row `j` below the number of
  set positions sits at the `j`-th set position with weight `1`, the remaining rows sit at the origin with weight `0`.
  So at voxel `(d, h, x)`, flat position `q = 1024 d + 32 h + x`, the result is the convolution plus bias where the index
  array is non-zero at the voxel and `0` where it is not: the dense masked convolution.
-/
import proofs.«150033_g82085414961357_cont_sun_m_845_2_alg».proof.Proof.RefValTap
import proofs.«150033_g82085414961357_cont_sun_m_845_2_alg».proof.Proof.LibRowListSum
import proofs.«150033_g82085414961357_cont_sun_m_845_2_alg».proof.Proof.LibPointScatter

noncomputable section

open scoped BigOperators

namespace Cert.ReferenceIdeal.RefValue

open Cert.ReferenceIdeal Cert.ReferenceIdeal.Gen Cert.ReferenceIdeal.RefTerm Idealize.ShloMosaic Idealize.ShloMosaic.ValueIdx

theorem rowPos_lt (a1 : IVec S1x32x32x32 32) (j : ℕ) : rowPos a1 j < 32768 := by
  unfold rowPos
  split_ifs with h
  · norm_num
  · exact PrefixEnum.flat_lt (P a1) (by omega)

/-- A point whose four index components read (signed) `z0 … z3`, each inside its axis, lands there. -/
theorem pointDst_of_vals {E w : ℕ} (A B C D : ℕ) (idx : IVec ⟨2, ![E, 4]⟩ w) (e : Fin E) (z0 z1 z2 z3 : ℕ)
    (h0 : (idx (ix2 e (0 : Fin 4))).toInt = (z0 : ℤ)) (h1 : (idx (ix2 e (1 : Fin 4))).toInt = (z1 : ℤ))
    (h2 : (idx (ix2 e (2 : Fin 4))).toInt = (z2 : ℤ)) (h3 : (idx (ix2 e (3 : Fin 4))).toInt = (z3 : ℤ))
    (b0 : z0 < A) (b1 : z1 < B) (b2 : z2 < C) (b3 : z3 < D) :
    PointScatter.pointDst A B C D idx e = some (⟨z0, b0⟩, ⟨z1, b1⟩, ⟨z2, b2⟩, ⟨z3, b3⟩) := by
  unfold PointScatter.pointDst
  have hc : (0 ≤ (idx (ix2 e (0 : Fin 4))).toInt ∧ (idx (ix2 e (0 : Fin 4))).toInt < A)
      ∧ (0 ≤ (idx (ix2 e (1 : Fin 4))).toInt ∧ (idx (ix2 e (1 : Fin 4))).toInt < B)
      ∧ (0 ≤ (idx (ix2 e (2 : Fin 4))).toInt ∧ (idx (ix2 e (2 : Fin 4))).toInt < C)
      ∧ (0 ≤ (idx (ix2 e (3 : Fin 4))).toInt ∧ (idx (ix2 e (3 : Fin 4))).toInt < D) := by
    rw [h0, h1, h2, h3]; omega
  rw [dif_pos hc]
  simp only [Option.some.injEq, Prod.mk.injEq, Fin.mk.injEq, h0, h1, h2, h3, Int.toNat_natCast, and_self]

theorem vox0 (a1 : IVec S1x32x32x32 32) (j : ℕ) : (vox a1 j 0).val = rowPos a1 j / 1024 % 32 := rfl
theorem vox1 (a1 : IVec S1x32x32x32 32) (j : ℕ) : (vox a1 j 1).val = rowPos a1 j / 32 % 32 := rfl
theorem vox2 (a1 : IVec S1x32x32x32 32) (j : ℕ) : (vox a1 j 2).val = rowPos a1 j % 32 := rfl

/-- Where row `e`'s term is added: at the row's voxel. -/
theorem dst_eq (a1 : IVec S1x32x32x32 32) (e : Fin 32768) :
    PointScatter.pointDst 1 32 32 32 (t_main_v142 a1) e = some ((0 : Fin 1), vox a1 e.val 0, vox a1 e.val 1, vox a1 e.val 2) := by
  have c := v142_cols a1 e
  have i0 : (t_main_v142 a1 (ix2 e (0 : Fin 4))).toInt = ((0 : ℕ) : ℤ) := by
    rw [c.1, toInt_small _ (v27_small a1 e), rowB_toNat]
  have i1 : (t_main_v142 a1 (ix2 e (1 : Fin 4))).toInt = (coordN a1 e.val 0 : ℤ) := by
    rw [c.2.1, toInt_small _ (v28_small a1 e), rowZ_toNat]; rfl
  have i2 : (t_main_v142 a1 (ix2 e (2 : Fin 4))).toInt = (coordN a1 e.val 1 : ℤ) := by
    rw [c.2.2.1, toInt_small _ (v29_small a1 e), rowY_toNat]; rfl
  have i3 : (t_main_v142 a1 (ix2 e (3 : Fin 4))).toInt = (coordN a1 e.val 2 : ℤ) := by
    rw [c.2.2.2, toInt_small _ (v30_small a1 e), rowX_toNat]; rfl
  exact pointDst_of_vals 1 32 32 32 (t_main_v142 a1) e 0 (coordN a1 e.val 0) (coordN a1 e.val 1) (coordN a1 e.val 2) i0 i1 i2 i3
    (by norm_num) (coordN_lt a1 e.val 0) (coordN_lt a1 e.val 1) (coordN_lt a1 e.val 2)

/-- The convolution plus bias at flat position `q`, output channel `f`. -/
def atPos (a0 : FVec Ideal S1x32x32x32x64 .f32) (a2 : FVec Ideal S1728x64 .f32) (a3 : FVec Ideal S64 .f32) (f : Fin 64) (q : ℕ) : EReal :=
  ConvSpec.conv a0 a2 (⟨q / 1024 % 32, by omega⟩ : Fin 32) (⟨q / 32 % 32, by omega⟩ : Fin 32) (⟨q % 32, by omega⟩ : Fin 32) f + a3 (ix1 f)

/-- The row's voxel in terms of its position. -/
theorem vox_eq0 (a1 : IVec S1x32x32x32 32) (j : ℕ) : vox a1 j 0 = (⟨rowPos a1 j / 1024 % 32, by omega⟩ : Fin 32) := Fin.ext (vox0 a1 j)
theorem vox_eq1 (a1 : IVec S1x32x32x32 32) (j : ℕ) : vox a1 j 1 = (⟨rowPos a1 j / 32 % 32, by omega⟩ : Fin 32) := Fin.ext (vox1 a1 j)
theorem vox_eq2 (a1 : IVec S1x32x32x32 32) (j : ℕ) : vox a1 j 2 = (⟨rowPos a1 j % 32, by omega⟩ : Fin 32) := Fin.ext (vox2 a1 j)

/-- A row's term in terms of its position: the convolution plus bias there, times the row's weight. -/
theorem rowTerm_eq (a0 : FVec Ideal S1x32x32x32x64 .f32) (a1 : IVec S1x32x32x32 32) (a2 : FVec Ideal S1728x64 .f32) (a3 : FVec Ideal S64 .f32)
    (j : Fin 32768) (f : Fin 64) :
    t_main_v108 a0 a1 a2 a3 (ix2 j f) = atPos a0 a2 a3 f (rowPos a1 j.val) * t_main_v43 a1 (ix1 j) := by
  rw [v108_eq, vox_eq0, vox_eq1, vox_eq2]
  unfold atPos
  rfl

/-- The rows as a sequence over the naturals. -/
def rowSeq (a0 : FVec Ideal S1x32x32x32x64 .f32) (a1 : IVec S1x32x32x32 32) (a2 : FVec Ideal S1728x64 .f32) (a3 : FVec Ideal S64 .f32) (f : Fin 64)
    (k : ℕ) : EReal :=
  if hk : k < 32768 then t_main_v108 a0 a1 a2 a3 (ix2 (⟨k, hk⟩ : Fin 32768) f) else 0

/-- The rows landing on flat position `q` sum to the convolution plus bias there where the mask is set, and to zero
    where it is not. -/
theorem rows_sum (a0 : FVec Ideal S1x32x32x32x64 .f32) (a1 : IVec S1x32x32x32 32) (a2 : FVec Ideal S1728x64 .f32) (a3 : FVec Ideal S64 .f32)
    (f : Fin 64) (q : ℕ) (hq : q < 32768) :
    ∑ e ∈ (Finset.univ : Finset (Fin 32768)).filter (fun e => rowPos a1 e.val = q), rowSeq a0 a1 a2 a3 f e.val
      = if P a1 q then atPos a0 a2 a3 f q else 0 := by
  refine RowListSum.sum_rows_fin (P a1) 32768 (atPos a0 a2 a3 f) (rowSeq a0 a1 a2 a3 f) (rowPos a1) ?_ ?_ q hq
  · intro j hj
    have hj' : j < 32768 := lt_of_lt_of_le hj (nv_le a1)
    have hrp : rowPos a1 j = PrefixEnum.flat (P a1) 32768 j := by unfold rowPos; rw [if_neg (by omega)]
    refine ⟨hrp, ?_⟩
    unfold rowSeq
    rw [dif_pos hj', rowTerm_eq, v43_eq, if_pos (show (⟨j, hj'⟩ : Fin 32768).val < Nat.count (P a1) 32768 from hj), mul_one]
    exact congrArg (atPos a0 a2 a3 f) hrp
  · intro j hj
    unfold rowSeq
    by_cases hk : j < 32768
    · rw [dif_pos hk, rowTerm_eq, v43_eq, if_neg (show ¬ (⟨j, hk⟩ : Fin 32768).val < Nat.count (P a1) 32768 from Nat.not_lt.2 hj), mul_zero]
    · rw [dif_neg hk]

/-- The accumulation as the exact sum it is at the extended reals, over the point-scatter dimension numbers. -/
theorem v143_fun (a0 : FVec Ideal S1x32x32x32x64 .f32) (a1 : IVec S1x32x32x32 32) (a2 : FVec Ideal S1728x64 .f32) (a3 : FVec Ideal S64 .f32) :
    t_main_v143 a0 a1 a2 a3
      = Ideal.hostScatterAdd (PointScatter.pointScatterDims 1 32 32 32 64 32768 scatter_S1x32x32x32x64_S32768x4_S32768x64_1_0123_0123_1_wf)
          t_main_v109 (t_main_v142 a1) (t_main_v108 a0 a1 a2 a3) := rfl

/-- The accumulation read at a voxel: the rows that sit at its flat position, summed. -/
theorem scatter_read (a0 : FVec Ideal S1x32x32x32x64 .f32) (a1 : IVec S1x32x32x32 32) (a2 : FVec Ideal S1728x64 .f32) (a3 : FVec Ideal S64 .f32)
    (a : Fin 1) (d h x : Fin 32) (f : Fin 64) :
    refOut a0 a1 a2 a3 (ix5 a d h x f)
      = ∑ e ∈ (Finset.univ : Finset (Fin 32768)).filter (fun e => rowPos a1 e.val = d.val * 1024 + h.val * 32 + x.val), rowSeq a0 a1 a2 a3 f e.val := by
  have hd := d.isLt
  have hh := h.isLt
  have hx := x.isLt
  unfold refOut
  rw [v143_fun, PointScatter.hostScatterAdd_point_apply]
  have h109 : t_main_v109 (ix5 a d h x f) = 0 := by
    unfold t_main_v109 t_main_cst
    rw [broadcastInDim_scalar_apply]
    exact Ideal.ofBits_zero_f32
  rw [h109, zero_add]
  have hfilter : ∀ e : Fin 32768, (PointScatter.pointDst 1 32 32 32 (t_main_v142 a1) e = some (a, d, h, x))
      ↔ rowPos a1 e.val = d.val * 1024 + h.val * 32 + x.val := by
    intro e
    have hr := rowPos_lt a1 e.val
    rw [dst_eq]
    simp only [Option.some.injEq, Prod.mk.injEq]
    constructor
    · rintro ⟨_, e0, e1, e2⟩
      have f0 : rowPos a1 e.val / 1024 % 32 = d.val := (vox0 a1 e.val).symm.trans (congrArg Fin.val e0)
      have f1 : rowPos a1 e.val / 32 % 32 = h.val := (vox1 a1 e.val).symm.trans (congrArg Fin.val e1)
      have f2 : rowPos a1 e.val % 32 = x.val := (vox2 a1 e.val).symm.trans (congrArg Fin.val e2)
      omega
    · intro hq
      refine ⟨Subsingleton.elim _ _, Fin.ext ?_, Fin.ext ?_, Fin.ext ?_⟩
      · rw [vox0]; omega
      · rw [vox1]; omega
      · rw [vox2]; omega
  refine Finset.sum_congr (Finset.filter_congr fun e _ => hfilter e) fun e _ => ?_
  unfold rowSeq
  rw [dif_pos e.isLt]

/-- THE RESULT: the reference computes the dense masked convolution. -/
theorem refOut_eq (a0 : FVec Ideal S1x32x32x32x64 .f32) (a1 : IVec S1x32x32x32 32) (a2 : FVec Ideal S1728x64 .f32) (a3 : FVec Ideal S64 .f32) :
    refOut a0 a1 a2 a3 = ConvSpec.G a0 a1 a2 a3 := by
  funext i
  obtain ⟨a, d, h, x, f, rfl⟩ : ∃ (a : Fin 1) (d h x : Fin 32) (f : Fin 64), i = ix5 a d h x f := ⟨i 0, i 1, i 2, i 3, i 4, eq_ix5 i⟩
  have hd := d.isLt
  have hh := h.isLt
  have hx := x.isLt
  rw [ConvSpec.G_ix5, scatter_read, rows_sum a0 a1 a2 a3 f _ (by omega)]
  have hq0 : (d.val * 1024 + h.val * 32 + x.val) / 1024 % 32 = d.val := by omega
  have hq1 : (d.val * 1024 + h.val * 32 + x.val) / 32 % 32 = h.val := by omega
  have hq2 : (d.val * 1024 + h.val * 32 + x.val) % 32 = x.val := by omega
  have e0 : (⟨(d.val * 1024 + h.val * 32 + x.val) / 1024 % 32, by omega⟩ : Fin 32) = d := Fin.ext hq0
  have e1 : (⟨(d.val * 1024 + h.val * 32 + x.val) / 32 % 32, by omega⟩ : Fin 32) = h := Fin.ext hq1
  have e2 : (⟨(d.val * 1024 + h.val * 32 + x.val) % 32, by omega⟩ : Fin 32) = x := Fin.ext hq2
  have hP : P a1 (d.val * 1024 + h.val * 32 + x.val) ↔ a1 (ix4 (0 : Fin 1) d h x) ≠ 0 := by
    unfold P
    rw [e0, e1, e2]
  have hF : atPos a0 a2 a3 f (d.val * 1024 + h.val * 32 + x.val) = ConvSpec.conv a0 a2 d h x f + a3 (ix1 f) := by
    unfold atPos
    rw [e0, e1, e2]
  unfold ConvSpec.Gat
  by_cases hp : P a1 (d.val * 1024 + h.val * 32 + x.val)
  · rw [if_pos hp, if_pos (hP.1 hp), hF, mul_one]
  · rw [if_neg hp, if_neg (fun hh' => hp (hP.2 hh')), mul_zero]

end Cert.ReferenceIdeal.RefValue

end
-- ==== Proof.lean ====
/-
  The certificate: a dense 3 × 3 × 3 convolution over a 32³ volume (64 → 64 channels) with bias, masked by the voxels at
  which an index array is non-zero, computed two ways, is one function of the four argument arrays at the extended reals.

  The kernel linearises the zero-padded volume so that each of the 27 taps is a constant row offset, accumulates 27
  shifted [2048, 64] × [64, 64] products per grid point, adds the bias and multiplies by the mask; the host pads and
  reshapes before it and pads, reshapes and slices after it.  Its run ends with the result array at `ConvSpec.G` of the
  arguments (Proof/KerValue.lean).

  The reference lists the set voxels (two prefix sums around a histogram: the `j`-th set position, and the origin with
  weight zero for the padding rows), gathers each row's 27 clipped neighbours and zeroes the out-of-volume ones,
  multiplies the `27 · 64` columns into the weights, adds the bias, weighs the row, and accumulates every row onto its
  voxel.  Its run ends with the result array at its operations' composed term (Proof/RefRun.lean), and that term is
  `ConvSpec.G` of the arguments (Proof/RefValFinal.lean): each set voxel is listed exactly once, an unset voxel never,
  and the padding rows add zero.

  The three frames: the two kernel programs' are the generated frame certificates; the reference's is its run with the
  result forgotten.  The idealised kernel is the kernel's own text read at the extended reals (no rewrite to restate).
  No finiteness of the inputs is used: every step is an exact identity of the extended reals.
-/
import proofs.«150033_g82085414961357_cont_sun_m_845_2_alg».proof.Defs
import proofs.«150033_g82085414961357_cont_sun_m_845_2_alg».proof.Proof.Gen.Kernel
import proofs.«150033_g82085414961357_cont_sun_m_845_2_alg».proof.Proof.Gen.Kernel.Skeleton
import proofs.«150033_g82085414961357_cont_sun_m_845_2_alg».proof.Proof.Gen.Kernel.Launch
import proofs.«150033_g82085414961357_cont_sun_m_845_2_alg».proof.Proof.Gen.Kernel.Points
import proofs.«150033_g82085414961357_cont_sun_m_845_2_alg».proof.Proof.Gen.Kernel.Frame
import proofs.«150033_g82085414961357_cont_sun_m_845_2_alg».proof.Proof.Gen.KernelIdeal
import proofs.«150033_g82085414961357_cont_sun_m_845_2_alg».proof.Proof.Gen.KernelIdeal.Skeleton
import proofs.«150033_g82085414961357_cont_sun_m_845_2_alg».proof.Proof.Gen.KernelIdeal.Launch
import proofs.«150033_g82085414961357_cont_sun_m_845_2_alg».proof.Proof.Gen.KernelIdeal.Points
import proofs.«150033_g82085414961357_cont_sun_m_845_2_alg».proof.Proof.Gen.KernelIdeal.Frame
import proofs.«150033_g82085414961357_cont_sun_m_845_2_alg».proof.Proof.Gen.ReferenceIdeal
import proofs.«150033_g82085414961357_cont_sun_m_845_2_alg».proof.Proof.Gen.Pre_finite_inputs
import proofs.«150033_g82085414961357_cont_sun_m_845_2_alg».proof.Proof.KerValue
import proofs.«150033_g82085414961357_cont_sun_m_845_2_alg».proof.Proof.RefRun
import proofs.«150033_g82085414961357_cont_sun_m_845_2_alg».proof.Proof.RefValFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments as they were: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- Both programs end with their result at the dense masked convolution of the (agreeing) arguments. -/
theorem algebraic : Cert.algebraic_KernelIdeal_ReferenceIdeal := by
  intro m ρ m' ρ' _ hagree
  refine ⟨fun c => ConvSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KerValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refOut_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
